-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 512]⟩ ⟨2, ![16384, 512]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x512 : Shape := ⟨2, ![512, 512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel

variable [Facts]

def fn {F : FTy → Type} [FloatOps F] (main_arg0 : FVec F S512x512 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  main_v3
-- ==== Pre_finite_inputs_ReferenceIdeal.lean ====
abbrev S16384x512 : Shape := ⟨2, ![16384, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel

variable [Facts]

def fn {F : FTy → Type} [FloatOps F] (main_arg0 : FVec F S16384x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  main_v3
-- ==== Kernel.lean ====
abbrev S512x512 : Shape := ⟨2, ![512, 512]⟩
abbrev S31x16x512 : Shape := ⟨3, ![31, 16, 512]⟩
abbrev S16x512 : Shape := ⟨2, ![16, 512]⟩
abbrev S31 : Shape := ⟨1, ![31]⟩
abbrev S_ : Shape := ⟨0, ![]⟩
abbrev S1 : Shape := ⟨1, ![1]⟩
abbrev S1x16x512 : Shape := ⟨3, ![1, 16, 512]⟩

abbrev nBuf : Space → Nat
  | .hbm => 2
  | .vmem => 5
  | .smem => 0
  | _ => 0

abbrev bufTy : (tb : Table) → Fin (tcTables nBuf tb) → BufTy
  | .hbm, ⟨0, _⟩ => ⟨S512x512, .f32⟩
  | .hbm, ⟨1, _⟩ => ⟨S512x512, .bf16⟩
  | .local _ .vmem, ⟨0, _⟩ => ⟨S512x512, .f32⟩
  | .local _ .vmem, ⟨1, _⟩ => ⟨S512x512, .bf16⟩
  | .local _ .vmem, ⟨2, _⟩ => ⟨S512x512, .bf16⟩
  | .local _ .vmem, ⟨3, _⟩ => ⟨S31x16x512, .bf16⟩
  | .local _ .vmem, ⟨4, _⟩ => ⟨S16x512, .bf16⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 126 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | ⟨125, _⟩ => true
  | _ => false

abbrev sig : RefSig :=
  { ofTc nBuf bufTy 1 126 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_off1 (d0 : Dev nD) (c1_i32_128 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v134 : BitVec 32 := Scalar.addi v2 c1_i32_128
  let c32_i32_129 : BitVec 32 := 32#32
  let v135 : BitVec 32 := Scalar.remsi v134 c32_i32_129
  let c16_i32_130 : BitVec 32 := 16#32
  let v136 : BitVec 32 := Scalar.muli v135 c16_i32_130
  let c0_i32_138 : BitVec 32 := 0#32
  ![v136.toNat, 0]
def k0_dev32 (d0 : Dev nD) : Nat :=
  let c0_i32_135 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_128 : BitVec 32 := 1#32
  let v134 : BitVec 32 := Scalar.addi v2 c1_i32_128
  let c32_i32_129 : BitVec 32 := 32#32
  let v135 : BitVec 32 := Scalar.remsi v134 c32_i32_129
  let c1_i32_134 : BitVec 32 := 1#32
  let v137 : BitVec 32 := Scalar.muli v135 c1_i32_134
  let v138 : BitVec 32 := Scalar.addi c0_i32_135 v137
  v138.toNat
def k0_dev33 (d0 : Dev nD) : Nat :=
  let c0_i32_146 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_139 : BitVec 32 := 2#32
  let v146 : BitVec 32 := Scalar.addi v2 c2_i32_139
  let c32_i32_140 : BitVec 32 := 32#32
  let v147 : BitVec 32 := Scalar.remsi v146 c32_i32_140
  let c1_i32_145 : BitVec 32 := 1#32
  let v149 : BitVec 32 := Scalar.muli v147 c1_i32_145
  let v150 : BitVec 32 := Scalar.addi c0_i32_146 v149
  v150.toNat
def k0_dev34 (d0 : Dev nD) : Nat :=
  let c0_i32_157 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_150 : BitVec 32 := 3#32
  let v158 : BitVec 32 := Scalar.addi v2 c3_i32_150
  let c32_i32_151 : BitVec 32 := 32#32
  let v159 : BitVec 32 := Scalar.remsi v158 c32_i32_151
  let c1_i32_156 : BitVec 32 := 1#32
  let v161 : BitVec 32 := Scalar.muli v159 c1_i32_156
  let v162 : BitVec 32 := Scalar.addi c0_i32_157 v161
  v162.toNat
def k0_dev35 (d0 : Dev nD) : Nat :=
  let c0_i32_168 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_161 : BitVec 32 := 4#32
  let v170 : BitVec 32 := Scalar.addi v2 c4_i32_161
  let c32_i32_162 : BitVec 32 := 32#32
  let v171 : BitVec 32 := Scalar.remsi v170 c32_i32_162
  let c1_i32_167 : BitVec 32 := 1#32
  let v173 : BitVec 32 := Scalar.muli v171 c1_i32_167
  let v174 : BitVec 32 := Scalar.addi c0_i32_168 v173
  v174.toNat
def k0_dev36 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_172 : BitVec 32 := 5#32
  let v182 : BitVec 32 := Scalar.addi v2 c5_i32_172
  let c32_i32_173 : BitVec 32 := 32#32
  let v183 : BitVec 32 := Scalar.remsi v182 c32_i32_173
  let c1_i32_178 : BitVec 32 := 1#32
  let v185 : BitVec 32 := Scalar.muli v183 c1_i32_178
  let v186 : BitVec 32 := Scalar.addi c0_i32_179 v185
  v186.toNat
def k0_dev37 (d0 : Dev nD) : Nat :=
  let c0_i32_190 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_183 : BitVec 32 := 6#32
  let v194 : BitVec 32 := Scalar.addi v2 c6_i32_183
  let c32_i32_184 : BitVec 32 := 32#32
  let v195 : BitVec 32 := Scalar.remsi v194 c32_i32_184
  let c1_i32_189 : BitVec 32 := 1#32
  let v197 : BitVec 32 := Scalar.muli v195 c1_i32_189
  let v198 : BitVec 32 := Scalar.addi c0_i32_190 v197
  v198.toNat
def k0_dev38 (d0 : Dev nD) : Nat :=
  let c0_i32_201 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_194 : BitVec 32 := 7#32
  let v206 : BitVec 32 := Scalar.addi v2 c7_i32_194
  let c32_i32_195 : BitVec 32 := 32#32
  let v207 : BitVec 32 := Scalar.remsi v206 c32_i32_195
  let c1_i32_200 : BitVec 32 := 1#32
  let v209 : BitVec 32 := Scalar.muli v207 c1_i32_200
  let v210 : BitVec 32 := Scalar.addi c0_i32_201 v209
  v210.toNat
def k0_dev39 (d0 : Dev nD) : Nat :=
  let c0_i32_212 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_205 : BitVec 32 := 8#32
  let v218 : BitVec 32 := Scalar.addi v2 c8_i32_205
  let c32_i32_206 : BitVec 32 := 32#32
  let v219 : BitVec 32 := Scalar.remsi v218 c32_i32_206
  let c1_i32_211 : BitVec 32 := 1#32
  let v221 : BitVec 32 := Scalar.muli v219 c1_i32_211
  let v222 : BitVec 32 := Scalar.addi c0_i32_212 v221
  v222.toNat
def k0_dev40 (d0 : Dev nD) : Nat :=
  let c0_i32_223 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_216 : BitVec 32 := 9#32
  let v230 : BitVec 32 := Scalar.addi v2 c9_i32_216
  let c32_i32_217 : BitVec 32 := 32#32
  let v231 : BitVec 32 := Scalar.remsi v230 c32_i32_217
  let c1_i32_222 : BitVec 32 := 1#32
  let v233 : BitVec 32 := Scalar.muli v231 c1_i32_222
  let v234 : BitVec 32 := Scalar.addi c0_i32_223 v233
  v234.toNat
def k0_dev41 (d0 : Dev nD) : Nat :=
  let c0_i32_234 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_227 : BitVec 32 := 10#32
  let v242 : BitVec 32 := Scalar.addi v2 c10_i32_227
  let c32_i32_228 : BitVec 32 := 32#32
  let v243 : BitVec 32 := Scalar.remsi v242 c32_i32_228
  let c1_i32_233 : BitVec 32 := 1#32
  let v245 : BitVec 32 := Scalar.muli v243 c1_i32_233
  let v246 : BitVec 32 := Scalar.addi c0_i32_234 v245
  v246.toNat
def k0_dev42 (d0 : Dev nD) : Nat :=
  let c0_i32_245 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_238 : BitVec 32 := 11#32
  let v254 : BitVec 32 := Scalar.addi v2 c11_i32_238
  let c32_i32_239 : BitVec 32 := 32#32
  let v255 : BitVec 32 := Scalar.remsi v254 c32_i32_239
  let c1_i32_244 : BitVec 32 := 1#32
  let v257 : BitVec 32 := Scalar.muli v255 c1_i32_244
  let v258 : BitVec 32 := Scalar.addi c0_i32_245 v257
  v258.toNat
def k0_dev43 (d0 : Dev nD) : Nat :=
  let c0_i32_256 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_249 : BitVec 32 := 12#32
  let v266 : BitVec 32 := Scalar.addi v2 c12_i32_249
  let c32_i32_250 : BitVec 32 := 32#32
  let v267 : BitVec 32 := Scalar.remsi v266 c32_i32_250
  let c1_i32_255 : BitVec 32 := 1#32
  let v269 : BitVec 32 := Scalar.muli v267 c1_i32_255
  let v270 : BitVec 32 := Scalar.addi c0_i32_256 v269
  v270.toNat
def k0_dev44 (d0 : Dev nD) : Nat :=
  let c0_i32_267 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_260 : BitVec 32 := 13#32
  let v278 : BitVec 32 := Scalar.addi v2 c13_i32_260
  let c32_i32_261 : BitVec 32 := 32#32
  let v279 : BitVec 32 := Scalar.remsi v278 c32_i32_261
  let c1_i32_266 : BitVec 32 := 1#32
  let v281 : BitVec 32 := Scalar.muli v279 c1_i32_266
  let v282 : BitVec 32 := Scalar.addi c0_i32_267 v281
  v282.toNat
def k0_dev45 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_271 : BitVec 32 := 14#32
  let v290 : BitVec 32 := Scalar.addi v2 c14_i32_271
  let c32_i32_272 : BitVec 32 := 32#32
  let v291 : BitVec 32 := Scalar.remsi v290 c32_i32_272
  let c1_i32_277 : BitVec 32 := 1#32
  let v293 : BitVec 32 := Scalar.muli v291 c1_i32_277
  let v294 : BitVec 32 := Scalar.addi c0_i32_278 v293
  v294.toNat
def k0_dev46 (d0 : Dev nD) : Nat :=
  let c0_i32_289 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_282 : BitVec 32 := 15#32
  let v302 : BitVec 32 := Scalar.addi v2 c15_i32_282
  let c32_i32_283 : BitVec 32 := 32#32
  let v303 : BitVec 32 := Scalar.remsi v302 c32_i32_283
  let c1_i32_288 : BitVec 32 := 1#32
  let v305 : BitVec 32 := Scalar.muli v303 c1_i32_288
  let v306 : BitVec 32 := Scalar.addi c0_i32_289 v305
  v306.toNat
def k0_dev47 (d0 : Dev nD) : Nat :=
  let c0_i32_300 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_293 : BitVec 32 := 16#32
  let v314 : BitVec 32 := Scalar.addi v2 c16_i32_293
  let c32_i32_294 : BitVec 32 := 32#32
  let v315 : BitVec 32 := Scalar.remsi v314 c32_i32_294
  let c1_i32_299 : BitVec 32 := 1#32
  let v317 : BitVec 32 := Scalar.muli v315 c1_i32_299
  let v318 : BitVec 32 := Scalar.addi c0_i32_300 v317
  v318.toNat
def k0_dev48 (d0 : Dev nD) : Nat :=
  let c0_i32_311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_304 : BitVec 32 := 17#32
  let v326 : BitVec 32 := Scalar.addi v2 c17_i32_304
  let c32_i32_305 : BitVec 32 := 32#32
  let v327 : BitVec 32 := Scalar.remsi v326 c32_i32_305
  let c1_i32_310 : BitVec 32 := 1#32
  let v329 : BitVec 32 := Scalar.muli v327 c1_i32_310
  let v330 : BitVec 32 := Scalar.addi c0_i32_311 v329
  v330.toNat
def k0_dev49 (d0 : Dev nD) : Nat :=
  let c0_i32_322 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_315 : BitVec 32 := 18#32
  let v338 : BitVec 32 := Scalar.addi v2 c18_i32_315
  let c32_i32_316 : BitVec 32 := 32#32
  let v339 : BitVec 32 := Scalar.remsi v338 c32_i32_316
  let c1_i32_321 : BitVec 32 := 1#32
  let v341 : BitVec 32 := Scalar.muli v339 c1_i32_321
  let v342 : BitVec 32 := Scalar.addi c0_i32_322 v341
  v342.toNat
def k0_dev50 (d0 : Dev nD) : Nat :=
  let c0_i32_333 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_326 : BitVec 32 := 19#32
  let v350 : BitVec 32 := Scalar.addi v2 c19_i32_326
  let c32_i32_327 : BitVec 32 := 32#32
  let v351 : BitVec 32 := Scalar.remsi v350 c32_i32_327
  let c1_i32_332 : BitVec 32 := 1#32
  let v353 : BitVec 32 := Scalar.muli v351 c1_i32_332
  let v354 : BitVec 32 := Scalar.addi c0_i32_333 v353
  v354.toNat
def k0_dev51 (d0 : Dev nD) : Nat :=
  let c0_i32_344 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_337 : BitVec 32 := 20#32
  let v362 : BitVec 32 := Scalar.addi v2 c20_i32_337
  let c32_i32_338 : BitVec 32 := 32#32
  let v363 : BitVec 32 := Scalar.remsi v362 c32_i32_338
  let c1_i32_343 : BitVec 32 := 1#32
  let v365 : BitVec 32 := Scalar.muli v363 c1_i32_343
  let v366 : BitVec 32 := Scalar.addi c0_i32_344 v365
  v366.toNat
def k0_dev52 (d0 : Dev nD) : Nat :=
  let c0_i32_355 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_348 : BitVec 32 := 21#32
  let v374 : BitVec 32 := Scalar.addi v2 c21_i32_348
  let c32_i32_349 : BitVec 32 := 32#32
  let v375 : BitVec 32 := Scalar.remsi v374 c32_i32_349
  let c1_i32_354 : BitVec 32 := 1#32
  let v377 : BitVec 32 := Scalar.muli v375 c1_i32_354
  let v378 : BitVec 32 := Scalar.addi c0_i32_355 v377
  v378.toNat
def k0_dev53 (d0 : Dev nD) : Nat :=
  let c0_i32_366 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_359 : BitVec 32 := 22#32
  let v386 : BitVec 32 := Scalar.addi v2 c22_i32_359
  let c32_i32_360 : BitVec 32 := 32#32
  let v387 : BitVec 32 := Scalar.remsi v386 c32_i32_360
  let c1_i32_365 : BitVec 32 := 1#32
  let v389 : BitVec 32 := Scalar.muli v387 c1_i32_365
  let v390 : BitVec 32 := Scalar.addi c0_i32_366 v389
  v390.toNat
def k0_dev54 (d0 : Dev nD) : Nat :=
  let c0_i32_377 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_370 : BitVec 32 := 23#32
  let v398 : BitVec 32 := Scalar.addi v2 c23_i32_370
  let c32_i32_371 : BitVec 32 := 32#32
  let v399 : BitVec 32 := Scalar.remsi v398 c32_i32_371
  let c1_i32_376 : BitVec 32 := 1#32
  let v401 : BitVec 32 := Scalar.muli v399 c1_i32_376
  let v402 : BitVec 32 := Scalar.addi c0_i32_377 v401
  v402.toNat
def k0_dev55 (d0 : Dev nD) : Nat :=
  let c0_i32_388 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_381 : BitVec 32 := 24#32
  let v410 : BitVec 32 := Scalar.addi v2 c24_i32_381
  let c32_i32_382 : BitVec 32 := 32#32
  let v411 : BitVec 32 := Scalar.remsi v410 c32_i32_382
  let c1_i32_387 : BitVec 32 := 1#32
  let v413 : BitVec 32 := Scalar.muli v411 c1_i32_387
  let v414 : BitVec 32 := Scalar.addi c0_i32_388 v413
  v414.toNat
def k0_dev56 (d0 : Dev nD) : Nat :=
  let c0_i32_399 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_392 : BitVec 32 := 25#32
  let v422 : BitVec 32 := Scalar.addi v2 c25_i32_392
  let c32_i32_393 : BitVec 32 := 32#32
  let v423 : BitVec 32 := Scalar.remsi v422 c32_i32_393
  let c1_i32_398 : BitVec 32 := 1#32
  let v425 : BitVec 32 := Scalar.muli v423 c1_i32_398
  let v426 : BitVec 32 := Scalar.addi c0_i32_399 v425
  v426.toNat
def k0_dev57 (d0 : Dev nD) : Nat :=
  let c0_i32_410 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_403 : BitVec 32 := 26#32
  let v434 : BitVec 32 := Scalar.addi v2 c26_i32_403
  let c32_i32_404 : BitVec 32 := 32#32
  let v435 : BitVec 32 := Scalar.remsi v434 c32_i32_404
  let c1_i32_409 : BitVec 32 := 1#32
  let v437 : BitVec 32 := Scalar.muli v435 c1_i32_409
  let v438 : BitVec 32 := Scalar.addi c0_i32_410 v437
  v438.toNat
def k0_dev58 (d0 : Dev nD) : Nat :=
  let c0_i32_421 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_414 : BitVec 32 := 27#32
  let v446 : BitVec 32 := Scalar.addi v2 c27_i32_414
  let c32_i32_415 : BitVec 32 := 32#32
  let v447 : BitVec 32 := Scalar.remsi v446 c32_i32_415
  let c1_i32_420 : BitVec 32 := 1#32
  let v449 : BitVec 32 := Scalar.muli v447 c1_i32_420
  let v450 : BitVec 32 := Scalar.addi c0_i32_421 v449
  v450.toNat
def k0_dev59 (d0 : Dev nD) : Nat :=
  let c0_i32_432 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_425 : BitVec 32 := 28#32
  let v458 : BitVec 32 := Scalar.addi v2 c28_i32_425
  let c32_i32_426 : BitVec 32 := 32#32
  let v459 : BitVec 32 := Scalar.remsi v458 c32_i32_426
  let c1_i32_431 : BitVec 32 := 1#32
  let v461 : BitVec 32 := Scalar.muli v459 c1_i32_431
  let v462 : BitVec 32 := Scalar.addi c0_i32_432 v461
  v462.toNat
def k0_dev60 (d0 : Dev nD) : Nat :=
  let c0_i32_443 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_436 : BitVec 32 := 29#32
  let v470 : BitVec 32 := Scalar.addi v2 c29_i32_436
  let c32_i32_437 : BitVec 32 := 32#32
  let v471 : BitVec 32 := Scalar.remsi v470 c32_i32_437
  let c1_i32_442 : BitVec 32 := 1#32
  let v473 : BitVec 32 := Scalar.muli v471 c1_i32_442
  let v474 : BitVec 32 := Scalar.addi c0_i32_443 v473
  v474.toNat
def k0_dev61 (d0 : Dev nD) : Nat :=
  let c0_i32_454 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_447 : BitVec 32 := 30#32
  let v482 : BitVec 32 := Scalar.addi v2 c30_i32_447
  let c32_i32_448 : BitVec 32 := 32#32
  let v483 : BitVec 32 := Scalar.remsi v482 c32_i32_448
  let c1_i32_453 : BitVec 32 := 1#32
  let v485 : BitVec 32 := Scalar.muli v483 c1_i32_453
  let v486 : BitVec 32 := Scalar.addi c0_i32_454 v485
  v486.toNat
def k0_dev62 (d0 : Dev nD) : Nat :=
  let c0_i32_465 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_458 : BitVec 32 := 31#32
  let v494 : BitVec 32 := Scalar.addi v2 c31_i32_458
  let c32_i32_459 : BitVec 32 := 32#32
  let v495 : BitVec 32 := Scalar.remsi v494 c32_i32_459
  let c1_i32_464 : BitVec 32 := 1#32
  let v497 : BitVec 32 := Scalar.muli v495 c1_i32_464
  let v498 : BitVec 32 := Scalar.addi c0_i32_465 v497
  v498.toNat
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_469 : BitVec 32 := 16#32
  let v506 : BitVec 32 := Scalar.muli v2 c16_i32_469
  let v507 : Index := Scalar.indexCast v506
  let c0_470 : Index := 0#32
  ![v507.toNat, 0]
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_790 : BitVec 32 := 16#32
  let v861 : BitVec 32 := Scalar.muli v2 c16_i32_790
  let c0_i32_795 : BitVec 32 := 0#32
  ![v861.toNat, 0]
def k0_dev63 (d0 : Dev nD) : Nat :=
  let c0_i32_794 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_788 : BitVec 32 := 1#32
  let v859 : BitVec 32 := Scalar.addi v2 c1_i32_788
  let c32_i32_789 : BitVec 32 := 32#32
  let v860 : BitVec 32 := Scalar.remsi v859 c32_i32_789
  let c1_i32_793 : BitVec 32 := 1#32
  let v862 : BitVec 32 := Scalar.muli v860 c1_i32_793
  let v863 : BitVec 32 := Scalar.addi c0_i32_794 v862
  v863.toNat
def k0_dev64 (d0 : Dev nD) : Nat :=
  let c0_i32_802 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_796 : BitVec 32 := 2#32
  let v869 : BitVec 32 := Scalar.addi v2 c2_i32_796
  let c32_i32_797 : BitVec 32 := 32#32
  let v870 : BitVec 32 := Scalar.remsi v869 c32_i32_797
  let c1_i32_801 : BitVec 32 := 1#32
  let v872 : BitVec 32 := Scalar.muli v870 c1_i32_801
  let v873 : BitVec 32 := Scalar.addi c0_i32_802 v872
  v873.toNat
def k0_dev65 (d0 : Dev nD) : Nat :=
  let c0_i32_810 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_804 : BitVec 32 := 3#32
  let v879 : BitVec 32 := Scalar.addi v2 c3_i32_804
  let c32_i32_805 : BitVec 32 := 32#32
  let v880 : BitVec 32 := Scalar.remsi v879 c32_i32_805
  let c1_i32_809 : BitVec 32 := 1#32
  let v882 : BitVec 32 := Scalar.muli v880 c1_i32_809
  let v883 : BitVec 32 := Scalar.addi c0_i32_810 v882
  v883.toNat
def k0_dev66 (d0 : Dev nD) : Nat :=
  let c0_i32_818 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_812 : BitVec 32 := 4#32
  let v889 : BitVec 32 := Scalar.addi v2 c4_i32_812
  let c32_i32_813 : BitVec 32 := 32#32
  let v890 : BitVec 32 := Scalar.remsi v889 c32_i32_813
  let c1_i32_817 : BitVec 32 := 1#32
  let v892 : BitVec 32 := Scalar.muli v890 c1_i32_817
  let v893 : BitVec 32 := Scalar.addi c0_i32_818 v892
  v893.toNat
def k0_dev67 (d0 : Dev nD) : Nat :=
  let c0_i32_826 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_820 : BitVec 32 := 5#32
  let v899 : BitVec 32 := Scalar.addi v2 c5_i32_820
  let c32_i32_821 : BitVec 32 := 32#32
  let v900 : BitVec 32 := Scalar.remsi v899 c32_i32_821
  let c1_i32_825 : BitVec 32 := 1#32
  let v902 : BitVec 32 := Scalar.muli v900 c1_i32_825
  let v903 : BitVec 32 := Scalar.addi c0_i32_826 v902
  v903.toNat
def k0_dev68 (d0 : Dev nD) : Nat :=
  let c0_i32_834 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_828 : BitVec 32 := 6#32
  let v909 : BitVec 32 := Scalar.addi v2 c6_i32_828
  let c32_i32_829 : BitVec 32 := 32#32
  let v910 : BitVec 32 := Scalar.remsi v909 c32_i32_829
  let c1_i32_833 : BitVec 32 := 1#32
  let v912 : BitVec 32 := Scalar.muli v910 c1_i32_833
  let v913 : BitVec 32 := Scalar.addi c0_i32_834 v912
  v913.toNat
def k0_dev69 (d0 : Dev nD) : Nat :=
  let c0_i32_842 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_836 : BitVec 32 := 7#32
  let v919 : BitVec 32 := Scalar.addi v2 c7_i32_836
  let c32_i32_837 : BitVec 32 := 32#32
  let v920 : BitVec 32 := Scalar.remsi v919 c32_i32_837
  let c1_i32_841 : BitVec 32 := 1#32
  let v922 : BitVec 32 := Scalar.muli v920 c1_i32_841
  let v923 : BitVec 32 := Scalar.addi c0_i32_842 v922
  v923.toNat
def k0_dev70 (d0 : Dev nD) : Nat :=
  let c0_i32_850 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_844 : BitVec 32 := 8#32
  let v929 : BitVec 32 := Scalar.addi v2 c8_i32_844
  let c32_i32_845 : BitVec 32 := 32#32
  let v930 : BitVec 32 := Scalar.remsi v929 c32_i32_845
  let c1_i32_849 : BitVec 32 := 1#32
  let v932 : BitVec 32 := Scalar.muli v930 c1_i32_849
  let v933 : BitVec 32 := Scalar.addi c0_i32_850 v932
  v933.toNat
def k0_dev71 (d0 : Dev nD) : Nat :=
  let c0_i32_858 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_852 : BitVec 32 := 9#32
  let v939 : BitVec 32 := Scalar.addi v2 c9_i32_852
  let c32_i32_853 : BitVec 32 := 32#32
  let v940 : BitVec 32 := Scalar.remsi v939 c32_i32_853
  let c1_i32_857 : BitVec 32 := 1#32
  let v942 : BitVec 32 := Scalar.muli v940 c1_i32_857
  let v943 : BitVec 32 := Scalar.addi c0_i32_858 v942
  v943.toNat
def k0_dev72 (d0 : Dev nD) : Nat :=
  let c0_i32_866 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_860 : BitVec 32 := 10#32
  let v949 : BitVec 32 := Scalar.addi v2 c10_i32_860
  let c32_i32_861 : BitVec 32 := 32#32
  let v950 : BitVec 32 := Scalar.remsi v949 c32_i32_861
  let c1_i32_865 : BitVec 32 := 1#32
  let v952 : BitVec 32 := Scalar.muli v950 c1_i32_865
  let v953 : BitVec 32 := Scalar.addi c0_i32_866 v952
  v953.toNat
def k0_dev73 (d0 : Dev nD) : Nat :=
  let c0_i32_874 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_868 : BitVec 32 := 11#32
  let v959 : BitVec 32 := Scalar.addi v2 c11_i32_868
  let c32_i32_869 : BitVec 32 := 32#32
  let v960 : BitVec 32 := Scalar.remsi v959 c32_i32_869
  let c1_i32_873 : BitVec 32 := 1#32
  let v962 : BitVec 32 := Scalar.muli v960 c1_i32_873
  let v963 : BitVec 32 := Scalar.addi c0_i32_874 v962
  v963.toNat
def k0_dev74 (d0 : Dev nD) : Nat :=
  let c0_i32_882 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_876 : BitVec 32 := 12#32
  let v969 : BitVec 32 := Scalar.addi v2 c12_i32_876
  let c32_i32_877 : BitVec 32 := 32#32
  let v970 : BitVec 32 := Scalar.remsi v969 c32_i32_877
  let c1_i32_881 : BitVec 32 := 1#32
  let v972 : BitVec 32 := Scalar.muli v970 c1_i32_881
  let v973 : BitVec 32 := Scalar.addi c0_i32_882 v972
  v973.toNat
def k0_dev75 (d0 : Dev nD) : Nat :=
  let c0_i32_890 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_884 : BitVec 32 := 13#32
  let v979 : BitVec 32 := Scalar.addi v2 c13_i32_884
  let c32_i32_885 : BitVec 32 := 32#32
  let v980 : BitVec 32 := Scalar.remsi v979 c32_i32_885
  let c1_i32_889 : BitVec 32 := 1#32
  let v982 : BitVec 32 := Scalar.muli v980 c1_i32_889
  let v983 : BitVec 32 := Scalar.addi c0_i32_890 v982
  v983.toNat
def k0_dev76 (d0 : Dev nD) : Nat :=
  let c0_i32_898 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_892 : BitVec 32 := 14#32
  let v989 : BitVec 32 := Scalar.addi v2 c14_i32_892
  let c32_i32_893 : BitVec 32 := 32#32
  let v990 : BitVec 32 := Scalar.remsi v989 c32_i32_893
  let c1_i32_897 : BitVec 32 := 1#32
  let v992 : BitVec 32 := Scalar.muli v990 c1_i32_897
  let v993 : BitVec 32 := Scalar.addi c0_i32_898 v992
  v993.toNat
def k0_dev77 (d0 : Dev nD) : Nat :=
  let c0_i32_906 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_900 : BitVec 32 := 15#32
  let v999 : BitVec 32 := Scalar.addi v2 c15_i32_900
  let c32_i32_901 : BitVec 32 := 32#32
  let v1000 : BitVec 32 := Scalar.remsi v999 c32_i32_901
  let c1_i32_905 : BitVec 32 := 1#32
  let v1002 : BitVec 32 := Scalar.muli v1000 c1_i32_905
  let v1003 : BitVec 32 := Scalar.addi c0_i32_906 v1002
  v1003.toNat
def k0_dev78 (d0 : Dev nD) : Nat :=
  let c0_i32_914 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_908 : BitVec 32 := 16#32
  let v1009 : BitVec 32 := Scalar.addi v2 c16_i32_908
  let c32_i32_909 : BitVec 32 := 32#32
  let v1010 : BitVec 32 := Scalar.remsi v1009 c32_i32_909
  let c1_i32_913 : BitVec 32 := 1#32
  let v1012 : BitVec 32 := Scalar.muli v1010 c1_i32_913
  let v1013 : BitVec 32 := Scalar.addi c0_i32_914 v1012
  v1013.toNat
def k0_dev79 (d0 : Dev nD) : Nat :=
  let c0_i32_922 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_916 : BitVec 32 := 17#32
  let v1019 : BitVec 32 := Scalar.addi v2 c17_i32_916
  let c32_i32_917 : BitVec 32 := 32#32
  let v1020 : BitVec 32 := Scalar.remsi v1019 c32_i32_917
  let c1_i32_921 : BitVec 32 := 1#32
  let v1022 : BitVec 32 := Scalar.muli v1020 c1_i32_921
  let v1023 : BitVec 32 := Scalar.addi c0_i32_922 v1022
  v1023.toNat
def k0_dev80 (d0 : Dev nD) : Nat :=
  let c0_i32_930 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_924 : BitVec 32 := 18#32
  let v1029 : BitVec 32 := Scalar.addi v2 c18_i32_924
  let c32_i32_925 : BitVec 32 := 32#32
  let v1030 : BitVec 32 := Scalar.remsi v1029 c32_i32_925
  let c1_i32_929 : BitVec 32 := 1#32
  let v1032 : BitVec 32 := Scalar.muli v1030 c1_i32_929
  let v1033 : BitVec 32 := Scalar.addi c0_i32_930 v1032
  v1033.toNat
def k0_dev81 (d0 : Dev nD) : Nat :=
  let c0_i32_938 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_932 : BitVec 32 := 19#32
  let v1039 : BitVec 32 := Scalar.addi v2 c19_i32_932
  let c32_i32_933 : BitVec 32 := 32#32
  let v1040 : BitVec 32 := Scalar.remsi v1039 c32_i32_933
  let c1_i32_937 : BitVec 32 := 1#32
  let v1042 : BitVec 32 := Scalar.muli v1040 c1_i32_937
  let v1043 : BitVec 32 := Scalar.addi c0_i32_938 v1042
  v1043.toNat
def k0_dev82 (d0 : Dev nD) : Nat :=
  let c0_i32_946 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_940 : BitVec 32 := 20#32
  let v1049 : BitVec 32 := Scalar.addi v2 c20_i32_940
  let c32_i32_941 : BitVec 32 := 32#32
  let v1050 : BitVec 32 := Scalar.remsi v1049 c32_i32_941
  let c1_i32_945 : BitVec 32 := 1#32
  let v1052 : BitVec 32 := Scalar.muli v1050 c1_i32_945
  let v1053 : BitVec 32 := Scalar.addi c0_i32_946 v1052
  v1053.toNat
def k0_dev83 (d0 : Dev nD) : Nat :=
  let c0_i32_954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_948 : BitVec 32 := 21#32
  let v1059 : BitVec 32 := Scalar.addi v2 c21_i32_948
  let c32_i32_949 : BitVec 32 := 32#32
  let v1060 : BitVec 32 := Scalar.remsi v1059 c32_i32_949
  let c1_i32_953 : BitVec 32 := 1#32
  let v1062 : BitVec 32 := Scalar.muli v1060 c1_i32_953
  let v1063 : BitVec 32 := Scalar.addi c0_i32_954 v1062
  v1063.toNat
def k0_dev84 (d0 : Dev nD) : Nat :=
  let c0_i32_962 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_956 : BitVec 32 := 22#32
  let v1069 : BitVec 32 := Scalar.addi v2 c22_i32_956
  let c32_i32_957 : BitVec 32 := 32#32
  let v1070 : BitVec 32 := Scalar.remsi v1069 c32_i32_957
  let c1_i32_961 : BitVec 32 := 1#32
  let v1072 : BitVec 32 := Scalar.muli v1070 c1_i32_961
  let v1073 : BitVec 32 := Scalar.addi c0_i32_962 v1072
  v1073.toNat
def k0_dev85 (d0 : Dev nD) : Nat :=
  let c0_i32_970 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_964 : BitVec 32 := 23#32
  let v1079 : BitVec 32 := Scalar.addi v2 c23_i32_964
  let c32_i32_965 : BitVec 32 := 32#32
  let v1080 : BitVec 32 := Scalar.remsi v1079 c32_i32_965
  let c1_i32_969 : BitVec 32 := 1#32
  let v1082 : BitVec 32 := Scalar.muli v1080 c1_i32_969
  let v1083 : BitVec 32 := Scalar.addi c0_i32_970 v1082
  v1083.toNat
def k0_dev86 (d0 : Dev nD) : Nat :=
  let c0_i32_978 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_972 : BitVec 32 := 24#32
  let v1089 : BitVec 32 := Scalar.addi v2 c24_i32_972
  let c32_i32_973 : BitVec 32 := 32#32
  let v1090 : BitVec 32 := Scalar.remsi v1089 c32_i32_973
  let c1_i32_977 : BitVec 32 := 1#32
  let v1092 : BitVec 32 := Scalar.muli v1090 c1_i32_977
  let v1093 : BitVec 32 := Scalar.addi c0_i32_978 v1092
  v1093.toNat
def k0_dev87 (d0 : Dev nD) : Nat :=
  let c0_i32_986 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_980 : BitVec 32 := 25#32
  let v1099 : BitVec 32 := Scalar.addi v2 c25_i32_980
  let c32_i32_981 : BitVec 32 := 32#32
  let v1100 : BitVec 32 := Scalar.remsi v1099 c32_i32_981
  let c1_i32_985 : BitVec 32 := 1#32
  let v1102 : BitVec 32 := Scalar.muli v1100 c1_i32_985
  let v1103 : BitVec 32 := Scalar.addi c0_i32_986 v1102
  v1103.toNat
def k0_dev88 (d0 : Dev nD) : Nat :=
  let c0_i32_994 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_988 : BitVec 32 := 26#32
  let v1109 : BitVec 32 := Scalar.addi v2 c26_i32_988
  let c32_i32_989 : BitVec 32 := 32#32
  let v1110 : BitVec 32 := Scalar.remsi v1109 c32_i32_989
  let c1_i32_993 : BitVec 32 := 1#32
  let v1112 : BitVec 32 := Scalar.muli v1110 c1_i32_993
  let v1113 : BitVec 32 := Scalar.addi c0_i32_994 v1112
  v1113.toNat
def k0_dev89 (d0 : Dev nD) : Nat :=
  let c0_i32_1002 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_996 : BitVec 32 := 27#32
  let v1119 : BitVec 32 := Scalar.addi v2 c27_i32_996
  let c32_i32_997 : BitVec 32 := 32#32
  let v1120 : BitVec 32 := Scalar.remsi v1119 c32_i32_997
  let c1_i32_1001 : BitVec 32 := 1#32
  let v1122 : BitVec 32 := Scalar.muli v1120 c1_i32_1001
  let v1123 : BitVec 32 := Scalar.addi c0_i32_1002 v1122
  v1123.toNat
def k0_dev90 (d0 : Dev nD) : Nat :=
  let c0_i32_1010 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1004 : BitVec 32 := 28#32
  let v1129 : BitVec 32 := Scalar.addi v2 c28_i32_1004
  let c32_i32_1005 : BitVec 32 := 32#32
  let v1130 : BitVec 32 := Scalar.remsi v1129 c32_i32_1005
  let c1_i32_1009 : BitVec 32 := 1#32
  let v1132 : BitVec 32 := Scalar.muli v1130 c1_i32_1009
  let v1133 : BitVec 32 := Scalar.addi c0_i32_1010 v1132
  v1133.toNat
def k0_dev91 (d0 : Dev nD) : Nat :=
  let c0_i32_1018 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1012 : BitVec 32 := 29#32
  let v1139 : BitVec 32 := Scalar.addi v2 c29_i32_1012
  let c32_i32_1013 : BitVec 32 := 32#32
  let v1140 : BitVec 32 := Scalar.remsi v1139 c32_i32_1013
  let c1_i32_1017 : BitVec 32 := 1#32
  let v1142 : BitVec 32 := Scalar.muli v1140 c1_i32_1017
  let v1143 : BitVec 32 := Scalar.addi c0_i32_1018 v1142
  v1143.toNat
def k0_dev92 (d0 : Dev nD) : Nat :=
  let c0_i32_1026 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1020 : BitVec 32 := 30#32
  let v1149 : BitVec 32 := Scalar.addi v2 c30_i32_1020
  let c32_i32_1021 : BitVec 32 := 32#32
  let v1150 : BitVec 32 := Scalar.remsi v1149 c32_i32_1021
  let c1_i32_1025 : BitVec 32 := 1#32
  let v1152 : BitVec 32 := Scalar.muli v1150 c1_i32_1025
  let v1153 : BitVec 32 := Scalar.addi c0_i32_1026 v1152
  v1153.toNat
def k0_dev93 (d0 : Dev nD) : Nat :=
  let c0_i32_1034 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1028 : BitVec 32 := 31#32
  let v1159 : BitVec 32 := Scalar.addi v2 c31_i32_1028
  let c32_i32_1029 : BitVec 32 := 32#32
  let v1160 : BitVec 32 := Scalar.remsi v1159 c32_i32_1029
  let c1_i32_1033 : BitVec 32 := 1#32
  let v1162 : BitVec 32 := Scalar.muli v1160 c1_i32_1033
  let v1163 : BitVec 32 := Scalar.addi c0_i32_1034 v1162
  v1163.toNat
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bitsLt_bf16_f32 : FTy.bits .bf16 < FTy.bits .f32
  packedbf16_S512x512_S512x512_0_0 : (Rect.unit (s := S512x512) ![0, 0] S512x512.size inb_S512x512_S512x512_0_0).PackedRows (EltTy.packing .bf16)
  hamt_31 : (31#32 : BitVec 32).msb = false
  inb_S31_S1_0 : ∀ a, (![0] : Fin 1 → Nat) a + S1.size a ≤ S31.size a
  squeezes_S1_S_ : S1.Squeezes S_
  inb_S31x16x512_S1x16x512_0_0_0 : ∀ a, (![0, 0, 0] : Fin 3 → Nat) a + S1x16x512.size a ≤ S31x16x512.size a
  squeezes_S1x16x512_S16x512 : S1x16x512.Squeezes S16x512
  wordsbf16_S31x16x512_S1x16x512_0_0_0 : (Rect.unit (s := S31x16x512) ![0, 0, 0] S1x16x512.size inb_S31x16x512_S1x16x512_0_0_0).WholeWords (EltTy.packing .bf16)
  inb_S31_S1_1 : ∀ a, (![1] : Fin 1 → Nat) a + S1.size a ≤ S31.size a
  inb_S31x16x512_S1x16x512_1_0_0 : ∀ a, (![1, 0, 0] : Fin 3 → Nat) a + S1x16x512.size a ≤ S31x16x512.size a
  wordsbf16_S31x16x512_S1x16x512_1_0_0 : (Rect.unit (s := S31x16x512) ![1, 0, 0] S1x16x512.size inb_S31x16x512_S1x16x512_1_0_0).WholeWords (EltTy.packing .bf16)
  inb_S31_S1_2 : ∀ a, (![2] : Fin 1 → Nat) a + S1.size a ≤ S31.size a
  inb_S31x16x512_S1x16x512_2_0_0 : ∀ a, (![2, 0, 0] : Fin 3 → Nat) a + S1x16x512.size a ≤ S31x16x512.size a
  wordsbf16_S31x16x512_S1x16x512_2_0_0 : (Rect.unit (s := S31x16x512) ![2, 0, 0] S1x16x512.size inb_S31x16x512_S1x16x512_2_0_0).WholeWords (EltTy.packing .bf16)
  inb_S31_S1_3 : ∀ a, (![3] : Fin 1 → Nat) a + S1.size a ≤ S31.size a
  inb_S31x16x512_S1x16x512_3_0_0 : ∀ a, (![3, 0, 0] : Fin 3 → Nat) a + S1x16x512.size a ≤ S31x16x512.size a
  wordsbf16_S31x16x512_S1x16x512_3_0_0 : (Rect.unit (s := S31x16x512) ![3, 0, 0] S1x16x512.size inb_S31x16x512_S1x16x512_3_0_0).WholeWords (EltTy.packing .bf16)
  inb_S31_S1_4 : ∀ a, (![4] : Fin 1 → Nat) a + S1.size a ≤ S31.size a
  inb_S31x16x512_S1x16x512_4_0_0 : ∀ a, (![4, 0, 0] : Fin 3 → Nat) a + S1x16x512.size a ≤ S31x16x512.size a
  wordsbf16_S31x16x512_S1x16x512_4_0_0 : (Rect.unit (s := S31x16x512) ![4, 0, 0] S1x16x512.size inb_S31x16x512_S1x16x512_4_0_0).WholeWords (EltTy.packing .bf16)
  inb_S31_S1_5 : ∀ a, (![5] : Fin 1 → Nat) a + S1.size a ≤ S31.size a
  inb_S31x16x512_S1x16x512_5_0_0 : ∀ a, (![5, 0, 0] : Fin 3 → Nat) a + S1x16x512.size a ≤ S31x16x512.size a
  wordsbf16_S31x16x512_S1x16x512_5_0_0 : (Rect.unit (s := S31x16x512) ![5, 0, 0] S1x16x512.size inb_S31x16x512_S1x16x512_5_0_0).WholeWords (EltTy.packing .bf16)
  inb_S31_S1_6 : ∀ a, (![6] : Fin 1 → Nat) a + S1.size a ≤ S31.size a
  inb_S31x16x512_S1x16x512_6_0_0 : ∀ a, (![6, 0, 0] : Fin 3 → Nat) a + S1x16x512.size a ≤ S31x16x512.size a
  wordsbf16_S31x16x512_S1x16x512_6_0_0 : (Rect.unit (s := S31x16x512) ![6, 0, 0] S1x16x512.size inb_S31x16x512_S1x16x512_6_0_0).WholeWords (EltTy.packing .bf16)
  inb_S31_S1_7 : ∀ a, (![7] : Fin 1 → Nat) a + S1.size a ≤ S31.size a
  inb_S31x16x512_S1x16x512_7_0_0 : ∀ a, (![7, 0, 0] : Fin 3 → Nat) a + S1x16x512.size a ≤ S31x16x512.size a
  wordsbf16_S31x16x512_S1x16x512_7_0_0 : (Rect.unit (s := S31x16x512) ![7, 0, 0] S1x16x512.size inb_S31x16x512_S1x16x512_7_0_0).WholeWords (EltTy.packing .bf16)
  inb_S31_S1_8 : ∀ a, (![8] : Fin 1 → Nat) a + S1.size a ≤ S31.size a
  inb_S31x16x512_S1x16x512_8_0_0 : ∀ a, (![8, 0, 0] : Fin 3 → Nat) a + S1x16x512.size a ≤ S31x16x512.size a
  wordsbf16_S31x16x512_S1x16x512_8_0_0 : (Rect.unit (s := S31x16x512) ![8, 0, 0] S1x16x512.size inb_S31x16x512_S1x16x512_8_0_0).WholeWords (EltTy.packing .bf16)
  inb_S31_S1_9 : ∀ a, (![9] : Fin 1 → Nat) a + S1.size a ≤ S31.size a
  inb_S31x16x512_S1x16x512_9_0_0 : ∀ a, (![9, 0, 0] : Fin 3 → Nat) a + S1x16x512.size a ≤ S31x16x512.size a
  wordsbf16_S31x16x512_S1x16x512_9_0_0 : (Rect.unit (s := S31x16x512) ![9, 0, 0] S1x16x512.size inb_S31x16x512_S1x16x512_9_0_0).WholeWords (EltTy.packing .bf16)
  inb_S31_S1_10 : ∀ a, (![10] : Fin 1 → Nat) a + S1.size a ≤ S31.size a
  inb_S31x16x512_S1x16x512_10_0_0 : ∀ a, (![10, 0, 0] : Fin 3 → Nat) a + S1x16x512.size a ≤ S31x16x512.size a
  wordsbf16_S31x16x512_S1x16x512_10_0_0 : (Rect.unit (s := S31x16x512) ![10, 0, 0] S1x16x512.size inb_S31x16x512_S1x16x512_10_0_0).WholeWords (EltTy.packing .bf16)
  inb_S31_S1_11 : ∀ a, (![11] : Fin 1 → Nat) a + S1.size a ≤ S31.size a
  inb_S31x16x512_S1x16x512_11_0_0 : ∀ a, (![11, 0, 0] : Fin 3 → Nat) a + S1x16x512.size a ≤ S31x16x512.size a
  wordsbf16_S31x16x512_S1x16x512_11_0_0 : (Rect.unit (s := S31x16x512) ![11, 0, 0] S1x16x512.size inb_S31x16x512_S1x16x512_11_0_0).WholeWords (EltTy.packing .bf16)
  inb_S31_S1_12 : ∀ a, (![12] : Fin 1 → Nat) a + S1.size a ≤ S31.size a
  inb_S31x16x512_S1x16x512_12_0_0 : ∀ a, (![12, 0, 0] : Fin 3 → Nat) a + S1x16x512.size a ≤ S31x16x512.size a
  wordsbf16_S31x16x512_S1x16x512_12_0_0 : (Rect.unit (s := S31x16x512) ![12, 0, 0] S1x16x512.size inb_S31x16x512_S1x16x512_12_0_0).WholeWords (EltTy.packing .bf16)
  inb_S31_S1_13 : ∀ a, (![13] : Fin 1 → Nat) a + S1.size a ≤ S31.size a
  inb_S31x16x512_S1x16x512_13_0_0 : ∀ a, (![13, 0, 0] : Fin 3 → Nat) a + S1x16x512.size a ≤ S31x16x512.size a
  wordsbf16_S31x16x512_S1x16x512_13_0_0 : (Rect.unit (s := S31x16x512) ![13, 0, 0] S1x16x512.size inb_S31x16x512_S1x16x512_13_0_0).WholeWords (EltTy.packing .bf16)
  inb_S31_S1_14 : ∀ a, (![14] : Fin 1 → Nat) a + S1.size a ≤ S31.size a
  inb_S31x16x512_S1x16x512_14_0_0 : ∀ a, (![14, 0, 0] : Fin 3 → Nat) a + S1x16x512.size a ≤ S31x16x512.size a
  wordsbf16_S31x16x512_S1x16x512_14_0_0 : (Rect.unit (s := S31x16x512) ![14, 0, 0] S1x16x512.size inb_S31x16x512_S1x16x512_14_0_0).WholeWords (EltTy.packing .bf16)
  inb_S31_S1_15 : ∀ a, (![15] : Fin 1 → Nat) a + S1.size a ≤ S31.size a
  inb_S31x16x512_S1x16x512_15_0_0 : ∀ a, (![15, 0, 0] : Fin 3 → Nat) a + S1x16x512.size a ≤ S31x16x512.size a
  wordsbf16_S31x16x512_S1x16x512_15_0_0 : (Rect.unit (s := S31x16x512) ![15, 0, 0] S1x16x512.size inb_S31x16x512_S1x16x512_15_0_0).WholeWords (EltTy.packing .bf16)
  inb_S31_S1_16 : ∀ a, (![16] : Fin 1 → Nat) a + S1.size a ≤ S31.size a
  inb_S31x16x512_S1x16x512_16_0_0 : ∀ a, (![16, 0, 0] : Fin 3 → Nat) a + S1x16x512.size a ≤ S31x16x512.size a
  wordsbf16_S31x16x512_S1x16x512_16_0_0 : (Rect.unit (s := S31x16x512) ![16, 0, 0] S1x16x512.size inb_S31x16x512_S1x16x512_16_0_0).WholeWords (EltTy.packing .bf16)
  inb_S31_S1_17 : ∀ a, (![17] : Fin 1 → Nat) a + S1.size a ≤ S31.size a
  inb_S31x16x512_S1x16x512_17_0_0 : ∀ a, (![17, 0, 0] : Fin 3 → Nat) a + S1x16x512.size a ≤ S31x16x512.size a
  wordsbf16_S31x16x512_S1x16x512_17_0_0 : (Rect.unit (s := S31x16x512) ![17, 0, 0] S1x16x512.size inb_S31x16x512_S1x16x512_17_0_0).WholeWords (EltTy.packing .bf16)
  inb_S31_S1_18 : ∀ a, (![18] : Fin 1 → Nat) a + S1.size a ≤ S31.size a
  inb_S31x16x512_S1x16x512_18_0_0 : ∀ a, (![18, 0, 0] : Fin 3 → Nat) a + S1x16x512.size a ≤ S31x16x512.size a
  wordsbf16_S31x16x512_S1x16x512_18_0_0 : (Rect.unit (s := S31x16x512) ![18, 0, 0] S1x16x512.size inb_S31x16x512_S1x16x512_18_0_0).WholeWords (EltTy.packing .bf16)
  inb_S31_S1_19 : ∀ a, (![19] : Fin 1 → Nat) a + S1.size a ≤ S31.size a
  inb_S31x16x512_S1x16x512_19_0_0 : ∀ a, (![19, 0, 0] : Fin 3 → Nat) a + S1x16x512.size a ≤ S31x16x512.size a
  wordsbf16_S31x16x512_S1x16x512_19_0_0 : (Rect.unit (s := S31x16x512) ![19, 0, 0] S1x16x512.size inb_S31x16x512_S1x16x512_19_0_0).WholeWords (EltTy.packing .bf16)
  inb_S31_S1_20 : ∀ a, (![20] : Fin 1 → Nat) a + S1.size a ≤ S31.size a
  inb_S31x16x512_S1x16x512_20_0_0 : ∀ a, (![20, 0, 0] : Fin 3 → Nat) a + S1x16x512.size a ≤ S31x16x512.size a
  wordsbf16_S31x16x512_S1x16x512_20_0_0 : (Rect.unit (s := S31x16x512) ![20, 0, 0] S1x16x512.size inb_S31x16x512_S1x16x512_20_0_0).WholeWords (EltTy.packing .bf16)
  inb_S31_S1_21 : ∀ a, (![21] : Fin 1 → Nat) a + S1.size a ≤ S31.size a
  inb_S31x16x512_S1x16x512_21_0_0 : ∀ a, (![21, 0, 0] : Fin 3 → Nat) a + S1x16x512.size a ≤ S31x16x512.size a
  wordsbf16_S31x16x512_S1x16x512_21_0_0 : (Rect.unit (s := S31x16x512) ![21, 0, 0] S1x16x512.size inb_S31x16x512_S1x16x512_21_0_0).WholeWords (EltTy.packing .bf16)
  inb_S31_S1_22 : ∀ a, (![22] : Fin 1 → Nat) a + S1.size a ≤ S31.size a
  inb_S31x16x512_S1x16x512_22_0_0 : ∀ a, (![22, 0, 0] : Fin 3 → Nat) a + S1x16x512.size a ≤ S31x16x512.size a
  wordsbf16_S31x16x512_S1x16x512_22_0_0 : (Rect.unit (s := S31x16x512) ![22, 0, 0] S1x16x512.size inb_S31x16x512_S1x16x512_22_0_0).WholeWords (EltTy.packing .bf16)
  inb_S31_S1_23 : ∀ a, (![23] : Fin 1 → Nat) a + S1.size a ≤ S31.size a
  inb_S31x16x512_S1x16x512_23_0_0 : ∀ a, (![23, 0, 0] : Fin 3 → Nat) a + S1x16x512.size a ≤ S31x16x512.size a
  wordsbf16_S31x16x512_S1x16x512_23_0_0 : (Rect.unit (s := S31x16x512) ![23, 0, 0] S1x16x512.size inb_S31x16x512_S1x16x512_23_0_0).WholeWords (EltTy.packing .bf16)
  inb_S31_S1_24 : ∀ a, (![24] : Fin 1 → Nat) a + S1.size a ≤ S31.size a
  inb_S31x16x512_S1x16x512_24_0_0 : ∀ a, (![24, 0, 0] : Fin 3 → Nat) a + S1x16x512.size a ≤ S31x16x512.size a
  wordsbf16_S31x16x512_S1x16x512_24_0_0 : (Rect.unit (s := S31x16x512) ![24, 0, 0] S1x16x512.size inb_S31x16x512_S1x16x512_24_0_0).WholeWords (EltTy.packing .bf16)
  inb_S31_S1_25 : ∀ a, (![25] : Fin 1 → Nat) a + S1.size a ≤ S31.size a
  inb_S31x16x512_S1x16x512_25_0_0 : ∀ a, (![25, 0, 0] : Fin 3 → Nat) a + S1x16x512.size a ≤ S31x16x512.size a
  wordsbf16_S31x16x512_S1x16x512_25_0_0 : (Rect.unit (s := S31x16x512) ![25, 0, 0] S1x16x512.size inb_S31x16x512_S1x16x512_25_0_0).WholeWords (EltTy.packing .bf16)
  inb_S31_S1_26 : ∀ a, (![26] : Fin 1 → Nat) a + S1.size a ≤ S31.size a
  inb_S31x16x512_S1x16x512_26_0_0 : ∀ a, (![26, 0, 0] : Fin 3 → Nat) a + S1x16x512.size a ≤ S31x16x512.size a
  wordsbf16_S31x16x512_S1x16x512_26_0_0 : (Rect.unit (s := S31x16x512) ![26, 0, 0] S1x16x512.size inb_S31x16x512_S1x16x512_26_0_0).WholeWords (EltTy.packing .bf16)
  inb_S31_S1_27 : ∀ a, (![27] : Fin 1 → Nat) a + S1.size a ≤ S31.size a
  inb_S31x16x512_S1x16x512_27_0_0 : ∀ a, (![27, 0, 0] : Fin 3 → Nat) a + S1x16x512.size a ≤ S31x16x512.size a
  wordsbf16_S31x16x512_S1x16x512_27_0_0 : (Rect.unit (s := S31x16x512) ![27, 0, 0] S1x16x512.size inb_S31x16x512_S1x16x512_27_0_0).WholeWords (EltTy.packing .bf16)
  inb_S31_S1_28 : ∀ a, (![28] : Fin 1 → Nat) a + S1.size a ≤ S31.size a
  inb_S31x16x512_S1x16x512_28_0_0 : ∀ a, (![28, 0, 0] : Fin 3 → Nat) a + S1x16x512.size a ≤ S31x16x512.size a
  wordsbf16_S31x16x512_S1x16x512_28_0_0 : (Rect.unit (s := S31x16x512) ![28, 0, 0] S1x16x512.size inb_S31x16x512_S1x16x512_28_0_0).WholeWords (EltTy.packing .bf16)
  inb_S31_S1_29 : ∀ a, (![29] : Fin 1 → Nat) a + S1.size a ≤ S31.size a
  inb_S31x16x512_S1x16x512_29_0_0 : ∀ a, (![29, 0, 0] : Fin 3 → Nat) a + S1x16x512.size a ≤ S31x16x512.size a
  wordsbf16_S31x16x512_S1x16x512_29_0_0 : (Rect.unit (s := S31x16x512) ![29, 0, 0] S1x16x512.size inb_S31x16x512_S1x16x512_29_0_0).WholeWords (EltTy.packing .bf16)
  inb_S31_S1_30 : ∀ a, (![30] : Fin 1 → Nat) a + S1.size a ≤ S31.size a
  inb_S31x16x512_S1x16x512_30_0_0 : ∀ a, (![30, 0, 0] : Fin 3 → Nat) a + S1x16x512.size a ≤ S31x16x512.size a
  wordsbf16_S31x16x512_S1x16x512_30_0_0 : (Rect.unit (s := S31x16x512) ![30, 0, 0] S1x16x512.size inb_S31x16x512_S1x16x512_30_0_0).WholeWords (EltTy.packing .bf16)
  h_S16x512 : 0 < S16x512.numel
  shapeCasts_S16x512_S16x512 : S16x512.ShapeCasts S16x512
  h_S1x16x512 : 0 < S1x16x512.numel
  shapeCasts_S1x16x512_S16x512 : S1x16x512.ShapeCasts S16x512
  inb_S16x512_S16x512_0_0 : ∀ a, (![0, 0] : Fin 2 → Nat) a + S16x512.size a ≤ S16x512.size a
  packedbf16_S16x512_S16x512_0_0 : (Rect.unit (s := S16x512) ![0, 0] S16x512.size inb_S16x512_S16x512_0_0).PackedRows (EltTy.packing .bf16)
  hcc0_scratch3 : 2 + S31.numel ≤ 126
  hcc0_scratch4 : 33 + S31.numel ≤ 126
  hcc0_scratch5 : 64 + S31.numel ≤ 126
  hcc0_scratch6 : 95 + S31.numel ≤ 126
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_off1_inb : ∀ d0 : Dev nD, ∀ (r : Fin 31), ∀ a, (k0_off1 d0 (BitVec.ofNat 32 (1 + r.val))) a + S16x512.size a ≤ S512x512.size a
  k0_off1_wordsbf16 : ∀ d0 : Dev nD, ∀ (r : Fin 31), (Rect.unit (s := S512x512) (k0_off1 d0 (BitVec.ofNat 32 (1 + r.val))) S16x512.size (k0_off1_inb d0 r)).WholeWords (EltTy.packing .bf16)
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  k0_dev50_lt : ∀ d0 : Dev nD, (k0_dev50 d0) < nD
  k0_dev51_lt : ∀ d0 : Dev nD, (k0_dev51 d0) < nD
  k0_dev52_lt : ∀ d0 : Dev nD, (k0_dev52 d0) < nD
  k0_dev53_lt : ∀ d0 : Dev nD, (k0_dev53 d0) < nD
  k0_dev54_lt : ∀ d0 : Dev nD, (k0_dev54 d0) < nD
  k0_dev55_lt : ∀ d0 : Dev nD, (k0_dev55 d0) < nD
  k0_dev56_lt : ∀ d0 : Dev nD, (k0_dev56 d0) < nD
  k0_dev57_lt : ∀ d0 : Dev nD, (k0_dev57 d0) < nD
  k0_dev58_lt : ∀ d0 : Dev nD, (k0_dev58 d0) < nD
  k0_dev59_lt : ∀ d0 : Dev nD, (k0_dev59 d0) < nD
  k0_dev60_lt : ∀ d0 : Dev nD, (k0_dev60 d0) < nD
  k0_dev61_lt : ∀ d0 : Dev nD, (k0_dev61 d0) < nD
  k0_dev62_lt : ∀ d0 : Dev nD, (k0_dev62 d0) < nD
  k0_off2_inb : ∀ d0 : Dev nD, ∀ a, (k0_off2 d0) a + S16x512.size a ≤ S512x512.size a
  k0_off2_packedbf16 : ∀ d0 : Dev nD, (Rect.unit (s := S512x512) (k0_off2 d0) S16x512.size (k0_off2_inb d0)).PackedRows (EltTy.packing .bf16)
  k0_off3_inb : ∀ d0 : Dev nD, ∀ a, (k0_off3 d0) a + S16x512.size a ≤ S512x512.size a
  k0_off3_wordsbf16 : ∀ d0 : Dev nD, (Rect.unit (s := S512x512) (k0_off3 d0) S16x512.size (k0_off3_inb d0)).WholeWords (EltTy.packing .bf16)
  k0_dev63_lt : ∀ d0 : Dev nD, (k0_dev63 d0) < nD
  k0_dev64_lt : ∀ d0 : Dev nD, (k0_dev64 d0) < nD
  k0_dev65_lt : ∀ d0 : Dev nD, (k0_dev65 d0) < nD
  k0_dev66_lt : ∀ d0 : Dev nD, (k0_dev66 d0) < nD
  k0_dev67_lt : ∀ d0 : Dev nD, (k0_dev67 d0) < nD
  k0_dev68_lt : ∀ d0 : Dev nD, (k0_dev68 d0) < nD
  k0_dev69_lt : ∀ d0 : Dev nD, (k0_dev69 d0) < nD
  k0_dev70_lt : ∀ d0 : Dev nD, (k0_dev70 d0) < nD
  k0_dev71_lt : ∀ d0 : Dev nD, (k0_dev71 d0) < nD
  k0_dev72_lt : ∀ d0 : Dev nD, (k0_dev72 d0) < nD
  k0_dev73_lt : ∀ d0 : Dev nD, (k0_dev73 d0) < nD
  k0_dev74_lt : ∀ d0 : Dev nD, (k0_dev74 d0) < nD
  k0_dev75_lt : ∀ d0 : Dev nD, (k0_dev75 d0) < nD
  k0_dev76_lt : ∀ d0 : Dev nD, (k0_dev76 d0) < nD
  k0_dev77_lt : ∀ d0 : Dev nD, (k0_dev77 d0) < nD
  k0_dev78_lt : ∀ d0 : Dev nD, (k0_dev78 d0) < nD
  k0_dev79_lt : ∀ d0 : Dev nD, (k0_dev79 d0) < nD
  k0_dev80_lt : ∀ d0 : Dev nD, (k0_dev80 d0) < nD
  k0_dev81_lt : ∀ d0 : Dev nD, (k0_dev81 d0) < nD
  k0_dev82_lt : ∀ d0 : Dev nD, (k0_dev82 d0) < nD
  k0_dev83_lt : ∀ d0 : Dev nD, (k0_dev83 d0) < nD
  k0_dev84_lt : ∀ d0 : Dev nD, (k0_dev84 d0) < nD
  k0_dev85_lt : ∀ d0 : Dev nD, (k0_dev85 d0) < nD
  k0_dev86_lt : ∀ d0 : Dev nD, (k0_dev86 d0) < nD
  k0_dev87_lt : ∀ d0 : Dev nD, (k0_dev87 d0) < nD
  k0_dev88_lt : ∀ d0 : Dev nD, (k0_dev88 d0) < nD
  k0_dev89_lt : ∀ d0 : Dev nD, (k0_dev89 d0) < nD
  k0_dev90_lt : ∀ d0 : Dev nD, (k0_dev90 d0) < nD
  k0_dev91_lt : ∀ d0 : Dev nD, (k0_dev91 d0) < nD
  k0_dev92_lt : ∀ d0 : Dev nD, (k0_dev92 d0) < nD
  k0_dev93_lt : ∀ d0 : Dev nD, (k0_dev93 d0) < nD
  hstage0_0 : ∀ j, (stage0_0 j).IsWhole
  hstage0_1 : ∀ j, (stage0_1 j).IsWhole

variable [Facts₀]

abbrev cc0_scratch3 : DmaSems sig S31 := SemArray.consecutive 2 S31 hcc0_scratch3
abbrev cc0_scratch4 : DmaSems sig S31 := SemArray.consecutive 33 S31 hcc0_scratch4
abbrev cc0_scratch5 : DmaSems sig S31 := SemArray.consecutive 64 S31 hcc0_scratch5
abbrev cc0_scratch6 : DmaSems sig S31 := SemArray.consecutive 95 S31 hcc0_scratch6

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16384x512 : Shape := ⟨2, ![16384, 512]⟩
abbrev S32x512x512 : Shape := ⟨3, ![32, 512, 512]⟩
abbrev S_ : Shape := ⟨0, ![]⟩
abbrev S512x512 : Shape := ⟨2, ![512, 512]⟩

abbrev nBuf : Space → Nat
  | .hbm => 5
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S32x512x512, .f32⟩
  | .hbm, ⟨2, _⟩ => ⟨S_, .f32⟩
  | .hbm, ⟨3, _⟩ => ⟨S512x512, .f32⟩
  | .hbm, ⟨4, _⟩ => ⟨S512x512, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  shapeCasts_S16384x512_S32x512x512 : S16384x512.ShapeCasts S32x512x512
  reducesTo_S32x512x512_S512x512_d0 : S32x512x512.ReducesTo [0] S512x512
  h_S_ : 0 < S_.numel
  bitsLt_bf16_f32 : FTy.bits .bf16 < FTy.bits .f32

variable [Facts₀]

class Facts : Prop extends Facts₀ where

variable [Facts]
-- ==== Proof.Ring.lean ====
/-
  The ring of 32 devices and the names every later module shares.

  Device `c` talks to its 31 peers through slots: slot `r` of `c` is the peer `peer c r = (c + r + 1) mod 32`
  it writes to, and `srcd c r = (c - r - 1) mod 32` is the device that writes into slot `r` of `c`; the two are
  inverse to each other, and `peer (peer c r) (rev r) = c` with `rev r = 30 - r`: the peer reached with slot `r`
  reaches back with slot `30 - r`.  The kernel's 93 computed device ids are these peers.
-/
import proofs.«900471_g7700000000000472_dist_rs_then_ag_i_m512_n512_v7x_i32_bf16_1_alg».proof.Proof.Gen.KernelIdeal.Frame
import proofs.«900471_g7700000000000472_dist_rs_then_ag_i_m512_n512_v7x_i32_bf16_1_alg».proof.Proof.Gen.KernelIdeal.Skeleton
import Idealize.ShloMosaic.Lib.Pipeline.Launch
import Idealize.ShloMosaic.Lib.Pipeline.Kit
import Idealize.ShloMosaic.Lib.Tactic

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ring -/

/-- The device `c` reaches with slot `r`: `r + 1` places further round the ring. -/
def peer (c : Dev nD) (r : Fin 31) : Dev nD := ⟨(c.val + r.val + 1) % 32, Nat.mod_lt _ (by decide)⟩
/-- The device that reaches `c` with slot `r`: `r + 1` places back. -/
def srcd (c : Dev nD) (r : Fin 31) : Dev nD := ⟨(c.val + 31 - r.val) % 32, Nat.mod_lt _ (by decide)⟩
/-- The slot with which a peer reaches back. -/
def rev (r : Fin 31) : Fin 31 := ⟨30 - r.val, by omega⟩

theorem peer_val (c : Dev nD) (r : Fin 31) : (peer c r).val = (c.val + r.val + 1) % 32 := rfl
theorem srcd_val (c : Dev nD) (r : Fin 31) : (srcd c r).val = (c.val + 31 - r.val) % 32 := rfl

theorem peer_srcd : ∀ (c : Dev nD) (r : Fin 31), peer (srcd c r) r = c := by decide +kernel
theorem srcd_peer : ∀ (c : Dev nD) (r : Fin 31), srcd (peer c r) r = c := by decide +kernel
theorem peer_peer_rev : ∀ (c : Dev nD) (r : Fin 31), peer (peer c r) (rev r) = c := by decide +kernel
theorem peer_rev_eq_srcd : ∀ (c : Dev nD) (r : Fin 31), peer c (rev r) = srcd c r := by decide +kernel
theorem rev_rev : ∀ r : Fin 31, rev (rev r) = r := by decide +kernel
theorem peer_ne : ∀ (c : Dev nD) (r : Fin 31), peer c r ≠ c := by decide +kernel
theorem srcd_ne : ∀ (c : Dev nD) (r : Fin 31), srcd c r ≠ c := by decide +kernel
theorem peer_inj : ∀ (c : Dev nD) (r r' : Fin 31), peer c r = peer c r' → r = r' := by decide +kernel
theorem srcd_inj : ∀ (c : Dev nD) (r r' : Fin 31), srcd c r = srcd c r' → r = r' := by decide +kernel
/-- Every other device is a peer, through exactly one slot. -/
theorem exists_peer : ∀ (c e : Dev nD), e ≠ c → ∃ r : Fin 31, peer c r = e := by decide +kernel

/-! ## The kernel's device ids -/

theorem dev1_eq (c : Dev nD) : (⟨k0_dev1 c, k0_dev1_lt c⟩ : Dev nD) = peer c 0 := Fin.ext ((k0_dev1_eq c).trans (by rw [peer_val]; rfl))
theorem dev2_eq (c : Dev nD) : (⟨k0_dev2 c, k0_dev2_lt c⟩ : Dev nD) = peer c 1 := Fin.ext ((k0_dev2_eq c).trans (by rw [peer_val]; rfl))
theorem dev3_eq (c : Dev nD) : (⟨k0_dev3 c, k0_dev3_lt c⟩ : Dev nD) = peer c 2 := Fin.ext ((k0_dev3_eq c).trans (by rw [peer_val]; rfl))
theorem dev4_eq (c : Dev nD) : (⟨k0_dev4 c, k0_dev4_lt c⟩ : Dev nD) = peer c 3 := Fin.ext ((k0_dev4_eq c).trans (by rw [peer_val]; rfl))
theorem dev5_eq (c : Dev nD) : (⟨k0_dev5 c, k0_dev5_lt c⟩ : Dev nD) = peer c 4 := Fin.ext ((k0_dev5_eq c).trans (by rw [peer_val]; rfl))
theorem dev6_eq (c : Dev nD) : (⟨k0_dev6 c, k0_dev6_lt c⟩ : Dev nD) = peer c 5 := Fin.ext ((k0_dev6_eq c).trans (by rw [peer_val]; rfl))
theorem dev7_eq (c : Dev nD) : (⟨k0_dev7 c, k0_dev7_lt c⟩ : Dev nD) = peer c 6 := Fin.ext ((k0_dev7_eq c).trans (by rw [peer_val]; rfl))
theorem dev8_eq (c : Dev nD) : (⟨k0_dev8 c, k0_dev8_lt c⟩ : Dev nD) = peer c 7 := Fin.ext ((k0_dev8_eq c).trans (by rw [peer_val]; rfl))
theorem dev9_eq (c : Dev nD) : (⟨k0_dev9 c, k0_dev9_lt c⟩ : Dev nD) = peer c 8 := Fin.ext ((k0_dev9_eq c).trans (by rw [peer_val]; rfl))
theorem dev10_eq (c : Dev nD) : (⟨k0_dev10 c, k0_dev10_lt c⟩ : Dev nD) = peer c 9 := Fin.ext ((k0_dev10_eq c).trans (by rw [peer_val]; rfl))
theorem dev11_eq (c : Dev nD) : (⟨k0_dev11 c, k0_dev11_lt c⟩ : Dev nD) = peer c 10 := Fin.ext ((k0_dev11_eq c).trans (by rw [peer_val]; rfl))
theorem dev12_eq (c : Dev nD) : (⟨k0_dev12 c, k0_dev12_lt c⟩ : Dev nD) = peer c 11 := Fin.ext ((k0_dev12_eq c).trans (by rw [peer_val]; rfl))
theorem dev13_eq (c : Dev nD) : (⟨k0_dev13 c, k0_dev13_lt c⟩ : Dev nD) = peer c 12 := Fin.ext ((k0_dev13_eq c).trans (by rw [peer_val]; rfl))
theorem dev14_eq (c : Dev nD) : (⟨k0_dev14 c, k0_dev14_lt c⟩ : Dev nD) = peer c 13 := Fin.ext ((k0_dev14_eq c).trans (by rw [peer_val]; rfl))
theorem dev15_eq (c : Dev nD) : (⟨k0_dev15 c, k0_dev15_lt c⟩ : Dev nD) = peer c 14 := Fin.ext ((k0_dev15_eq c).trans (by rw [peer_val]; rfl))
theorem dev16_eq (c : Dev nD) : (⟨k0_dev16 c, k0_dev16_lt c⟩ : Dev nD) = peer c 15 := Fin.ext ((k0_dev16_eq c).trans (by rw [peer_val]; rfl))
theorem dev17_eq (c : Dev nD) : (⟨k0_dev17 c, k0_dev17_lt c⟩ : Dev nD) = peer c 16 := Fin.ext ((k0_dev17_eq c).trans (by rw [peer_val]; rfl))
theorem dev18_eq (c : Dev nD) : (⟨k0_dev18 c, k0_dev18_lt c⟩ : Dev nD) = peer c 17 := Fin.ext ((k0_dev18_eq c).trans (by rw [peer_val]; rfl))
theorem dev19_eq (c : Dev nD) : (⟨k0_dev19 c, k0_dev19_lt c⟩ : Dev nD) = peer c 18 := Fin.ext ((k0_dev19_eq c).trans (by rw [peer_val]; rfl))
theorem dev20_eq (c : Dev nD) : (⟨k0_dev20 c, k0_dev20_lt c⟩ : Dev nD) = peer c 19 := Fin.ext ((k0_dev20_eq c).trans (by rw [peer_val]; rfl))
theorem dev21_eq (c : Dev nD) : (⟨k0_dev21 c, k0_dev21_lt c⟩ : Dev nD) = peer c 20 := Fin.ext ((k0_dev21_eq c).trans (by rw [peer_val]; rfl))
theorem dev22_eq (c : Dev nD) : (⟨k0_dev22 c, k0_dev22_lt c⟩ : Dev nD) = peer c 21 := Fin.ext ((k0_dev22_eq c).trans (by rw [peer_val]; rfl))
theorem dev23_eq (c : Dev nD) : (⟨k0_dev23 c, k0_dev23_lt c⟩ : Dev nD) = peer c 22 := Fin.ext ((k0_dev23_eq c).trans (by rw [peer_val]; rfl))
theorem dev24_eq (c : Dev nD) : (⟨k0_dev24 c, k0_dev24_lt c⟩ : Dev nD) = peer c 23 := Fin.ext ((k0_dev24_eq c).trans (by rw [peer_val]; rfl))
theorem dev25_eq (c : Dev nD) : (⟨k0_dev25 c, k0_dev25_lt c⟩ : Dev nD) = peer c 24 := Fin.ext ((k0_dev25_eq c).trans (by rw [peer_val]; rfl))
theorem dev26_eq (c : Dev nD) : (⟨k0_dev26 c, k0_dev26_lt c⟩ : Dev nD) = peer c 25 := Fin.ext ((k0_dev26_eq c).trans (by rw [peer_val]; rfl))
theorem dev27_eq (c : Dev nD) : (⟨k0_dev27 c, k0_dev27_lt c⟩ : Dev nD) = peer c 26 := Fin.ext ((k0_dev27_eq c).trans (by rw [peer_val]; rfl))
theorem dev28_eq (c : Dev nD) : (⟨k0_dev28 c, k0_dev28_lt c⟩ : Dev nD) = peer c 27 := Fin.ext ((k0_dev28_eq c).trans (by rw [peer_val]; rfl))
theorem dev29_eq (c : Dev nD) : (⟨k0_dev29 c, k0_dev29_lt c⟩ : Dev nD) = peer c 28 := Fin.ext ((k0_dev29_eq c).trans (by rw [peer_val]; rfl))
theorem dev30_eq (c : Dev nD) : (⟨k0_dev30 c, k0_dev30_lt c⟩ : Dev nD) = peer c 29 := Fin.ext ((k0_dev30_eq c).trans (by rw [peer_val]; rfl))
theorem dev31_eq (c : Dev nD) : (⟨k0_dev31 c, k0_dev31_lt c⟩ : Dev nD) = peer c 30 := Fin.ext ((k0_dev31_eq c).trans (by rw [peer_val]; rfl))
theorem dev32_eq (c : Dev nD) : (⟨k0_dev32 c, k0_dev32_lt c⟩ : Dev nD) = peer c 0 := Fin.ext ((k0_dev32_eq c).trans (by rw [peer_val]; rfl))
theorem dev33_eq (c : Dev nD) : (⟨k0_dev33 c, k0_dev33_lt c⟩ : Dev nD) = peer c 1 := Fin.ext ((k0_dev33_eq c).trans (by rw [peer_val]; rfl))
theorem dev34_eq (c : Dev nD) : (⟨k0_dev34 c, k0_dev34_lt c⟩ : Dev nD) = peer c 2 := Fin.ext ((k0_dev34_eq c).trans (by rw [peer_val]; rfl))
theorem dev35_eq (c : Dev nD) : (⟨k0_dev35 c, k0_dev35_lt c⟩ : Dev nD) = peer c 3 := Fin.ext ((k0_dev35_eq c).trans (by rw [peer_val]; rfl))
theorem dev36_eq (c : Dev nD) : (⟨k0_dev36 c, k0_dev36_lt c⟩ : Dev nD) = peer c 4 := Fin.ext ((k0_dev36_eq c).trans (by rw [peer_val]; rfl))
theorem dev37_eq (c : Dev nD) : (⟨k0_dev37 c, k0_dev37_lt c⟩ : Dev nD) = peer c 5 := Fin.ext ((k0_dev37_eq c).trans (by rw [peer_val]; rfl))
theorem dev38_eq (c : Dev nD) : (⟨k0_dev38 c, k0_dev38_lt c⟩ : Dev nD) = peer c 6 := Fin.ext ((k0_dev38_eq c).trans (by rw [peer_val]; rfl))
theorem dev39_eq (c : Dev nD) : (⟨k0_dev39 c, k0_dev39_lt c⟩ : Dev nD) = peer c 7 := Fin.ext ((k0_dev39_eq c).trans (by rw [peer_val]; rfl))
theorem dev40_eq (c : Dev nD) : (⟨k0_dev40 c, k0_dev40_lt c⟩ : Dev nD) = peer c 8 := Fin.ext ((k0_dev40_eq c).trans (by rw [peer_val]; rfl))
theorem dev41_eq (c : Dev nD) : (⟨k0_dev41 c, k0_dev41_lt c⟩ : Dev nD) = peer c 9 := Fin.ext ((k0_dev41_eq c).trans (by rw [peer_val]; rfl))
theorem dev42_eq (c : Dev nD) : (⟨k0_dev42 c, k0_dev42_lt c⟩ : Dev nD) = peer c 10 := Fin.ext ((k0_dev42_eq c).trans (by rw [peer_val]; rfl))
theorem dev43_eq (c : Dev nD) : (⟨k0_dev43 c, k0_dev43_lt c⟩ : Dev nD) = peer c 11 := Fin.ext ((k0_dev43_eq c).trans (by rw [peer_val]; rfl))
theorem dev44_eq (c : Dev nD) : (⟨k0_dev44 c, k0_dev44_lt c⟩ : Dev nD) = peer c 12 := Fin.ext ((k0_dev44_eq c).trans (by rw [peer_val]; rfl))
theorem dev45_eq (c : Dev nD) : (⟨k0_dev45 c, k0_dev45_lt c⟩ : Dev nD) = peer c 13 := Fin.ext ((k0_dev45_eq c).trans (by rw [peer_val]; rfl))
theorem dev46_eq (c : Dev nD) : (⟨k0_dev46 c, k0_dev46_lt c⟩ : Dev nD) = peer c 14 := Fin.ext ((k0_dev46_eq c).trans (by rw [peer_val]; rfl))
theorem dev47_eq (c : Dev nD) : (⟨k0_dev47 c, k0_dev47_lt c⟩ : Dev nD) = peer c 15 := Fin.ext ((k0_dev47_eq c).trans (by rw [peer_val]; rfl))
theorem dev48_eq (c : Dev nD) : (⟨k0_dev48 c, k0_dev48_lt c⟩ : Dev nD) = peer c 16 := Fin.ext ((k0_dev48_eq c).trans (by rw [peer_val]; rfl))
theorem dev49_eq (c : Dev nD) : (⟨k0_dev49 c, k0_dev49_lt c⟩ : Dev nD) = peer c 17 := Fin.ext ((k0_dev49_eq c).trans (by rw [peer_val]; rfl))
theorem dev50_eq (c : Dev nD) : (⟨k0_dev50 c, k0_dev50_lt c⟩ : Dev nD) = peer c 18 := Fin.ext ((k0_dev50_eq c).trans (by rw [peer_val]; rfl))
theorem dev51_eq (c : Dev nD) : (⟨k0_dev51 c, k0_dev51_lt c⟩ : Dev nD) = peer c 19 := Fin.ext ((k0_dev51_eq c).trans (by rw [peer_val]; rfl))
theorem dev52_eq (c : Dev nD) : (⟨k0_dev52 c, k0_dev52_lt c⟩ : Dev nD) = peer c 20 := Fin.ext ((k0_dev52_eq c).trans (by rw [peer_val]; rfl))
theorem dev53_eq (c : Dev nD) : (⟨k0_dev53 c, k0_dev53_lt c⟩ : Dev nD) = peer c 21 := Fin.ext ((k0_dev53_eq c).trans (by rw [peer_val]; rfl))
theorem dev54_eq (c : Dev nD) : (⟨k0_dev54 c, k0_dev54_lt c⟩ : Dev nD) = peer c 22 := Fin.ext ((k0_dev54_eq c).trans (by rw [peer_val]; rfl))
theorem dev55_eq (c : Dev nD) : (⟨k0_dev55 c, k0_dev55_lt c⟩ : Dev nD) = peer c 23 := Fin.ext ((k0_dev55_eq c).trans (by rw [peer_val]; rfl))
theorem dev56_eq (c : Dev nD) : (⟨k0_dev56 c, k0_dev56_lt c⟩ : Dev nD) = peer c 24 := Fin.ext ((k0_dev56_eq c).trans (by rw [peer_val]; rfl))
theorem dev57_eq (c : Dev nD) : (⟨k0_dev57 c, k0_dev57_lt c⟩ : Dev nD) = peer c 25 := Fin.ext ((k0_dev57_eq c).trans (by rw [peer_val]; rfl))
theorem dev58_eq (c : Dev nD) : (⟨k0_dev58 c, k0_dev58_lt c⟩ : Dev nD) = peer c 26 := Fin.ext ((k0_dev58_eq c).trans (by rw [peer_val]; rfl))
theorem dev59_eq (c : Dev nD) : (⟨k0_dev59 c, k0_dev59_lt c⟩ : Dev nD) = peer c 27 := Fin.ext ((k0_dev59_eq c).trans (by rw [peer_val]; rfl))
theorem dev60_eq (c : Dev nD) : (⟨k0_dev60 c, k0_dev60_lt c⟩ : Dev nD) = peer c 28 := Fin.ext ((k0_dev60_eq c).trans (by rw [peer_val]; rfl))
theorem dev61_eq (c : Dev nD) : (⟨k0_dev61 c, k0_dev61_lt c⟩ : Dev nD) = peer c 29 := Fin.ext ((k0_dev61_eq c).trans (by rw [peer_val]; rfl))
theorem dev62_eq (c : Dev nD) : (⟨k0_dev62 c, k0_dev62_lt c⟩ : Dev nD) = peer c 30 := Fin.ext ((k0_dev62_eq c).trans (by rw [peer_val]; rfl))
theorem dev63_eq (c : Dev nD) : (⟨k0_dev63 c, k0_dev63_lt c⟩ : Dev nD) = peer c 0 := Fin.ext ((k0_dev63_eq c).trans (by rw [peer_val]; rfl))
theorem dev64_eq (c : Dev nD) : (⟨k0_dev64 c, k0_dev64_lt c⟩ : Dev nD) = peer c 1 := Fin.ext ((k0_dev64_eq c).trans (by rw [peer_val]; rfl))
theorem dev65_eq (c : Dev nD) : (⟨k0_dev65 c, k0_dev65_lt c⟩ : Dev nD) = peer c 2 := Fin.ext ((k0_dev65_eq c).trans (by rw [peer_val]; rfl))
theorem dev66_eq (c : Dev nD) : (⟨k0_dev66 c, k0_dev66_lt c⟩ : Dev nD) = peer c 3 := Fin.ext ((k0_dev66_eq c).trans (by rw [peer_val]; rfl))
theorem dev67_eq (c : Dev nD) : (⟨k0_dev67 c, k0_dev67_lt c⟩ : Dev nD) = peer c 4 := Fin.ext ((k0_dev67_eq c).trans (by rw [peer_val]; rfl))
theorem dev68_eq (c : Dev nD) : (⟨k0_dev68 c, k0_dev68_lt c⟩ : Dev nD) = peer c 5 := Fin.ext ((k0_dev68_eq c).trans (by rw [peer_val]; rfl))
theorem dev69_eq (c : Dev nD) : (⟨k0_dev69 c, k0_dev69_lt c⟩ : Dev nD) = peer c 6 := Fin.ext ((k0_dev69_eq c).trans (by rw [peer_val]; rfl))
theorem dev70_eq (c : Dev nD) : (⟨k0_dev70 c, k0_dev70_lt c⟩ : Dev nD) = peer c 7 := Fin.ext ((k0_dev70_eq c).trans (by rw [peer_val]; rfl))
theorem dev71_eq (c : Dev nD) : (⟨k0_dev71 c, k0_dev71_lt c⟩ : Dev nD) = peer c 8 := Fin.ext ((k0_dev71_eq c).trans (by rw [peer_val]; rfl))
theorem dev72_eq (c : Dev nD) : (⟨k0_dev72 c, k0_dev72_lt c⟩ : Dev nD) = peer c 9 := Fin.ext ((k0_dev72_eq c).trans (by rw [peer_val]; rfl))
theorem dev73_eq (c : Dev nD) : (⟨k0_dev73 c, k0_dev73_lt c⟩ : Dev nD) = peer c 10 := Fin.ext ((k0_dev73_eq c).trans (by rw [peer_val]; rfl))
theorem dev74_eq (c : Dev nD) : (⟨k0_dev74 c, k0_dev74_lt c⟩ : Dev nD) = peer c 11 := Fin.ext ((k0_dev74_eq c).trans (by rw [peer_val]; rfl))
theorem dev75_eq (c : Dev nD) : (⟨k0_dev75 c, k0_dev75_lt c⟩ : Dev nD) = peer c 12 := Fin.ext ((k0_dev75_eq c).trans (by rw [peer_val]; rfl))
theorem dev76_eq (c : Dev nD) : (⟨k0_dev76 c, k0_dev76_lt c⟩ : Dev nD) = peer c 13 := Fin.ext ((k0_dev76_eq c).trans (by rw [peer_val]; rfl))
theorem dev77_eq (c : Dev nD) : (⟨k0_dev77 c, k0_dev77_lt c⟩ : Dev nD) = peer c 14 := Fin.ext ((k0_dev77_eq c).trans (by rw [peer_val]; rfl))
theorem dev78_eq (c : Dev nD) : (⟨k0_dev78 c, k0_dev78_lt c⟩ : Dev nD) = peer c 15 := Fin.ext ((k0_dev78_eq c).trans (by rw [peer_val]; rfl))
theorem dev79_eq (c : Dev nD) : (⟨k0_dev79 c, k0_dev79_lt c⟩ : Dev nD) = peer c 16 := Fin.ext ((k0_dev79_eq c).trans (by rw [peer_val]; rfl))
theorem dev80_eq (c : Dev nD) : (⟨k0_dev80 c, k0_dev80_lt c⟩ : Dev nD) = peer c 17 := Fin.ext ((k0_dev80_eq c).trans (by rw [peer_val]; rfl))
theorem dev81_eq (c : Dev nD) : (⟨k0_dev81 c, k0_dev81_lt c⟩ : Dev nD) = peer c 18 := Fin.ext ((k0_dev81_eq c).trans (by rw [peer_val]; rfl))
theorem dev82_eq (c : Dev nD) : (⟨k0_dev82 c, k0_dev82_lt c⟩ : Dev nD) = peer c 19 := Fin.ext ((k0_dev82_eq c).trans (by rw [peer_val]; rfl))
theorem dev83_eq (c : Dev nD) : (⟨k0_dev83 c, k0_dev83_lt c⟩ : Dev nD) = peer c 20 := Fin.ext ((k0_dev83_eq c).trans (by rw [peer_val]; rfl))
theorem dev84_eq (c : Dev nD) : (⟨k0_dev84 c, k0_dev84_lt c⟩ : Dev nD) = peer c 21 := Fin.ext ((k0_dev84_eq c).trans (by rw [peer_val]; rfl))
theorem dev85_eq (c : Dev nD) : (⟨k0_dev85 c, k0_dev85_lt c⟩ : Dev nD) = peer c 22 := Fin.ext ((k0_dev85_eq c).trans (by rw [peer_val]; rfl))
theorem dev86_eq (c : Dev nD) : (⟨k0_dev86 c, k0_dev86_lt c⟩ : Dev nD) = peer c 23 := Fin.ext ((k0_dev86_eq c).trans (by rw [peer_val]; rfl))
theorem dev87_eq (c : Dev nD) : (⟨k0_dev87 c, k0_dev87_lt c⟩ : Dev nD) = peer c 24 := Fin.ext ((k0_dev87_eq c).trans (by rw [peer_val]; rfl))
theorem dev88_eq (c : Dev nD) : (⟨k0_dev88 c, k0_dev88_lt c⟩ : Dev nD) = peer c 25 := Fin.ext ((k0_dev88_eq c).trans (by rw [peer_val]; rfl))
theorem dev89_eq (c : Dev nD) : (⟨k0_dev89 c, k0_dev89_lt c⟩ : Dev nD) = peer c 26 := Fin.ext ((k0_dev89_eq c).trans (by rw [peer_val]; rfl))
theorem dev90_eq (c : Dev nD) : (⟨k0_dev90 c, k0_dev90_lt c⟩ : Dev nD) = peer c 27 := Fin.ext ((k0_dev90_eq c).trans (by rw [peer_val]; rfl))
theorem dev91_eq (c : Dev nD) : (⟨k0_dev91 c, k0_dev91_lt c⟩ : Dev nD) = peer c 28 := Fin.ext ((k0_dev91_eq c).trans (by rw [peer_val]; rfl))
theorem dev92_eq (c : Dev nD) : (⟨k0_dev92 c, k0_dev92_lt c⟩ : Dev nD) = peer c 29 := Fin.ext ((k0_dev92_eq c).trans (by rw [peer_val]; rfl))
theorem dev93_eq (c : Dev nD) : (⟨k0_dev93 c, k0_dev93_lt c⟩ : Dev nD) = peer c 30 := Fin.ext ((k0_dev93_eq c).trans (by rw [peer_val]; rfl))

end Cert.KernelIdeal.Hand

end
-- ==== Proof.Cells.lean ====
/-
  The buffers, the sliced views and the semaphore cells of one device, each family indexed by the slot.

  Slot `r` of device `c` names: the 16 rows of its staging copy it sends to `peer c r` (`stSlice c r`, rows
  `16 * peer c r` onwards); slot `r` of its receive scratch (`slotM r`), written by `srcd c r`; and four DMA
  semaphores, one in each of the four arrays (send and receive of the reduce-scatter, send and receive of the
  all-gather).  The result's staging buffer is cut in 32 blocks of 16 rows, `outSlice b` the block of device `b`.
-/
import proofs.«900471_g7700000000000472_dist_rs_then_ag_i_m512_n512_v7x_i32_bf16_1_alg».proof.Proof.Ring

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Buffers and their slices -/

abbrev xM : Memref sig .tc .vmem S512x512 .f32 := Memref.whole cc0_stg0_0
abbrev oM : Memref sig .tc .vmem S512x512 .bf16 := Memref.whole cc0_stg1_0
abbrev stM : Memref sig .tc .vmem S512x512 .bf16 := Memref.whole cc0_scratch0
abbrev rsM : Memref sig .tc .vmem S31x16x512 .bf16 := Memref.whole cc0_scratch1
abbrev redM : Memref sig .tc .vmem S16x512 .bf16 := Memref.whole cc0_scratch2

theorem slot_inb : ∀ (r : Fin 31) a, (![r.val, 0, 0] : Fin 3 → ℕ) a + S1x16x512.size a ≤ S31x16x512.size a := by decide +kernel
theorem sem_inb : ∀ (r : Fin 31) a, (![r.val] : Fin 1 → ℕ) a + S1.size a ≤ S31.size a := by decide +kernel

/-- Slot `r` of the receive scratch, as a rectangle of the whole scratch (the accumulation's loads read it). -/
abbrev slotRect (r : Fin 31) : Rect S31x16x512 := Rect.unit (s := S31x16x512) ![r.val, 0, 0] S1x16x512.size (slot_inb r)
/-- Slot `r` of the receive scratch, as the 16 x 512 destination of a copy. -/
abbrev slotM (r : Fin 31) : Memref sig .tc .vmem S16x512 .bf16 :=
  (rsM.slice (slotRect r) (fun _ => rfl)).squeeze S16x512 squeezes_S1x16x512_S16x512
/-- The rows of the staging copy device `c` sends with slot `r`. -/
abbrev stSlice (c : Dev nD) (r : Fin 31) : Memref sig .tc .vmem S16x512 .bf16 :=
  stM.slice (Rect.unit (s := S512x512) (k0_off1 c (BitVec.ofNat 32 (1 + r.val))) S16x512.size (k0_off1_inb c r)) (fun _ => rfl)
/-- Block `b` (rows `16 b` onwards) of the result's staging buffer. -/
abbrev outSlice (b : Dev nD) : Memref sig .tc .vmem S16x512 .bf16 :=
  oM.slice (Rect.unit (s := S512x512) (k0_off3 b) S16x512.size (k0_off3_inb b)) (fun _ => rfl)

/-! ## Semaphores and cells -/

abbrev barS : Sem sig := (SemArray.scalar (sig.barrier 0 rfl) : Sems sig S_).sem
abbrev semAt (A : DmaSems sig S31) (r : Fin 31) : DmaSem sig :=
  ((A.slice (Rect.unit (s := S31) ![r.val] S1.size (sem_inb r))).squeeze S_ squeezes_S1_S_).sem
abbrev rsSendS (r : Fin 31) : DmaSem sig := semAt cc0_scratch3 r
abbrev rsRecvS (r : Fin 31) : DmaSem sig := semAt cc0_scratch4 r
abbrev agSendS (r : Fin 31) : DmaSem sig := semAt cc0_scratch5 r
abbrev agRecvS (r : Fin 31) : DmaSem sig := semAt cc0_scratch6 r

theorem rsSendS_val : ∀ r : Fin 31, (rsSendS r).val = 2 + r.val := by decide +kernel
theorem rsRecvS_val : ∀ r : Fin 31, (rsRecvS r).val = 33 + r.val := by decide +kernel
theorem agSendS_val : ∀ r : Fin 31, (agSendS r).val = 64 + r.val := by decide +kernel
theorem agRecvS_val : ∀ r : Fin 31, (agRecvS r).val = 95 + r.val := by decide +kernel

/-- A device's cells: `none` the barrier, `some (j, r)` the semaphore of slot `r` in array `j`
    (0 reduce-scatter send, 1 reduce-scatter receive, 2 all-gather send, 3 all-gather receive). -/
abbrev CK : Type := Option (Fin 4 × Fin 31)
def dsem : Fin 4 → Fin 31 → DmaSem sig
  | 0, r => rsSendS r | 1, r => rsRecvS r | 2, r => agSendS r | 3, r => agRecvS r
def csem : CK → SemLoc sig
  | none => .reg barS
  | some (j, r) => .dma (dsem j r)
abbrev kcell (ck : Dev nD × CK) : GSem nD τ sig := ((ck.1 : Thread nD τ), csem ck.2)

abbrev barCell (c : Dev nD) : GSem nD τ sig := ((c : Thread nD τ), .reg barS)
abbrev rsSendCell (c : Dev nD) (r : Fin 31) : GSem nD τ sig := ((c : Thread nD τ), .dma (rsSendS r))
abbrev rsRecvCell (c : Dev nD) (r : Fin 31) : GSem nD τ sig := ((c : Thread nD τ), .dma (rsRecvS r))
abbrev agSendCell (c : Dev nD) (r : Fin 31) : GSem nD τ sig := ((c : Thread nD τ), .dma (agSendS r))
abbrev agRecvCell (c : Dev nD) (r : Fin 31) : GSem nD τ sig := ((c : Thread nD τ), .dma (agRecvS r))

theorem dsem_val : ∀ (j : Fin 4) (r : Fin 31), (dsem j r).val = 2 + 31 * j.val + r.val := by decide +kernel
theorem dsem_inj : ∀ (j j' : Fin 4) (r r' : Fin 31), dsem j r = dsem j' r' → j = j' ∧ r = r' := by
  intro j j' r r' h
  have := congrArg Fin.val h
  rw [dsem_val, dsem_val] at this
  constructor
  · exact Fin.ext (by omega)
  · exact Fin.ext (by omega)
theorem csem_inj : Function.Injective csem := by
  rintro (_ | ⟨j, r⟩) (_ | ⟨j', r'⟩) h
  · rfl
  · cases h
  · cases h
  · have h' : dsem j r = dsem j' r' := by simpa [csem] using h
    obtain ⟨rfl, rfl⟩ := dsem_inj _ _ _ _ h'
    rfl
theorem kcell_injective : Function.Injective (kcell : Dev nD × CK → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_inj h2]

/-- One copy's credit: every copy of this kernel moves a 16 x 512 block of bf16. -/
abbrev N : ℕ := (redM : Memref sig .tc .vmem S16x512 .bf16).view.dmaCredit
theorem N_pos : 0 < N := View.dmaCredit_pos _ (by decide)

/-! ## Values -/

variable (m : (ℓ : Loc nD τ sig) → Buf (Elt F) ℓ)

/-- Device `c`'s block of `x`, as its input window stages it. -/
def xstg (c : Dev nD) : (cc0_stg0_0 : Ref sig .tc).ty.Contents (Elt F) :=
  (win0_0.blk (0 : Fin 1)).view.read (Elt F) (m ((c : Thread nD τ).loc main_arg0))
/-- The staging copy: the block in the narrower format. -/
def stagev (c : Dev nD) : (cc0_scratch0 : Ref sig .tc).ty.Contents (Elt F) := k0_pay1 (xstg m c)
/-- What device `s` sends with slot `r`: rows `16 * peer s r` onwards of its staging copy. -/
def sentv (s : Dev nD) (r : Fin 31) : S16x512.Idx → Elt F .bf16 := (stSlice s r).view.read (Elt F) (stagev m s)

/-- Slot `r` of device `c`'s receive scratch once `srcd c r`'s block has landed in it, as the accumulation loads it
    (what lay in the scratch before does not matter: the load reads the slot only). -/
def slotLd (c : Dev nD) (r : Fin 31) : Vec F S1x16x512 .bf16 :=
  rsM.view.readAt (Elt F) (slotRect r).toLoadRect
    ((slotM r).view.write (Elt F) (fun _ => Classical.arbitrary _) (sentv m (srcd c r) r) Finset.univ)

/-- Device `c`'s own 16 rows of its block of `x` (rows `16 c` onwards). -/
def xsl (c : Dev nD) : Vec F S16x512 .f32 :=
  xM.view.readAt (Elt F) (Rect.unit (s := S512x512) (k0_off2 c) S16x512.size (k0_off2_inb c)).toLoadRect (xstg m c)

/-- The reduced block of device `c`: its own rows plus the 31 landed slots, in slot order. -/
def redv (c : Dev nD) : (cc0_scratch2 : Ref sig .tc).ty.Contents (Elt F) :=
  k0_pay13 (k0_pay12 (k0_pay11 (k0_pay10 (k0_pay9 (k0_pay8 (k0_pay7 (k0_pay6 (k0_pay5 (k0_pay4 (k0_pay3
    (k0_pay2 (xsl m c) (slotLd m c 0) (slotLd m c 1))
    (slotLd m c 2) (slotLd m c 3) (slotLd m c 4))
    (slotLd m c 5) (slotLd m c 6))
    (slotLd m c 7) (slotLd m c 8) (slotLd m c 9))
    (slotLd m c 10) (slotLd m c 11) (slotLd m c 12))
    (slotLd m c 13) (slotLd m c 14))
    (slotLd m c 15) (slotLd m c 16) (slotLd m c 17))
    (slotLd m c 18) (slotLd m c 19))
    (slotLd m c 20) (slotLd m c 21) (slotLd m c 22))
    (slotLd m c 23) (slotLd m c 24) (slotLd m c 25))
    (slotLd m c 26) (slotLd m c 27))
    (slotLd m c 28) (slotLd m c 29) (slotLd m c 30)

/-! ## Shares: the reduced block is read by 31 copies at once -/

/-- What is left of the full share after `k` halvings, and the `k`-th half handed out. -/
def rst : ℕ → PosShare TreeShare
  | 0 => fullShare
  | k + 1 => (rst k).right
def shr (k : ℕ) : PosShare TreeShare := (rst k).left
theorem shr_rst (k : ℕ) : rst k ∈ PCS.op (shr k) (rst (k + 1)) := by
  unfold shr; rw [show rst (k + 1) = (rst k).right from rfl, PosShare.left_op_right]; exact Part.mem_some _

end Cert.KernelIdeal.Hand

end
-- ==== Proof.Schedule.lean ====
/-
  The protocol as a schedule of rounds.  Every cell has one round.

  Barrier cell of `c`: 31 duties of one unit; duty `r` is paid by `peer c r` and hands `c` two things of THAT device's —
  slot `r` of its receive scratch and block `c` of its result buffer — which is what `c` needs to copy into them.
  Receive cell `r` of the reduce-scatter on `c`: one duty, paid by the copy of `srcd c r`; the landing hands back
  slot `r` holding that device's rows for `c`.  Receive cell `r` of the all-gather: one duty, paid by `srcd c r`'s
  copy; the landing hands back that device's block of the result buffer holding its reduced rows.  The two send cells:
  one duty each, paid when the source has been read, handing the source (or the share of it that was lent) back.
  What a device owes at launch is a list, in the order it pays: 31 barrier units, 31 reduce-scatter blocks, 31
  all-gather blocks.  Levels: barrier 1, reduce-scatter receive 2, all-gather receive 3, everything else 0 — each wait
  happens when all that is still owed lies strictly above it.
-/
import proofs.«900471_g7700000000000472_dist_rs_then_ag_i_m512_n512_v7x_i32_bf16_1_alg».proof.Proof.Cells

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy beside the protocol's (duties named by slots) -/

abbrev UB : Type := URounds (GSem nD τ sig) (Fin 31)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Pieces of buffers -/

def slotPts (e : Dev nD) (r : Fin 31) (f : Buf (Elt F) ((slotM r).view.loc (e : Thread nD τ))) : sProp 𝕄 :=
  (slotM r).view.loc (e : Thread nD τ) ↦[(slotM r).view.set]{fullShare} f
def outPts (e b : Dev nD) (f : Buf (Elt F) ((outSlice b).view.loc (e : Thread nD τ))) : sProp 𝕄 :=
  (outSlice b).view.loc (e : Thread nD τ) ↦[(outSlice b).view.set]{fullShare} f
def stPts (c : Dev nD) (r : Fin 31) : sProp 𝕄 :=
  (stSlice c r).view.loc (c : Thread nD τ) ↦[(stSlice c r).view.set]{fullShare} stagev m c
def redPts (c : Dev nD) (q : PosShare TreeShare) : sProp 𝕄 :=
  (redM : Memref sig .tc .vmem S16x512 .bf16).view.loc (c : Thread nD τ) ↦[(redM : Memref sig .tc .vmem S16x512 .bf16).view.set]{q} redv m c

/-! ## Payloads -/

def barPay (c : Dev nD) (r : Fin 31) : sProp 𝕄 := iprop((∃ f, slotPts (peer c r) r f) ∗ (∃ f, outPts (peer c r) c f))
def rsRecvPay (c : Dev nD) (r : Fin 31) : sProp 𝕄 :=
  iprop(∃ fd, slotPts c r ((slotM r).view.write (Elt F) fd (sentv m (srcd c r) r) Finset.univ))
def rsSendPay (c : Dev nD) (r : Fin 31) : sProp 𝕄 := stPts m c r
def agRecvPay (c : Dev nD) (r : Fin 31) : sProp 𝕄 :=
  iprop(∃ fd, outPts c (srcd c r) ((outSlice (srcd c r)).view.write (Elt F) fd
    ((redM : Memref sig .tc .vmem S16x512 .bf16).view.read (Elt F) (redv m (srcd c r))) Finset.univ))
def agSendPay (c : Dev nD) (r : Fin 31) : sProp 𝕄 := redPts m c (shr r.val)

/-- Which array a DMA semaphore of the protocol lies in, and which slot it is. -/
def arrOf (q : DmaSem sig) : ℕ := (q.val - 2) / 31
def slotOf (q : DmaSem sig) : Fin 31 := ⟨(q.val - 2) % 31, Nat.mod_lt _ (by decide)⟩
theorem arrOf_dsem : ∀ (j : Fin 4) (r : Fin 31), arrOf (dsem j r) = j.val := by decide +kernel
theorem slotOf_dsem : ∀ (j : Fin 4) (r : Fin 31), slotOf (dsem j r) = r := by decide +kernel
theorem two_le_dsem : ∀ (j : Fin 4) (r : Fin 31), 2 ≤ (dsem j r).val := by decide +kernel

def dmaPay (c : Dev nD) (q : DmaSem sig) : sProp 𝕄 :=
  if 2 ≤ q.val then
    (if arrOf q = 0 then rsSendPay m c (slotOf q) else if arrOf q = 1 then rsRecvPay m c (slotOf q)
     else if arrOf q = 2 then agSendPay m c (slotOf q) else agRecvPay m c (slotOf q))
  else iprop(emp)

abbrev IsBar (g : GSem nD τ sig) : Prop := g.1.2 = .tc ∧ g.2 = .reg barS
abbrev IsXfer (g : GSem nD τ sig) : Prop := g.1.2 = .tc ∧ ∃ q : DmaSem sig, 2 ≤ q.val ∧ g.2 = .dma q

def sched : Rounds.Schedule (GSem nD τ sig) (Fin 31) 𝕄 where
  duties g r := if r = 0 ∧ IsBar g then Finset.univ else if r = 0 ∧ IsXfer g then {0} else ∅
  unitless _ := False
  amount g _ _ := if g.2 = .reg barS then 1 else N
  payload g _ d := match g.2 with
    | .reg s => if s = barS then barPay g.1.1 d else iprop(emp)
    | .dma q => dmaPay m g.1.1 q
  amount_pos g _ _ _ := by
    by_cases h : g.2 = .reg barS
    · rw [if_pos h]; exact Nat.one_pos
    · rw [if_neg h]; exact N_pos

instance sched_payload_storable (g : GSem nD τ sig) (r : ℕ) (d : Fin 31) :
    BI.Storable (upEmb : UEmb _ 𝕄) ((sched (F := F) m).payload g r d) := by
  obtain ⟨t, sm⟩ := g
  cases sm with
  | reg s =>
    show BI.Storable upEmb (if s = barS then barPay t.1 d else iprop(emp))
    unfold barPay slotPts outPts
    split <;> infer_instance
  | dma q =>
    show BI.Storable upEmb (dmaPay m t.1 q)
    unfold dmaPay rsSendPay rsRecvPay agSendPay agRecvPay stPts redPts slotPts outPts
    (repeat' split) <;> infer_instance

section Tables
variable (c : Dev nD) (j : Fin 4) (r : Fin 31)

abbrev dmaCell (c : Dev nD) (j : Fin 4) (r : Fin 31) : GSem nD τ sig := ((c : Thread nD τ), .dma (dsem j r))

theorem dma_ne_bar (q : DmaSem sig) : (SemLoc.dma q : SemLoc sig) ≠ .reg barS := fun h => by cases h
theorem not_bar_dma : ¬ IsBar (dmaCell c j r) := fun h => dma_ne_bar _ h.2
theorem isXfer_dma : IsXfer (dmaCell c j r) := ⟨rfl, dsem j r, two_le_dsem j r, rfl⟩

theorem duties_bar : (sched (F := F) m).duties (barCell c) 0 = Finset.univ := by dsimp only [sched]; exact if_pos ⟨rfl, rfl, rfl⟩
theorem duties_dma : (sched (F := F) m).duties (dmaCell c j r) 0 = {0} := by
  dsimp only [sched]; rw [if_neg (fun h => not_bar_dma c j r h.2)]; exact if_pos ⟨rfl, isXfer_dma c j r⟩
theorem duties_later (g : GSem nD τ sig) : ∀ r, 1 ≤ r → (sched (F := F) m).duties g r = ∅ :=
  fun r hr => by dsimp only [sched]; rw [if_neg fun h => by omega, if_neg fun h => by omega]

theorem amount_bar (d : Fin 31) : (sched (F := F) m).amount (barCell c) 0 d = 1 := by dsimp only [sched]; exact if_pos rfl
theorem amount_dma (d : Fin 31) : (sched (F := F) m).amount (dmaCell c j r) 0 d = N := by dsimp only [sched]; exact if_neg (dma_ne_bar _)

theorem expect_bar : (sched (F := F) m).expect (barCell c) 0 = 31 := by
  unfold Schedule.expect Schedule.amountOf
  rw [duties_bar, Finset.sum_congr rfl fun d _ => amount_bar m c d, Finset.sum_const, Finset.card_univ, Fintype.card_fin, smul_eq_mul]
theorem expect_dma : (sched (F := F) m).expect (dmaCell c j r) 0 = N := by
  unfold Schedule.expect Schedule.amountOf; rw [duties_dma, Finset.sum_singleton, amount_dma]

theorem payload_bar (d : Fin 31) : (sched (F := F) m).payload (barCell c) 0 d = barPay c d := by
  show (if barS = barS then barPay c d else iprop(emp)) = _
  rw [if_pos rfl]
theorem payload_dma (d : Fin 31) : (sched (F := F) m).payload (dmaCell c j r) 0 d = dmaPay m c (dsem j r) := rfl
theorem dmaPay_rsSend : dmaPay m c (rsSendS r) = rsSendPay m c r := by
  have h : arrOf (rsSendS r) = 0 := arrOf_dsem 0 r
  have h2 : slotOf (rsSendS r) = r := slotOf_dsem 0 r
  have h3 : 2 ≤ (rsSendS r).val := two_le_dsem 0 r
  unfold dmaPay; rw [if_pos h3, if_pos h, h2]
theorem dmaPay_rsRecv : dmaPay m c (rsRecvS r) = rsRecvPay m c r := by
  have h : arrOf (rsRecvS r) = 1 := arrOf_dsem 1 r
  have h2 : slotOf (rsRecvS r) = r := slotOf_dsem 1 r
  have h3 : 2 ≤ (rsRecvS r).val := two_le_dsem 1 r
  unfold dmaPay; rw [if_pos h3, if_neg (by rw [h]; decide), if_pos h, h2]
theorem dmaPay_agSend : dmaPay m c (agSendS r) = agSendPay m c r := by
  have h : arrOf (agSendS r) = 2 := arrOf_dsem 2 r
  have h2 : slotOf (agSendS r) = r := slotOf_dsem 2 r
  have h3 : 2 ≤ (agSendS r).val := two_le_dsem 2 r
  unfold dmaPay; rw [if_pos h3, if_neg (by rw [h]; decide), if_neg (by rw [h]; decide), if_pos h, h2]
theorem dmaPay_agRecv : dmaPay m c (agRecvS r) = agRecvPay m c r := by
  have h : arrOf (agRecvS r) = 3 := arrOf_dsem 3 r
  have h2 : slotOf (agRecvS r) = r := slotOf_dsem 3 r
  have h3 : 2 ≤ (agRecvS r).val := two_le_dsem 3 r
  unfold dmaPay; rw [if_pos h3, if_neg (by rw [h]; decide), if_neg (by rw [h]; decide), if_neg (by rw [h]; decide), h2]

/-- The whole of the barrier's round: every peer's slot and block. -/
theorem rest_bar : bigSep ((sched (F := F) m).duties (barCell c) 0 \ ∅) (fun d => (sched (F := F) m).payload (barCell c) 0 d)
    = bigSep Finset.univ (fun d : Fin 31 => barPay (F := F) c d) := by
  rw [Finset.sdiff_empty, duties_bar]
  exact bigSep_congr fun d _ => payload_bar m c d
theorem rest_dma : bigSep ((sched (F := F) m).duties (dmaCell c j r) 0 \ ∅) (fun d => (sched (F := F) m).payload (dmaCell c j r) 0 d)
    = dmaPay m c (dsem j r) := by
  rw [Finset.sdiff_empty, duties_dma, bigSep_singleton, payload_dma]

end Tables

/-! ## What each device owes at launch, as a list in paying order; the levels -/

/-- A list of (cell, units) as a tally. -/
def OL (l : List (GSem nD τ sig × ℕ)) : CellTallies nD τ sig Unit := (l.map fun p => tallyAt p.1 () p.2).sum
theorem OL_nil : OL ([] : List (GSem nD τ sig × ℕ)) = 0 := rfl
theorem OL_cons (p : GSem nD τ sig × ℕ) (l : List (GSem nD τ sig × ℕ)) : OL (p :: l) = OL l + tallyAt p.1 () p.2 := by
  unfold OL; rw [List.map_cons, List.sum_cons, add_comm]
theorem OL_pos {l : List (GSem nD τ sig × ℕ)} {g : GSem nD τ sig} {u : Unit} (h : 0 < OL l g u) : ∃ p ∈ l, g = p.1 := by
  induction l with
  | nil => exact absurd h (Nat.lt_irrefl 0)
  | cons p l ih =>
    rw [OL_cons, Pi.add_apply, Finsupp.add_apply, tallyAt_apply] at h
    by_cases hp : g = p.1 ∧ u = ()
    · exact ⟨p, List.mem_cons_self .., hp.1⟩
    · rw [if_neg hp, Nat.add_zero] at h
      obtain ⟨p', hp', e⟩ := ih h
      exact ⟨p', List.mem_cons_of_mem _ hp', e⟩

def sigItems (c : Dev nD) (k : ℕ) : List (GSem nD τ sig × ℕ) := ((List.finRange 31).drop k).map fun r => (barCell (peer c r), 1)
def rsItems (c : Dev nD) (k : ℕ) : List (GSem nD τ sig × ℕ) := ((List.finRange 31).drop k).map fun r => (rsRecvCell (peer c r) r, N)
def agItems (c : Dev nD) (k : ℕ) : List (GSem nD τ sig × ℕ) := ((List.finRange 31).drop k).map fun r => (agRecvCell (peer c r) r, N)

/-- Everything device `c` owes at launch. -/
def O₀ (c : Dev nD) : CellTallies nD τ sig Unit := OL (sigItems c 0 ++ rsItems c 0 ++ agItems c 0)

theorem drop_finRange (k : Fin 31) : (List.finRange 31).drop k.val = k :: (List.finRange 31).drop (k.val + 1) := by
  rw [List.drop_eq_getElem_cons (by rw [List.length_finRange]; exact k.2), List.getElem_finRange]; rfl
theorem sigItems_step (c : Dev nD) (k : Fin 31) : sigItems c k.val = (barCell (peer c k), 1) :: sigItems c (k.val + 1) := by
  unfold sigItems; rw [drop_finRange, List.map_cons]
theorem rsItems_step (c : Dev nD) (k : Fin 31) : rsItems c k.val = (rsRecvCell (peer c k) k, N) :: rsItems c (k.val + 1) := by
  unfold rsItems; rw [drop_finRange, List.map_cons]
theorem agItems_step (c : Dev nD) (k : Fin 31) : agItems c k.val = (agRecvCell (peer c k) k, N) :: agItems c (k.val + 1) := by
  unfold agItems; rw [drop_finRange, List.map_cons]
theorem sigItems_end (c : Dev nD) : sigItems c 31 = [] := by unfold sigItems; rw [List.drop_of_length_le (by rw [List.length_finRange])]; rfl
theorem rsItems_end (c : Dev nD) : rsItems c 31 = [] := by unfold rsItems; rw [List.drop_of_length_le (by rw [List.length_finRange])]; rfl
theorem agItems_end (c : Dev nD) : agItems c 31 = [] := by unfold agItems; rw [List.drop_of_length_le (by rw [List.length_finRange])]; rfl

def L (g : GSem nD τ sig) : Finset Unit := if g.1.2 = .tc then {()} else ∅
/-- barrier cells at 1, the reduce-scatter's receive cells at 2, the all-gather's at 3, everything else at 0. -/
def lv (g : GSem nD τ sig) (_ : Unit) : ℕ :=
  if g.2 = .reg barS then 1 else if ∃ r, g.2 = .dma (rsRecvS r) then 2 else if ∃ r, g.2 = .dma (agRecvS r) then 3 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := if_pos rfl
theorem rsRecv_ne_agRecv : ∀ r r' : Fin 31, rsRecvS r ≠ agRecvS r' := by decide +kernel
theorem lv_rsRecv (c : Dev nD) (r : Fin 31) (u : Unit) : lv (rsRecvCell c r) u = 2 := by
  unfold lv; rw [if_neg (dma_ne_bar _), if_pos ⟨r, rfl⟩]
theorem lv_agRecv (c : Dev nD) (r : Fin 31) (u : Unit) : lv (agRecvCell c r) u = 3 := by
  unfold lv; rw [if_neg (dma_ne_bar _), if_neg (fun ⟨r', h⟩ => rsRecv_ne_agRecv r' r (by injection h with h; exact h.symm)), if_pos ⟨r, rfl⟩]

end Cert.KernelIdeal.Hand

end
-- ==== Proof.Data.lean ====
/-
  The proof data of the one grid point: what a device starts from, what it ends with, and the contents of the
  result's staging buffer after the body — block `b` (rows `16 b` onwards) holds device `b`'s reduced rows, the same
  on every device.
-/
import proofs.«900471_g7700000000000472_dist_rs_then_ag_i_m512_n512_v7x_i32_bf16_1_alg».proof.Proof.Schedule
import Idealize.ShloMosaic.Lib.ValueIdx

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The result -/

theorem row_lt (i : S512x512.Idx) : (i 0).val < 512 := (i 0).isLt
theorem col_lt (i : S512x512.Idx) : (i 1).val < 512 := (i 1).isLt

/-- The result's staging buffer after the body: row `16 b + k` is row `k` of device `b`'s reduced block. -/
def outv : (cc0_stg1_0 : Ref sig .tc).ty.Contents (Elt F) := fun i =>
  redv m ⟨(i 0).val / 16, by have := row_lt i; show (i 0).val / 16 < 32; omega⟩
    (ValueIdx.ix2 (⟨(i 0).val % 16, Nat.mod_lt _ (by decide)⟩ : Fin 16) (⟨(i 1).val, col_lt i⟩ : Fin 512))

/-! ## Ghost state -/

section Ghost
variable (K : Dev nD × CK → ℕ)

/-- Every cell's invariant, under the names the launch allocated them at, and that every cell has reached its one
    round: persistent, shared by all devices. -/
def records : sProp 𝕄 :=
  iprop((bigSep Finset.univ fun ck : Dev nD × CK => cellInv ER (sched m) (K ck) (kcell ck))
    ∗ bigSep Finset.univ fun ck : Dev nD × CK => reached ER (kcell ck) 0)

instance records_persistent : BI.Persistent (records m K) := by unfold records; infer_instance

theorem inv_at' (ck : Dev nD × CK) :
    (bigSep Finset.univ fun ck : Dev nD × CK => (cellInv ER (sched m) (K ck) (kcell ck) : sProp 𝕄)) ⊢ cellInv ER (sched m) (K ck) (kcell ck) :=
  bigSep_elim (Finset.mem_univ ck)
theorem reached_at' (ck : Dev nD × CK) :
    (bigSep Finset.univ fun ck : Dev nD × CK => (reached ER (kcell ck) 0 : sProp 𝕄)) ⊢ reached ER (kcell ck) 0 :=
  bigSep_elim (Finset.mem_univ ck)
theorem inv_at (ck : Dev nD × CK) : records m K ⊢ cellInv ER (sched m) (K ck) (kcell ck) := by
  unfold records; iintro ⟨HI, -⟩; iapply (inv_at' m K ck); iexact HI
theorem reached_at (ck : Dev nD × CK) : records m K ⊢ (reached ER (kcell ck) 0 : sProp 𝕄) := by
  unfold records; iintro ⟨-, HR⟩; iapply (reached_at' (F := F) ck); iexact HR

/-- The tokens of the duties device `c` pays, slot by slot: its unit on `peer c r`'s barrier (that cell's duty
    `rev r`), its two copies' landings on `peer c r`, and the two send duties of its own. -/
def payTok (c : Dev nD) (r : Fin 31) : sProp 𝕄 :=
  iprop(dutyTok ER (barCell (peer c r)) 0 (rev r) ∗ dutyTok ER (rsRecvCell (peer c r) r) 0 0 ∗ dutyTok ER (agRecvCell (peer c r) r) 0 0
    ∗ dutyTok ER (rsSendCell c r) 0 0 ∗ dutyTok ER (agSendCell c r) 0 0)
def payToks (c : Dev nD) : sProp 𝕄 := bigSep Finset.univ fun r : Fin 31 => payTok (F := F) c r
/-- Its position at the start of the one round of each of its own cells. -/
def positions (c : Dev nD) : sProp 𝕄 := bigSep Finset.univ fun k : CK => atPos ER (kcell (c, k)) 0 ∅ 0

def ghost (c : Dev nD) : sProp 𝕄 := iprop(records m K ∗ positions (F := F) c ∗ payToks (F := F) c)

end Ghost

/-- The credit the launch deals device `c` for what the others owe its cells: 31 barrier units, and one block for
    each receive cell of either phase. -/
def creds (c : Dev nD) : sProp 𝕄 :=
  iprop(cred (tallyAt (barCell c) () 31)
    ∗ bigSep Finset.univ fun r : Fin 31 => iprop(cred (tallyAt (rsRecvCell c r) () N) ∗ cred (tallyAt (agRecvCell c r) () N)))

def start (c : Dev nD) : sProp 𝕄 := iprop((∃ K, ghost m K c) ∗ creds (F := F) c ∗ levAts L lv)

/-- The three scratch buffers, each whole at some contents. -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- The kernel's own DMA semaphores, by array and slot. -/
abbrev osem : Fin 4 × Fin 31 → SemLoc sig := fun jr => .dma (dsem jr.1 jr.2)

def Φ₀ (c : Dev nD) : sProp 𝕄 := iprop(start m c ∗ scr (F := F) c)
/-- After the point: the scratch buffers whole again, the 124 own cells closed at zero. -/
def Φ₁ (c : Dev nD) : sProp 𝕄 := iprop(scr (F := F) c ∗ bigSep Finset.univ fun jr : Fin 4 × Fin 31 => semVal (dmaCell c jr.1 jr.2) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outv m
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-! ## The body's pre and post, as the launch hands them over and takes them back -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × CK → ℕ) (c : Dev nD) : sProp 𝕄 :=
  iprop((ghost m K c ∗ creds (F := F) c ∗ levAts L lv ∗ scr (F := F) c)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ (F := F) c ∗ (dats m 0 c).owesAt () t₀.succ ∗ stg c cc0_stg0_0 (xstg m c) ∗ stg c cc0_stg1_0 (outv m))

/-- The body of device `c`, from its pre to its post: the statement the launch takes. -/
def SoundBody : Prop :=
  ∀ (K : Dev nD × CK → ℕ) (c : Dev nD) (Kt : PUnit → sProp 𝕄),
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6) Kt

end Cert.KernelIdeal.Hand

end
-- ==== Proof.Steps.lean ====
/-
  One rule per protocol operation, at a symbolic device `c` and a symbolic slot `k`: the barrier signal to `peer c k`,
  the barrier wait, the two copies to `peer c k`, and the wait on one of the device's own DMA cells.  Each takes the
  shared records and exactly the pieces it consumes, and peels one item off the list of what the device owes.
-/
import proofs.«900471_g7700000000000472_dist_rs_then_ag_i_m512_n512_v7x_i32_bf16_1_alg».proof.Proof.Data

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)

/-- Every copy of this kernel moves a 16 x 512 block of the narrower format: one credit, whatever the buffer. -/
theorem credit_any (v : View sig Kind.tc Space.vmem S16x512 .bf16) : v.dmaCredit = N := rfl
theorem one_toNat : (1#32 : BitVec 32).toNat = 1 := by decide
theorem tt_toNat : (31#32 : BitVec 32).toNat = 31 := by decide

/-! ## Waiting is allowed when all that is still owed lies strictly above the waited cell -/

theorem mayWait_of_levels (c : Dev nD) (sm : SemLoc sig) (l : List (GSem nD τ sig × ℕ)) (cut : ℕ)
    (hw : lv ((c : Thread nD τ), sm) () ≤ cut) (hl : ∀ p ∈ l, p.1.1.2 = .tc ∧ cut < lv p.1 ()) :
    (levAts L lv : sProp 𝕄) ⊢ MayWait (c : Thread nD τ) sm () (OL l) :=
  MayOwe.of_cut (L := L) (lev := lv) cut
    (fun p hp => by rw [Finset.mem_singleton.mp hp, L_tc]; exact Finset.mem_singleton_self _)
    (fun g u hg => by
      obtain ⟨p, hp, rfl⟩ := OL_pos hg
      unfold L; rw [if_pos (hl p hp).1]; exact Finset.mem_singleton_self _)
    (fun p hp => by rw [Finset.mem_singleton.mp hp]; exact hw)
    (fun g u hg => by obtain ⟨p, hp, rfl⟩ := OL_pos hg; exact (hl p hp).2)

theorem mem_rsItems {c : Dev nD} {k : ℕ} {p : GSem nD τ sig × ℕ} (h : p ∈ rsItems c k) : ∃ r : Fin 31, p = (rsRecvCell (peer c r) r, N) := by
  unfold rsItems at h; obtain ⟨r, -, rfl⟩ := List.mem_map.mp h; exact ⟨r, rfl⟩
theorem mem_agItems {c : Dev nD} {k : ℕ} {p : GSem nD τ sig × ℕ} (h : p ∈ agItems c k) : ∃ r : Fin 31, p = (agRecvCell (peer c r) r, N) := by
  unfold agItems at h; obtain ⟨r, -, rfl⟩ := List.mem_map.mp h; exact ⟨r, rfl⟩
theorem mem_sigItems {c : Dev nD} {k : ℕ} {p : GSem nD τ sig × ℕ} (h : p ∈ sigItems c k) : ∃ r : Fin 31, p = (barCell (peer c r), 1) := by
  unfold sigItems at h; obtain ⟨r, -, rfl⟩ := List.mem_map.mp h; exact ⟨r, rfl⟩

/-- At its barrier wait a device still owes its 62 copies: receive cells, above the barrier. -/
theorem mayWait_bar (c : Dev nD) : (levAts L lv : sProp 𝕄) ⊢ MayWait (c : Thread nD τ) (.reg barS) () (OL (rsItems c 0 ++ agItems c 0)) :=
  mayWait_of_levels c _ _ 1 (by rw [lv_bar]) (fun p hp => by
    rcases List.mem_append.mp hp with h | h
    · obtain ⟨r, rfl⟩ := mem_rsItems h; exact ⟨rfl, by rw [lv_rsRecv]; decide⟩
    · obtain ⟨r, rfl⟩ := mem_agItems h; exact ⟨rfl, by rw [lv_agRecv]; decide⟩)
/-- At a receive wait of the reduce-scatter it still owes the all-gather's copies only. -/
theorem mayWait_rsRecv (c : Dev nD) (r : Fin 31) : (levAts L lv : sProp 𝕄) ⊢ MayWait (c : Thread nD τ) (.dma (rsRecvS r)) () (OL (agItems c 0)) :=
  mayWait_of_levels c _ _ 2 (by rw [lv_rsRecv]) (fun p hp => by
    obtain ⟨r', rfl⟩ := mem_agItems hp; exact ⟨rfl, by rw [lv_agRecv]; decide⟩)
theorem mayWait_nil (c : Dev nD) (sm : SemLoc sig) : (levAts L lv : sProp 𝕄) ⊢ MayWait (c : Thread nD τ) sm () (OL []) := by
  rw [OL_nil, MayWait_zero]; iintro -; iempintro

/-! ## The signal to `peer c k`'s barrier: the device hands that peer its slot `rev k` and its block of the result -/

theorem step_signal (c : Dev nD) (k : Fin 31) (n : Dev nD) (hn : n = peer c k) (rest : List (GSem nD τ sig × ℕ)) (W : Waits sig Unit)
    {α : Type} {Q : α → sProp 𝕄} {cont : PUnit → Prog (TpuEff nD τ sig (Elt F) Λ₀ .tc) α} :
    iprop(records m K ∗ owes (c : Thread nD τ) (OL ((barCell (peer c k), 1) :: rest)) W ∗ dutyTok ER (barCell (peer c k)) 0 (rev k)
        ∗ (∃ f, slotPts c (rev k) f) ∗ (∃ f, outPts c (peer c k) f))
      ⊢ iprop((owes (c : Thread nD τ) (OL rest) W -∗ wp frame (wpE (defs₀ (F := F)) 𝒱₀ (c : Thread nD τ) none) Set.univ (cont ⟨⟩) Q)
          -∗ wp frame (wpE (defs₀ (F := F)) 𝒱₀ (c : Thread nD τ) none) Set.univ
              (.op (.semSignal ((n, .tc) : Thread nD τ) barS (1#32 : BitVec 32).toNat) cont) Q) := by
  subst hn
  iintro ⟨#HR, HO, Htok, Hs, Ho⟩
  iapply (Rounds.wp_signal 𝒱₀ ER (sched m) (c : Thread nD τ) none (dst := (peer c k : Thread nD τ)) (sem := barS) (κ := K (peer c k, none))
      (d := rev k) (by rw [duties_bar]; exact Finset.mem_univ _) ((amount_bar m (peer c k) (rev k)).trans one_toNat.symm) () (OL rest) (OL_cons (barCell (peer c k), 1) rest))
    $$ [HO Htok Hs Ho]
  · isplitr; · iapply (inv_at m K (peer c k, none)); iexact HR
    isplitl [HO]; · iexact HO
    isplitl [Htok]; · iexact Htok
    isplitl [Hs Ho]
    · rw [payload_bar]; unfold barPay; rw [peer_peer_rev]
      isplitl [Hs]; · iexact Hs
      iexact Ho
    · iapply (reached_at m K (peer c k, none)); iexact HR

/-! ## The barrier wait: every peer's slot and block of the result come with it -/

theorem step_barwait (c : Dev nD) (O : CellTallies nD τ sig Unit) (hO : (levAts L lv : sProp 𝕄) ⊢ MayWait (c : Thread nD τ) (.reg barS) () O)
    (W : Waits sig Unit) {α : Type} {Q : α → sProp 𝕄} {cont : PUnit → Prog (TpuEff nD τ sig (Elt F) Λ₀ .tc) α} :
    iprop(records m K ∗ levAts L lv ∗ cred (tallyAt (barCell c) () 31) ∗ owes (c : Thread nD τ) O W ∗ atPos ER (barCell c) 0 ∅ 0)
      ⊢ iprop((iprop(owes (c : Thread nD τ) O (insert (SemLoc.reg barS, ()) W) ∗ atPos ER (barCell c) (0 + 1) ∅ 0
              ∗ bigSep Finset.univ (fun d : Fin 31 => barPay (F := F) c d))
            -∗ wp frame (wpE (defs₀ (F := F)) 𝒱₀ (c : Thread nD τ) none) Set.univ (cont ⟨⟩) Q)
          -∗ wp frame (wpE (defs₀ (F := F)) 𝒱₀ (c : Thread nD τ) none) Set.univ (.op (.semWait barS (31#32 : BitVec 32).toNat) cont) Q) := by
  iintro ⟨#HR, #Hlev, Hc, HO, Hat⟩
  iintro Hk
  iapply (Rounds.wp_wait_rest_token 𝒱₀ ER (sched m) (c : Thread nD τ) none (κ := K (c, none))
      (wpE_semWait_eq 𝒱₀ (c : Thread nD τ) none Set.univ) (Set.mem_univ _) () (O := O) (W := W) (R := 0) (m := 0) (T := ∅)
      (by rw [expect_bar, tt_toNat])) $$ [Hc HO Hat]
  · isplitr; · iapply (inv_at m K (c, none)); iexact HR
    isplitl [Hc]; · iexact Hc
    isplitl [HO]; · iexact HO
    isplitr; · iapply hO; iexact Hlev
    iexact Hat
  iintro ⟨HO, Hat, -, Hpay⟩
  iapply Hk
  isplitl [HO]; · iexact HO
  isplitl [Hat]; · iexact Hat
  iapply (Entails.of_eq (rest_bar m c)); iexact Hpay

/-! ## The wait on one of the device's own DMA cells: the cell's one payload comes with it -/

theorem step_dma_wait (c : Dev nD) (j : Fin 4) (k : Fin 31) (O : CellTallies nD τ sig Unit)
    (hO : (levAts L lv : sProp 𝕄) ⊢ MayWait (c : Thread nD τ) (.dma (dsem j k)) () O) (W : Waits sig Unit)
    {w : TpuEff nD τ sig (Elt F) Λ₀ .tc PUnit} {k' : ℕ}
    (hw : ∀ (K' : PUnit → sProp 𝕄), (wpE (defs₀ (F := F)) 𝒱₀ (c : Thread nD τ) none Set.univ w) K' = (waitSpec (c : Thread nD τ) Set.univ (.dma (dsem j k)) k') K')
    (hk : k' = N)
    {α : Type} {Q : α → sProp 𝕄} {cont : PUnit → Prog (TpuEff nD τ sig (Elt F) Λ₀ .tc) α} :
    iprop(records m K ∗ levAts L lv ∗ cred (tallyAt (dmaCell c j k) () N) ∗ owes (c : Thread nD τ) O W ∗ atPos ER (dmaCell c j k) 0 ∅ 0)
      ⊢ iprop((iprop(owes (c : Thread nD τ) O (insert (SemLoc.dma (dsem j k), ()) W) ∗ atPos ER (dmaCell c j k) (0 + 1) ∅ 0 ∗ dmaPay m c (dsem j k))
            -∗ wp frame (wpE (defs₀ (F := F)) 𝒱₀ (c : Thread nD τ) none) Set.univ (cont ⟨⟩) Q)
          -∗ wp frame (wpE (defs₀ (F := F)) 𝒱₀ (c : Thread nD τ) none) Set.univ (.op w cont) Q) := by
  subst hk
  iintro ⟨#HR, #Hlev, Hc, HO, Hat⟩
  iintro Hk
  iapply (Rounds.wp_wait_rest_token 𝒱₀ ER (sched m) (c : Thread nD τ) none (κ := K (c, some (j, k)))
      hw (Set.mem_univ _) () (O := O) (W := W) (R := 0) (m := 0) (T := ∅)
      (by rw [Nat.zero_add]; exact (expect_dma m c j k).symm)) $$ [Hc HO Hat]
  · isplitr; · iapply (inv_at m K (c, some (j, k))); iexact HR
    isplitl [Hc]; · iexact Hc
    isplitl [HO]; · iexact HO
    isplitr; · iapply hO; iexact Hlev
    iexact Hat
  iintro ⟨HO, Hat, -, Hpay⟩
  iapply Hk
  isplitl [HO]; · iexact HO
  isplitl [Hat]; · iexact Hat
  iapply (Entails.of_eq (rest_dma m c j k)); iexact Hpay

/-! ## The reduce-scatter's copy to `peer c k`: rows `16 * peer c k` onwards of the staging copy into that peer's slot `k` -/

theorem step_rs_send (c : Dev nD) (k : Fin 31) (n : Dev nD) (hn : n = peer c k) (rest : List (GSem nD τ sig × ℕ)) (W : Waits sig Unit)
    {hsc : (slotM k : Memref sig (Dev.tc n : Thread nD τ).2.kind .vmem S16x512 .bf16).view.ref.isScScratch = false}
    {hsrc : (stSlice c k).view.WordExact} {hdst : (slotM k).view.WordExact}
    {hsem : DmaTarget.Typed .vmem (.dma (rsRecvS k)) (.remote (Dev.tc n : Thread nD τ) (slotM k) (.dma (rsSendS k)) hsc)}
    {α : Type} {Q : α → sProp 𝕄} {cont : PUnit → Prog (TpuEff nD τ sig (Elt F) Λ₀ .tc) α}
    (fn : Buf (Elt F) ((slotM k).view.loc (peer c k : Thread nD τ))) :
    iprop(records m K ∗ stPts m c k ∗ slotPts (peer c k) k fn
        ∗ owes (c : Thread nD τ) (OL ((rsRecvCell (peer c k) k, N) :: rest)) W
        ∗ dutyTok ER (rsSendCell c k) 0 0 ∗ dutyTok ER (rsRecvCell (peer c k) k) 0 0)
      ⊢ iprop(((cred (tallyAt (rsSendCell c k) () N) ∗ owes (c : Thread nD τ) (OL rest) W)
            -∗ wp frame (wpE (defs₀ (F := F)) 𝒱₀ (c : Thread nD τ) none) Set.univ (cont ⟨⟩) Q)
          -∗ wp frame (wpE (defs₀ (F := F)) 𝒱₀ (c : Thread nD τ) none) Set.univ
              (.op (.enqueueDma (stSlice c k) (.remote (Dev.tc n : Thread nD τ) (slotM k) (.dma (rsSendS k)) hsc) (.dma (rsRecvS k)) hsrc hdst hsem) cont) Q) := by
  subst hn
  iintro ⟨#HR, Hst, Hsl, HO, Ht1, Ht2⟩
  unfold stPts slotPts
  iapply (Rounds.wp_send_pointsTo 𝒱₀ ER (sched m) (c : Thread nD τ) none (κ₁ := K (c, some (0, k))) (κ₂ := K (peer c k, some (1, k)))
    (src := stSlice c k) (dst := slotM k) (c' := (peer c k : Thread nD τ)) (sS := .dma (rsSendS k)) (sem := .dma (rsRecvS k)) (q := fullShare) (fs := stagev m c)
    (r₁ := 0) (r₂ := 0) (d₁ := 0) (d₂ := 0) (fd := fn)
    (by show (0 : Fin 31) ∈ (sched m).duties (dmaCell c 0 k) 0; rw [duties_dma]; exact Finset.mem_singleton_self _)
    (by show (0 : Fin 31) ∈ (sched m).duties (dmaCell (peer c k) 1 k) 0; rw [duties_dma]; exact Finset.mem_singleton_self _)
    () () N (credit_any _) (amount_dma m c 0 k 0) (amount_dma m (peer c k) 1 k 0) (OL rest) (OL_cons (rsRecvCell (peer c k) k, N) rest) (W := W)
    (by show _ ⊢ dmaPay m c (rsSendS k); rw [dmaPay_rsSend]; unfold rsSendPay stPts; exact BI.Entails.refl _)
    (by show _ ⊢ dmaPay m (peer c k) (rsRecvS k); rw [dmaPay_rsRecv]; unfold rsRecvPay slotPts sentv; rw [srcd_peer]
        iintro H; iexists fn; iexact H)) $$ [Hst Hsl HO Ht1 Ht2]
  isplitr; · iapply (inv_at m K (c, some (0, k))); iexact HR
  isplitr; · iapply (inv_at m K (peer c k, some (1, k))); iexact HR
  isplitl [Hst]; · iexact Hst
  isplitl [Hsl]; · iexact Hsl
  isplitl [HO]; · iexact HO
  isplitl [Ht1]; · iexact Ht1
  isplitr; · iapply (reached_at m K (c, some (0, k))); iexact HR
  isplitl [Ht2]; · iexact Ht2
  iapply (reached_at m K (peer c k, some (1, k))); iexact HR

/-! ## The all-gather's copy to `peer c k`: the reduced block, read at the `k`-th share, into block `c` of that peer's result buffer -/

theorem step_ag_send (c : Dev nD) (k : Fin 31) (n : Dev nD) (hn : n = peer c k) (rest : List (GSem nD τ sig × ℕ)) (W : Waits sig Unit)
    {hsc : (outSlice c : Memref sig (Dev.tc n : Thread nD τ).2.kind .vmem S16x512 .bf16).view.ref.isScScratch = false}
    {hsrc : (redM : Memref sig .tc .vmem S16x512 .bf16).view.WordExact} {hdst : (outSlice c).view.WordExact}
    {hsem : DmaTarget.Typed .vmem (.dma (agRecvS k)) (.remote (Dev.tc n : Thread nD τ) (outSlice c) (.dma (agSendS k)) hsc)}
    {α : Type} {Q : α → sProp 𝕄} {cont : PUnit → Prog (TpuEff nD τ sig (Elt F) Λ₀ .tc) α}
    (fn : Buf (Elt F) ((outSlice c).view.loc (peer c k : Thread nD τ))) :
    iprop(records m K ∗ redPts m c (shr k.val) ∗ outPts (peer c k) c fn
        ∗ owes (c : Thread nD τ) (OL ((agRecvCell (peer c k) k, N) :: rest)) W
        ∗ dutyTok ER (agSendCell c k) 0 0 ∗ dutyTok ER (agRecvCell (peer c k) k) 0 0)
      ⊢ iprop(((cred (tallyAt (agSendCell c k) () N) ∗ owes (c : Thread nD τ) (OL rest) W)
            -∗ wp frame (wpE (defs₀ (F := F)) 𝒱₀ (c : Thread nD τ) none) Set.univ (cont ⟨⟩) Q)
          -∗ wp frame (wpE (defs₀ (F := F)) 𝒱₀ (c : Thread nD τ) none) Set.univ
              (.op (.enqueueDma redM (.remote (Dev.tc n : Thread nD τ) (outSlice c) (.dma (agSendS k)) hsc) (.dma (agRecvS k)) hsrc hdst hsem) cont) Q) := by
  subst hn
  iintro ⟨#HR, Hst, Hsl, HO, Ht1, Ht2⟩
  unfold redPts outPts
  iapply (Rounds.wp_send_pointsTo 𝒱₀ ER (sched m) (c : Thread nD τ) none (κ₁ := K (c, some (2, k))) (κ₂ := K (peer c k, some (3, k)))
    (src := redM) (dst := outSlice c) (c' := (peer c k : Thread nD τ)) (sS := .dma (agSendS k)) (sem := .dma (agRecvS k)) (q := shr k.val) (fs := redv m c)
    (r₁ := 0) (r₂ := 0) (d₁ := 0) (d₂ := 0) (fd := fn)
    (by show (0 : Fin 31) ∈ (sched m).duties (dmaCell c 2 k) 0; rw [duties_dma]; exact Finset.mem_singleton_self _)
    (by show (0 : Fin 31) ∈ (sched m).duties (dmaCell (peer c k) 3 k) 0; rw [duties_dma]; exact Finset.mem_singleton_self _)
    () () N (credit_any _) (amount_dma m c 2 k 0) (amount_dma m (peer c k) 3 k 0) (OL rest) (OL_cons (agRecvCell (peer c k) k, N) rest) (W := W)
    (by show _ ⊢ dmaPay m c (agSendS k); rw [dmaPay_agSend]; unfold agSendPay redPts; exact BI.Entails.refl _)
    (by show _ ⊢ dmaPay m (peer c k) (agRecvS k); rw [dmaPay_agRecv]; unfold agRecvPay outPts; rw [srcd_peer]
        iintro H; iexists fn; iexact H)) $$ [Hst Hsl HO Ht1 Ht2]
  isplitr; · iapply (inv_at m K (c, some (2, k))); iexact HR
  isplitr; · iapply (inv_at m K (peer c k, some (3, k))); iexact HR
  isplitl [Hst]; · iexact Hst
  isplitl [Hsl]; · iexact Hsl
  isplitl [HO]; · iexact HO
  isplitl [Ht1]; · iexact Ht1
  isplitr; · iapply (reached_at m K (c, some (2, k))); iexact HR
  isplitl [Ht2]; · iexact Ht2
  iapply (reached_at m K (peer c k, some (3, k))); iexact HR

end Cert.KernelIdeal.Hand

end
-- ==== Proof.Pieces.lean ====
/-
  Bookkeeping for a phase of 31 steps, one per slot: the pieces of the slots not yet reached (`fromK k`) and the
  pieces produced by the slots already done (`belowK k`), each advanced one slot at a time.
-/
import proofs.«900471_g7700000000000472_dist_rs_then_ag_i_m512_n512_v7x_i32_bf16_1_alg».proof.Proof.Steps

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The pieces of the slots `k, k + 1, …, 30`. -/
def fromK (k : ℕ) (Φ : Fin 31 → sProp 𝕄) : sProp 𝕄 := bigSep (Finset.univ.filter fun r : Fin 31 => k ≤ r.val) Φ
/-- The pieces of the slots `0, …, k - 1`. -/
def belowK (k : ℕ) (Φ : Fin 31 → sProp 𝕄) : sProp 𝕄 := bigSep (Finset.univ.filter fun r : Fin 31 => r.val < k) Φ

theorem fromK_zero (Φ : Fin 31 → sProp 𝕄) : fromK 0 Φ = bigSep Finset.univ Φ := by
  unfold fromK; rw [Finset.filter_true_of_mem fun (r : Fin 31) _ => Nat.zero_le _]
theorem belowK_end (Φ : Fin 31 → sProp 𝕄) : belowK 31 Φ = bigSep Finset.univ Φ := by
  unfold belowK; rw [Finset.filter_true_of_mem fun (r : Fin 31) _ => r.2]
theorem fromK_end (Φ : Fin 31 → sProp 𝕄) : fromK 31 Φ = iprop(emp) := by
  unfold fromK; rw [Finset.filter_false_of_mem fun (r : Fin 31) _ => by have := r.2; omega]; exact bigSep_empty
theorem belowK_zero (Φ : Fin 31 → sProp 𝕄) : belowK 0 Φ = iprop(emp) := by
  unfold belowK; rw [Finset.filter_false_of_mem fun (r : Fin 31) _ => Nat.not_lt_zero _]; exact bigSep_empty

theorem fromK_step (k : Fin 31) (Φ : Fin 31 → sProp 𝕄) : fromK k.val Φ = iprop(Φ k ∗ fromK (k.val + 1) Φ) := by
  unfold fromK
  have hs : (Finset.univ.filter fun r : Fin 31 => k.val ≤ r.val) = insert k (Finset.univ.filter fun r : Fin 31 => k.val + 1 ≤ r.val) := by
    ext r; simp only [Finset.mem_filter, Finset.mem_univ, true_and, Finset.mem_insert]
    constructor
    · intro h; by_cases e : r = k
      · exact Or.inl e
      · exact Or.inr (by have : r.val ≠ k.val := fun h' => e (Fin.ext h'); omega)
    · rintro (rfl | h)
      · exact Nat.le_refl _
      · omega
  rw [hs, bigSep_insert (by simp only [Finset.mem_filter, Finset.mem_univ, true_and]; omega)]
  rfl
theorem belowK_step (k : Fin 31) (Φ : Fin 31 → sProp 𝕄) : belowK (k.val + 1) Φ = iprop(Φ k ∗ belowK k.val Φ) := by
  unfold belowK
  have hs : (Finset.univ.filter fun r : Fin 31 => r.val < k.val + 1) = insert k (Finset.univ.filter fun r : Fin 31 => r.val < k.val) := by
    ext r; simp only [Finset.mem_filter, Finset.mem_univ, true_and, Finset.mem_insert]
    constructor
    · intro h; by_cases e : r = k
      · exact Or.inl e
      · exact Or.inr (by have : r.val ≠ k.val := fun h' => e (Fin.ext h'); omega)
    · rintro (rfl | h)
      · exact Nat.lt_succ_self _
      · omega
  rw [hs, bigSep_insert (by simp only [Finset.mem_filter, Finset.mem_univ, true_and]; omega)]
  rfl

variable (m : (ℓ : Loc nD τ sig) → Buf (Elt F) ℓ) (K : Dev nD × CK → ℕ)

/-- What the device owes, at some set of cells already waited on. -/
def owesX (c : Dev nD) (O : CellTallies nD τ sig Unit) : sProp 𝕄 := iprop(∃ W : Waits sig Unit, owes (c : Thread nD τ) O W)

/-! ## Phase 1: the 31 barrier signals -/

/-- What the signal to `peer c r` consumes. -/
def sigIn (c : Dev nD) (r : Fin 31) : sProp 𝕄 :=
  iprop(dutyTok ER (barCell (peer c r)) 0 (rev r) ∗ (∃ f, slotPts (F := F) c (rev r) f) ∗ (∃ f, outPts (F := F) c (peer c r) f))

theorem sig_step (c : Dev nD) (k : Fin 31) (n : Dev nD) (hn : n = peer c k) (more : List (GSem nD τ sig × ℕ))
    {α : Type} {Q : α → sProp 𝕄} {cont : PUnit → Prog (TpuEff nD τ sig (Elt F) Λ₀ .tc) α} :
    iprop(records m K ∗ owesX (F := F) c (OL (sigItems c k.val ++ more)) ∗ fromK k.val (sigIn (F := F) c))
      ⊢ iprop((iprop(owesX (F := F) c (OL (sigItems c (k.val + 1) ++ more)) ∗ fromK (k.val + 1) (sigIn (F := F) c))
            -∗ wp frame (wpE (defs₀ (F := F)) 𝒱₀ (c : Thread nD τ) none) Set.univ (cont ⟨⟩) Q)
          -∗ wp frame (wpE (defs₀ (F := F)) 𝒱₀ (c : Thread nD τ) none) Set.univ
              (.op (.semSignal ((n, .tc) : Thread nD τ) barS (1#32 : BitVec 32).toNat) cont) Q) := by
  rw [fromK_step k, sigItems_step c k, List.cons_append]
  unfold owesX sigIn
  iintro ⟨#HR, ⟨%W, HO⟩, ⟨Htok, Hs, Ho⟩, Hrest⟩
  iintro Hk
  iapply (step_signal m K c k n hn (sigItems c (k.val + 1) ++ more) W) $$ [HO Htok Hs Ho]
  · isplitr; · iexact HR
    isplitl [HO]; · iexact HO
    isplitl [Htok]; · iexact Htok
    isplitl [Hs]; · iexact Hs
    iexact Ho
  iintro HO
  iapply Hk
  isplitl [HO]; · iexists W; iexact HO
  iexact Hrest

end Cert.KernelIdeal.Hand

end
-- ==== Proof.Phases.lean ====
/-
  The seven 31-step phases of the body, each as one rule that advances it by a slot: what the step consumes moves
  out of the pieces still to come, what it produces joins the pieces already made.
-/
import proofs.«900471_g7700000000000472_dist_rs_then_ag_i_m512_n512_v7x_i32_bf16_1_alg».proof.Proof.Pieces

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)

/-! ## The barrier wait -/

theorem bar_step (c : Dev nD) {α : Type} {Q : α → sProp 𝕄} {cont : PUnit → Prog (TpuEff nD τ sig (Elt F) Λ₀ .tc) α} :
    iprop(records m K ∗ levAts L lv ∗ cred (tallyAt (barCell c) () 31) ∗ owesX (F := F) c (OL (rsItems c 0 ++ agItems c 0)) ∗ atPos ER (barCell c) 0 ∅ 0)
      ⊢ iprop((iprop(owesX (F := F) c (OL (rsItems c 0 ++ agItems c 0)) ∗ atPos ER (barCell c) (0 + 1) ∅ 0
              ∗ bigSep Finset.univ (fun d : Fin 31 => barPay (F := F) c d))
            -∗ wp frame (wpE (defs₀ (F := F)) 𝒱₀ (c : Thread nD τ) none) Set.univ (cont ⟨⟩) Q)
          -∗ wp frame (wpE (defs₀ (F := F)) 𝒱₀ (c : Thread nD τ) none) Set.univ (.op (.semWait barS (31#32 : BitVec 32).toNat) cont) Q) := by
  unfold owesX
  iintro ⟨#HR, #Hlev, Hc, ⟨%W, HO⟩, Hat⟩
  iintro Hk
  iapply (step_barwait m K c _ (mayWait_bar c) W) $$ [Hc HO Hat]
  · isplitr; · iexact HR
    isplitr; · iexact Hlev
    isplitl [Hc]; · iexact Hc
    isplitl [HO]; · iexact HO
    iexact Hat
  iintro ⟨HO, Hat, Hpay⟩
  iapply Hk
  isplitl [HO]; · iexists _; iexact HO
  isplitl [Hat]; · iexact Hat
  iexact Hpay

/-! ## The reduce-scatter's 31 copies -/

def rsIn (c : Dev nD) (r : Fin 31) : sProp 𝕄 :=
  iprop(stPts m c r ∗ (∃ fn, slotPts (F := F) (peer c r) r fn) ∗ dutyTok ER (rsSendCell c r) 0 0 ∗ dutyTok ER (rsRecvCell (peer c r) r) 0 0)
def rsOut (c : Dev nD) (r : Fin 31) : sProp 𝕄 := cred (tallyAt (rsSendCell c r) () N)

theorem rs_step (c : Dev nD) (k : Fin 31) (n : Dev nD) (hn : n = peer c k) (more : List (GSem nD τ sig × ℕ))
    {hsc : (slotM k : Memref sig (Dev.tc n : Thread nD τ).2.kind .vmem S16x512 .bf16).view.ref.isScScratch = false}
    {hsrc : (stSlice c k).view.WordExact} {hdst : (slotM k).view.WordExact}
    {hsem : DmaTarget.Typed .vmem (.dma (rsRecvS k)) (.remote (Dev.tc n : Thread nD τ) (slotM k) (.dma (rsSendS k)) hsc)}
    {α : Type} {Q : α → sProp 𝕄} {cont : PUnit → Prog (TpuEff nD τ sig (Elt F) Λ₀ .tc) α} :
    iprop(records m K ∗ owesX (F := F) c (OL (rsItems c k.val ++ more)) ∗ fromK k.val (rsIn m c) ∗ belowK k.val (rsOut (F := F) c))
      ⊢ iprop((iprop(owesX (F := F) c (OL (rsItems c (k.val + 1) ++ more)) ∗ fromK (k.val + 1) (rsIn m c) ∗ belowK (k.val + 1) (rsOut (F := F) c))
            -∗ wp frame (wpE (defs₀ (F := F)) 𝒱₀ (c : Thread nD τ) none) Set.univ (cont ⟨⟩) Q)
          -∗ wp frame (wpE (defs₀ (F := F)) 𝒱₀ (c : Thread nD τ) none) Set.univ
              (.op (.enqueueDma (stSlice c k) (.remote (Dev.tc n : Thread nD τ) (slotM k) (.dma (rsSendS k)) hsc) (.dma (rsRecvS k)) hsrc hdst hsem) cont) Q) := by
  rw [fromK_step k, belowK_step k, rsItems_step c k, List.cons_append]
  unfold owesX rsIn rsOut
  iintro ⟨#HR, ⟨%W, HO⟩, ⟨⟨Hst, ⟨%fn, Hsl⟩, Ht1, Ht2⟩, Hrest⟩, Hbelow⟩
  iintro Hk
  iapply (step_rs_send m K c k n hn (rsItems c (k.val + 1) ++ more) W fn) $$ [Hst Hsl HO Ht1 Ht2]
  · isplitr; · iexact HR
    isplitl [Hst]; · iexact Hst
    isplitl [Hsl]; · iexact Hsl
    isplitl [HO]; · iexact HO
    isplitl [Ht1]; · iexact Ht1
    iexact Ht2
  iintro ⟨Hc, HO⟩
  iapply Hk
  isplitl [HO]; · iexists W; iexact HO
  isplitl [Hrest]; · iexact Hrest
  isplitl [Hc]; · iexact Hc
  iexact Hbelow

/-! ## The all-gather's 31 copies -/

def agIn (c : Dev nD) (r : Fin 31) : sProp 𝕄 :=
  iprop(redPts m c (shr r.val) ∗ (∃ fn, outPts (F := F) (peer c r) c fn) ∗ dutyTok ER (agSendCell c r) 0 0 ∗ dutyTok ER (agRecvCell (peer c r) r) 0 0)
def agOut (c : Dev nD) (r : Fin 31) : sProp 𝕄 := cred (tallyAt (agSendCell c r) () N)

theorem ag_step (c : Dev nD) (k : Fin 31) (n : Dev nD) (hn : n = peer c k) (more : List (GSem nD τ sig × ℕ))
    {hsc : (outSlice c : Memref sig (Dev.tc n : Thread nD τ).2.kind .vmem S16x512 .bf16).view.ref.isScScratch = false}
    {hsrc : (redM : Memref sig .tc .vmem S16x512 .bf16).view.WordExact} {hdst : (outSlice c).view.WordExact}
    {hsem : DmaTarget.Typed .vmem (.dma (agRecvS k)) (.remote (Dev.tc n : Thread nD τ) (outSlice c) (.dma (agSendS k)) hsc)}
    {α : Type} {Q : α → sProp 𝕄} {cont : PUnit → Prog (TpuEff nD τ sig (Elt F) Λ₀ .tc) α} :
    iprop(records m K ∗ owesX (F := F) c (OL (agItems c k.val ++ more)) ∗ fromK k.val (agIn m c) ∗ belowK k.val (agOut (F := F) c))
      ⊢ iprop((iprop(owesX (F := F) c (OL (agItems c (k.val + 1) ++ more)) ∗ fromK (k.val + 1) (agIn m c) ∗ belowK (k.val + 1) (agOut (F := F) c))
            -∗ wp frame (wpE (defs₀ (F := F)) 𝒱₀ (c : Thread nD τ) none) Set.univ (cont ⟨⟩) Q)
          -∗ wp frame (wpE (defs₀ (F := F)) 𝒱₀ (c : Thread nD τ) none) Set.univ
              (.op (.enqueueDma redM (.remote (Dev.tc n : Thread nD τ) (outSlice c) (.dma (agSendS k)) hsc) (.dma (agRecvS k)) hsrc hdst hsem) cont) Q) := by
  rw [fromK_step k, belowK_step k, agItems_step c k, List.cons_append]
  unfold owesX agIn agOut
  iintro ⟨#HR, ⟨%W, HO⟩, ⟨⟨Hst, ⟨%fn, Hsl⟩, Ht1, Ht2⟩, Hrest⟩, Hbelow⟩
  iintro Hk
  iapply (step_ag_send m K c k n hn (agItems c (k.val + 1) ++ more) W fn) $$ [Hst Hsl HO Ht1 Ht2]
  · isplitr; · iexact HR
    isplitl [Hst]; · iexact Hst
    isplitl [Hsl]; · iexact Hsl
    isplitl [HO]; · iexact HO
    isplitl [Ht1]; · iexact Ht1
    iexact Ht2
  iintro ⟨Hc, HO⟩
  iapply Hk
  isplitl [HO]; · iexists W; iexact HO
  isplitl [Hrest]; · iexact Hrest
  isplitl [Hc]; · iexact Hc
  iexact Hbelow

/-! ## A phase of 31 waits on the cells of one array -/

def waitIn (j : Fin 4) (c : Dev nD) (r : Fin 31) : sProp 𝕄 :=
  iprop(cred (tallyAt (dmaCell c j r) () N) ∗ atPos ER (dmaCell c j r) 0 ∅ 0)
def waitOut (j : Fin 4) (c : Dev nD) (r : Fin 31) : sProp 𝕄 :=
  iprop(atPos ER (dmaCell c j r) (0 + 1) ∅ 0 ∗ dmaPay m c (dsem j r))

theorem wait_step (c : Dev nD) (j : Fin 4) (k : Fin 31) (O : CellTallies nD τ sig Unit)
    (hO : (levAts L lv : sProp 𝕄) ⊢ MayWait (c : Thread nD τ) (.dma (dsem j k)) () O)
    {w : TpuEff nD τ sig (Elt F) Λ₀ .tc PUnit} {k' : ℕ}
    (hw : ∀ (K' : PUnit → sProp 𝕄), (wpE (defs₀ (F := F)) 𝒱₀ (c : Thread nD τ) none Set.univ w) K' = (waitSpec (c : Thread nD τ) Set.univ (.dma (dsem j k)) k') K')
    (hk : k' = N)
    {α : Type} {Q : α → sProp 𝕄} {cont : PUnit → Prog (TpuEff nD τ sig (Elt F) Λ₀ .tc) α} :
    iprop(records m K ∗ levAts L lv ∗ owesX (F := F) c O ∗ fromK k.val (waitIn (F := F) j c) ∗ belowK k.val (waitOut m j c))
      ⊢ iprop((iprop(owesX (F := F) c O ∗ fromK (k.val + 1) (waitIn (F := F) j c) ∗ belowK (k.val + 1) (waitOut m j c))
            -∗ wp frame (wpE (defs₀ (F := F)) 𝒱₀ (c : Thread nD τ) none) Set.univ (cont ⟨⟩) Q)
          -∗ wp frame (wpE (defs₀ (F := F)) 𝒱₀ (c : Thread nD τ) none) Set.univ (.op w cont) Q) := by
  rw [fromK_step k, belowK_step k]
  unfold owesX waitIn waitOut
  iintro ⟨#HR, #Hlev, ⟨%W, HO⟩, ⟨⟨Hc, Hat⟩, Hrest⟩, Hbelow⟩
  iintro Hk
  iapply (step_dma_wait m K c j k O hO W hw hk) $$ [Hc HO Hat]
  · isplitr; · iexact HR
    isplitr; · iexact Hlev
    isplitl [Hc]; · iexact Hc
    isplitl [HO]; · iexact HO
    iexact Hat
  iintro ⟨HO, Hat, Hpay⟩
  iapply Hk
  isplitl [HO]; · iexists _; iexact HO
  isplitl [Hrest]; · iexact Hrest
  isplitl [Hat Hpay]
  · isplitl [Hat]; · iexact Hat
    iexact Hpay
  iexact Hbelow

end Cert.KernelIdeal.Hand

end
-- ==== Proof.PartsA.lean ====
/-
  Parts 2 to 5 of the body: the barrier signals to the peers of slots 5 to 28.
-/
import proofs.«900471_g7700000000000472_dist_rs_then_ag_i_m512_n512_v7x_i32_bf16_1_alg».proof.Proof.Phases

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev barArr : Sems sig S_ := SemArray.scalar (sig.barrier 0 rfl)

variable (m : (ℓ : Loc nD τ sig) → Buf (Elt F) ℓ) (K : Dev nD × CK → ℕ)

set_option maxHeartbeats 1600000 in
theorem exec_part2 (c : Dev nD) (v2 : BitVec 32) (v24 : BitVec 32) (c32_i32_20 : BitVec 32) (more : List (GSem nD τ sig × ℕ))
    {Q : (Σ' (v48 : BitVec 32), BitVec 32) → sProp 𝕄} :
    iprop(records m K ∗ owesX (F := F) c (OL (sigItems c 5 ++ more)) ∗ fromK 5 (sigIn (F := F) c))
      ⊢ iprop((∀ a, iprop(owesX (F := F) c (OL (sigItems c 11 ++ more)) ∗ fromK 11 (sigIn (F := F) c)) -∗ Q a)
          -∗ wp frame (wpE (defs₀ (F := F)) 𝒱₀ (c : Thread nD τ) none) Set.univ (k0_part2 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 barArr v24 c32_i32_20) Q) := by
  simp only [k0_part2_eq_skeleton]; unfold k0_part2_skel
  simp only [semSignalWord, semWaitWord, Prog.lift, Prog.bind_op, Prog.bind_ret, Prog.pure_eq_ret]
  iintro ⟨#HR, HO, H1⟩
  iintro Hk
  iapply (sig_step m K c 5 _ (dev6_eq c) more) $$ [HO H1]
  · isplitr; · iexact HR
    isplitl [HO]; · iexact HO
    iexact H1
  iintro ⟨HO, H1⟩
  iapply (sig_step m K c 6 _ (dev7_eq c) more) $$ [HO H1]
  · isplitr; · iexact HR
    isplitl [HO]; · iexact HO
    iexact H1
  iintro ⟨HO, H1⟩
  iapply (sig_step m K c 7 _ (dev8_eq c) more) $$ [HO H1]
  · isplitr; · iexact HR
    isplitl [HO]; · iexact HO
    iexact H1
  iintro ⟨HO, H1⟩
  iapply (sig_step m K c 8 _ (dev9_eq c) more) $$ [HO H1]
  · isplitr; · iexact HR
    isplitl [HO]; · iexact HO
    iexact H1
  iintro ⟨HO, H1⟩
  iapply (sig_step m K c 9 _ (dev10_eq c) more) $$ [HO H1]
  · isplitr; · iexact HR
    isplitl [HO]; · iexact HO
    iexact H1
  iintro ⟨HO, H1⟩
  iapply (sig_step m K c 10 _ (dev11_eq c) more) $$ [HO H1]
  · isplitr; · iexact HR
    isplitl [HO]; · iexact HO
    iexact H1
  iintro ⟨HO, H1⟩
  rw [wp_ret]; imodintro
  iapply Hk
  isplitl [HO]; · iexact HO
  iexact H1

set_option maxHeartbeats 1600000 in
theorem exec_part3 (c : Dev nD) (v2 : BitVec 32) (v48 : BitVec 32) (c32_i32_44 : BitVec 32) (more : List (GSem nD τ sig × ℕ))
    {Q : (Σ' (v72 : BitVec 32), BitVec 32) → sProp 𝕄} :
    iprop(records m K ∗ owesX (F := F) c (OL (sigItems c 11 ++ more)) ∗ fromK 11 (sigIn (F := F) c))
      ⊢ iprop((∀ a, iprop(owesX (F := F) c (OL (sigItems c 17 ++ more)) ∗ fromK 17 (sigIn (F := F) c)) -∗ Q a)
          -∗ wp frame (wpE (defs₀ (F := F)) 𝒱₀ (c : Thread nD τ) none) Set.univ (k0_part3 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 barArr v48 c32_i32_44) Q) := by
  simp only [k0_part3_eq_skeleton]; unfold k0_part3_skel
  simp only [semSignalWord, semWaitWord, Prog.lift, Prog.bind_op, Prog.bind_ret, Prog.pure_eq_ret]
  iintro ⟨#HR, HO, H1⟩
  iintro Hk
  iapply (sig_step m K c 11 _ (dev12_eq c) more) $$ [HO H1]
  · isplitr; · iexact HR
    isplitl [HO]; · iexact HO
    iexact H1
  iintro ⟨HO, H1⟩
  iapply (sig_step m K c 12 _ (dev13_eq c) more) $$ [HO H1]
  · isplitr; · iexact HR
    isplitl [HO]; · iexact HO
    iexact H1
  iintro ⟨HO, H1⟩
  iapply (sig_step m K c 13 _ (dev14_eq c) more) $$ [HO H1]
  · isplitr; · iexact HR
    isplitl [HO]; · iexact HO
    iexact H1
  iintro ⟨HO, H1⟩
  iapply (sig_step m K c 14 _ (dev15_eq c) more) $$ [HO H1]
  · isplitr; · iexact HR
    isplitl [HO]; · iexact HO
    iexact H1
  iintro ⟨HO, H1⟩
  iapply (sig_step m K c 15 _ (dev16_eq c) more) $$ [HO H1]
  · isplitr; · iexact HR
    isplitl [HO]; · iexact HO
    iexact H1
  iintro ⟨HO, H1⟩
  iapply (sig_step m K c 16 _ (dev17_eq c) more) $$ [HO H1]
  · isplitr; · iexact HR
    isplitl [HO]; · iexact HO
    iexact H1
  iintro ⟨HO, H1⟩
  rw [wp_ret]; imodintro
  iapply Hk
  isplitl [HO]; · iexact HO
  iexact H1

set_option maxHeartbeats 1600000 in
theorem exec_part4 (c : Dev nD) (v2 : BitVec 32) (v72 : BitVec 32) (c32_i32_68 : BitVec 32) (more : List (GSem nD τ sig × ℕ))
    {Q : (Σ' (v96 : BitVec 32), BitVec 32) → sProp 𝕄} :
    iprop(records m K ∗ owesX (F := F) c (OL (sigItems c 17 ++ more)) ∗ fromK 17 (sigIn (F := F) c))
      ⊢ iprop((∀ a, iprop(owesX (F := F) c (OL (sigItems c 23 ++ more)) ∗ fromK 23 (sigIn (F := F) c)) -∗ Q a)
          -∗ wp frame (wpE (defs₀ (F := F)) 𝒱₀ (c : Thread nD τ) none) Set.univ (k0_part4 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 barArr v72 c32_i32_68) Q) := by
  simp only [k0_part4_eq_skeleton]; unfold k0_part4_skel
  simp only [semSignalWord, semWaitWord, Prog.lift, Prog.bind_op, Prog.bind_ret, Prog.pure_eq_ret]
  iintro ⟨#HR, HO, H1⟩
  iintro Hk
  iapply (sig_step m K c 17 _ (dev18_eq c) more) $$ [HO H1]
  · isplitr; · iexact HR
    isplitl [HO]; · iexact HO
    iexact H1
  iintro ⟨HO, H1⟩
  iapply (sig_step m K c 18 _ (dev19_eq c) more) $$ [HO H1]
  · isplitr; · iexact HR
    isplitl [HO]; · iexact HO
    iexact H1
  iintro ⟨HO, H1⟩
  iapply (sig_step m K c 19 _ (dev20_eq c) more) $$ [HO H1]
  · isplitr; · iexact HR
    isplitl [HO]; · iexact HO
    iexact H1
  iintro ⟨HO, H1⟩
  iapply (sig_step m K c 20 _ (dev21_eq c) more) $$ [HO H1]
  · isplitr; · iexact HR
    isplitl [HO]; · iexact HO
    iexact H1
  iintro ⟨HO, H1⟩
  iapply (sig_step m K c 21 _ (dev22_eq c) more) $$ [HO H1]
  · isplitr; · iexact HR
    isplitl [HO]; · iexact HO
    iexact H1
  iintro ⟨HO, H1⟩
  iapply (sig_step m K c 22 _ (dev23_eq c) more) $$ [HO H1]
  · isplitr; · iexact HR
    isplitl [HO]; · iexact HO
    iexact H1
  iintro ⟨HO, H1⟩
  rw [wp_ret]; imodintro
  iapply Hk
  isplitl [HO]; · iexact HO
  iexact H1

set_option maxHeartbeats 1600000 in
theorem exec_part5 (c : Dev nD) (v2 : BitVec 32) (v96 : BitVec 32) (c32_i32_92 : BitVec 32) (more : List (GSem nD τ sig × ℕ))
    {Q : (Σ' (v120 : BitVec 32), BitVec 32) → sProp 𝕄} :
    iprop(records m K ∗ owesX (F := F) c (OL (sigItems c 23 ++ more)) ∗ fromK 23 (sigIn (F := F) c))
      ⊢ iprop((∀ a, iprop(owesX (F := F) c (OL (sigItems c 29 ++ more)) ∗ fromK 29 (sigIn (F := F) c)) -∗ Q a)
          -∗ wp frame (wpE (defs₀ (F := F)) 𝒱₀ (c : Thread nD τ) none) Set.univ (k0_part5 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 barArr v96 c32_i32_92) Q) := by
  simp only [k0_part5_eq_skeleton]; unfold k0_part5_skel
  simp only [semSignalWord, semWaitWord, Prog.lift, Prog.bind_op, Prog.bind_ret, Prog.pure_eq_ret]
  iintro ⟨#HR, HO, H1⟩
  iintro Hk
  iapply (sig_step m K c 23 _ (dev24_eq c) more) $$ [HO H1]
  · isplitr; · iexact HR
    isplitl [HO]; · iexact HO
    iexact H1
  iintro ⟨HO, H1⟩
  iapply (sig_step m K c 24 _ (dev25_eq c) more) $$ [HO H1]
  · isplitr; · iexact HR
    isplitl [HO]; · iexact HO
    iexact H1
  iintro ⟨HO, H1⟩
  iapply (sig_step m K c 25 _ (dev26_eq c) more) $$ [HO H1]
  · isplitr; · iexact HR
    isplitl [HO]; · iexact HO
    iexact H1
  iintro ⟨HO, H1⟩
  iapply (sig_step m K c 26 _ (dev27_eq c) more) $$ [HO H1]
  · isplitr; · iexact HR
    isplitl [HO]; · iexact HO
    iexact H1
  iintro ⟨HO, H1⟩
  iapply (sig_step m K c 27 _ (dev28_eq c) more) $$ [HO H1]
  · isplitr; · iexact HR
    isplitl [HO]; · iexact HO
    iexact H1
  iintro ⟨HO, H1⟩
  iapply (sig_step m K c 28 _ (dev29_eq c) more) $$ [HO H1]
  · isplitr; · iexact HR
    isplitl [HO]; · iexact HO
    iexact H1
  iintro ⟨HO, H1⟩
  rw [wp_ret]; imodintro
  iapply Hk
  isplitl [HO]; · iexact HO
  iexact H1

end Cert.KernelIdeal.Hand

end
-- ==== Proof.PartsB.lean ====
/-
  Parts 7 to 17 of the body: the reduce-scatter's copies of slots 1 to 27.
-/
import proofs.«900471_g7700000000000472_dist_rs_then_ag_i_m512_n512_v7x_i32_bf16_1_alg».proof.Proof.PartsA

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)

set_option maxHeartbeats 1600000 in
theorem exec_part7 (c : Dev nD) (v2 : BitVec 32) (v147 : BitVec 32) (c16_i32_141 : BitVec 32) (more : List (GSem nD τ sig × ℕ))
    {Q : (Σ' (v159 : BitVec 32), BitVec 32) → sProp 𝕄} :
    iprop(records m K ∗ owesX (F := F) c (OL (rsItems c 1 ++ more)) ∗ fromK 1 (rsIn m c) ∗ belowK 1 (rsOut (F := F) c))
      ⊢ iprop((∀ a, iprop(owesX (F := F) c (OL (rsItems c 3 ++ more)) ∗ fromK 3 (rsIn m c) ∗ belowK 3 (rsOut (F := F) c)) -∗ Q a)
          -∗ wp frame (wpE (defs₀ (F := F)) 𝒱₀ (c : Thread nD τ) none) Set.univ (k0_part7 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v147 c16_i32_141) Q) := by
  simp only [k0_part7_eq_skeleton]; unfold k0_part7_skel
  simp only [semSignalWord, semWaitWord, Prog.lift, Prog.bind_op, Prog.bind_ret, Prog.pure_eq_ret]
  iintro ⟨#HR, HO, H1, H2⟩
  iintro Hk
  iapply (rs_step m K c 1 _ (dev33_eq c) more) $$ [HO H1 H2]
  · isplitr; · iexact HR
    isplitl [HO]; · iexact HO
    isplitl [H1]; · iexact H1
    iexact H2
  iintro ⟨HO, H1, H2⟩
  iapply (rs_step m K c 2 _ (dev34_eq c) more) $$ [HO H1 H2]
  · isplitr; · iexact HR
    isplitl [HO]; · iexact HO
    isplitl [H1]; · iexact H1
    iexact H2
  iintro ⟨HO, H1, H2⟩
  rw [wp_ret]; imodintro
  iapply Hk
  isplitl [HO]; · iexact HO
  isplitl [H1]; · iexact H1
  iexact H2

set_option maxHeartbeats 1600000 in
theorem exec_part8 (c : Dev nD) (v2 : BitVec 32) (more : List (GSem nD τ sig × ℕ))
    {Q : (Σ' (v183 : BitVec 32) (v195 : BitVec 32) (v207 : BitVec 32), BitVec 32) → sProp 𝕄} :
    iprop(records m K ∗ owesX (F := F) c (OL (rsItems c 3 ++ more)) ∗ fromK 3 (rsIn m c) ∗ belowK 3 (rsOut (F := F) c))
      ⊢ iprop((∀ a, iprop(owesX (F := F) c (OL (rsItems c 6 ++ more)) ∗ fromK 6 (rsIn m c) ∗ belowK 6 (rsOut (F := F) c)) -∗ Q a)
          -∗ wp frame (wpE (defs₀ (F := F)) 𝒱₀ (c : Thread nD τ) none) Set.univ (k0_part8 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q) := by
  simp only [k0_part8_eq_skeleton]; unfold k0_part8_skel
  simp only [semSignalWord, semWaitWord, Prog.lift, Prog.bind_op, Prog.bind_ret, Prog.pure_eq_ret]
  iintro ⟨#HR, HO, H1, H2⟩
  iintro Hk
  iapply (rs_step m K c 3 _ (dev35_eq c) more) $$ [HO H1 H2]
  · isplitr; · iexact HR
    isplitl [HO]; · iexact HO
    isplitl [H1]; · iexact H1
    iexact H2
  iintro ⟨HO, H1, H2⟩
  iapply (rs_step m K c 4 _ (dev36_eq c) more) $$ [HO H1 H2]
  · isplitr; · iexact HR
    isplitl [HO]; · iexact HO
    isplitl [H1]; · iexact H1
    iexact H2
  iintro ⟨HO, H1, H2⟩
  iapply (rs_step m K c 5 _ (dev37_eq c) more) $$ [HO H1 H2]
  · isplitr; · iexact HR
    isplitl [HO]; · iexact HO
    isplitl [H1]; · iexact H1
    iexact H2
  iintro ⟨HO, H1, H2⟩
  rw [wp_ret]; imodintro
  iapply Hk
  isplitl [HO]; · iexact HO
  isplitl [H1]; · iexact H1
  iexact H2

set_option maxHeartbeats 1600000 in
theorem exec_part9 (c : Dev nD) (v2 : BitVec 32) (v207 : BitVec 32) (c16_i32_196 : BitVec 32) (more : List (GSem nD τ sig × ℕ))
    {Q : (Σ' (v219 : BitVec 32), BitVec 32) → sProp 𝕄} :
    iprop(records m K ∗ owesX (F := F) c (OL (rsItems c 6 ++ more)) ∗ fromK 6 (rsIn m c) ∗ belowK 6 (rsOut (F := F) c))
      ⊢ iprop((∀ a, iprop(owesX (F := F) c (OL (rsItems c 8 ++ more)) ∗ fromK 8 (rsIn m c) ∗ belowK 8 (rsOut (F := F) c)) -∗ Q a)
          -∗ wp frame (wpE (defs₀ (F := F)) 𝒱₀ (c : Thread nD τ) none) Set.univ (k0_part9 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v207 c16_i32_196) Q) := by
  simp only [k0_part9_eq_skeleton]; unfold k0_part9_skel
  simp only [semSignalWord, semWaitWord, Prog.lift, Prog.bind_op, Prog.bind_ret, Prog.pure_eq_ret]
  iintro ⟨#HR, HO, H1, H2⟩
  iintro Hk
  iapply (rs_step m K c 6 _ (dev38_eq c) more) $$ [HO H1 H2]
  · isplitr; · iexact HR
    isplitl [HO]; · iexact HO
    isplitl [H1]; · iexact H1
    iexact H2
  iintro ⟨HO, H1, H2⟩
  iapply (rs_step m K c 7 _ (dev39_eq c) more) $$ [HO H1 H2]
  · isplitr; · iexact HR
    isplitl [HO]; · iexact HO
    isplitl [H1]; · iexact H1
    iexact H2
  iintro ⟨HO, H1, H2⟩
  rw [wp_ret]; imodintro
  iapply Hk
  isplitl [HO]; · iexact HO
  isplitl [H1]; · iexact H1
  iexact H2

set_option maxHeartbeats 1600000 in
theorem exec_part10 (c : Dev nD) (v2 : BitVec 32) (more : List (GSem nD τ sig × ℕ))
    {Q : (Σ' (v243 : BitVec 32) (v255 : BitVec 32) (v267 : BitVec 32), BitVec 32) → sProp 𝕄} :
    iprop(records m K ∗ owesX (F := F) c (OL (rsItems c 8 ++ more)) ∗ fromK 8 (rsIn m c) ∗ belowK 8 (rsOut (F := F) c))
      ⊢ iprop((∀ a, iprop(owesX (F := F) c (OL (rsItems c 11 ++ more)) ∗ fromK 11 (rsIn m c) ∗ belowK 11 (rsOut (F := F) c)) -∗ Q a)
          -∗ wp frame (wpE (defs₀ (F := F)) 𝒱₀ (c : Thread nD τ) none) Set.univ (k0_part10 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q) := by
  simp only [k0_part10_eq_skeleton]; unfold k0_part10_skel
  simp only [semSignalWord, semWaitWord, Prog.lift, Prog.bind_op, Prog.bind_ret, Prog.pure_eq_ret]
  iintro ⟨#HR, HO, H1, H2⟩
  iintro Hk
  iapply (rs_step m K c 8 _ (dev40_eq c) more) $$ [HO H1 H2]
  · isplitr; · iexact HR
    isplitl [HO]; · iexact HO
    isplitl [H1]; · iexact H1
    iexact H2
  iintro ⟨HO, H1, H2⟩
  iapply (rs_step m K c 9 _ (dev41_eq c) more) $$ [HO H1 H2]
  · isplitr; · iexact HR
    isplitl [HO]; · iexact HO
    isplitl [H1]; · iexact H1
    iexact H2
  iintro ⟨HO, H1, H2⟩
  iapply (rs_step m K c 10 _ (dev42_eq c) more) $$ [HO H1 H2]
  · isplitr; · iexact HR
    isplitl [HO]; · iexact HO
    isplitl [H1]; · iexact H1
    iexact H2
  iintro ⟨HO, H1, H2⟩
  rw [wp_ret]; imodintro
  iapply Hk
  isplitl [HO]; · iexact HO
  isplitl [H1]; · iexact H1
  iexact H2

set_option maxHeartbeats 1600000 in
theorem exec_part11 (c : Dev nD) (v2 : BitVec 32) (v267 : BitVec 32) (c16_i32_251 : BitVec 32) (more : List (GSem nD τ sig × ℕ))
    {Q : (Σ' (v279 : BitVec 32), BitVec 32) → sProp 𝕄} :
    iprop(records m K ∗ owesX (F := F) c (OL (rsItems c 11 ++ more)) ∗ fromK 11 (rsIn m c) ∗ belowK 11 (rsOut (F := F) c))
      ⊢ iprop((∀ a, iprop(owesX (F := F) c (OL (rsItems c 13 ++ more)) ∗ fromK 13 (rsIn m c) ∗ belowK 13 (rsOut (F := F) c)) -∗ Q a)
          -∗ wp frame (wpE (defs₀ (F := F)) 𝒱₀ (c : Thread nD τ) none) Set.univ (k0_part11 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v267 c16_i32_251) Q) := by
  simp only [k0_part11_eq_skeleton]; unfold k0_part11_skel
  simp only [semSignalWord, semWaitWord, Prog.lift, Prog.bind_op, Prog.bind_ret, Prog.pure_eq_ret]
  iintro ⟨#HR, HO, H1, H2⟩
  iintro Hk
  iapply (rs_step m K c 11 _ (dev43_eq c) more) $$ [HO H1 H2]
  · isplitr; · iexact HR
    isplitl [HO]; · iexact HO
    isplitl [H1]; · iexact H1
    iexact H2
  iintro ⟨HO, H1, H2⟩
  iapply (rs_step m K c 12 _ (dev44_eq c) more) $$ [HO H1 H2]
  · isplitr; · iexact HR
    isplitl [HO]; · iexact HO
    isplitl [H1]; · iexact H1
    iexact H2
  iintro ⟨HO, H1, H2⟩
  rw [wp_ret]; imodintro
  iapply Hk
  isplitl [HO]; · iexact HO
  isplitl [H1]; · iexact H1
  iexact H2

set_option maxHeartbeats 1600000 in
theorem exec_part12 (c : Dev nD) (v2 : BitVec 32) (more : List (GSem nD τ sig × ℕ))
    {Q : (Σ' (v303 : BitVec 32) (v315 : BitVec 32) (v327 : BitVec 32), BitVec 32) → sProp 𝕄} :
    iprop(records m K ∗ owesX (F := F) c (OL (rsItems c 13 ++ more)) ∗ fromK 13 (rsIn m c) ∗ belowK 13 (rsOut (F := F) c))
      ⊢ iprop((∀ a, iprop(owesX (F := F) c (OL (rsItems c 16 ++ more)) ∗ fromK 16 (rsIn m c) ∗ belowK 16 (rsOut (F := F) c)) -∗ Q a)
          -∗ wp frame (wpE (defs₀ (F := F)) 𝒱₀ (c : Thread nD τ) none) Set.univ (k0_part12 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q) := by
  simp only [k0_part12_eq_skeleton]; unfold k0_part12_skel
  simp only [semSignalWord, semWaitWord, Prog.lift, Prog.bind_op, Prog.bind_ret, Prog.pure_eq_ret]
  iintro ⟨#HR, HO, H1, H2⟩
  iintro Hk
  iapply (rs_step m K c 13 _ (dev45_eq c) more) $$ [HO H1 H2]
  · isplitr; · iexact HR
    isplitl [HO]; · iexact HO
    isplitl [H1]; · iexact H1
    iexact H2
  iintro ⟨HO, H1, H2⟩
  iapply (rs_step m K c 14 _ (dev46_eq c) more) $$ [HO H1 H2]
  · isplitr; · iexact HR
    isplitl [HO]; · iexact HO
    isplitl [H1]; · iexact H1
    iexact H2
  iintro ⟨HO, H1, H2⟩
  iapply (rs_step m K c 15 _ (dev47_eq c) more) $$ [HO H1 H2]
  · isplitr; · iexact HR
    isplitl [HO]; · iexact HO
    isplitl [H1]; · iexact H1
    iexact H2
  iintro ⟨HO, H1, H2⟩
  rw [wp_ret]; imodintro
  iapply Hk
  isplitl [HO]; · iexact HO
  isplitl [H1]; · iexact H1
  iexact H2

set_option maxHeartbeats 1600000 in
theorem exec_part13 (c : Dev nD) (v2 : BitVec 32) (v327 : BitVec 32) (c16_i32_306 : BitVec 32) (more : List (GSem nD τ sig × ℕ))
    {Q : (Σ' (v339 : BitVec 32), BitVec 32) → sProp 𝕄} :
    iprop(records m K ∗ owesX (F := F) c (OL (rsItems c 16 ++ more)) ∗ fromK 16 (rsIn m c) ∗ belowK 16 (rsOut (F := F) c))
      ⊢ iprop((∀ a, iprop(owesX (F := F) c (OL (rsItems c 18 ++ more)) ∗ fromK 18 (rsIn m c) ∗ belowK 18 (rsOut (F := F) c)) -∗ Q a)
          -∗ wp frame (wpE (defs₀ (F := F)) 𝒱₀ (c : Thread nD τ) none) Set.univ (k0_part13 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v327 c16_i32_306) Q) := by
  simp only [k0_part13_eq_skeleton]; unfold k0_part13_skel
  simp only [semSignalWord, semWaitWord, Prog.lift, Prog.bind_op, Prog.bind_ret, Prog.pure_eq_ret]
  iintro ⟨#HR, HO, H1, H2⟩
  iintro Hk
  iapply (rs_step m K c 16 _ (dev48_eq c) more) $$ [HO H1 H2]
  · isplitr; · iexact HR
    isplitl [HO]; · iexact HO
    isplitl [H1]; · iexact H1
    iexact H2
  iintro ⟨HO, H1, H2⟩
  iapply (rs_step m K c 17 _ (dev49_eq c) more) $$ [HO H1 H2]
  · isplitr; · iexact HR
    isplitl [HO]; · iexact HO
    isplitl [H1]; · iexact H1
    iexact H2
  iintro ⟨HO, H1, H2⟩
  rw [wp_ret]; imodintro
  iapply Hk
  isplitl [HO]; · iexact HO
  isplitl [H1]; · iexact H1
  iexact H2

set_option maxHeartbeats 1600000 in
theorem exec_part14 (c : Dev nD) (v2 : BitVec 32) (more : List (GSem nD τ sig × ℕ))
    {Q : (Σ' (v363 : BitVec 32) (v375 : BitVec 32) (v387 : BitVec 32), BitVec 32) → sProp 𝕄} :
    iprop(records m K ∗ owesX (F := F) c (OL (rsItems c 18 ++ more)) ∗ fromK 18 (rsIn m c) ∗ belowK 18 (rsOut (F := F) c))
      ⊢ iprop((∀ a, iprop(owesX (F := F) c (OL (rsItems c 21 ++ more)) ∗ fromK 21 (rsIn m c) ∗ belowK 21 (rsOut (F := F) c)) -∗ Q a)
          -∗ wp frame (wpE (defs₀ (F := F)) 𝒱₀ (c : Thread nD τ) none) Set.univ (k0_part14 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q) := by
  simp only [k0_part14_eq_skeleton]; unfold k0_part14_skel
  simp only [semSignalWord, semWaitWord, Prog.lift, Prog.bind_op, Prog.bind_ret, Prog.pure_eq_ret]
  iintro ⟨#HR, HO, H1, H2⟩
  iintro Hk
  iapply (rs_step m K c 18 _ (dev50_eq c) more) $$ [HO H1 H2]
  · isplitr; · iexact HR
    isplitl [HO]; · iexact HO
    isplitl [H1]; · iexact H1
    iexact H2
  iintro ⟨HO, H1, H2⟩
  iapply (rs_step m K c 19 _ (dev51_eq c) more) $$ [HO H1 H2]
  · isplitr; · iexact HR
    isplitl [HO]; · iexact HO
    isplitl [H1]; · iexact H1
    iexact H2
  iintro ⟨HO, H1, H2⟩
  iapply (rs_step m K c 20 _ (dev52_eq c) more) $$ [HO H1 H2]
  · isplitr; · iexact HR
    isplitl [HO]; · iexact HO
    isplitl [H1]; · iexact H1
    iexact H2
  iintro ⟨HO, H1, H2⟩
  rw [wp_ret]; imodintro
  iapply Hk
  isplitl [HO]; · iexact HO
  isplitl [H1]; · iexact H1
  iexact H2

set_option maxHeartbeats 1600000 in
theorem exec_part15 (c : Dev nD) (v2 : BitVec 32) (v387 : BitVec 32) (c16_i32_361 : BitVec 32) (more : List (GSem nD τ sig × ℕ))
    {Q : (Σ' (v399 : BitVec 32), BitVec 32) → sProp 𝕄} :
    iprop(records m K ∗ owesX (F := F) c (OL (rsItems c 21 ++ more)) ∗ fromK 21 (rsIn m c) ∗ belowK 21 (rsOut (F := F) c))
      ⊢ iprop((∀ a, iprop(owesX (F := F) c (OL (rsItems c 23 ++ more)) ∗ fromK 23 (rsIn m c) ∗ belowK 23 (rsOut (F := F) c)) -∗ Q a)
          -∗ wp frame (wpE (defs₀ (F := F)) 𝒱₀ (c : Thread nD τ) none) Set.univ (k0_part15 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v387 c16_i32_361) Q) := by
  simp only [k0_part15_eq_skeleton]; unfold k0_part15_skel
  simp only [semSignalWord, semWaitWord, Prog.lift, Prog.bind_op, Prog.bind_ret, Prog.pure_eq_ret]
  iintro ⟨#HR, HO, H1, H2⟩
  iintro Hk
  iapply (rs_step m K c 21 _ (dev53_eq c) more) $$ [HO H1 H2]
  · isplitr; · iexact HR
    isplitl [HO]; · iexact HO
    isplitl [H1]; · iexact H1
    iexact H2
  iintro ⟨HO, H1, H2⟩
  iapply (rs_step m K c 22 _ (dev54_eq c) more) $$ [HO H1 H2]
  · isplitr; · iexact HR
    isplitl [HO]; · iexact HO
    isplitl [H1]; · iexact H1
    iexact H2
  iintro ⟨HO, H1, H2⟩
  rw [wp_ret]; imodintro
  iapply Hk
  isplitl [HO]; · iexact HO
  isplitl [H1]; · iexact H1
  iexact H2

set_option maxHeartbeats 1600000 in
theorem exec_part16 (c : Dev nD) (v2 : BitVec 32) (more : List (GSem nD τ sig × ℕ))
    {Q : (Σ' (v423 : BitVec 32) (v435 : BitVec 32) (v447 : BitVec 32), BitVec 32) → sProp 𝕄} :
    iprop(records m K ∗ owesX (F := F) c (OL (rsItems c 23 ++ more)) ∗ fromK 23 (rsIn m c) ∗ belowK 23 (rsOut (F := F) c))
      ⊢ iprop((∀ a, iprop(owesX (F := F) c (OL (rsItems c 26 ++ more)) ∗ fromK 26 (rsIn m c) ∗ belowK 26 (rsOut (F := F) c)) -∗ Q a)
          -∗ wp frame (wpE (defs₀ (F := F)) 𝒱₀ (c : Thread nD τ) none) Set.univ (k0_part16 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q) := by
  simp only [k0_part16_eq_skeleton]; unfold k0_part16_skel
  simp only [semSignalWord, semWaitWord, Prog.lift, Prog.bind_op, Prog.bind_ret, Prog.pure_eq_ret]
  iintro ⟨#HR, HO, H1, H2⟩
  iintro Hk
  iapply (rs_step m K c 23 _ (dev55_eq c) more) $$ [HO H1 H2]
  · isplitr; · iexact HR
    isplitl [HO]; · iexact HO
    isplitl [H1]; · iexact H1
    iexact H2
  iintro ⟨HO, H1, H2⟩
  iapply (rs_step m K c 24 _ (dev56_eq c) more) $$ [HO H1 H2]
  · isplitr; · iexact HR
    isplitl [HO]; · iexact HO
    isplitl [H1]; · iexact H1
    iexact H2
  iintro ⟨HO, H1, H2⟩
  iapply (rs_step m K c 25 _ (dev57_eq c) more) $$ [HO H1 H2]
  · isplitr; · iexact HR
    isplitl [HO]; · iexact HO
    isplitl [H1]; · iexact H1
    iexact H2
  iintro ⟨HO, H1, H2⟩
  rw [wp_ret]; imodintro
  iapply Hk
  isplitl [HO]; · iexact HO
  isplitl [H1]; · iexact H1
  iexact H2

set_option maxHeartbeats 1600000 in
theorem exec_part17 (c : Dev nD) (v2 : BitVec 32) (v447 : BitVec 32) (c16_i32_416 : BitVec 32) (more : List (GSem nD τ sig × ℕ))
    {Q : (Σ' (v459 : BitVec 32), BitVec 32) → sProp 𝕄} :
    iprop(records m K ∗ owesX (F := F) c (OL (rsItems c 26 ++ more)) ∗ fromK 26 (rsIn m c) ∗ belowK 26 (rsOut (F := F) c))
      ⊢ iprop((∀ a, iprop(owesX (F := F) c (OL (rsItems c 28 ++ more)) ∗ fromK 28 (rsIn m c) ∗ belowK 28 (rsOut (F := F) c)) -∗ Q a)
          -∗ wp frame (wpE (defs₀ (F := F)) 𝒱₀ (c : Thread nD τ) none) Set.univ (k0_part17 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v447 c16_i32_416) Q) := by
  simp only [k0_part17_eq_skeleton]; unfold k0_part17_skel
  simp only [semSignalWord, semWaitWord, Prog.lift, Prog.bind_op, Prog.bind_ret, Prog.pure_eq_ret]
  iintro ⟨#HR, HO, H1, H2⟩
  iintro Hk
  iapply (rs_step m K c 26 _ (dev58_eq c) more) $$ [HO H1 H2]
  · isplitr; · iexact HR
    isplitl [HO]; · iexact HO
    isplitl [H1]; · iexact H1
    iexact H2
  iintro ⟨HO, H1, H2⟩
  iapply (rs_step m K c 27 _ (dev59_eq c) more) $$ [HO H1 H2]
  · isplitr; · iexact HR
    isplitl [HO]; · iexact HO
    isplitl [H1]; · iexact H1
    iexact H2
  iintro ⟨HO, H1, H2⟩
  rw [wp_ret]; imodintro
  iapply Hk
  isplitl [HO]; · iexact HO
  isplitl [H1]; · iexact H1
  iexact H2

end Cert.KernelIdeal.Hand

end
-- ==== Proof.PartsD.lean ====
/-
  Parts 32 to 40 of the body: the all-gather's copies of slots 2 to 30.
-/
import proofs.«900471_g7700000000000472_dist_rs_then_ag_i_m512_n512_v7x_i32_bf16_1_alg».proof.Proof.PartsA

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)

set_option maxHeartbeats 1600000 in
theorem exec_part32 (c : Dev nD) (v2 : BitVec 32) (more : List (GSem nD τ sig × ℕ))
    {Q : (Σ' (v890 : BitVec 32) (v900 : BitVec 32), BitVec 32) → sProp 𝕄} :
    iprop(records m K ∗ owesX (F := F) c (OL (agItems c 2 ++ more)) ∗ fromK 2 (agIn m c) ∗ belowK 2 (agOut (F := F) c))
      ⊢ iprop((∀ a, iprop(owesX (F := F) c (OL (agItems c 5 ++ more)) ∗ fromK 5 (agIn m c) ∗ belowK 5 (agOut (F := F) c)) -∗ Q a)
          -∗ wp frame (wpE (defs₀ (F := F)) 𝒱₀ (c : Thread nD τ) none) Set.univ (k0_part32 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q) := by
  simp only [k0_part32_eq_skeleton]; unfold k0_part32_skel
  simp only [semSignalWord, semWaitWord, Prog.lift, Prog.bind_op, Prog.bind_ret, Prog.pure_eq_ret]
  iintro ⟨#HR, HO, H1, H2⟩
  iintro Hk
  iapply (ag_step m K c 2 _ (dev65_eq c) more) $$ [HO H1 H2]
  · isplitr; · iexact HR
    isplitl [HO]; · iexact HO
    isplitl [H1]; · iexact H1
    iexact H2
  iintro ⟨HO, H1, H2⟩
  iapply (ag_step m K c 3 _ (dev66_eq c) more) $$ [HO H1 H2]
  · isplitr; · iexact HR
    isplitl [HO]; · iexact HO
    isplitl [H1]; · iexact H1
    iexact H2
  iintro ⟨HO, H1, H2⟩
  iapply (ag_step m K c 4 _ (dev67_eq c) more) $$ [HO H1 H2]
  · isplitr; · iexact HR
    isplitl [HO]; · iexact HO
    isplitl [H1]; · iexact H1
    iexact H2
  iintro ⟨HO, H1, H2⟩
  rw [wp_ret]; imodintro
  iapply Hk
  isplitl [HO]; · iexact HO
  isplitl [H1]; · iexact H1
  iexact H2

set_option maxHeartbeats 1600000 in
theorem exec_part33 (c : Dev nD) (v2 : BitVec 32) (more : List (GSem nD τ sig × ℕ))
    {Q : (Σ' (v920 : BitVec 32) (v930 : BitVec 32), BitVec 32) → sProp 𝕄} :
    iprop(records m K ∗ owesX (F := F) c (OL (agItems c 5 ++ more)) ∗ fromK 5 (agIn m c) ∗ belowK 5 (agOut (F := F) c))
      ⊢ iprop((∀ a, iprop(owesX (F := F) c (OL (agItems c 8 ++ more)) ∗ fromK 8 (agIn m c) ∗ belowK 8 (agOut (F := F) c)) -∗ Q a)
          -∗ wp frame (wpE (defs₀ (F := F)) 𝒱₀ (c : Thread nD τ) none) Set.univ (k0_part33 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q) := by
  simp only [k0_part33_eq_skeleton]; unfold k0_part33_skel
  simp only [semSignalWord, semWaitWord, Prog.lift, Prog.bind_op, Prog.bind_ret, Prog.pure_eq_ret]
  iintro ⟨#HR, HO, H1, H2⟩
  iintro Hk
  iapply (ag_step m K c 5 _ (dev68_eq c) more) $$ [HO H1 H2]
  · isplitr; · iexact HR
    isplitl [HO]; · iexact HO
    isplitl [H1]; · iexact H1
    iexact H2
  iintro ⟨HO, H1, H2⟩
  iapply (ag_step m K c 6 _ (dev69_eq c) more) $$ [HO H1 H2]
  · isplitr; · iexact HR
    isplitl [HO]; · iexact HO
    isplitl [H1]; · iexact H1
    iexact H2
  iintro ⟨HO, H1, H2⟩
  iapply (ag_step m K c 7 _ (dev70_eq c) more) $$ [HO H1 H2]
  · isplitr; · iexact HR
    isplitl [HO]; · iexact HO
    isplitl [H1]; · iexact H1
    iexact H2
  iintro ⟨HO, H1, H2⟩
  rw [wp_ret]; imodintro
  iapply Hk
  isplitl [HO]; · iexact HO
  isplitl [H1]; · iexact H1
  iexact H2

set_option maxHeartbeats 1600000 in
theorem exec_part34 (c : Dev nD) (v2 : BitVec 32) (more : List (GSem nD τ sig × ℕ))
    {Q : (Σ' (v950 : BitVec 32) (v960 : BitVec 32) (v970 : BitVec 32), BitVec 32) → sProp 𝕄} :
    iprop(records m K ∗ owesX (F := F) c (OL (agItems c 8 ++ more)) ∗ fromK 8 (agIn m c) ∗ belowK 8 (agOut (F := F) c))
      ⊢ iprop((∀ a, iprop(owesX (F := F) c (OL (agItems c 12 ++ more)) ∗ fromK 12 (agIn m c) ∗ belowK 12 (agOut (F := F) c)) -∗ Q a)
          -∗ wp frame (wpE (defs₀ (F := F)) 𝒱₀ (c : Thread nD τ) none) Set.univ (k0_part34 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q) := by
  simp only [k0_part34_eq_skeleton]; unfold k0_part34_skel
  simp only [semSignalWord, semWaitWord, Prog.lift, Prog.bind_op, Prog.bind_ret, Prog.pure_eq_ret]
  iintro ⟨#HR, HO, H1, H2⟩
  iintro Hk
  iapply (ag_step m K c 8 _ (dev71_eq c) more) $$ [HO H1 H2]
  · isplitr; · iexact HR
    isplitl [HO]; · iexact HO
    isplitl [H1]; · iexact H1
    iexact H2
  iintro ⟨HO, H1, H2⟩
  iapply (ag_step m K c 9 _ (dev72_eq c) more) $$ [HO H1 H2]
  · isplitr; · iexact HR
    isplitl [HO]; · iexact HO
    isplitl [H1]; · iexact H1
    iexact H2
  iintro ⟨HO, H1, H2⟩
  iapply (ag_step m K c 10 _ (dev73_eq c) more) $$ [HO H1 H2]
  · isplitr; · iexact HR
    isplitl [HO]; · iexact HO
    isplitl [H1]; · iexact H1
    iexact H2
  iintro ⟨HO, H1, H2⟩
  iapply (ag_step m K c 11 _ (dev74_eq c) more) $$ [HO H1 H2]
  · isplitr; · iexact HR
    isplitl [HO]; · iexact HO
    isplitl [H1]; · iexact H1
    iexact H2
  iintro ⟨HO, H1, H2⟩
  rw [wp_ret]; imodintro
  iapply Hk
  isplitl [HO]; · iexact HO
  isplitl [H1]; · iexact H1
  iexact H2

set_option maxHeartbeats 1600000 in
theorem exec_part35 (c : Dev nD) (v2 : BitVec 32) (v979 : BitVec 32) (more : List (GSem nD τ sig × ℕ))
    {Q : (Σ' (v980 : BitVec 32) (v990 : BitVec 32) (v1000 : BitVec 32) (v1010 : BitVec 32), BitVec 32) → sProp 𝕄} :
    iprop(records m K ∗ owesX (F := F) c (OL (agItems c 12 ++ more)) ∗ fromK 12 (agIn m c) ∗ belowK 12 (agOut (F := F) c))
      ⊢ iprop((∀ a, iprop(owesX (F := F) c (OL (agItems c 15 ++ more)) ∗ fromK 15 (agIn m c) ∗ belowK 15 (agOut (F := F) c)) -∗ Q a)
          -∗ wp frame (wpE (defs₀ (F := F)) 𝒱₀ (c : Thread nD τ) none) Set.univ (k0_part35 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v979) Q) := by
  simp only [k0_part35_eq_skeleton]; unfold k0_part35_skel
  simp only [semSignalWord, semWaitWord, Prog.lift, Prog.bind_op, Prog.bind_ret, Prog.pure_eq_ret]
  iintro ⟨#HR, HO, H1, H2⟩
  iintro Hk
  iapply (ag_step m K c 12 _ (dev75_eq c) more) $$ [HO H1 H2]
  · isplitr; · iexact HR
    isplitl [HO]; · iexact HO
    isplitl [H1]; · iexact H1
    iexact H2
  iintro ⟨HO, H1, H2⟩
  iapply (ag_step m K c 13 _ (dev76_eq c) more) $$ [HO H1 H2]
  · isplitr; · iexact HR
    isplitl [HO]; · iexact HO
    isplitl [H1]; · iexact H1
    iexact H2
  iintro ⟨HO, H1, H2⟩
  iapply (ag_step m K c 14 _ (dev77_eq c) more) $$ [HO H1 H2]
  · isplitr; · iexact HR
    isplitl [HO]; · iexact HO
    isplitl [H1]; · iexact H1
    iexact H2
  iintro ⟨HO, H1, H2⟩
  rw [wp_ret]; imodintro
  iapply Hk
  isplitl [HO]; · iexact HO
  isplitl [H1]; · iexact H1
  iexact H2

set_option maxHeartbeats 1600000 in
theorem exec_part36 (c : Dev nD) (v2 : BitVec 32) (v1010 : BitVec 32) (c16_i32_910 : BitVec 32) (more : List (GSem nD τ sig × ℕ))
    {Q : (Σ' (v1020 : BitVec 32) (v1030 : BitVec 32), BitVec 32) → sProp 𝕄} :
    iprop(records m K ∗ owesX (F := F) c (OL (agItems c 15 ++ more)) ∗ fromK 15 (agIn m c) ∗ belowK 15 (agOut (F := F) c))
      ⊢ iprop((∀ a, iprop(owesX (F := F) c (OL (agItems c 18 ++ more)) ∗ fromK 18 (agIn m c) ∗ belowK 18 (agOut (F := F) c)) -∗ Q a)
          -∗ wp frame (wpE (defs₀ (F := F)) 𝒱₀ (c : Thread nD τ) none) Set.univ (k0_part36 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v1010 c16_i32_910) Q) := by
  simp only [k0_part36_eq_skeleton]; unfold k0_part36_skel
  simp only [semSignalWord, semWaitWord, Prog.lift, Prog.bind_op, Prog.bind_ret, Prog.pure_eq_ret]
  iintro ⟨#HR, HO, H1, H2⟩
  iintro Hk
  iapply (ag_step m K c 15 _ (dev78_eq c) more) $$ [HO H1 H2]
  · isplitr; · iexact HR
    isplitl [HO]; · iexact HO
    isplitl [H1]; · iexact H1
    iexact H2
  iintro ⟨HO, H1, H2⟩
  iapply (ag_step m K c 16 _ (dev79_eq c) more) $$ [HO H1 H2]
  · isplitr; · iexact HR
    isplitl [HO]; · iexact HO
    isplitl [H1]; · iexact H1
    iexact H2
  iintro ⟨HO, H1, H2⟩
  iapply (ag_step m K c 17 _ (dev80_eq c) more) $$ [HO H1 H2]
  · isplitr; · iexact HR
    isplitl [HO]; · iexact HO
    isplitl [H1]; · iexact H1
    iexact H2
  iintro ⟨HO, H1, H2⟩
  rw [wp_ret]; imodintro
  iapply Hk
  isplitl [HO]; · iexact HO
  isplitl [H1]; · iexact H1
  iexact H2

set_option maxHeartbeats 1600000 in
theorem exec_part37 (c : Dev nD) (v2 : BitVec 32) (v1040 : BitVec 32) (more : List (GSem nD τ sig × ℕ))
    {Q : (Σ' (v1050 : BitVec 32) (v1060 : BitVec 32) (v1070 : BitVec 32) (v1072 : BitVec 32), BitVec 32) → sProp 𝕄} :
    iprop(records m K ∗ owesX (F := F) c (OL (agItems c 18 ++ more)) ∗ fromK 18 (agIn m c) ∗ belowK 18 (agOut (F := F) c))
      ⊢ iprop((∀ a, iprop(owesX (F := F) c (OL (agItems c 21 ++ more)) ∗ fromK 21 (agIn m c) ∗ belowK 21 (agOut (F := F) c)) -∗ Q a)
          -∗ wp frame (wpE (defs₀ (F := F)) 𝒱₀ (c : Thread nD τ) none) Set.univ (k0_part37 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v1040) Q) := by
  simp only [k0_part37_eq_skeleton]; unfold k0_part37_skel
  simp only [semSignalWord, semWaitWord, Prog.lift, Prog.bind_op, Prog.bind_ret, Prog.pure_eq_ret]
  iintro ⟨#HR, HO, H1, H2⟩
  iintro Hk
  iapply (ag_step m K c 18 _ (dev81_eq c) more) $$ [HO H1 H2]
  · isplitr; · iexact HR
    isplitl [HO]; · iexact HO
    isplitl [H1]; · iexact H1
    iexact H2
  iintro ⟨HO, H1, H2⟩
  iapply (ag_step m K c 19 _ (dev82_eq c) more) $$ [HO H1 H2]
  · isplitr; · iexact HR
    isplitl [HO]; · iexact HO
    isplitl [H1]; · iexact H1
    iexact H2
  iintro ⟨HO, H1, H2⟩
  iapply (ag_step m K c 20 _ (dev83_eq c) more) $$ [HO H1 H2]
  · isplitr; · iexact HR
    isplitl [HO]; · iexact HO
    isplitl [H1]; · iexact H1
    iexact H2
  iintro ⟨HO, H1, H2⟩
  rw [wp_ret]; imodintro
  iapply Hk
  isplitl [HO]; · iexact HO
  isplitl [H1]; · iexact H1
  iexact H2

set_option maxHeartbeats 1600000 in
theorem exec_part38 (c : Dev nD) (v2 : BitVec 32) (v1072 : BitVec 32) (c0_i32_962 : BitVec 32) (more : List (GSem nD τ sig × ℕ))
    {Q : (Σ' (v1080 : BitVec 32) (v1090 : BitVec 32), BitVec 32) → sProp 𝕄} :
    iprop(records m K ∗ owesX (F := F) c (OL (agItems c 21 ++ more)) ∗ fromK 21 (agIn m c) ∗ belowK 21 (agOut (F := F) c))
      ⊢ iprop((∀ a, iprop(owesX (F := F) c (OL (agItems c 24 ++ more)) ∗ fromK 24 (agIn m c) ∗ belowK 24 (agOut (F := F) c)) -∗ Q a)
          -∗ wp frame (wpE (defs₀ (F := F)) 𝒱₀ (c : Thread nD τ) none) Set.univ (k0_part38 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v1072 c0_i32_962) Q) := by
  simp only [k0_part38_eq_skeleton]; unfold k0_part38_skel
  simp only [semSignalWord, semWaitWord, Prog.lift, Prog.bind_op, Prog.bind_ret, Prog.pure_eq_ret]
  iintro ⟨#HR, HO, H1, H2⟩
  iintro Hk
  iapply (ag_step m K c 21 _ (dev84_eq c) more) $$ [HO H1 H2]
  · isplitr; · iexact HR
    isplitl [HO]; · iexact HO
    isplitl [H1]; · iexact H1
    iexact H2
  iintro ⟨HO, H1, H2⟩
  iapply (ag_step m K c 22 _ (dev85_eq c) more) $$ [HO H1 H2]
  · isplitr; · iexact HR
    isplitl [HO]; · iexact HO
    isplitl [H1]; · iexact H1
    iexact H2
  iintro ⟨HO, H1, H2⟩
  iapply (ag_step m K c 23 _ (dev86_eq c) more) $$ [HO H1 H2]
  · isplitr; · iexact HR
    isplitl [HO]; · iexact HO
    isplitl [H1]; · iexact H1
    iexact H2
  iintro ⟨HO, H1, H2⟩
  rw [wp_ret]; imodintro
  iapply Hk
  isplitl [HO]; · iexact HO
  isplitl [H1]; · iexact H1
  iexact H2

set_option maxHeartbeats 1600000 in
theorem exec_part39 (c : Dev nD) (v2 : BitVec 32) (more : List (GSem nD τ sig × ℕ))
    {Q : (Σ' (v1110 : BitVec 32) (v1120 : BitVec 32), BitVec 32) → sProp 𝕄} :
    iprop(records m K ∗ owesX (F := F) c (OL (agItems c 24 ++ more)) ∗ fromK 24 (agIn m c) ∗ belowK 24 (agOut (F := F) c))
      ⊢ iprop((∀ a, iprop(owesX (F := F) c (OL (agItems c 27 ++ more)) ∗ fromK 27 (agIn m c) ∗ belowK 27 (agOut (F := F) c)) -∗ Q a)
          -∗ wp frame (wpE (defs₀ (F := F)) 𝒱₀ (c : Thread nD τ) none) Set.univ (k0_part39 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q) := by
  simp only [k0_part39_eq_skeleton]; unfold k0_part39_skel
  simp only [semSignalWord, semWaitWord, Prog.lift, Prog.bind_op, Prog.bind_ret, Prog.pure_eq_ret]
  iintro ⟨#HR, HO, H1, H2⟩
  iintro Hk
  iapply (ag_step m K c 24 _ (dev87_eq c) more) $$ [HO H1 H2]
  · isplitr; · iexact HR
    isplitl [HO]; · iexact HO
    isplitl [H1]; · iexact H1
    iexact H2
  iintro ⟨HO, H1, H2⟩
  iapply (ag_step m K c 25 _ (dev88_eq c) more) $$ [HO H1 H2]
  · isplitr; · iexact HR
    isplitl [HO]; · iexact HO
    isplitl [H1]; · iexact H1
    iexact H2
  iintro ⟨HO, H1, H2⟩
  iapply (ag_step m K c 26 _ (dev89_eq c) more) $$ [HO H1 H2]
  · isplitr; · iexact HR
    isplitl [HO]; · iexact HO
    isplitl [H1]; · iexact H1
    iexact H2
  iintro ⟨HO, H1, H2⟩
  rw [wp_ret]; imodintro
  iapply Hk
  isplitl [HO]; · iexact HO
  isplitl [H1]; · iexact H1
  iexact H2

set_option maxHeartbeats 1600000 in
theorem exec_part40 (c : Dev nD) (v2 : BitVec 32) (more : List (GSem nD τ sig × ℕ))
    {Q : (Σ' (v1140 : BitVec 32) (v1150 : BitVec 32), BitVec 32) → sProp 𝕄} :
    iprop(records m K ∗ owesX (F := F) c (OL (agItems c 27 ++ more)) ∗ fromK 27 (agIn m c) ∗ belowK 27 (agOut (F := F) c))
      ⊢ iprop((∀ a, iprop(owesX (F := F) c (OL (agItems c 31 ++ more)) ∗ fromK 31 (agIn m c) ∗ belowK 31 (agOut (F := F) c)) -∗ Q a)
          -∗ wp frame (wpE (defs₀ (F := F)) 𝒱₀ (c : Thread nD τ) none) Set.univ (k0_part40 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q) := by
  simp only [k0_part40_eq_skeleton]; unfold k0_part40_skel
  simp only [semSignalWord, semWaitWord, Prog.lift, Prog.bind_op, Prog.bind_ret, Prog.pure_eq_ret]
  iintro ⟨#HR, HO, H1, H2⟩
  iintro Hk
  iapply (ag_step m K c 27 _ (dev90_eq c) more) $$ [HO H1 H2]
  · isplitr; · iexact HR
    isplitl [HO]; · iexact HO
    isplitl [H1]; · iexact H1
    iexact H2
  iintro ⟨HO, H1, H2⟩
  iapply (ag_step m K c 28 _ (dev91_eq c) more) $$ [HO H1 H2]
  · isplitr; · iexact HR
    isplitl [HO]; · iexact HO
    isplitl [H1]; · iexact H1
    iexact H2
  iintro ⟨HO, H1, H2⟩
  iapply (ag_step m K c 29 _ (dev92_eq c) more) $$ [HO H1 H2]
  · isplitr; · iexact HR
    isplitl [HO]; · iexact HO
    isplitl [H1]; · iexact H1
    iexact H2
  iintro ⟨HO, H1, H2⟩
  iapply (ag_step m K c 30 _ (dev93_eq c) more) $$ [HO H1 H2]
  · isplitr; · iexact HR
    isplitl [HO]; · iexact HO
    isplitl [H1]; · iexact H1
    iexact H2
  iintro ⟨HO, H1, H2⟩
  rw [wp_ret]; imodintro
  iapply Hk
  isplitl [HO]; · iexact HO
  isplitl [H1]; · iexact H1
  iexact H2

end Cert.KernelIdeal.Hand

end
-- ==== Proof.PartsE.lean ====
/-
  Parts 41 to 46 of the body: the waits on the reduce-scatter's send cells of slots 0 to 26.
-/
import proofs.«900471_g7700000000000472_dist_rs_then_ag_i_m512_n512_v7x_i32_bf16_1_alg».proof.Proof.PartsA

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)

set_option maxHeartbeats 1600000 in
theorem exec_part41 (c : Dev nD)
    {Q : (PUnit) → sProp 𝕄} :
    iprop(records m K ∗ levAts L lv ∗ owesX (F := F) c (OL []) ∗ fromK 0 (waitIn (F := F) 0 c) ∗ belowK 0 (waitOut m 0 c))
      ⊢ iprop((∀ a, iprop(owesX (F := F) c (OL []) ∗ fromK 4 (waitIn (F := F) 0 c) ∗ belowK 4 (waitOut m 0 c)) -∗ Q a)
          -∗ wp frame (wpE (defs₀ (F := F)) 𝒱₀ (c : Thread nD τ) none) Set.univ (k0_part41 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q) := by
  simp only [k0_part41_eq_skeleton]; unfold k0_part41_skel
  simp only [semSignalWord, semWaitWord, Prog.lift, Prog.bind_op, Prog.bind_ret, Prog.pure_eq_ret]
  iintro ⟨#HR, #Hlev, HO, H1, H2⟩
  iintro Hk
  iapply (wait_step m K c 0 0 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 0 1 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 0 2 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 0 3 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  rw [wp_ret]; imodintro
  iapply Hk
  isplitl [HO]; · iexact HO
  isplitl [H1]; · iexact H1
  iexact H2

set_option maxHeartbeats 1600000 in
theorem exec_part42 (c : Dev nD)
    {Q : (PUnit) → sProp 𝕄} :
    iprop(records m K ∗ levAts L lv ∗ owesX (F := F) c (OL []) ∗ fromK 4 (waitIn (F := F) 0 c) ∗ belowK 4 (waitOut m 0 c))
      ⊢ iprop((∀ a, iprop(owesX (F := F) c (OL []) ∗ fromK 9 (waitIn (F := F) 0 c) ∗ belowK 9 (waitOut m 0 c)) -∗ Q a)
          -∗ wp frame (wpE (defs₀ (F := F)) 𝒱₀ (c : Thread nD τ) none) Set.univ (k0_part42 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q) := by
  simp only [k0_part42_eq_skeleton]; unfold k0_part42_skel
  simp only [semSignalWord, semWaitWord, Prog.lift, Prog.bind_op, Prog.bind_ret, Prog.pure_eq_ret]
  iintro ⟨#HR, #Hlev, HO, H1, H2⟩
  iintro Hk
  iapply (wait_step m K c 0 4 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 0 5 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 0 6 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 0 7 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 0 8 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  rw [wp_ret]; imodintro
  iapply Hk
  isplitl [HO]; · iexact HO
  isplitl [H1]; · iexact H1
  iexact H2

set_option maxHeartbeats 1600000 in
theorem exec_part43 (c : Dev nD)
    {Q : (PUnit) → sProp 𝕄} :
    iprop(records m K ∗ levAts L lv ∗ owesX (F := F) c (OL []) ∗ fromK 9 (waitIn (F := F) 0 c) ∗ belowK 9 (waitOut m 0 c))
      ⊢ iprop((∀ a, iprop(owesX (F := F) c (OL []) ∗ fromK 13 (waitIn (F := F) 0 c) ∗ belowK 13 (waitOut m 0 c)) -∗ Q a)
          -∗ wp frame (wpE (defs₀ (F := F)) 𝒱₀ (c : Thread nD τ) none) Set.univ (k0_part43 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q) := by
  simp only [k0_part43_eq_skeleton]; unfold k0_part43_skel
  simp only [semSignalWord, semWaitWord, Prog.lift, Prog.bind_op, Prog.bind_ret, Prog.pure_eq_ret]
  iintro ⟨#HR, #Hlev, HO, H1, H2⟩
  iintro Hk
  iapply (wait_step m K c 0 9 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 0 10 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 0 11 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 0 12 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  rw [wp_ret]; imodintro
  iapply Hk
  isplitl [HO]; · iexact HO
  isplitl [H1]; · iexact H1
  iexact H2

set_option maxHeartbeats 1600000 in
theorem exec_part44 (c : Dev nD)
    {Q : (PUnit) → sProp 𝕄} :
    iprop(records m K ∗ levAts L lv ∗ owesX (F := F) c (OL []) ∗ fromK 13 (waitIn (F := F) 0 c) ∗ belowK 13 (waitOut m 0 c))
      ⊢ iprop((∀ a, iprop(owesX (F := F) c (OL []) ∗ fromK 18 (waitIn (F := F) 0 c) ∗ belowK 18 (waitOut m 0 c)) -∗ Q a)
          -∗ wp frame (wpE (defs₀ (F := F)) 𝒱₀ (c : Thread nD τ) none) Set.univ (k0_part44 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q) := by
  simp only [k0_part44_eq_skeleton]; unfold k0_part44_skel
  simp only [semSignalWord, semWaitWord, Prog.lift, Prog.bind_op, Prog.bind_ret, Prog.pure_eq_ret]
  iintro ⟨#HR, #Hlev, HO, H1, H2⟩
  iintro Hk
  iapply (wait_step m K c 0 13 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 0 14 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 0 15 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 0 16 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 0 17 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  rw [wp_ret]; imodintro
  iapply Hk
  isplitl [HO]; · iexact HO
  isplitl [H1]; · iexact H1
  iexact H2

set_option maxHeartbeats 1600000 in
theorem exec_part45 (c : Dev nD)
    {Q : (PUnit) → sProp 𝕄} :
    iprop(records m K ∗ levAts L lv ∗ owesX (F := F) c (OL []) ∗ fromK 18 (waitIn (F := F) 0 c) ∗ belowK 18 (waitOut m 0 c))
      ⊢ iprop((∀ a, iprop(owesX (F := F) c (OL []) ∗ fromK 23 (waitIn (F := F) 0 c) ∗ belowK 23 (waitOut m 0 c)) -∗ Q a)
          -∗ wp frame (wpE (defs₀ (F := F)) 𝒱₀ (c : Thread nD τ) none) Set.univ (k0_part45 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q) := by
  simp only [k0_part45_eq_skeleton]; unfold k0_part45_skel
  simp only [semSignalWord, semWaitWord, Prog.lift, Prog.bind_op, Prog.bind_ret, Prog.pure_eq_ret]
  iintro ⟨#HR, #Hlev, HO, H1, H2⟩
  iintro Hk
  iapply (wait_step m K c 0 18 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 0 19 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 0 20 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 0 21 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 0 22 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  rw [wp_ret]; imodintro
  iapply Hk
  isplitl [HO]; · iexact HO
  isplitl [H1]; · iexact H1
  iexact H2

set_option maxHeartbeats 1600000 in
theorem exec_part46 (c : Dev nD)
    {Q : (PUnit) → sProp 𝕄} :
    iprop(records m K ∗ levAts L lv ∗ owesX (F := F) c (OL []) ∗ fromK 23 (waitIn (F := F) 0 c) ∗ belowK 23 (waitOut m 0 c))
      ⊢ iprop((∀ a, iprop(owesX (F := F) c (OL []) ∗ fromK 27 (waitIn (F := F) 0 c) ∗ belowK 27 (waitOut m 0 c)) -∗ Q a)
          -∗ wp frame (wpE (defs₀ (F := F)) 𝒱₀ (c : Thread nD τ) none) Set.univ (k0_part46 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q) := by
  simp only [k0_part46_eq_skeleton]; unfold k0_part46_skel
  simp only [semSignalWord, semWaitWord, Prog.lift, Prog.bind_op, Prog.bind_ret, Prog.pure_eq_ret]
  iintro ⟨#HR, #Hlev, HO, H1, H2⟩
  iintro Hk
  iapply (wait_step m K c 0 23 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 0 24 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 0 25 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 0 26 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  rw [wp_ret]; imodintro
  iapply Hk
  isplitl [HO]; · iexact HO
  isplitl [H1]; · iexact H1
  iexact H2

end Cert.KernelIdeal.Hand

end
-- ==== Proof.PartsF.lean ====
/-
  Parts 48 to 52 of the body: the waits on the all-gather's receive cells of slots 1 to 27.
-/
import proofs.«900471_g7700000000000472_dist_rs_then_ag_i_m512_n512_v7x_i32_bf16_1_alg».proof.Proof.PartsA

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)

set_option maxHeartbeats 1600000 in
theorem exec_part48 (c : Dev nD) (v880 : BitVec 32) (v890 : BitVec 32) (v900 : BitVec 32) (v910 : BitVec 32) (v920 : BitVec 32)
    {Q : (PUnit) → sProp 𝕄} :
    iprop(records m K ∗ levAts L lv ∗ owesX (F := F) c (OL []) ∗ fromK 1 (waitIn (F := F) 3 c) ∗ belowK 1 (waitOut m 3 c))
      ⊢ iprop((∀ a, iprop(owesX (F := F) c (OL []) ∗ fromK 7 (waitIn (F := F) 3 c) ∗ belowK 7 (waitOut m 3 c)) -∗ Q a)
          -∗ wp frame (wpE (defs₀ (F := F)) 𝒱₀ (c : Thread nD τ) none) Set.univ (k0_part48 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v880 v890 v900 v910 v920) Q) := by
  simp only [k0_part48_eq_skeleton]; unfold k0_part48_skel
  simp only [semSignalWord, semWaitWord, Prog.lift, Prog.bind_op, Prog.bind_ret, Prog.pure_eq_ret]
  iintro ⟨#HR, #Hlev, HO, H1, H2⟩
  iintro Hk
  iapply (wait_step m K c 3 1 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 3 2 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 3 3 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 3 4 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 3 5 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 3 6 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  rw [wp_ret]; imodintro
  iapply Hk
  isplitl [HO]; · iexact HO
  isplitl [H1]; · iexact H1
  iexact H2

set_option maxHeartbeats 1600000 in
theorem exec_part49 (c : Dev nD) (v930 : BitVec 32) (v940 : BitVec 32) (v950 : BitVec 32) (v960 : BitVec 32) (v970 : BitVec 32) (v980 : BitVec 32)
    {Q : (PUnit) → sProp 𝕄} :
    iprop(records m K ∗ levAts L lv ∗ owesX (F := F) c (OL []) ∗ fromK 7 (waitIn (F := F) 3 c) ∗ belowK 7 (waitOut m 3 c))
      ⊢ iprop((∀ a, iprop(owesX (F := F) c (OL []) ∗ fromK 12 (waitIn (F := F) 3 c) ∗ belowK 12 (waitOut m 3 c)) -∗ Q a)
          -∗ wp frame (wpE (defs₀ (F := F)) 𝒱₀ (c : Thread nD τ) none) Set.univ (k0_part49 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v930 v940 v950 v960 v970 v980) Q) := by
  simp only [k0_part49_eq_skeleton]; unfold k0_part49_skel
  simp only [semSignalWord, semWaitWord, Prog.lift, Prog.bind_op, Prog.bind_ret, Prog.pure_eq_ret]
  iintro ⟨#HR, #Hlev, HO, H1, H2⟩
  iintro Hk
  iapply (wait_step m K c 3 7 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 3 8 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 3 9 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 3 10 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 3 11 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  rw [wp_ret]; imodintro
  iapply Hk
  isplitl [HO]; · iexact HO
  isplitl [H1]; · iexact H1
  iexact H2

set_option maxHeartbeats 1600000 in
theorem exec_part50 (c : Dev nD) (v990 : BitVec 32) (v1000 : BitVec 32) (v1010 : BitVec 32) (v1020 : BitVec 32) (v1030 : BitVec 32)
    {Q : (PUnit) → sProp 𝕄} :
    iprop(records m K ∗ levAts L lv ∗ owesX (F := F) c (OL []) ∗ fromK 12 (waitIn (F := F) 3 c) ∗ belowK 12 (waitOut m 3 c))
      ⊢ iprop((∀ a, iprop(owesX (F := F) c (OL []) ∗ fromK 18 (waitIn (F := F) 3 c) ∗ belowK 18 (waitOut m 3 c)) -∗ Q a)
          -∗ wp frame (wpE (defs₀ (F := F)) 𝒱₀ (c : Thread nD τ) none) Set.univ (k0_part50 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v990 v1000 v1010 v1020 v1030) Q) := by
  simp only [k0_part50_eq_skeleton]; unfold k0_part50_skel
  simp only [semSignalWord, semWaitWord, Prog.lift, Prog.bind_op, Prog.bind_ret, Prog.pure_eq_ret]
  iintro ⟨#HR, #Hlev, HO, H1, H2⟩
  iintro Hk
  iapply (wait_step m K c 3 12 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 3 13 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 3 14 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 3 15 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 3 16 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 3 17 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  rw [wp_ret]; imodintro
  iapply Hk
  isplitl [HO]; · iexact HO
  isplitl [H1]; · iexact H1
  iexact H2

set_option maxHeartbeats 1600000 in
theorem exec_part51 (c : Dev nD) (v1040 : BitVec 32) (v1050 : BitVec 32) (v1060 : BitVec 32) (v1070 : BitVec 32) (v1080 : BitVec 32) (v1090 : BitVec 32)
    {Q : (Σ' (v1439 : BitVec 32), BitVec 32) → sProp 𝕄} :
    iprop(records m K ∗ levAts L lv ∗ owesX (F := F) c (OL []) ∗ fromK 18 (waitIn (F := F) 3 c) ∗ belowK 18 (waitOut m 3 c))
      ⊢ iprop((∀ a, iprop(owesX (F := F) c (OL []) ∗ fromK 23 (waitIn (F := F) 3 c) ∗ belowK 23 (waitOut m 3 c)) -∗ Q a)
          -∗ wp frame (wpE (defs₀ (F := F)) 𝒱₀ (c : Thread nD τ) none) Set.univ (k0_part51 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v1040 v1050 v1060 v1070 v1080 v1090) Q) := by
  simp only [k0_part51_eq_skeleton]; unfold k0_part51_skel
  simp only [semSignalWord, semWaitWord, Prog.lift, Prog.bind_op, Prog.bind_ret, Prog.pure_eq_ret]
  iintro ⟨#HR, #Hlev, HO, H1, H2⟩
  iintro Hk
  iapply (wait_step m K c 3 18 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 3 19 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 3 20 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 3 21 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 3 22 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  rw [wp_ret]; imodintro
  iapply Hk
  isplitl [HO]; · iexact HO
  isplitl [H1]; · iexact H1
  iexact H2

set_option maxHeartbeats 1600000 in
theorem exec_part52 (c : Dev nD) (v1100 : BitVec 32) (v1110 : BitVec 32) (v1120 : BitVec 32) (v1130 : BitVec 32) (v1140 : BitVec 32) (v1439 : BitVec 32) (c0_i32_1371 : BitVec 32)
    {Q : (PUnit) → sProp 𝕄} :
    iprop(records m K ∗ levAts L lv ∗ owesX (F := F) c (OL []) ∗ fromK 23 (waitIn (F := F) 3 c) ∗ belowK 23 (waitOut m 3 c))
      ⊢ iprop((∀ a, iprop(owesX (F := F) c (OL []) ∗ fromK 28 (waitIn (F := F) 3 c) ∗ belowK 28 (waitOut m 3 c)) -∗ Q a)
          -∗ wp frame (wpE (defs₀ (F := F)) 𝒱₀ (c : Thread nD τ) none) Set.univ (k0_part52 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v1100 v1110 v1120 v1130 v1140 v1439 c0_i32_1371) Q) := by
  simp only [k0_part52_eq_skeleton]; unfold k0_part52_skel
  simp only [semSignalWord, semWaitWord, Prog.lift, Prog.bind_op, Prog.bind_ret, Prog.pure_eq_ret]
  iintro ⟨#HR, #Hlev, HO, H1, H2⟩
  iintro Hk
  iapply (wait_step m K c 3 23 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 3 24 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 3 25 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 3 26 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 3 27 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  rw [wp_ret]; imodintro
  iapply Hk
  isplitl [HO]; · iexact HO
  isplitl [H1]; · iexact H1
  iexact H2

end Cert.KernelIdeal.Hand

end
-- ==== Proof.PartsG.lean ====
/-
  Parts 54 to 56 of the body: the waits on the all-gather's send cells of slots 4 to 26.
-/
import proofs.«900471_g7700000000000472_dist_rs_then_ag_i_m512_n512_v7x_i32_bf16_1_alg».proof.Proof.PartsA

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)

set_option maxHeartbeats 1600000 in
theorem exec_part54 (c : Dev nD)
    {Q : (PUnit) → sProp 𝕄} :
    iprop(records m K ∗ levAts L lv ∗ owesX (F := F) c (OL []) ∗ fromK 4 (waitIn (F := F) 2 c) ∗ belowK 4 (waitOut m 2 c))
      ⊢ iprop((∀ a, iprop(owesX (F := F) c (OL []) ∗ fromK 12 (waitIn (F := F) 2 c) ∗ belowK 12 (waitOut m 2 c)) -∗ Q a)
          -∗ wp frame (wpE (defs₀ (F := F)) 𝒱₀ (c : Thread nD τ) none) Set.univ (k0_part54 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q) := by
  simp only [k0_part54_eq_skeleton]; unfold k0_part54_skel
  simp only [semSignalWord, semWaitWord, Prog.lift, Prog.bind_op, Prog.bind_ret, Prog.pure_eq_ret]
  iintro ⟨#HR, #Hlev, HO, H1, H2⟩
  iintro Hk
  iapply (wait_step m K c 2 4 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 2 5 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 2 6 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 2 7 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 2 8 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 2 9 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 2 10 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 2 11 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  rw [wp_ret]; imodintro
  iapply Hk
  isplitl [HO]; · iexact HO
  isplitl [H1]; · iexact H1
  iexact H2

set_option maxHeartbeats 1600000 in
theorem exec_part55 (c : Dev nD)
    {Q : (PUnit) → sProp 𝕄} :
    iprop(records m K ∗ levAts L lv ∗ owesX (F := F) c (OL []) ∗ fromK 12 (waitIn (F := F) 2 c) ∗ belowK 12 (waitOut m 2 c))
      ⊢ iprop((∀ a, iprop(owesX (F := F) c (OL []) ∗ fromK 19 (waitIn (F := F) 2 c) ∗ belowK 19 (waitOut m 2 c)) -∗ Q a)
          -∗ wp frame (wpE (defs₀ (F := F)) 𝒱₀ (c : Thread nD τ) none) Set.univ (k0_part55 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q) := by
  simp only [k0_part55_eq_skeleton]; unfold k0_part55_skel
  simp only [semSignalWord, semWaitWord, Prog.lift, Prog.bind_op, Prog.bind_ret, Prog.pure_eq_ret]
  iintro ⟨#HR, #Hlev, HO, H1, H2⟩
  iintro Hk
  iapply (wait_step m K c 2 12 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 2 13 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 2 14 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 2 15 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 2 16 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 2 17 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 2 18 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  rw [wp_ret]; imodintro
  iapply Hk
  isplitl [HO]; · iexact HO
  isplitl [H1]; · iexact H1
  iexact H2

set_option maxHeartbeats 1600000 in
theorem exec_part56 (c : Dev nD)
    {Q : (PUnit) → sProp 𝕄} :
    iprop(records m K ∗ levAts L lv ∗ owesX (F := F) c (OL []) ∗ fromK 19 (waitIn (F := F) 2 c) ∗ belowK 19 (waitOut m 2 c))
      ⊢ iprop((∀ a, iprop(owesX (F := F) c (OL []) ∗ fromK 27 (waitIn (F := F) 2 c) ∗ belowK 27 (waitOut m 2 c)) -∗ Q a)
          -∗ wp frame (wpE (defs₀ (F := F)) 𝒱₀ (c : Thread nD τ) none) Set.univ (k0_part56 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q) := by
  simp only [k0_part56_eq_skeleton]; unfold k0_part56_skel
  simp only [semSignalWord, semWaitWord, Prog.lift, Prog.bind_op, Prog.bind_ret, Prog.pure_eq_ret]
  iintro ⟨#HR, #Hlev, HO, H1, H2⟩
  iintro Hk
  iapply (wait_step m K c 2 19 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 2 20 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 2 21 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 2 22 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 2 23 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 2 24 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 2 25 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 2 26 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  rw [wp_ret]; imodintro
  iapply Hk
  isplitl [HO]; · iexact HO
  isplitl [H1]; · iexact H1
  iexact H2

end Cert.KernelIdeal.Hand

end
-- ==== Proof.PartsH.lean ====
/-
  Parts 1, 18, 47 and 53 of the body: the first five barrier signals (after the device reads its own id), the last
  three copies of the reduce-scatter followed by the load of the device's own 16 rows, and the two parts in which one
  loop of waits ends and the next begins.
-/
import proofs.«900471_g7700000000000472_dist_rs_then_ag_i_m512_n512_v7x_i32_bf16_1_alg».proof.Proof.PartsA

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)

set_option maxHeartbeats 1600000 in
theorem exec_part1 (c : Dev nD) (more : List (GSem nD τ sig × ℕ))
    {Q : (Σ' (d0 : Dev nD) (v2 : BitVec 32) (v3 : Sems sig S_) (v24 : BitVec 32), BitVec 32) → sProp 𝕄} :
    iprop(records m K ∗ owesX (F := F) c (OL (sigItems c 0 ++ more)) ∗ fromK 0 (sigIn (F := F) c))
      ⊢ iprop((∀ (v2 v24 c32 : BitVec 32), iprop(owesX (F := F) c (OL (sigItems c 5 ++ more)) ∗ fromK 5 (sigIn (F := F) c)) -∗ Q ⟨c, v2, barArr, v24, c32⟩)
          -∗ wp frame (wpE (defs₀ (F := F)) 𝒱₀ (c : Thread nD τ) none) Set.univ (k0_part1 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) Q) := by
  simp only [k0_part1_eq_skeleton]; unfold k0_part1_skel
  simp only [semSignalWord, semWaitWord, Prog.lift, Prog.bind_op, Prog.bind_ret, Prog.pure_eq_ret, wp_deviceId]
  iintro ⟨#HR, HO, H1⟩
  iintro Hk
  iapply (sig_step m K c 0 _ (dev1_eq c) more) $$ [HO H1]
  · isplitr; · iexact HR
    isplitl [HO]; · iexact HO
    iexact H1
  iintro ⟨HO, H1⟩
  iapply (sig_step m K c 1 _ (dev2_eq c) more) $$ [HO H1]
  · isplitr; · iexact HR
    isplitl [HO]; · iexact HO
    iexact H1
  iintro ⟨HO, H1⟩
  iapply (sig_step m K c 2 _ (dev3_eq c) more) $$ [HO H1]
  · isplitr; · iexact HR
    isplitl [HO]; · iexact HO
    iexact H1
  iintro ⟨HO, H1⟩
  iapply (sig_step m K c 3 _ (dev4_eq c) more) $$ [HO H1]
  · isplitr; · iexact HR
    isplitl [HO]; · iexact HO
    iexact H1
  iintro ⟨HO, H1⟩
  iapply (sig_step m K c 4 _ (dev5_eq c) more) $$ [HO H1]
  · isplitr; · iexact HR
    isplitl [HO]; · iexact HO
    iexact H1
  iintro ⟨HO, H1⟩
  rw [wp_ret]; imodintro
  iapply Hk
  isplitl [HO]; · iexact HO
  iexact H1

set_option maxHeartbeats 1600000 in
theorem exec_part18 (c : Dev nD) (v2 : BitVec 32) (more : List (GSem nD τ sig × ℕ))
    {Q : (Σ' (v483 : BitVec 32) (v495 : BitVec 32), Vec F S16x512 .f32) → sProp 𝕄} :
    iprop(records m K ∗ owesX (F := F) c (OL (rsItems c 28 ++ more)) ∗ fromK 28 (rsIn m c) ∗ belowK 28 (rsOut (F := F) c)
        ∗ (((c : Thread nD τ).loc cc0_stg0_0) ↦{fullShare} xstg m c))
      ⊢ iprop((∀ (w1 w2 : BitVec 32), iprop(owesX (F := F) c (OL (rsItems c 31 ++ more)) ∗ fromK 31 (rsIn m c) ∗ belowK 31 (rsOut (F := F) c)
              ∗ (((c : Thread nD τ).loc cc0_stg0_0) ↦{fullShare} xstg m c)) -∗ Q ⟨w1, w2, (xM : Memref sig .tc .vmem S512x512 .f32).view.readAt (Elt F) (Rect.unit (s := S512x512) (k0_off2 c) S16x512.size (k0_off2_inb c)).toLoadRect (xstg m c)⟩)
          -∗ wp frame (wpE (defs₀ (F := F)) 𝒱₀ (c : Thread nD τ) none) Set.univ (k0_part18 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q) := by
  simp only [k0_part18_eq_skeleton]; unfold k0_part18_skel
  simp only [semSignalWord, semWaitWord, Prog.lift, Prog.bind_op, Prog.bind_ret, Prog.pure_eq_ret]
  iintro ⟨#HR, HO, H1, H2, Hx⟩
  iintro Hk
  iapply (rs_step m K c 28 _ (dev60_eq c) more) $$ [HO H1 H2]
  · isplitr; · iexact HR
    isplitl [HO]; · iexact HO
    isplitl [H1]; · iexact H1
    iexact H2
  iintro ⟨HO, H1, H2⟩
  iapply (rs_step m K c 29 _ (dev61_eq c) more) $$ [HO H1 H2]
  · isplitr; · iexact HR
    isplitl [HO]; · iexact HO
    isplitl [H1]; · iexact H1
    iexact H2
  iintro ⟨HO, H1, H2⟩
  iapply (rs_step m K c 30 _ (dev62_eq c) more) $$ [HO H1 H2]
  · isplitr; · iexact HR
    isplitl [HO]; · iexact HO
    isplitl [H1]; · iexact H1
    iexact H2
  iintro ⟨HO, H1, H2⟩
  iapply (wp_load 𝒱₀ (c : Thread nD τ) none Set.univ (m := xM) (Finset.subset_univ _)) $$ Hx; iintro Hx
  rw [wp_ret]; imodintro
  iapply Hk
  isplitl [HO]; · iexact HO
  isplitl [H1]; · iexact H1
  isplitl [H2]; · iexact H2
  iexact Hx

set_option maxHeartbeats 1600000 in
theorem exec_part47 (c : Dev nD) (v860 : BitVec 32) (v870 : BitVec 32)
    {Q : (PUnit) → sProp 𝕄} :
    iprop(records m K ∗ levAts L lv ∗ owesX (F := F) c (OL []) ∗ fromK 27 (waitIn (F := F) 0 c) ∗ belowK 27 (waitOut m 0 c)
        ∗ fromK 0 (waitIn (F := F) 3 c) ∗ belowK 0 (waitOut m 3 c))
      ⊢ iprop((∀ a, iprop(owesX (F := F) c (OL []) ∗ fromK 31 (waitIn (F := F) 0 c) ∗ belowK 31 (waitOut m 0 c)
              ∗ fromK 1 (waitIn (F := F) 3 c) ∗ belowK 1 (waitOut m 3 c)) -∗ Q a)
          -∗ wp frame (wpE (defs₀ (F := F)) 𝒱₀ (c : Thread nD τ) none) Set.univ (k0_part47 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v860 v870) Q) := by
  simp only [k0_part47_eq_skeleton]; unfold k0_part47_skel
  simp only [semSignalWord, semWaitWord, Prog.lift, Prog.bind_op, Prog.bind_ret, Prog.pure_eq_ret]
  iintro ⟨#HR, #Hlev, HO, H1, H2, H3, H4⟩
  iintro Hk
  iapply (wait_step m K c 0 27 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 0 28 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 0 29 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 0 30 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 3 0 _ (mayWait_nil c _) (wpE_waitDma2_eq 𝒱₀ (c : Thread nD τ) none Set.univ) (credit_any _)) $$ [HO H3 H4]
  · isplitr; · iexact HR
    isplitr; · iexact Hlev
    isplitl [HO]; · iexact HO
    isplitl [H3]; · iexact H3
    iexact H4
  iintro ⟨HO, H3, H4⟩
  rw [wp_ret]; imodintro
  iapply Hk
  isplitl [HO]; · iexact HO
  isplitl [H1]; · iexact H1
  isplitl [H2]; · iexact H2
  isplitl [H3]; · iexact H3
  iexact H4

set_option maxHeartbeats 1600000 in
theorem exec_part53 (c : Dev nD) (v1150 : BitVec 32) (v1160 : BitVec 32)
    {Q : (PUnit) → sProp 𝕄} :
    iprop(records m K ∗ levAts L lv ∗ owesX (F := F) c (OL []) ∗ fromK 28 (waitIn (F := F) 3 c) ∗ belowK 28 (waitOut m 3 c)
        ∗ fromK 0 (waitIn (F := F) 2 c) ∗ belowK 0 (waitOut m 2 c))
      ⊢ iprop((∀ a, iprop(owesX (F := F) c (OL []) ∗ fromK 31 (waitIn (F := F) 3 c) ∗ belowK 31 (waitOut m 3 c)
              ∗ fromK 4 (waitIn (F := F) 2 c) ∗ belowK 4 (waitOut m 2 c)) -∗ Q a)
          -∗ wp frame (wpE (defs₀ (F := F)) 𝒱₀ (c : Thread nD τ) none) Set.univ (k0_part53 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v1150 v1160) Q) := by
  simp only [k0_part53_eq_skeleton]; unfold k0_part53_skel
  simp only [semSignalWord, semWaitWord, Prog.lift, Prog.bind_op, Prog.bind_ret, Prog.pure_eq_ret]
  iintro ⟨#HR, #Hlev, HO, H1, H2, H3, H4⟩
  iintro Hk
  iapply (wait_step m K c 3 28 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 3 29 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 3 30 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 2 0 _ (mayWait_nil c _) (wpE_waitDma2_eq 𝒱₀ (c : Thread nD τ) none Set.univ) (credit_any _)) $$ [HO H3 H4]
  · isplitr; · iexact HR
    isplitr; · iexact Hlev
    isplitl [HO]; · iexact HO
    isplitl [H3]; · iexact H3
    iexact H4
  iintro ⟨HO, H3, H4⟩
  iapply (wait_step m K c 2 1 _ (mayWait_nil c _) (wpE_waitDma2_eq 𝒱₀ (c : Thread nD τ) none Set.univ) (credit_any _)) $$ [HO H3 H4]
  · isplitr; · iexact HR
    isplitr; · iexact Hlev
    isplitl [HO]; · iexact HO
    isplitl [H3]; · iexact H3
    iexact H4
  iintro ⟨HO, H3, H4⟩
  iapply (wait_step m K c 2 2 _ (mayWait_nil c _) (wpE_waitDma2_eq 𝒱₀ (c : Thread nD τ) none Set.univ) (credit_any _)) $$ [HO H3 H4]
  · isplitr; · iexact HR
    isplitr; · iexact Hlev
    isplitl [HO]; · iexact HO
    isplitl [H3]; · iexact H3
    iexact H4
  iintro ⟨HO, H3, H4⟩
  iapply (wait_step m K c 2 3 _ (mayWait_nil c _) (wpE_waitDma2_eq 𝒱₀ (c : Thread nD τ) none Set.univ) (credit_any _)) $$ [HO H3 H4]
  · isplitr; · iexact HR
    isplitr; · iexact Hlev
    isplitl [HO]; · iexact HO
    isplitl [H3]; · iexact H3
    iexact H4
  iintro ⟨HO, H3, H4⟩
  rw [wp_ret]; imodintro
  iapply Hk
  isplitl [HO]; · iexact HO
  isplitl [H1]; · iexact H1
  isplitl [H2]; · iexact H2
  isplitl [H3]; · iexact H3
  iexact H4

end Cert.KernelIdeal.Hand

end
-- ==== Proof.Sets.lean ====
/-
  Index sets and read-backs of the buffers' pieces.

  The receive scratch is cut in 31 slots (first coordinate `r`); the two 512 x 512 buffers are cut in 32 row blocks of
  16 rows (row `i` lies in block `i / 16`): block `b` of the result's staging buffer is device `b`'s, and of the staging copy
  device `c` sends row block `peer c r` with slot `r` and keeps row block `c`.  Each buffer, whole, is the separating
  conjunction of its pieces, because the pieces are pairwise disjoint and cover it; pieces held at different contents join
  to the whole buffer at contents that agree with each piece on its elements.  A load of a slot through the whole scratch
  reads that slot only, so what it reads after a landing does not depend on what the scratch held before; a block of the
  result's staging buffer written with a device's reduced block holds the result there.
-/
import proofs.«900471_g7700000000000472_dist_rs_then_ag_i_m512_n512_v7x_i32_bf16_1_alg».proof.Proof.Data

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Membership: which rows a 16-row block holds, which slot an element of the receive scratch lies in -/

/-- A 16-row block at rows `16 e` onwards of a 512 x 512 buffer holds exactly the elements of row block `e`. -/
theorem mem_rows16 {off : Fin 2 → ℕ} (e : ℕ) (h : off = ![16 * e, 0]) (inb : ∀ a, off a + S16x512.size a ≤ S512x512.size a)
    (i : S512x512.Idx) : i ∈ (Rect.unit (s := S512x512) off S16x512.size inb).set ↔ (i 0).val / 16 = e := by
  subst h
  rw [Rect.mem_set_unit]
  have h1 : (i 1).val < 512 := (i 1).isLt
  constructor
  · intro hh
    have h0 : 16 * e ≤ (i 0).val ∧ (i 0).val < 16 * e + 16 := hh 0
    omega
  · intro hh a
    match a with
    | ⟨0, _⟩ => show 16 * e ≤ (i 0).val ∧ (i 0).val < 16 * e + 16; omega
    | ⟨1, _⟩ => show 0 ≤ (i 1).val ∧ (i 1).val < 0 + 512; omega

/-- Block `b` of the result's staging buffer is row block `b`. -/
theorem mem_outSlice (b : Dev nD) (i : S512x512.Idx) : i ∈ (outSlice b).view.set ↔ (i 0).val / 16 = b.val := by
  have e : (outSlice b).view.set = (Rect.unit (s := S512x512) (k0_off3 b) S16x512.size (k0_off3_inb b)).set :=
    View.set_slice_whole cc0_stg1_0 _
  rw [e]
  exact mem_rows16 b.val (k0_off3_eq b) _ i

/-- The rows device `c` sends with slot `r` are row block `peer c r` of its staging copy. -/
theorem mem_stSlice (c : Dev nD) (r : Fin 31) (i : S512x512.Idx) : i ∈ (stSlice c r).view.set ↔ (i 0).val / 16 = (peer c r).val := by
  have e : (stSlice c r).view.set = (Rect.unit (s := S512x512) (k0_off1 c (BitVec.ofNat 32 (1 + r.val))) S16x512.size (k0_off1_inb c r)).set :=
    View.set_slice_whole cc0_scratch0 _
  rw [e]
  exact mem_rows16 (peer c r).val (k0_off1_eq c r) _ i

/-- Slot `r` of the receive scratch holds exactly the elements whose first coordinate is `r`. -/
theorem mem_slotM (r : Fin 31) (j : S31x16x512.Idx) : j ∈ (slotM r).view.set ↔ (j 0).val = r.val := by
  have e : (slotM r).view.set = (slotRect r).set :=
    (View.set_reshape _ _).trans (View.set_slice_whole cc0_scratch1 _)
  rw [e, Rect.mem_set_unit]
  have h1 : (j 1).val < 16 := (j 1).isLt
  have h2 : (j 2).val < 512 := (j 2).isLt
  constructor
  · intro hh
    have h0 : r.val ≤ (j 0).val ∧ (j 0).val < r.val + 1 := hh 0
    omega
  · intro hh a
    match a with
    | ⟨0, _⟩ => show r.val ≤ (j 0).val ∧ (j 0).val < r.val + 1; omega
    | ⟨1, _⟩ => show 0 ≤ (j 1).val ∧ (j 1).val < 0 + 16; omega
    | ⟨2, _⟩ => show 0 ≤ (j 2).val ∧ (j 2).val < 0 + 512; omega

/-! ## Splits: a whole buffer as the separate pieces the protocol hands round, and back -/

/-- The element sets of the pieces, each at its buffer's index type. -/
abbrev slotSet (r : Fin 31) : Finset S31x16x512.Idx := (slotM r).view.set
abbrev outSet (b : Dev nD) : Finset S512x512.Idx := (outSlice b).view.set
abbrev stSet (c : Dev nD) (r : Fin 31) : Finset S512x512.Idx := (stSlice c r).view.set

theorem slot_disj : ∀ r ∈ (Finset.univ : Finset (Fin 31)), ∀ r' ∈ (Finset.univ : Finset (Fin 31)), r ≠ r' →
    Disjoint (slotSet r) (slotSet r') := by
  intro r _ r' _ hne
  rw [Finset.disjoint_left]
  intro j h1 h2
  exact hne (Fin.ext (((mem_slotM r j).mp h1).symm.trans ((mem_slotM r' j).mp h2)))

theorem slot_cover : (Finset.univ : Finset (Fin 31)).biUnion slotSet = Finset.univ := by
  ext j
  simp only [Finset.mem_biUnion, Finset.mem_univ, true_and, iff_true]
  exact ⟨⟨(j 0).val, (j 0).isLt⟩, (mem_slotM _ j).mpr rfl⟩

theorem out_disj : ∀ b ∈ (Finset.univ : Finset (Dev nD)), ∀ b' ∈ (Finset.univ : Finset (Dev nD)), b ≠ b' →
    Disjoint (outSet b) (outSet b') := by
  intro b _ b' _ hne
  rw [Finset.disjoint_left]
  intro i h1 h2
  exact hne (Fin.ext (((mem_outSlice b i).mp h1).symm.trans ((mem_outSlice b' i).mp h2)))

theorem out_cover : (Finset.univ : Finset (Dev nD)).biUnion outSet = Finset.univ := by
  ext i
  simp only [Finset.mem_biUnion, Finset.mem_univ, true_and, iff_true]
  have h0 : (i 0).val < 512 := (i 0).isLt
  exact ⟨⟨(i 0).val / 16, by show (i 0).val / 16 < 32; omega⟩, (mem_outSlice _ i).mpr rfl⟩

/-- The receive scratch, whole, is its 31 slots. -/
theorem rs_split (c : Dev nD) (f : Buf (Elt F) ((c : Thread nD τ).loc cc0_scratch1)) :
    (((c : Thread nD τ).loc cc0_scratch1) ↦{fullShare} f : sProp 𝕄) = bigSep Finset.univ (fun r : Fin 31 => slotPts c r f) := by
  unfold slotPts
  refine Eq.trans ?_ (pointsTo_biUnion (q := fullShare) (f := f) Finset.univ slotSet slot_disj)
  exact congrArg (fun S => (((c : Thread nD τ).loc cc0_scratch1) ↦[S]{fullShare} f : sProp 𝕄)) (Eq.symm slot_cover)

/-- The result's staging buffer, whole, is its 32 blocks. -/
theorem out_split (c : Dev nD) (f : Buf (Elt F) ((c : Thread nD τ).loc cc0_stg1_0)) :
    (((c : Thread nD τ).loc cc0_stg1_0) ↦{fullShare} f : sProp 𝕄) = bigSep Finset.univ (fun b : Dev nD => outPts c b f) := by
  unfold outPts
  refine Eq.trans ?_ (pointsTo_biUnion (q := fullShare) (f := f) Finset.univ outSet out_disj)
  exact congrArg (fun S => (((c : Thread nD τ).loc cc0_stg1_0) ↦[S]{fullShare} f : sProp 𝕄)) (Eq.symm out_cover)

theorem st_disj (c : Dev nD) : ∀ r ∈ (Finset.univ : Finset (Fin 31)), ∀ r' ∈ (Finset.univ : Finset (Fin 31)), r ≠ r' →
    Disjoint (stSet c r) (stSet c r') := by
  intro r _ r' _ hne
  rw [Finset.disjoint_left]
  intro i h1 h2
  exact hne (peer_inj c r r' (Fin.ext (((mem_stSlice c r i).mp h1).symm.trans ((mem_stSlice c r' i).mp h2))))

theorem st_own_disj (c : Dev nD) : Disjoint ((Finset.univ : Finset (Fin 31)).biUnion (stSet c)) (outSet c) := by
  rw [Finset.disjoint_left]
  intro i h1 h2
  obtain ⟨r, -, hr⟩ := Finset.mem_biUnion.mp h1
  exact peer_ne c r (Fin.ext (((mem_stSlice c r i).mp hr).symm.trans ((mem_outSlice c i).mp h2)))

theorem st_cover (c : Dev nD) : (Finset.univ : Finset (Fin 31)).biUnion (stSet c) ∪ outSet c = Finset.univ := by
  ext i
  simp only [Finset.mem_union, Finset.mem_biUnion, Finset.mem_univ, true_and, iff_true]
  have h0 : (i 0).val < 512 := (i 0).isLt
  by_cases he : (⟨(i 0).val / 16, by show (i 0).val / 16 < 32; omega⟩ : Dev nD) = c
  · exact Or.inr ((mem_outSlice c i).mpr (congrArg Fin.val he))
  · obtain ⟨r, hr⟩ := exists_peer c _ he
    exact Or.inl ⟨r, (mem_stSlice c r i).mpr (congrArg Fin.val hr).symm⟩

/-- The staging copy, whole, is the 31 row blocks sent and the device's own rows. -/
theorem st_split (c : Dev nD) (f : Buf (Elt F) ((c : Thread nD τ).loc cc0_scratch0)) :
    (((c : Thread nD τ).loc cc0_scratch0) ↦{fullShare} f : sProp 𝕄)
      = iprop((bigSep Finset.univ fun r : Fin 31 => ((stSlice c r).view.loc (c : Thread nD τ) ↦[(stSlice c r).view.set]{fullShare} f))
          ∗ (((c : Thread nD τ).loc cc0_scratch0) ↦[outSet c]{fullShare} f)) := by
  have hu : (((c : Thread nD τ).loc cc0_scratch0) ↦[(Finset.univ : Finset (Fin 31)).biUnion (stSet c) ∪ outSet c]{fullShare} f : sProp 𝕄)
      ⊣⊢ iprop((((c : Thread nD τ).loc cc0_scratch0) ↦[(Finset.univ : Finset (Fin 31)).biUnion (stSet c)]{fullShare} f)
          ∗ (((c : Thread nD τ).loc cc0_scratch0) ↦[outSet c]{fullShare} f)) := pointsTo_union (st_own_disj c)
  refine (congrArg (fun S => (((c : Thread nD τ).loc cc0_scratch0) ↦[S]{fullShare} f : sProp 𝕄)) (Eq.symm (st_cover c))).trans ?_
  refine (BI.equiv_iff.mp ⟨hu.1, hu.2⟩).trans ?_
  rw [pointsTo_biUnion (q := fullShare) (f := f) Finset.univ (stSet c) (st_disj c)]

/-- Slots held at different contents are the receive scratch whole, at some contents. -/
theorem rs_join (c : Dev nD) :
    bigSep Finset.univ (fun r : Fin 31 => iprop(∃ f, slotPts (F := F) c r f))
      ⊢ (iprop(∃ g, ((c : Thread nD τ).loc cc0_scratch1) ↦{fullShare} g) : sProp 𝕄) := by
  have h1 := bigSep_exists_pi (M := 𝕄) Finset.univ
    (fun (r : Fin 31) (f : Buf (Elt F) ((c : Thread nD τ).loc cc0_scratch1)) => (((c : Thread nD τ).loc cc0_scratch1) ↦[slotSet r]{fullShare} f : sProp 𝕄))
  refine h1.trans ?_
  iintro ⟨%fs, H2⟩
  have h2 := pointsTo_biUnion_join (Ix := Unit) (Name := ℕ) (U := UU) (Lvl := ℕ) (q := fullShare) Finset.univ slotSet fs (fun _ => Classical.arbitrary _) slot_disj
  rw [slot_cover] at h2
  ihave H3 := h2 $$ H2
  icases H3 with ⟨%g, %hg, H3⟩
  iexists g
  iexact H3

/-- Blocks held at different contents are the result's staging buffer whole, at contents agreeing with each on its block. -/
theorem out_join (c : Dev nD) (fs : Dev nD → Buf (Elt F) ((c : Thread nD τ).loc cc0_stg1_0)) :
    bigSep Finset.univ (fun b : Dev nD => outPts (F := F) c b (fs b))
      ⊢ (iprop(∃ g, ⌜∀ b : Dev nD, ∀ i ∈ (outSlice b).view.set, g i = fs b i⌝ ∗ ((c : Thread nD τ).loc cc0_stg1_0) ↦{fullShare} g) : sProp 𝕄) := by
  have h2 := pointsTo_biUnion_join (Ix := Unit) (Name := ℕ) (U := UU) (Lvl := ℕ) (q := fullShare) Finset.univ outSet fs (fun _ => Classical.arbitrary _) out_disj
  rw [out_cover] at h2
  refine h2.trans ?_
  iintro ⟨%g, %hg, H3⟩
  iexists g
  isplitr
  · ipureintro
    exact fun b i hi => hg b (Finset.mem_univ b) i hi
  · iexact H3

/-! ## Read-backs: what a load or a store through one view reads of, or leaves in, a buffer written through another -/

theorem slotSet_eq (r : Fin 31) : slotSet r = (slotRect r).set :=
  (View.set_reshape _ _).trans (View.set_slice_whole cc0_scratch1 _)

/-- A load of slot `r` through the whole scratch reads elements of slot `r` only. -/
theorem slot_load_sub (r : Fin 31) :
    (rsM : Memref sig .tc .vmem S31x16x512 .bf16).view.setOn (slotRect r).toLoadRect.set ⊆ (slotM r).view.set := by
  have e2 : (rsM : Memref sig .tc .vmem S31x16x512 .bf16).view.setOn (slotRect r).toLoadRect.set = (slotRect r).set := by
    unfold View.setOn
    exact Finset.map_refl
  rw [e2, ← slotSet_eq r]

/-- The loaded slot does not depend on what the scratch held before the landing. -/
theorem slot_load_val (m : (ℓ : Loc nD τ sig) → Buf (Elt F) ℓ) (c : Dev nD) (r : Fin 31) (fd : (slotM r).view.ty.Contents (Elt F)) :
    (rsM : Memref sig .tc .vmem S31x16x512 .bf16).view.readAt (Elt F) (slotRect r).toLoadRect
      ((slotM r).view.write (Elt F) fd (sentv m (srcd c r) r) Finset.univ) = slotLd m c r := by
  unfold slotLd
  refine View.readAt_congr fun i hi => ?_
  obtain ⟨x, -, rfl⟩ := Finset.mem_map.mp (slot_load_sub r hi)
  rw [View.write_emb_of_mem _ _ (Finset.mem_univ x), View.write_emb_of_mem _ _ (Finset.mem_univ x)]

/-- The result buffer's contents at an element of row block `b`: device `b`'s reduced block at the element's place in it. -/
theorem outv_block (m : (ℓ : Loc nD τ sig) → Buf (Elt F) ℓ) (b : Dev nD) (x : S16x512.Idx) (i : S512x512.Idx)
    (h0 : (i 0).val = 16 * b.val + (x 0).val) (h1 : (i 1).val = (x 1).val) : outv m i = redv m b x := by
  have hx0 : (x 0).val < 16 := (x 0).isLt
  unfold outv
  refine congrArg₂ (fun (b' : Dev nD) (y : S16x512.Idx) => redv m b' y) (Fin.ext ?_) (funext fun a => Fin.ext ?_)
  · show (i 0).val / 16 = b.val
    omega
  · match a with
    | ⟨0, _⟩ => show (i 0).val % 16 = (x 0).val; omega
    | ⟨1, _⟩ => show (i 1).val = (x 1).val; exact h1

/-- Block `b` of the result buffer after device `b`'s reduced block has landed in it holds the result there. -/
theorem out_block_val (m : (ℓ : Loc nD τ sig) → Buf (Elt F) ℓ) (b : Dev nD) (fd : (outSlice b).view.ty.Contents (Elt F)) :
    ∀ i ∈ (outSlice b).view.set, (outSlice b).view.write (Elt F) fd
      ((redM : Memref sig .tc .vmem S16x512 .bf16).view.read (Elt F) (redv m b)) Finset.univ i = outv m i := by
  intro i hi
  obtain ⟨x, -, rfl⟩ := Finset.mem_map.mp hi
  rw [View.write_emb_of_mem _ _ (Finset.mem_univ x)]
  show redv m b x = outv m _
  refine (outv_block m b x _ ?_ ?_).symm
  · show (k0_off3 b) 0 + 1 * (x 0).val = 16 * b.val + (x 0).val
    rw [k0_off3_eq]
    show 16 * b.val + 1 * (x 0).val = _
    omega
  · show (k0_off3 b) 1 + 1 * (x 1).val = (x 1).val
    rw [k0_off3_eq]
    show 0 + 1 * (x 1).val = _
    omega

/-- The device's own store goes through its own block of the result buffer. -/
theorem own_store_set (c : Dev nD) :
    ((oM : Memref sig .tc .vmem S512x512 .bf16).access (Rect.unit (s := S512x512) (k0_off2 c) S16x512.size (k0_off2_inb c))).setOn Finset.univ
      = (outSlice c).view.set := by
  have e : ((oM : Memref sig .tc .vmem S512x512 .bf16).access (Rect.unit (s := S512x512) (k0_off2 c) S16x512.size (k0_off2_inb c))).set
      = (Rect.unit (s := S512x512) (k0_off2 c) S16x512.size (k0_off2_inb c)).set := View.set_slice_whole cc0_stg1_0 _
  rw [View.setOn_univ, e]
  ext i
  exact (mem_rows16 c.val (k0_off2_eq c) _ i).trans (mem_outSlice c i).symm

/-- After the device's own store of its reduced block (loaded whole from the reduction buffer) its block holds the result. -/
theorem own_store_val (m : (ℓ : Loc nD τ sig) → Buf (Elt F) ℓ) (c : Dev nD) (f : (cc0_stg1_0 : Ref sig .tc).ty.Contents (Elt F))
    (w : S16x512.Idx → Elt F .bf16)
    (hw : w = (redM : Memref sig .tc .vmem S16x512 .bf16).view.readAt (Elt F)
      (Rect.unit (s := S16x512) ![0, 0] S16x512.size inb_S16x512_S16x512_0_0).toLoadRect (redv m c)) :
    ∀ i ∈ (outSlice c).view.set,
      View.write (Elt F) ((oM : Memref sig .tc .vmem S512x512 .bf16).access (Rect.unit (s := S512x512) (k0_off2 c) S16x512.size (k0_off2_inb c))) f w Finset.univ i
        = outv m i := by
  intro i hi
  rw [← own_store_set c, View.setOn_univ] at hi
  obtain ⟨x, -, rfl⟩ := Finset.mem_map.mp hi
  rw [View.write_emb_of_mem _ _ (Finset.mem_univ x)]
  subst hw
  show redv m c ((Rect.unit (s := S16x512) ![0, 0] S16x512.size inb_S16x512_S16x512_0_0).toLoadRect.idx x) = outv m _
  refine (outv_block m c _ _ ?_ ?_).symm
  · show (k0_off2 c) 0 + 1 * (x 0).val = 16 * c.val + (0 + 1 * (x 0).val)
    have e0 : (k0_off2 c) 0 = 16 * c.val := congrFun (k0_off2_eq c) 0
    omega
  · show (k0_off2 c) 1 + 1 * (x 1).val = 0 + 1 * (x 1).val
    have e1 : (k0_off2 c) 1 = 0 := congrFun (k0_off2_eq c) 1
    omega

end Cert.KernelIdeal.Hand

end

/-- info: 'Cert.KernelIdeal.Hand.st_split' depends on axioms: [propext, Classical.choice, Quot.sound] -/
#guard_msgs in #print axioms Cert.KernelIdeal.Hand.st_split
/-- info: 'Cert.KernelIdeal.Hand.out_join' depends on axioms: [propext, Classical.choice, Quot.sound] -/
#guard_msgs in #print axioms Cert.KernelIdeal.Hand.out_join
/-- info: 'Cert.KernelIdeal.Hand.own_store_val' depends on axioms: [propext, Classical.choice, Quot.sound] -/
#guard_msgs in #print axioms Cert.KernelIdeal.Hand.own_store_val
-- ==== Proof.Acc.lean ====
/-
  Parts 19 to 30 of the body: the accumulation.  Each wait on a receive cell of the reduce-scatter hands back its slot
  holding the sender's rows; the load of the slot reads exactly those rows, whatever the scratch held before; each part
  returns its partial sum, the last one the reduced block in the narrower format.
-/
import proofs.«900471_g7700000000000472_dist_rs_then_ag_i_m512_n512_v7x_i32_bf16_1_alg».proof.Proof.PartsA
import proofs.«900471_g7700000000000472_dist_rs_then_ag_i_m512_n512_v7x_i32_bf16_1_alg».proof.Proof.Sets

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)

/-- One piece of a product taken out of it. -/
theorem bigSep_take (S : Finset (Fin 31)) (k : Fin 31) (hk : k ∈ S) (Φ : Fin 31 → sProp 𝕄) :
    bigSep S Φ = iprop(Φ k ∗ bigSep (S.erase k) Φ) := by
  have h := bigSep_insert (s := S.erase k) (i := k) (Φ := Φ) (Finset.notMem_erase k S)
  rw [Finset.insert_erase hk] at h
  exact h

/-- The load of slot `k` once its landing has been waited for: it is among the slots below `n`. -/
theorem acc_load (c : Dev nD) (k : Fin 31) (n : ℕ) (hn : k.val < n)
    {hl : (rsM : Memref sig .tc .vmem S31x16x512 .bf16).view.LoadsAt (slotRect k).toLoadRect}
    {α : Type} {Q : α → sProp 𝕄} {cont : ((slotRect k).toLoadRect.shape.Idx → Elt F .bf16) → Prog (TpuEff nD τ sig (Elt F) Λ₀ .tc) α} :
    iprop(belowK n (waitOut m 1 c))
      ⊢ iprop((belowK n (waitOut m 1 c) -∗ wp frame (wpE (defs₀ (F := F)) 𝒱₀ (c : Thread nD τ) none) Set.univ (cont (slotLd m c k)) Q)
          -∗ wp frame (wpE (defs₀ (F := F)) 𝒱₀ (c : Thread nD τ) none) Set.univ (.op (.load rsM (slotRect k).toLoadRect hl) cont) Q) := by
  unfold belowK
  have hk : k ∈ (Finset.univ.filter fun r : Fin 31 => r.val < n) := by simp only [Finset.mem_filter, Finset.mem_univ, true_and]; exact hn
  rw [bigSep_take _ k hk]
  unfold waitOut
  rw [show dmaPay m c (dsem 1 k) = rsRecvPay m c k from dmaPay_rsRecv m c k]
  unfold rsRecvPay slotPts
  iintro ⟨⟨Hat, ⟨%fd, Hs⟩⟩, Hrest⟩
  iintro Hk
  iapply (wp_load 𝒱₀ (c : Thread nD τ) none Set.univ (m := rsM) (slot_load_sub k)) $$ Hs; iintro Hs
  rw [slot_load_val m c k fd]
  iapply Hk
  isplitl [Hat Hs]
  · isplitl [Hat]; · iexact Hat
    iexists fd; iexact Hs
  iexact Hrest

set_option maxHeartbeats 1600000 in
theorem exec_part19 (c : Dev nD) (v135 : BitVec 32) (v147 : BitVec 32) (v159 : BitVec 32) (v508 : Vec F S16x512 .f32)
    {Q : (FVec F S16x512 .f32) → sProp 𝕄} :
    iprop(records m K ∗ levAts L lv ∗ owesX (F := F) c (OL (agItems c 0)) ∗ fromK 0 (waitIn (F := F) 1 c) ∗ belowK 0 (waitOut m 1 c))
      ⊢ iprop(iprop(iprop(owesX (F := F) c (OL (agItems c 0)) ∗ fromK 2 (waitIn (F := F) 1 c) ∗ belowK 2 (waitOut m 1 c)) -∗ Q (k0_pay2 v508 (slotLd m c 0) (slotLd m c 1)))
          -∗ wp frame (wpE (defs₀ (F := F)) 𝒱₀ (c : Thread nD τ) none) Set.univ (k0_part19 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v135 v147 v159 v508) Q) := by
  simp only [k0_part19_eq_skeleton]; unfold k0_part19_skel
  simp only [semSignalWord, semWaitWord, Prog.lift, Prog.bind_op, Prog.bind_ret, Prog.pure_eq_ret]
  iintro ⟨#HR, #Hlev, HO, H1, H2⟩
  iintro Hk
  iapply (wait_step m K c 1 0 _ (mayWait_rsRecv c 0) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (acc_load m c 0 1 (by decide)) $$ [H2]
  · iexact H2
  iintro H2
  iapply (wait_step m K c 1 1 _ (mayWait_rsRecv c 1) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (acc_load m c 1 2 (by decide)) $$ [H2]
  · iexact H2
  iintro H2
  rw [wp_ret]; imodintro
  iapply Hk
  isplitl [HO]; · iexact HO
  isplitl [H1]; · iexact H1
  iexact H2

set_option maxHeartbeats 1600000 in
theorem exec_part20 (c : Dev nD) (v171 : BitVec 32) (v183 : BitVec 32) (v531 : FVec F S16x512 .f32)
    {Q : (Σ' (v564 : FVec F S16x512 .f32), BitVec 32) → sProp 𝕄} :
    iprop(records m K ∗ levAts L lv ∗ owesX (F := F) c (OL (agItems c 0)) ∗ fromK 2 (waitIn (F := F) 1 c) ∗ belowK 2 (waitOut m 1 c))
      ⊢ iprop(iprop(∀ w : BitVec 32, iprop(owesX (F := F) c (OL (agItems c 0)) ∗ fromK 5 (waitIn (F := F) 1 c) ∗ belowK 5 (waitOut m 1 c)) -∗ Q ⟨k0_pay3 v531 (slotLd m c 2) (slotLd m c 3) (slotLd m c 4), w⟩)
          -∗ wp frame (wpE (defs₀ (F := F)) 𝒱₀ (c : Thread nD τ) none) Set.univ (k0_part20 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v171 v183 v531) Q) := by
  simp only [k0_part20_eq_skeleton]; unfold k0_part20_skel
  simp only [semSignalWord, semWaitWord, Prog.lift, Prog.bind_op, Prog.bind_ret, Prog.pure_eq_ret]
  iintro ⟨#HR, #Hlev, HO, H1, H2⟩
  iintro Hk
  iapply (wait_step m K c 1 2 _ (mayWait_rsRecv c 2) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (acc_load m c 2 3 (by decide)) $$ [H2]
  · iexact H2
  iintro H2
  iapply (wait_step m K c 1 3 _ (mayWait_rsRecv c 3) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (acc_load m c 3 4 (by decide)) $$ [H2]
  · iexact H2
  iintro H2
  iapply (wait_step m K c 1 4 _ (mayWait_rsRecv c 4) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (acc_load m c 4 5 (by decide)) $$ [H2]
  · iexact H2
  iintro H2
  rw [wp_ret]; imodintro
  iapply Hk
  isplitl [HO]; · iexact HO
  isplitl [H1]; · iexact H1
  iexact H2

set_option maxHeartbeats 1600000 in
theorem exec_part21 (c : Dev nD) (v195 : BitVec 32) (v207 : BitVec 32) (v219 : BitVec 32) (v564 : FVec F S16x512 .f32) (c1_i32_525 : BitVec 32)
    {Q : (FVec F S16x512 .f32) → sProp 𝕄} :
    iprop(records m K ∗ levAts L lv ∗ owesX (F := F) c (OL (agItems c 0)) ∗ fromK 5 (waitIn (F := F) 1 c) ∗ belowK 5 (waitOut m 1 c))
      ⊢ iprop(iprop(iprop(owesX (F := F) c (OL (agItems c 0)) ∗ fromK 8 (waitIn (F := F) 1 c) ∗ belowK 8 (waitOut m 1 c)) -∗ Q (k0_pay4 v564 (slotLd m c 5) (slotLd m c 6)))
          -∗ wp frame (wpE (defs₀ (F := F)) 𝒱₀ (c : Thread nD τ) none) Set.univ (k0_part21 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v195 v207 v219 v564 c1_i32_525) Q) := by
  simp only [k0_part21_eq_skeleton]; unfold k0_part21_skel
  simp only [semSignalWord, semWaitWord, Prog.lift, Prog.bind_op, Prog.bind_ret, Prog.pure_eq_ret]
  iintro ⟨#HR, #Hlev, HO, H1, H2⟩
  iintro Hk
  iapply (wait_step m K c 1 5 _ (mayWait_rsRecv c 5) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (acc_load m c 5 6 (by decide)) $$ [H2]
  · iexact H2
  iintro H2
  iapply (wait_step m K c 1 6 _ (mayWait_rsRecv c 6) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (acc_load m c 6 7 (by decide)) $$ [H2]
  · iexact H2
  iintro H2
  iapply (wait_step m K c 1 7 _ (mayWait_rsRecv c 7) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  rw [wp_ret]; imodintro
  iapply Hk
  isplitl [HO]; · iexact HO
  isplitl [H1]; · iexact H1
  iexact H2

set_option maxHeartbeats 1600000 in
theorem exec_part22 (c : Dev nD) (v231 : BitVec 32) (v243 : BitVec 32) (v255 : BitVec 32) (v586 : FVec F S16x512 .f32)
    {Q : (FVec F S16x512 .f32) → sProp 𝕄} :
    iprop(records m K ∗ levAts L lv ∗ owesX (F := F) c (OL (agItems c 0)) ∗ fromK 8 (waitIn (F := F) 1 c) ∗ belowK 8 (waitOut m 1 c))
      ⊢ iprop(iprop(iprop(owesX (F := F) c (OL (agItems c 0)) ∗ fromK 10 (waitIn (F := F) 1 c) ∗ belowK 10 (waitOut m 1 c)) -∗ Q (k0_pay5 v586 (slotLd m c 7) (slotLd m c 8) (slotLd m c 9)))
          -∗ wp frame (wpE (defs₀ (F := F)) 𝒱₀ (c : Thread nD τ) none) Set.univ (k0_part22 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v231 v243 v255 v586) Q) := by
  simp only [k0_part22_eq_skeleton]; unfold k0_part22_skel
  simp only [semSignalWord, semWaitWord, Prog.lift, Prog.bind_op, Prog.bind_ret, Prog.pure_eq_ret]
  iintro ⟨#HR, #Hlev, HO, H1, H2⟩
  iintro Hk
  iapply (acc_load m c 7 8 (by decide)) $$ [H2]
  · iexact H2
  iintro H2
  iapply (wait_step m K c 1 8 _ (mayWait_rsRecv c 8) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (acc_load m c 8 9 (by decide)) $$ [H2]
  · iexact H2
  iintro H2
  iapply (wait_step m K c 1 9 _ (mayWait_rsRecv c 9) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (acc_load m c 9 10 (by decide)) $$ [H2]
  · iexact H2
  iintro H2
  rw [wp_ret]; imodintro
  iapply Hk
  isplitl [HO]; · iexact HO
  isplitl [H1]; · iexact H1
  iexact H2

set_option maxHeartbeats 1600000 in
theorem exec_part23 (c : Dev nD) (v267 : BitVec 32) (v279 : BitVec 32) (v619 : FVec F S16x512 .f32)
    {Q : (FVec F S16x512 .f32) → sProp 𝕄} :
    iprop(records m K ∗ levAts L lv ∗ owesX (F := F) c (OL (agItems c 0)) ∗ fromK 10 (waitIn (F := F) 1 c) ∗ belowK 10 (waitOut m 1 c))
      ⊢ iprop(iprop(iprop(owesX (F := F) c (OL (agItems c 0)) ∗ fromK 13 (waitIn (F := F) 1 c) ∗ belowK 13 (waitOut m 1 c)) -∗ Q (k0_pay6 v619 (slotLd m c 10) (slotLd m c 11) (slotLd m c 12)))
          -∗ wp frame (wpE (defs₀ (F := F)) 𝒱₀ (c : Thread nD τ) none) Set.univ (k0_part23 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v267 v279 v619) Q) := by
  simp only [k0_part23_eq_skeleton]; unfold k0_part23_skel
  simp only [semSignalWord, semWaitWord, Prog.lift, Prog.bind_op, Prog.bind_ret, Prog.pure_eq_ret]
  iintro ⟨#HR, #Hlev, HO, H1, H2⟩
  iintro Hk
  iapply (wait_step m K c 1 10 _ (mayWait_rsRecv c 10) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (acc_load m c 10 11 (by decide)) $$ [H2]
  · iexact H2
  iintro H2
  iapply (wait_step m K c 1 11 _ (mayWait_rsRecv c 11) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (acc_load m c 11 12 (by decide)) $$ [H2]
  · iexact H2
  iintro H2
  iapply (wait_step m K c 1 12 _ (mayWait_rsRecv c 12) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (acc_load m c 12 13 (by decide)) $$ [H2]
  · iexact H2
  iintro H2
  rw [wp_ret]; imodintro
  iapply Hk
  isplitl [HO]; · iexact HO
  isplitl [H1]; · iexact H1
  iexact H2

set_option maxHeartbeats 1600000 in
theorem exec_part24 (c : Dev nD) (v291 : BitVec 32) (v303 : BitVec 32) (v315 : BitVec 32) (v652 : FVec F S16x512 .f32)
    {Q : (FVec F S16x512 .f32) → sProp 𝕄} :
    iprop(records m K ∗ levAts L lv ∗ owesX (F := F) c (OL (agItems c 0)) ∗ fromK 13 (waitIn (F := F) 1 c) ∗ belowK 13 (waitOut m 1 c))
      ⊢ iprop(iprop(iprop(owesX (F := F) c (OL (agItems c 0)) ∗ fromK 15 (waitIn (F := F) 1 c) ∗ belowK 15 (waitOut m 1 c)) -∗ Q (k0_pay7 v652 (slotLd m c 13) (slotLd m c 14)))
          -∗ wp frame (wpE (defs₀ (F := F)) 𝒱₀ (c : Thread nD τ) none) Set.univ (k0_part24 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v291 v303 v315 v652) Q) := by
  simp only [k0_part24_eq_skeleton]; unfold k0_part24_skel
  simp only [semSignalWord, semWaitWord, Prog.lift, Prog.bind_op, Prog.bind_ret, Prog.pure_eq_ret]
  iintro ⟨#HR, #Hlev, HO, H1, H2⟩
  iintro Hk
  iapply (wait_step m K c 1 13 _ (mayWait_rsRecv c 13) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (acc_load m c 13 14 (by decide)) $$ [H2]
  · iexact H2
  iintro H2
  iapply (wait_step m K c 1 14 _ (mayWait_rsRecv c 14) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (acc_load m c 14 15 (by decide)) $$ [H2]
  · iexact H2
  iintro H2
  rw [wp_ret]; imodintro
  iapply Hk
  isplitl [HO]; · iexact HO
  isplitl [H1]; · iexact H1
  iexact H2

set_option maxHeartbeats 1600000 in
theorem exec_part25 (c : Dev nD) (v327 : BitVec 32) (v339 : BitVec 32) (v351 : BitVec 32) (v674 : FVec F S16x512 .f32)
    {Q : (Σ' (v707 : FVec F S16x512 .f32), BitVec 32) → sProp 𝕄} :
    iprop(records m K ∗ levAts L lv ∗ owesX (F := F) c (OL (agItems c 0)) ∗ fromK 15 (waitIn (F := F) 1 c) ∗ belowK 15 (waitOut m 1 c))
      ⊢ iprop(iprop(∀ w : BitVec 32, iprop(owesX (F := F) c (OL (agItems c 0)) ∗ fromK 18 (waitIn (F := F) 1 c) ∗ belowK 18 (waitOut m 1 c)) -∗ Q ⟨k0_pay8 v674 (slotLd m c 15) (slotLd m c 16) (slotLd m c 17), w⟩)
          -∗ wp frame (wpE (defs₀ (F := F)) 𝒱₀ (c : Thread nD τ) none) Set.univ (k0_part25 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v327 v339 v351 v674) Q) := by
  simp only [k0_part25_eq_skeleton]; unfold k0_part25_skel
  simp only [semSignalWord, semWaitWord, Prog.lift, Prog.bind_op, Prog.bind_ret, Prog.pure_eq_ret]
  iintro ⟨#HR, #Hlev, HO, H1, H2⟩
  iintro Hk
  iapply (wait_step m K c 1 15 _ (mayWait_rsRecv c 15) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (acc_load m c 15 16 (by decide)) $$ [H2]
  · iexact H2
  iintro H2
  iapply (wait_step m K c 1 16 _ (mayWait_rsRecv c 16) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (acc_load m c 16 17 (by decide)) $$ [H2]
  · iexact H2
  iintro H2
  iapply (wait_step m K c 1 17 _ (mayWait_rsRecv c 17) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (acc_load m c 17 18 (by decide)) $$ [H2]
  · iexact H2
  iintro H2
  rw [wp_ret]; imodintro
  iapply Hk
  isplitl [HO]; · iexact HO
  isplitl [H1]; · iexact H1
  iexact H2

set_option maxHeartbeats 1600000 in
theorem exec_part26 (c : Dev nD) (v363 : BitVec 32) (v375 : BitVec 32) (v707 : FVec F S16x512 .f32) (v708 : BitVec 32)
    {Q : (FVec F S16x512 .f32) → sProp 𝕄} :
    iprop(records m K ∗ levAts L lv ∗ owesX (F := F) c (OL (agItems c 0)) ∗ fromK 18 (waitIn (F := F) 1 c) ∗ belowK 18 (waitOut m 1 c))
      ⊢ iprop(iprop(iprop(owesX (F := F) c (OL (agItems c 0)) ∗ fromK 21 (waitIn (F := F) 1 c) ∗ belowK 21 (waitOut m 1 c)) -∗ Q (k0_pay9 v707 (slotLd m c 18) (slotLd m c 19)))
          -∗ wp frame (wpE (defs₀ (F := F)) 𝒱₀ (c : Thread nD τ) none) Set.univ (k0_part26 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v363 v375 v707 v708) Q) := by
  simp only [k0_part26_eq_skeleton]; unfold k0_part26_skel
  simp only [semSignalWord, semWaitWord, Prog.lift, Prog.bind_op, Prog.bind_ret, Prog.pure_eq_ret]
  iintro ⟨#HR, #Hlev, HO, H1, H2⟩
  iintro Hk
  iapply (wait_step m K c 1 18 _ (mayWait_rsRecv c 18) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (acc_load m c 18 19 (by decide)) $$ [H2]
  · iexact H2
  iintro H2
  iapply (wait_step m K c 1 19 _ (mayWait_rsRecv c 19) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (acc_load m c 19 20 (by decide)) $$ [H2]
  · iexact H2
  iintro H2
  iapply (wait_step m K c 1 20 _ (mayWait_rsRecv c 20) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  rw [wp_ret]; imodintro
  iapply Hk
  isplitl [HO]; · iexact HO
  isplitl [H1]; · iexact H1
  iexact H2

set_option maxHeartbeats 1600000 in
theorem exec_part27 (c : Dev nD) (v387 : BitVec 32) (v399 : BitVec 32) (v411 : BitVec 32) (v729 : FVec F S16x512 .f32)
    {Q : (FVec F S16x512 .f32) → sProp 𝕄} :
    iprop(records m K ∗ levAts L lv ∗ owesX (F := F) c (OL (agItems c 0)) ∗ fromK 21 (waitIn (F := F) 1 c) ∗ belowK 21 (waitOut m 1 c))
      ⊢ iprop(iprop(iprop(owesX (F := F) c (OL (agItems c 0)) ∗ fromK 23 (waitIn (F := F) 1 c) ∗ belowK 23 (waitOut m 1 c)) -∗ Q (k0_pay10 v729 (slotLd m c 20) (slotLd m c 21) (slotLd m c 22)))
          -∗ wp frame (wpE (defs₀ (F := F)) 𝒱₀ (c : Thread nD τ) none) Set.univ (k0_part27 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v387 v399 v411 v729) Q) := by
  simp only [k0_part27_eq_skeleton]; unfold k0_part27_skel
  simp only [semSignalWord, semWaitWord, Prog.lift, Prog.bind_op, Prog.bind_ret, Prog.pure_eq_ret]
  iintro ⟨#HR, #Hlev, HO, H1, H2⟩
  iintro Hk
  iapply (acc_load m c 20 21 (by decide)) $$ [H2]
  · iexact H2
  iintro H2
  iapply (wait_step m K c 1 21 _ (mayWait_rsRecv c 21) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (acc_load m c 21 22 (by decide)) $$ [H2]
  · iexact H2
  iintro H2
  iapply (wait_step m K c 1 22 _ (mayWait_rsRecv c 22) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (acc_load m c 22 23 (by decide)) $$ [H2]
  · iexact H2
  iintro H2
  rw [wp_ret]; imodintro
  iapply Hk
  isplitl [HO]; · iexact HO
  isplitl [H1]; · iexact H1
  iexact H2

set_option maxHeartbeats 1600000 in
theorem exec_part28 (c : Dev nD) (v423 : BitVec 32) (v435 : BitVec 32) (v762 : FVec F S16x512 .f32)
    {Q : (FVec F S16x512 .f32) → sProp 𝕄} :
    iprop(records m K ∗ levAts L lv ∗ owesX (F := F) c (OL (agItems c 0)) ∗ fromK 23 (waitIn (F := F) 1 c) ∗ belowK 23 (waitOut m 1 c))
      ⊢ iprop(iprop(iprop(owesX (F := F) c (OL (agItems c 0)) ∗ fromK 26 (waitIn (F := F) 1 c) ∗ belowK 26 (waitOut m 1 c)) -∗ Q (k0_pay11 v762 (slotLd m c 23) (slotLd m c 24) (slotLd m c 25)))
          -∗ wp frame (wpE (defs₀ (F := F)) 𝒱₀ (c : Thread nD τ) none) Set.univ (k0_part28 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v423 v435 v762) Q) := by
  simp only [k0_part28_eq_skeleton]; unfold k0_part28_skel
  simp only [semSignalWord, semWaitWord, Prog.lift, Prog.bind_op, Prog.bind_ret, Prog.pure_eq_ret]
  iintro ⟨#HR, #Hlev, HO, H1, H2⟩
  iintro Hk
  iapply (wait_step m K c 1 23 _ (mayWait_rsRecv c 23) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (acc_load m c 23 24 (by decide)) $$ [H2]
  · iexact H2
  iintro H2
  iapply (wait_step m K c 1 24 _ (mayWait_rsRecv c 24) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (acc_load m c 24 25 (by decide)) $$ [H2]
  · iexact H2
  iintro H2
  iapply (wait_step m K c 1 25 _ (mayWait_rsRecv c 25) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (acc_load m c 25 26 (by decide)) $$ [H2]
  · iexact H2
  iintro H2
  rw [wp_ret]; imodintro
  iapply Hk
  isplitl [HO]; · iexact HO
  isplitl [H1]; · iexact H1
  iexact H2

set_option maxHeartbeats 1600000 in
theorem exec_part29 (c : Dev nD) (v447 : BitVec 32) (v459 : BitVec 32) (v471 : BitVec 32) (v795 : FVec F S16x512 .f32)
    {Q : (FVec F S16x512 .f32) → sProp 𝕄} :
    iprop(records m K ∗ levAts L lv ∗ owesX (F := F) c (OL (agItems c 0)) ∗ fromK 26 (waitIn (F := F) 1 c) ∗ belowK 26 (waitOut m 1 c))
      ⊢ iprop(iprop(iprop(owesX (F := F) c (OL (agItems c 0)) ∗ fromK 28 (waitIn (F := F) 1 c) ∗ belowK 28 (waitOut m 1 c)) -∗ Q (k0_pay12 v795 (slotLd m c 26) (slotLd m c 27)))
          -∗ wp frame (wpE (defs₀ (F := F)) 𝒱₀ (c : Thread nD τ) none) Set.univ (k0_part29 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v447 v459 v471 v795) Q) := by
  simp only [k0_part29_eq_skeleton]; unfold k0_part29_skel
  simp only [semSignalWord, semWaitWord, Prog.lift, Prog.bind_op, Prog.bind_ret, Prog.pure_eq_ret]
  iintro ⟨#HR, #Hlev, HO, H1, H2⟩
  iintro Hk
  iapply (wait_step m K c 1 26 _ (mayWait_rsRecv c 26) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (acc_load m c 26 27 (by decide)) $$ [H2]
  · iexact H2
  iintro H2
  iapply (wait_step m K c 1 27 _ (mayWait_rsRecv c 27) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (acc_load m c 27 28 (by decide)) $$ [H2]
  · iexact H2
  iintro H2
  rw [wp_ret]; imodintro
  iapply Hk
  isplitl [HO]; · iexact HO
  isplitl [H1]; · iexact H1
  iexact H2

set_option maxHeartbeats 1600000 in
theorem exec_part30 (c : Dev nD) (v483 : BitVec 32) (v495 : BitVec 32) (v817 : FVec F S16x512 .f32)
    {Q : (FVec F S16x512 .bf16) → sProp 𝕄} :
    iprop(records m K ∗ levAts L lv ∗ owesX (F := F) c (OL (agItems c 0)) ∗ fromK 28 (waitIn (F := F) 1 c) ∗ belowK 28 (waitOut m 1 c) ∗ (∃ f : Buf (Elt F) ((c : Thread nD τ).loc cc0_scratch2), ((c : Thread nD τ).loc cc0_scratch2) ↦{fullShare} f))
      ⊢ iprop(iprop(iprop(owesX (F := F) c (OL (agItems c 0)) ∗ fromK 31 (waitIn (F := F) 1 c) ∗ belowK 31 (waitOut m 1 c) ∗ (∃ f : Buf (Elt F) ((c : Thread nD τ).loc cc0_scratch2), ((c : Thread nD τ).loc cc0_scratch2) ↦{fullShare} f)) -∗ Q (k0_pay13 v817 (slotLd m c 28) (slotLd m c 29) (slotLd m c 30)))
          -∗ wp frame (wpE (defs₀ (F := F)) 𝒱₀ (c : Thread nD τ) none) Set.univ (k0_part30 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v483 v495 v817) Q) := by
  simp only [k0_part30_eq_skeleton]; unfold k0_part30_skel
  simp only [semSignalWord, semWaitWord, Prog.lift, Prog.bind_op, Prog.bind_ret, Prog.pure_eq_ret]
  iintro ⟨#HR, #Hlev, HO, H1, H2, Hred⟩
  iintro Hk
  iapply (wait_step m K c 1 28 _ (mayWait_rsRecv c 28) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (acc_load m c 28 29 (by decide)) $$ [H2]
  · iexact H2
  iintro H2
  iapply (wait_step m K c 1 29 _ (mayWait_rsRecv c 29) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (acc_load m c 29 30 (by decide)) $$ [H2]
  · iexact H2
  iintro H2
  iapply (wait_step m K c 1 30 _ (mayWait_rsRecv c 30) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (acc_load m c 30 31 (by decide)) $$ [H2]
  · iexact H2
  iintro H2
  icases Hred with ⟨%fr, Hred⟩
  iapply (wp_load 𝒱₀ (c : Thread nD τ) none Set.univ (m := redM) (Finset.subset_univ _)) $$ Hred; iintro Hred
  rw [wp_ret]; imodintro
  iapply Hk
  isplitl [HO]; · iexact HO
  isplitl [H1]; · iexact H1
  isplitl [H2]; · iexact H2
  iexists fr; iexact Hred

end Cert.KernelIdeal.Hand

end
-- ==== Proof.Regroup.lean ====
/-
  Reindexing: the 32 devices are a device and its 31 peers (or its 31 sources); a device's 125 cells are its barrier
  cell and four arrays of 31; the full share of the reduced block is 31 handed-out halves and a remainder.
-/
import proofs.«900471_g7700000000000472_dist_rs_then_ag_i_m512_n512_v7x_i32_bf16_1_alg».proof.Proof.Phases

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)

/-! ## A device and its 31 peers -/

def peerSum (c : Dev nD) : Unit ⊕ Fin 31 → Dev nD
  | .inl _ => c
  | .inr r => peer c r
def srcdSum (c : Dev nD) : Unit ⊕ Fin 31 → Dev nD
  | .inl _ => c
  | .inr r => srcd c r
theorem peerSum_inj : ∀ (c : Dev nD) (x y : Unit ⊕ Fin 31), peerSum c x = peerSum c y → x = y := by decide +kernel
theorem peerSum_surj : ∀ (c e : Dev nD), ∃ x : Unit ⊕ Fin 31, peerSum c x = e := by decide +kernel
theorem srcdSum_inj : ∀ (c : Dev nD) (x y : Unit ⊕ Fin 31), srcdSum c x = srcdSum c y → x = y := by decide +kernel
theorem srcdSum_surj : ∀ (c e : Dev nD), ∃ x : Unit ⊕ Fin 31, srcdSum c x = e := by decide +kernel
def peerEquiv (c : Dev nD) : Unit ⊕ Fin 31 ≃ Dev nD := Equiv.ofBijective (peerSum c) ⟨fun x y => peerSum_inj c x y, peerSum_surj c⟩
def srcdEquiv (c : Dev nD) : Unit ⊕ Fin 31 ≃ Dev nD := Equiv.ofBijective (srcdSum c) ⟨fun x y => srcdSum_inj c x y, srcdSum_surj c⟩
def revEquiv : Fin 31 ≃ Fin 31 := ⟨rev, rev, rev_rev, rev_rev⟩

theorem bigSep_dev_peer (c : Dev nD) (Φ : Dev nD → sProp 𝕄) :
    bigSep Finset.univ Φ = iprop(Φ c ∗ bigSep Finset.univ (fun r : Fin 31 => Φ (peer c r))) := by
  rw [bigSep_univ_equiv (peerEquiv c) Φ, bigSep_univ_sum, bigSep_univ_of_subsingleton ()]; rfl
theorem bigSep_dev_srcd (c : Dev nD) (Φ : Dev nD → sProp 𝕄) :
    bigSep Finset.univ Φ = iprop(Φ c ∗ bigSep Finset.univ (fun r : Fin 31 => Φ (srcd c r))) := by
  rw [bigSep_univ_equiv (srcdEquiv c) Φ, bigSep_univ_sum, bigSep_univ_of_subsingleton ()]; rfl
theorem bigSep_rev (Φ : Fin 31 → sProp 𝕄) : bigSep Finset.univ Φ = bigSep Finset.univ (fun r : Fin 31 => Φ (rev r)) :=
  bigSep_univ_equiv revEquiv Φ

/-! ## A device's cells by array -/

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem bigSep_CK (Φ : CK → sProp 𝕄) :
    bigSep Finset.univ Φ = iprop(Φ none ∗ (bigSep Finset.univ fun r : Fin 31 => Φ (some (0, r))) ∗ (bigSep Finset.univ fun r : Fin 31 => Φ (some (1, r)))
      ∗ (bigSep Finset.univ fun r : Fin 31 => Φ (some (2, r))) ∗ (bigSep Finset.univ fun r : Fin 31 => Φ (some (3, r)))) := by
  rw [bigSep_univ_equiv (Equiv.optionEquivSumPUnit.{0, 0} (Fin 4 × Fin 31)).symm Φ, bigSep_univ_sum, bigSep_univ_of_subsingleton (PUnit.unit.{1}),
    bigSep_univ_prod, bigSep_fin4]
  ac_rfl

/-! ## The shares of the reduced block -/

theorem sep_rot (A B C : sProp 𝕄) : iprop(A ∗ B ∗ C) = iprop((B ∗ A) ∗ C) := by
  have h1 : iprop(A ∗ B ∗ C) ⊢ iprop((B ∗ A) ∗ C) := by
    iintro ⟨HA, HB, HC⟩
    isplitl [HA HB]
    · isplitl [HB]
      · iexact HB
      · iexact HA
    · iexact HC
  have h2 : iprop((B ∗ A) ∗ C) ⊢ iprop(A ∗ B ∗ C) := by
    iintro ⟨⟨HB, HA⟩, HC⟩
    isplitl [HA]
    · iexact HA
    · isplitl [HB]
      · iexact HB
      · iexact HC
  exact BI.equiv_iff.mp ⟨h1, h2⟩

theorem shares_split (ℓ : Loc nD τ sig) (f : Buf (Elt F) ℓ) : ∀ n : ℕ, n ≤ 31 →
    (ℓ ↦{fullShare} f : sProp 𝕄) = iprop(belowK n (fun r : Fin 31 => (ℓ ↦{shr r.val} f : sProp 𝕄)) ∗ (ℓ ↦{rst n} f))
  | 0, _ => by rw [belowK_zero]; exact (BI.equiv_iff.mp emp_sep).symm
  | k + 1, hk => by
    have hs : (ℓ ↦{rst k} f : sProp 𝕄) ⊣⊢ iprop((ℓ ↦{shr k} f) ∗ (ℓ ↦{rst (k + 1)} f)) := pointsTo_share (shr_rst k)
    rw [shares_split ℓ f k (by omega), belowK_step ⟨k, by omega⟩, BI.equiv_iff.mp ⟨hs.1, hs.2⟩]
    simp only [Fin.val_mk]
    exact sep_rot _ _ _

end Cert.KernelIdeal.Hand

end
-- ==== Proof.Glue.lean ====
/-
  Small glue: what a whole-buffer load reads and a whole-buffer store leaves; a loop of waits set up from its credits
  and positions; the device's own cells closed once their one round is over.
-/
import proofs.«900471_g7700000000000472_dist_rs_then_ag_i_m512_n512_v7x_i32_bf16_1_alg».proof.Proof.Regroup

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)

/-! ## Whole-buffer loads and stores -/

theorem hz2 : (![0, 0] : Fin 2 → Nat) = fun _ => 0 := funext fun a => by fin_cases a <;> rfl
abbrev r512 : Rect S512x512 := Rect.unit (s := S512x512) ![0, 0] S512x512.size inb_S512x512_S512x512_0_0
abbrev r16 : Rect S16x512 := Rect.unit (s := S16x512) ![0, 0] S16x512.size inb_S16x512_S16x512_0_0

theorem read_x (f : (cc0_stg0_0 : Ref sig .tc).ty.Contents (Elt F)) :
    (xM : Memref sig .tc .vmem S512x512 .f32).view.readAt (Elt F) r512.toLoadRect f = f :=
  Memref.readAt_unit_zero (Elt F) cc0_stg0_0 hz2 _ f
theorem write_st (f w : (cc0_scratch0 : Ref sig .tc).ty.Contents (Elt F)) :
    ((stM : Memref sig .tc .vmem S512x512 .bf16).access r512 : View sig .tc _ _ _).write (Elt F) f w Finset.univ = w :=
  Memref.write_access_unit_zero_univ (Elt F) cc0_scratch0 hz2 _ f w
theorem read_red (f : (cc0_scratch2 : Ref sig .tc).ty.Contents (Elt F)) :
    (redM : Memref sig .tc .vmem S16x512 .bf16).view.readAt (Elt F) r16.toLoadRect f = f :=
  Memref.readAt_unit_zero (Elt F) cc0_scratch2 hz2 _ f
theorem write_red (f w : (cc0_scratch2 : Ref sig .tc).ty.Contents (Elt F)) :
    ((redM : Memref sig .tc .vmem S16x512 .bf16).access r16 : View sig .tc _ _ _).write (Elt F) f w Finset.univ = w :=
  Memref.write_access_unit_zero_univ (Elt F) cc0_scratch2 hz2 _ f w

/-! ## A loop of waits, from its credits and positions -/

theorem mk_waitIn (j : Fin 4) (c : Dev nD) :
    iprop((bigSep Finset.univ fun r : Fin 31 => (cred (tallyAt (dmaCell c j r) () N) : sProp 𝕄))
        ∗ (bigSep Finset.univ fun r : Fin 31 => (atPos ER (dmaCell c j r) 0 ∅ 0 : sProp 𝕄)))
      ⊢ iprop(fromK 0 (waitIn (F := F) j c) ∗ belowK 0 (waitOut m j c)) := by
  rw [fromK_zero, belowK_zero]
  unfold waitIn
  rw [bigSep_sep']
  iintro ⟨H1, H2⟩
  isplitl [H1 H2]
  · isplitl [H1]
    · iexact H1
    · iexact H2
  · iempintro

/-! ## The own cells closed -/

theorem close_one (c : Dev nD) (j : Fin 4) (r : Fin 31) :
    iprop(records m K ∗ atPos ER (dmaCell c j r) (0 + 1) ∅ 0) ⊢ (|={Set.univ}=> semVal (dmaCell c j r) 0 : sProp 𝕄) := by
  iintro ⟨#HR, Hat⟩
  imod (Rounds.cell_close ER (sched m) (Set.mem_univ (K (c, some (j, r)))) (fun h => h) (R := 0 + 1) (duties_later m (dmaCell c j r))) $$ [Hat] with Hz
  · isplitr
    · iapply (inv_at m K (c, some (j, r))); iexact HR
    · iexact Hat
  imodintro
  iexact Hz

end Cert.KernelIdeal.Hand

end
-- ==== Proof.Mixed.lean ====
/-
  The two parts of the body where the phases meet.  Part 6: the last two barrier signals, the staging copy stored, the
  barrier wait — after which the device holds, of every peer, the slot and the block of the result it may write — and the
  first copy of the reduce-scatter.  Part 31: the reduced block stored and read back, the device's own block of the result
  written, and the first two copies of the all-gather, each reading the reduced block at a share of its own.
-/
import proofs.«900471_g7700000000000472_dist_rs_then_ag_i_m512_n512_v7x_i32_bf16_1_alg».proof.Proof.PartsA
import proofs.«900471_g7700000000000472_dist_rs_then_ag_i_m512_n512_v7x_i32_bf16_1_alg».proof.Proof.Sets
import proofs.«900471_g7700000000000472_dist_rs_then_ag_i_m512_n512_v7x_i32_bf16_1_alg».proof.Proof.Glue

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)

/-! ## From the barrier's payloads to the reduce-scatter's inputs -/

theorem to_rs (c : Dev nD) :
    iprop((((c : Thread nD τ).loc cc0_scratch0) ↦{fullShare} stagev m c) ∗ bigSep Finset.univ (fun d : Fin 31 => barPay (F := F) c d)
        ∗ (bigSep Finset.univ fun r : Fin 31 => iprop(dutyTok ER (rsSendCell c r) 0 0 ∗ dutyTok ER (rsRecvCell (peer c r) r) 0 0)))
      ⊢ iprop(fromK 0 (rsIn m c) ∗ belowK 0 (rsOut (F := F) c) ∗ (((c : Thread nD τ).loc cc0_scratch0) ↦[outSet c]{fullShare} stagev m c)
          ∗ bigSep Finset.univ (fun r : Fin 31 => iprop(∃ fn, outPts (F := F) (peer c r) c fn))) := by
  rw [st_split c (stagev m c), fromK_zero, belowK_zero]
  unfold barPay rsIn stPts
  simp only [bigSep_sep']
  iintro ⟨⟨HA, Hown⟩, ⟨HB, HC⟩, ⟨HT, HT'⟩⟩
  isplitl [HA HB HT HT']
  · isplitl [HA]; · iexact HA
    isplitl [HB]; · iexact HB
    isplitl [HT]; · iexact HT
    iexact HT'
  isplitr; · iempintro
  isplitl [Hown]; · iexact Hown
  iexact HC

/-! ## From the reduced block and the barrier's payloads to the all-gather's inputs -/

theorem to_ag (c : Dev nD) :
    iprop((((c : Thread nD τ).loc cc0_scratch2) ↦{fullShare} redv m c) ∗ bigSep Finset.univ (fun r : Fin 31 => iprop(∃ fn, outPts (F := F) (peer c r) c fn))
        ∗ (bigSep Finset.univ fun r : Fin 31 => iprop(dutyTok ER (agSendCell c r) 0 0 ∗ dutyTok ER (agRecvCell (peer c r) r) 0 0)))
      ⊢ iprop(fromK 0 (agIn m c) ∗ belowK 0 (agOut (F := F) c) ∗ (((c : Thread nD τ).loc cc0_scratch2) ↦{rst 31} redv m c)) := by
  rw [shares_split ((c : Thread nD τ).loc cc0_scratch2) (redv m c) 31 (Nat.le_refl _), belowK_end, fromK_zero, belowK_zero]
  unfold agIn redPts
  simp only [bigSep_sep', Memref.view_whole, View.set_whole]
  iintro ⟨⟨HA, Hrest⟩, HB, ⟨HT, HT'⟩⟩
  isplitl [HA HB HT HT']
  · isplitl [HA]; · iexact HA
    isplitl [HB]; · iexact HB
    isplitl [HT]; · iexact HT
    iexact HT'
  isplitr; · iempintro
  iexact Hrest

/-! ## Part 6 -/

set_option maxHeartbeats 1600000 in
theorem exec_part6 (c : Dev nD) (v2 : BitVec 32) (v120 : BitVec 32) (c32_i32_116 : BitVec 32)
    {Q : (Σ' (v135 : BitVec 32) (v147 : BitVec 32), BitVec 32) → sProp 𝕄} :
    iprop(records m K ∗ levAts L lv ∗ owesX (F := F) c (OL (sigItems c 29 ++ (rsItems c 0 ++ agItems c 0))) ∗ fromK 29 (sigIn (F := F) c)
        ∗ (((c : Thread nD τ).loc cc0_stg0_0) ↦{fullShare} xstg m c)
        ∗ (∃ f : Buf (Elt F) ((c : Thread nD τ).loc cc0_scratch0), ((c : Thread nD τ).loc cc0_scratch0) ↦{fullShare} f)
        ∗ cred (tallyAt (barCell c) () 31) ∗ atPos ER (barCell c) 0 ∅ 0
        ∗ (bigSep Finset.univ fun r : Fin 31 => iprop(dutyTok ER (rsSendCell c r) 0 0 ∗ dutyTok ER (rsRecvCell (peer c r) r) 0 0)))
      ⊢ iprop((∀ a, iprop(owesX (F := F) c (OL (rsItems c 1 ++ agItems c 0)) ∗ fromK 1 (rsIn m c) ∗ belowK 1 (rsOut (F := F) c)
              ∗ (((c : Thread nD τ).loc cc0_stg0_0) ↦{fullShare} xstg m c)
              ∗ (((c : Thread nD τ).loc cc0_scratch0) ↦[outSet c]{fullShare} stagev m c)
              ∗ atPos ER (barCell c) (0 + 1) ∅ 0
              ∗ bigSep Finset.univ (fun r : Fin 31 => iprop(∃ fn, outPts (F := F) (peer c r) c fn))) -∗ Q a)
          -∗ wp frame (wpE (defs₀ (F := F)) 𝒱₀ (c : Thread nD τ) none) Set.univ (k0_part6 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 barArr v120 c32_i32_116) Q) := by
  simp only [k0_part6_eq_skeleton]; unfold k0_part6_skel
  simp only [semSignalWord, semWaitWord, Prog.lift, Prog.bind_op, Prog.bind_ret, Prog.pure_eq_ret]
  iintro ⟨#HR, #Hlev, HO, H1, Hx, ⟨%f0, Hst⟩, Hcb, Hab, HT⟩
  iintro Hk
  iapply (sig_step m K c 29 _ (dev30_eq c) (rsItems c 0 ++ agItems c 0)) $$ [HO H1]
  · isplitr; · iexact HR
    isplitl [HO]; · iexact HO
    iexact H1
  iintro ⟨HO, H1⟩
  iapply (sig_step m K c 30 _ (dev31_eq c) (rsItems c 0 ++ agItems c 0)) $$ [HO H1]
  · isplitr; · iexact HR
    isplitl [HO]; · iexact HO
    iexact H1
  iintro ⟨HO, H1⟩
  ihave HO := (Entails.of_eq (show owesX (F := F) c (OL (sigItems c ((30 : Fin 31).val + 1) ++ (rsItems c 0 ++ agItems c 0))) = owesX (F := F) c (OL (rsItems c 0 ++ agItems c 0)) from by
    rw [show (30 : Fin 31).val + 1 = 31 from rfl, sigItems_end, List.nil_append])) $$ HO
  iapply (wp_load 𝒱₀ (c : Thread nD τ) none Set.univ (m := xM) (Finset.subset_univ _)) $$ Hx; iintro Hx
  rw [read_x]
  iapply (wp_load 𝒱₀ (c : Thread nD τ) none Set.univ (m := stM) (Finset.subset_univ _)) $$ Hst; iintro Hst
  iapply (wp_store 𝒱₀ (c : Thread nD τ) none Set.univ (m := stM) (r := r512) (Mk := Finset.univ) (Finset.subset_univ _)) $$ Hst; iintro Hst
  rw [write_st]
  iapply (bar_step m K c) $$ [Hcb HO Hab]
  · isplitr; · iexact HR
    isplitr; · iexact Hlev
    isplitl [Hcb]; · iexact Hcb
    isplitl [HO]; · iexact HO
    iexact Hab
  iintro ⟨HO, Hab, Hpay⟩
  ihave Hrs := (to_rs m c) $$ [Hst Hpay HT]
  · isplitl [Hst]; · (unfold stagev; iexact Hst)
    isplitl [Hpay]; · iexact Hpay
    iexact HT
  icases Hrs with ⟨R1, R2, Hown, Hpeers⟩
  iapply (rs_step m K c 0 _ (dev32_eq c) (agItems c 0)) $$ [HO R1 R2]
  · isplitr; · iexact HR
    isplitl [HO]; · iexact HO
    isplitl [R1]; · iexact R1
    iexact R2
  iintro ⟨HO, R1, R2⟩
  rw [wp_ret]; imodintro
  iapply Hk
  isplitl [HO]; · iexact HO
  isplitl [R1]; · iexact R1
  isplitl [R2]; · iexact R2
  isplitl [Hx]; · iexact Hx
  isplitl [Hown]; · iexact Hown
  isplitl [Hab]; · iexact Hab
  iexact Hpeers

/-! ## Part 31 -/

abbrev ownRect (c : Dev nD) : Rect S512x512 := Rect.unit (s := S512x512) (k0_off2 c) S16x512.size (k0_off2_inb c)

/-- The load of the device's own block through the whole result buffer reads that block only. -/
theorem own_load_sub (c : Dev nD) :
    (oM : Memref sig .tc .vmem S512x512 .bf16).view.setOn (ownRect c).toLoadRect.set ⊆ (outSlice c).view.set := by
  have e2 : (oM : Memref sig .tc .vmem S512x512 .bf16).view.setOn (ownRect c).toLoadRect.set = (ownRect c).set := by
    unfold View.setOn
    exact Finset.map_refl
  rw [e2]
  intro i hi
  exact (mem_outSlice c i).mpr ((mem_rows16 c.val (k0_off2_eq c) _ i).mp hi)

set_option maxHeartbeats 1600000 in
theorem exec_part31 (c : Dev nD) (v2 : BitVec 32)
    {Q : (Σ' (v860 : BitVec 32) (v870 : BitVec 32), BitVec 32) → sProp 𝕄} :
    iprop(records m K ∗ owesX (F := F) c (OL (agItems c 0 ++ []))
        ∗ (∃ f : Buf (Elt F) ((c : Thread nD τ).loc cc0_scratch2), ((c : Thread nD τ).loc cc0_scratch2) ↦{fullShare} f)
        ∗ (∃ f, outPts (F := F) c c f)
        ∗ bigSep Finset.univ (fun r : Fin 31 => iprop(∃ fn, outPts (F := F) (peer c r) c fn))
        ∗ (bigSep Finset.univ fun r : Fin 31 => iprop(dutyTok ER (agSendCell c r) 0 0 ∗ dutyTok ER (agRecvCell (peer c r) r) 0 0)))
      ⊢ iprop((∀ a, iprop(owesX (F := F) c (OL (agItems c 2 ++ [])) ∗ fromK 2 (agIn m c) ∗ belowK 2 (agOut (F := F) c)
              ∗ (((c : Thread nD τ).loc cc0_scratch2) ↦{rst 31} redv m c) ∗ outPts c c (outv m)) -∗ Q a)
          -∗ wp frame (wpE (defs₀ (F := F)) 𝒱₀ (c : Thread nD τ) none) Set.univ (k0_part31 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 (redv m c)) Q) := by
  simp only [k0_part31_eq_skeleton]; unfold k0_part31_skel
  simp only [semSignalWord, semWaitWord, Prog.lift, Prog.bind_op, Prog.bind_ret, Prog.pure_eq_ret]
  iintro ⟨#HR, HO, ⟨%fr, Hred⟩, ⟨%fo, Hown⟩, Hpeers, HT⟩
  iintro Hk
  iapply (wp_store 𝒱₀ (c : Thread nD τ) none Set.univ (m := redM) (r := r16) (Mk := Finset.univ) (Finset.subset_univ _)) $$ Hred; iintro Hred
  rw [write_red]
  iapply (wp_load 𝒱₀ (c : Thread nD τ) none Set.univ (m := redM) (Finset.subset_univ _)) $$ Hred; iintro Hred
  unfold outPts
  iapply (wp_load 𝒱₀ (c : Thread nD τ) none Set.univ (m := oM) (own_load_sub c)) $$ Hown; iintro Hown
  iapply (wp_store 𝒱₀ (c : Thread nD τ) none Set.univ (m := oM) (r := ownRect c) (Mk := Finset.univ) (own_store_set c).subset) $$ Hown; iintro Hown
  ihave Hown := (Entails.of_eq (pointsTo_congr (own_store_val m c fo _ rfl))) $$ Hown
  ihave Hag := (to_ag m c) $$ [Hred Hpeers HT]
  · isplitl [Hred]; · iexact Hred
    isplitl [Hpeers]; · iexact Hpeers
    iexact HT
  icases Hag with ⟨A1, A2, Hrest⟩
  iapply (ag_step m K c 0 _ (dev63_eq c) ([])) $$ [HO A1 A2]
  · isplitr; · iexact HR
    isplitl [HO]; · iexact HO
    isplitl [A1]; · iexact A1
    iexact A2
  iintro ⟨HO, A1, A2⟩
  iapply (ag_step m K c 1 _ (dev64_eq c) ([])) $$ [HO A1 A2]
  · isplitr; · iexact HR
    isplitl [HO]; · iexact HO
    isplitl [A1]; · iexact A1
    iexact A2
  iintro ⟨HO, A1, A2⟩
  rw [wp_ret]; imodintro
  iapply Hk
  isplitl [HO]; · iexact HO
  isplitl [A1]; · iexact A1
  isplitl [A2]; · iexact A2
  isplitl [Hrest]; · iexact Hrest
  iexact Hown

end Cert.KernelIdeal.Hand

end
-- ==== Proof.Ends.lean ====
/-
  The two ends of the body's proof, as regroupings in the logic.

  At the start a device holds its positions on its 125 cells, the tokens of the duties it pays, the credit for what the
  others owe it, its three scratch buffers and the result's staging buffer.  Cut by cell array, by slot and by row block
  these are what the phases consume: a barrier signal to `peer c r` takes that cell's token, slot `rev r` of the receive
  scratch and block `peer c r` of the result buffer; each copy takes its two tokens; each loop of waits its credits and
  positions.  At the end every cell of the four arrays stands at the end of its one round with its payload: the send
  cells of the reduce-scatter hand back the 31 row blocks sent, which with the device's own rows are the staging copy
  whole; the receive cells the 31 landed slots, the receive scratch whole; the send cells of the all-gather the 31
  shares lent, with the remainder the reduction buffer whole; the receive cells the 31 landed blocks, which with the
  device's own block are the result buffer whole, holding the result at every row.  The positions close, each cell's
  counter back at zero.
-/
import proofs.«900471_g7700000000000472_dist_rs_then_ag_i_m512_n512_v7x_i32_bf16_1_alg».proof.Proof.Sets
import proofs.«900471_g7700000000000472_dist_rs_then_ag_i_m512_n512_v7x_i32_bf16_1_alg».proof.Proof.Glue

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What the launch hands a device, regrouped into the phases' inputs -/

/-- The receive scratch whole is its slots, each at some contents, listed in the order the barrier signals use them. -/
theorem scr1_slots (c : Dev nD) (f : Buf (Elt F) ((c : Thread nD τ).loc cc0_scratch1)) :
    (((c : Thread nD τ).loc cc0_scratch1) ↦{fullShare} f : sProp 𝕄)
      ⊢ bigSep Finset.univ fun r : Fin 31 => iprop(∃ f', slotPts (F := F) c (rev r) f') := by
  rw [rs_split c f, bigSep_rev (fun r : Fin 31 => slotPts (F := F) c r f)]
  have h : ∀ r : Fin 31, (slotPts (F := F) c (rev r) f : sProp 𝕄) ⊢ iprop(∃ f', slotPts (F := F) c (rev r) f') :=
    fun r => by iintro H; iexists f; iexact H
  exact bigSep_mono fun r _ => h r

/-- The result's staging buffer whole is the device's own block and its peers' blocks, each at some contents. -/
theorem out_blocks (c : Dev nD) (g : Buf (Elt F) ((c : Thread nD τ).loc cc0_stg1_0)) :
    (((c : Thread nD τ).loc cc0_stg1_0) ↦{fullShare} g : sProp 𝕄)
      ⊢ iprop((∃ f, outPts (F := F) c c f) ∗ bigSep Finset.univ fun r : Fin 31 => iprop(∃ f, outPts (F := F) c (peer c r) f)) := by
  rw [out_split c g, bigSep_dev_peer c (fun b : Dev nD => outPts (F := F) c b g)]
  have h : ∀ b : Dev nD, (outPts (F := F) c b g : sProp 𝕄) ⊢ iprop(∃ f, outPts (F := F) c b f) :=
    fun b => by iintro H; iexists g; iexact H
  have h2 : (bigSep Finset.univ fun r : Fin 31 => outPts (F := F) c (peer c r) g)
      ⊢ bigSep Finset.univ fun r : Fin 31 => iprop(∃ f, outPts (F := F) c (peer c r) f) := bigSep_mono fun r _ => h (peer c r)
  iintro ⟨H1, H2⟩
  isplitl [H1]
  · iapply (h c); iexact H1
  · iapply h2; iexact H2

theorem init_regroup (c : Dev nD) (g1 : Buf (Elt F) ((c : Thread nD τ).loc cc0_stg1_0)) :
    iprop(positions (F := F) c ∗ payToks (F := F) c ∗ creds (F := F) c ∗ scr (F := F) c ∗ (((c : Thread nD τ).loc cc0_stg1_0) ↦{fullShare} g1))
      ⊢ iprop(fromK 0 (sigIn (F := F) c)
          ∗ (∃ f : Buf (Elt F) ((c : Thread nD τ).loc cc0_scratch0), ((c : Thread nD τ).loc cc0_scratch0) ↦{fullShare} f)
          ∗ (∃ f : Buf (Elt F) ((c : Thread nD τ).loc cc0_scratch2), ((c : Thread nD τ).loc cc0_scratch2) ↦{fullShare} f)
          ∗ cred (tallyAt (barCell c) () 31) ∗ atPos ER (barCell c) 0 ∅ 0
          ∗ (bigSep Finset.univ fun r : Fin 31 => iprop(dutyTok ER (rsSendCell c r) 0 0 ∗ dutyTok ER (rsRecvCell (peer c r) r) 0 0))
          ∗ (bigSep Finset.univ fun r : Fin 31 => iprop(dutyTok ER (agSendCell c r) 0 0 ∗ dutyTok ER (agRecvCell (peer c r) r) 0 0))
          ∗ (fromK 0 (waitIn (F := F) 1 c) ∗ belowK 0 (waitOut m 1 c))
          ∗ (fromK 0 (waitIn (F := F) 3 c) ∗ belowK 0 (waitOut m 3 c))
          ∗ (bigSep Finset.univ fun r : Fin 31 => (atPos ER (dmaCell c 0 r) 0 ∅ 0 : sProp 𝕄))
          ∗ (bigSep Finset.univ fun r : Fin 31 => (atPos ER (dmaCell c 2 r) 0 ∅ 0 : sProp 𝕄))
          ∗ (∃ f, outPts (F := F) c c f)) := by
  unfold positions payToks payTok creds scr
  rw [bigSep_CK, fromK_zero (sigIn (F := F) c)]
  unfold sigIn
  simp only [bigSep_sep']
  iintro ⟨⟨Hpb, Hp0, Hp1, Hp2, Hp3⟩, ⟨Ht1, Ht2, Ht3, Ht4, Ht5⟩, ⟨Hcb, Hc1, Hc3⟩, ⟨Hs0, ⟨%f1, Hs1⟩, Hs2⟩, Hout⟩
  ihave Hsl := (scr1_slots c f1) $$ Hs1
  ihave Hob := (out_blocks c g1) $$ Hout
  icases Hob with ⟨Hown, Hblk⟩
  isplitl [Ht1 Hsl Hblk]
  · isplitl [Ht1]; · iexact Ht1
    isplitl [Hsl]; · iexact Hsl
    iexact Hblk
  isplitl [Hs0]; · iexact Hs0
  isplitl [Hs2]; · iexact Hs2
  isplitl [Hcb]; · iexact Hcb
  isplitl [Hpb]; · iexact Hpb
  isplitl [Ht4 Ht2]
  · isplitl [Ht4]; · iexact Ht4
    iexact Ht2
  isplitl [Ht5 Ht3]
  · isplitl [Ht5]; · iexact Ht5
    iexact Ht3
  isplitl [Hc1 Hp1]
  · iapply (mk_waitIn m 1 c)
    isplitl [Hc1]; · iexact Hc1
    iexact Hp1
  isplitl [Hc3 Hp3]
  · iapply (mk_waitIn m 3 c)
    isplitl [Hc3]; · iexact Hc3
    iexact Hp3
  isplitl [Hp0]; · iexact Hp0
  isplitl [Hp2]; · iexact Hp2
  iexact Hown

/-! ## What the phases leave, regrouped into what the launch takes back -/

/-- The positions of one array's 31 cells close, each cell's counter back at zero. -/
theorem close_arr (K : Dev nD × CK → ℕ) (c : Dev nD) (j : Fin 4) :
    iprop(records m K ∗ bigSep Finset.univ fun r : Fin 31 => (atPos ER (dmaCell c j r) (0 + 1) ∅ 0 : sProp 𝕄))
      ⊢ (|={Set.univ}=> bigSep Finset.univ fun r : Fin 31 => (semVal (dmaCell c j r) 0 : sProp 𝕄) : sProp 𝕄) := by
  have h1 : iprop(records m K ∗ bigSep Finset.univ fun r : Fin 31 => (atPos ER (dmaCell c j r) (0 + 1) ∅ 0 : sProp 𝕄))
      ⊢ bigSep Finset.univ fun r : Fin 31 => (iprop(|={Set.univ}=> semVal (dmaCell c j r) 0) : sProp 𝕄) :=
    bigSep_with_persistent fun r _ => close_one m K c j r
  exact h1.trans (bigSep_fupd Finset.univ _)

/-- The 31 row blocks the send cells hand back and the device's own rows are the staging copy whole. -/
theorem st_whole (c : Dev nD) :
    iprop((bigSep Finset.univ fun r : Fin 31 => dmaPay m c (dsem 0 r)) ∗ (((c : Thread nD τ).loc cc0_scratch0) ↦[outSet c]{fullShare} stagev m c))
      ⊢ (iprop(∃ f : Buf (Elt F) ((c : Thread nD τ).loc cc0_scratch0), ((c : Thread nD τ).loc cc0_scratch0) ↦{fullShare} f) : sProp 𝕄) := by
  have e : ∀ r : Fin 31, dmaPay m c (dsem 0 r)
      = ((stSlice c r).view.loc (c : Thread nD τ) ↦[(stSlice c r).view.set]{fullShare} stagev m c : sProp 𝕄) := fun r => dmaPay_rsSend m c r
  simp only [e]
  rw [← st_split c (stagev m c)]
  iintro H
  iexists stagev m c
  iexact H

/-- The 31 landed slots are the receive scratch whole, at some contents. -/
theorem rs_whole (c : Dev nD) :
    (bigSep Finset.univ fun r : Fin 31 => dmaPay m c (dsem 1 r))
      ⊢ (iprop(∃ g : Buf (Elt F) ((c : Thread nD τ).loc cc0_scratch1), ((c : Thread nD τ).loc cc0_scratch1) ↦{fullShare} g) : sProp 𝕄) := by
  have e : ∀ r : Fin 31, dmaPay m c (dsem 1 r) = rsRecvPay m c r := fun r => dmaPay_rsRecv m c r
  simp only [e]
  have h : ∀ r : Fin 31, (rsRecvPay m c r : sProp 𝕄) ⊢ iprop(∃ f, slotPts (F := F) c r f) := fun r => by
    unfold rsRecvPay
    iintro ⟨%fd, H⟩
    iexists _
    iexact H
  have h2 : (bigSep Finset.univ fun r : Fin 31 => rsRecvPay m c r) ⊢ bigSep Finset.univ fun r : Fin 31 => iprop(∃ f, slotPts (F := F) c r f) :=
    bigSep_mono fun r _ => h r
  exact h2.trans (rs_join c)

/-- The 31 shares the all-gather's send cells hand back and the remainder are the reduction buffer whole. -/
theorem red_whole (c : Dev nD) :
    iprop((bigSep Finset.univ fun r : Fin 31 => dmaPay m c (dsem 2 r)) ∗ (((c : Thread nD τ).loc cc0_scratch2) ↦{rst 31} redv m c))
      ⊢ (iprop(∃ f : Buf (Elt F) ((c : Thread nD τ).loc cc0_scratch2), ((c : Thread nD τ).loc cc0_scratch2) ↦{fullShare} f) : sProp 𝕄) := by
  have e : ∀ r : Fin 31, dmaPay m c (dsem 2 r) = (((c : Thread nD τ).loc cc0_scratch2) ↦{shr r.val} redv m c : sProp 𝕄) := fun r =>
    (dmaPay_agSend m c r).trans
      (congrArg (fun S => (((c : Thread nD τ).loc cc0_scratch2) ↦[S]{shr r.val} redv m c : sProp 𝕄)) (View.set_whole cc0_scratch2))
  simp only [e]
  have hs := shares_split (F := F) ((c : Thread nD τ).loc cc0_scratch2) (redv m c) 31 (Nat.le_refl 31)
  rw [belowK_end] at hs
  rw [← hs]
  iintro H
  iexists redv m c
  iexact H

/-- The 31 landed blocks and the device's own block are the result's staging buffer whole, holding the result. -/
theorem out_whole (c : Dev nD) :
    iprop((bigSep Finset.univ fun r : Fin 31 => dmaPay m c (dsem 3 r)) ∗ outPts c c (outv m))
      ⊢ (((c : Thread nD τ).loc cc0_stg1_0) ↦{fullShare} outv m : sProp 𝕄) := by
  have e : ∀ r : Fin 31, dmaPay m c (dsem 3 r) = agRecvPay m c r := fun r => dmaPay_agRecv m c r
  simp only [e]
  have h : ∀ r : Fin 31, (agRecvPay m c r : sProp 𝕄) ⊢ outPts c (srcd c r) (outv m) := fun r => by
    unfold agRecvPay
    iintro ⟨%fd, H⟩
    have ec : outPts (F := F) c (srcd c r) ((outSlice (srcd c r)).view.write (Elt F) fd
          ((redM : Memref sig .tc .vmem S16x512 .bf16).view.read (Elt F) (redv m (srcd c r))) Finset.univ)
        = outPts c (srcd c r) (outv m) := pointsTo_congr (out_block_val m (srcd c r) fd)
    iapply (Entails.of_eq ec)
    iexact H
  have h2 : (bigSep Finset.univ fun r : Fin 31 => agRecvPay m c r) ⊢ bigSep Finset.univ fun r : Fin 31 => outPts (F := F) c (srcd c r) (outv m) :=
    bigSep_mono fun r _ => h r
  rw [out_split c (outv m), bigSep_dev_srcd c (fun b : Dev nD => outPts (F := F) c b (outv m))]
  iintro ⟨H1, H2⟩
  isplitl [H2]
  · iexact H2
  · iapply h2; iexact H1

theorem final_regroup (K : Dev nD × CK → ℕ) (c : Dev nD) :
    iprop(records m K ∗ belowK 31 (waitOut m 0 c) ∗ belowK 31 (waitOut m 1 c) ∗ belowK 31 (waitOut m 2 c) ∗ belowK 31 (waitOut m 3 c)
        ∗ (((c : Thread nD τ).loc cc0_scratch0) ↦[outSet c]{fullShare} stagev m c)
        ∗ (((c : Thread nD τ).loc cc0_scratch2) ↦{rst 31} redv m c)
        ∗ outPts c c (outv m))
      ⊢ (|={Set.univ}=> iprop(Φ₁ (F := F) c ∗ (((c : Thread nD τ).loc cc0_stg1_0) ↦{fullShare} outv m)) : sProp 𝕄) := by
  rw [belowK_end (waitOut m 0 c), belowK_end (waitOut m 1 c), belowK_end (waitOut m 2 c), belowK_end (waitOut m 3 c)]
  unfold waitOut Φ₁ scr
  rw [bigSep_univ_prod (fun jr : Fin 4 × Fin 31 => (semVal (dmaCell c jr.1 jr.2) 0 : sProp 𝕄)), bigSep_fin4]
  simp only [bigSep_sep']
  iintro ⟨#HR, ⟨Ha0, Hy0⟩, ⟨Ha1, Hy1⟩, ⟨Ha2, Hy2⟩, ⟨Ha3, Hy3⟩, Hown, Hrst, Hblk⟩
  ihave Hst := (st_whole m c) $$ [Hy0 Hown]
  · isplitl [Hy0]; · iexact Hy0
    iexact Hown
  ihave Hrs := (rs_whole m c) $$ Hy1
  ihave Hrd := (red_whole m c) $$ [Hy2 Hrst]
  · isplitl [Hy2]; · iexact Hy2
    iexact Hrst
  ihave Hov := (out_whole m c) $$ [Hy3 Hblk]
  · isplitl [Hy3]; · iexact Hy3
    iexact Hblk
  imod (close_arr m K c 0) $$ [Ha0] with Hz0
  · isplitr; · iexact HR
    iexact Ha0
  imod (close_arr m K c 1) $$ [Ha1] with Hz1
  · isplitr; · iexact HR
    iexact Ha1
  imod (close_arr m K c 2) $$ [Ha2] with Hz2
  · isplitr; · iexact HR
    iexact Ha2
  imod (close_arr m K c 3) $$ [Ha3] with Hz3
  · isplitr; · iexact HR
    iexact Ha3
  imodintro
  isplitr [Hov]
  · isplitl [Hst Hrs Hrd]
    · isplitl [Hst]; · iexact Hst
      isplitl [Hrs]; · iexact Hrs
      iexact Hrd
    · isplitl [Hz0]; · iexact Hz0
      isplitl [Hz1]; · iexact Hz1
      isplitl [Hz2]; · iexact Hz2
      iexact Hz3
  · iexact Hov

end Cert.KernelIdeal.Hand

end

/-- info: 'Cert.KernelIdeal.Hand.init_regroup' depends on axioms: [propext, Classical.choice, Quot.sound] -/
#guard_msgs in #print axioms Cert.KernelIdeal.Hand.init_regroup
/-- info: 'Cert.KernelIdeal.Hand.final_regroup' depends on axioms: [propext, Classical.choice, Quot.sound] -/
#guard_msgs in #print axioms Cert.KernelIdeal.Hand.final_regroup
-- ==== Proof.Body.lean ====
/-
  The body of one device, from what the launch hands it to what it hands back: the 56 parts in order, the four waits of
  the tail, then the cells closed and the buffers made whole again.
-/
import proofs.«900471_g7700000000000472_dist_rs_then_ag_i_m512_n512_v7x_i32_bf16_1_alg».proof.Proof.PartsB
import proofs.«900471_g7700000000000472_dist_rs_then_ag_i_m512_n512_v7x_i32_bf16_1_alg».proof.Proof.PartsD
import proofs.«900471_g7700000000000472_dist_rs_then_ag_i_m512_n512_v7x_i32_bf16_1_alg».proof.Proof.PartsE
import proofs.«900471_g7700000000000472_dist_rs_then_ag_i_m512_n512_v7x_i32_bf16_1_alg».proof.Proof.PartsF
import proofs.«900471_g7700000000000472_dist_rs_then_ag_i_m512_n512_v7x_i32_bf16_1_alg».proof.Proof.PartsG
import proofs.«900471_g7700000000000472_dist_rs_then_ag_i_m512_n512_v7x_i32_bf16_1_alg».proof.Proof.PartsH
import proofs.«900471_g7700000000000472_dist_rs_then_ag_i_m512_n512_v7x_i32_bf16_1_alg».proof.Proof.Acc
import proofs.«900471_g7700000000000472_dist_rs_then_ag_i_m512_n512_v7x_i32_bf16_1_alg».proof.Proof.Mixed
import proofs.«900471_g7700000000000472_dist_rs_then_ag_i_m512_n512_v7x_i32_bf16_1_alg».proof.Proof.Ends

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)

theorem fetch_0 (t : Fin cfg0.N) : (cfg0.win (0 : Fin 2)).fetch t = true := fetch0_0 t

set_option maxHeartbeats 4000000 in
theorem sound_body : SoundBody m := by
  intro K c Kt
  simp only [cc0_body_eq_skeleton]; unfold cc0_body_skel
  simp only [k0_part57_eq_skeleton]; unfold k0_part57_skel
  simp only [Prog.lift, Prog.bind_op, Prog.bind_ret, Prog.pure_eq_ret]
  unfold bodyPre ghost
  iintro ⟨⟨⟨⟨#HR, Hpos, Htoks⟩, Hcreds, #Hlev, Hscr⟩, Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  ihave HO := (show owes (c : Thread nD τ) (O₀ c) W ⊢ owesX (F := F) c (OL (sigItems c 0 ++ (rsItems c 0 ++ agItems c 0))) from by
    unfold O₀ owesX; rw [List.append_assoc]; iintro H; iexists W; iexact H) $$ HO
  ihave Hinit := (init_regroup m c g1) $$ [Hpos Htoks Hcreds Hscr Hout]
  · isplitl [Hpos]; · iexact Hpos
    isplitl [Htoks]; · iexact Htoks
    isplitl [Hcreds]; · iexact Hcreds
    isplitl [Hscr]; · iexact Hscr
    iexact Hout
  icases Hinit with ⟨HS, Hst, Hred, Hcb, Hab, HT6, HT31, ⟨W1a, W1b⟩, ⟨W3a, W3b⟩, P0, P2, Hown⟩
  rw [wp_bind]
  rw [wp_bind]
  iapply (exec_part1 m K c  (rsItems c 0 ++ agItems c 0)) $$ [HO HS]
  · isplitr; · iexact HR
    isplitl [HO]; · iexact HO
    iexact HS
  iintro %w2 %w24 %w32 ⟨HO, HS⟩
  try dsimp only
  rw [wp_bind]
  iapply (exec_part2 m K c _ _ _ (rsItems c 0 ++ agItems c 0)) $$ [HO HS]
  · isplitr; · iexact HR
    isplitl [HO]; · iexact HO
    iexact HS
  iintro %a ⟨HO, HS⟩
  try dsimp only
  rw [wp_bind]
  iapply (exec_part3 m K c _ _ _ (rsItems c 0 ++ agItems c 0)) $$ [HO HS]
  · isplitr; · iexact HR
    isplitl [HO]; · iexact HO
    iexact HS
  iintro %a ⟨HO, HS⟩
  try dsimp only
  rw [wp_bind]
  iapply (exec_part4 m K c _ _ _ (rsItems c 0 ++ agItems c 0)) $$ [HO HS]
  · isplitr; · iexact HR
    isplitl [HO]; · iexact HO
    iexact HS
  iintro %a ⟨HO, HS⟩
  try dsimp only
  rw [wp_bind]
  iapply (exec_part5 m K c _ _ _ (rsItems c 0 ++ agItems c 0)) $$ [HO HS]
  · isplitr; · iexact HR
    isplitl [HO]; · iexact HO
    iexact HS
  iintro %a ⟨HO, HS⟩
  try dsimp only
  rw [wp_bind]
  iapply (exec_part6 m K c _ _ _ ) $$ [HO HS Hx Hst Hcb Hab HT6]
  · isplitr; · iexact HR
    isplitr; · iexact Hlev
    isplitl [HO]; · iexact HO
    isplitl [HS]; · iexact HS
    isplitl [Hx]; · iexact Hx
    isplitl [Hst]; · iexact Hst
    isplitl [Hcb]; · iexact Hcb
    isplitl [Hab]; · iexact Hab
    iexact HT6
  iintro %a ⟨HO, R1, R2, Hx, HownSt, Hab, Hpeers⟩
  try dsimp only
  rw [wp_bind]
  iapply (exec_part7 m K c _ _ _ (agItems c 0)) $$ [HO R1 R2]
  · isplitr; · iexact HR
    isplitl [HO]; · iexact HO
    isplitl [R1]; · iexact R1
    iexact R2
  iintro %a ⟨HO, R1, R2⟩
  try dsimp only
  rw [wp_bind]
  iapply (exec_part8 m K c _ (agItems c 0)) $$ [HO R1 R2]
  · isplitr; · iexact HR
    isplitl [HO]; · iexact HO
    isplitl [R1]; · iexact R1
    iexact R2
  iintro %a ⟨HO, R1, R2⟩
  try dsimp only
  rw [wp_bind]
  iapply (exec_part9 m K c _ _ _ (agItems c 0)) $$ [HO R1 R2]
  · isplitr; · iexact HR
    isplitl [HO]; · iexact HO
    isplitl [R1]; · iexact R1
    iexact R2
  iintro %a ⟨HO, R1, R2⟩
  try dsimp only
  rw [wp_bind]
  iapply (exec_part10 m K c _ (agItems c 0)) $$ [HO R1 R2]
  · isplitr; · iexact HR
    isplitl [HO]; · iexact HO
    isplitl [R1]; · iexact R1
    iexact R2
  iintro %a ⟨HO, R1, R2⟩
  try dsimp only
  rw [wp_bind]
  iapply (exec_part11 m K c _ _ _ (agItems c 0)) $$ [HO R1 R2]
  · isplitr; · iexact HR
    isplitl [HO]; · iexact HO
    isplitl [R1]; · iexact R1
    iexact R2
  iintro %a ⟨HO, R1, R2⟩
  try dsimp only
  rw [wp_bind]
  iapply (exec_part12 m K c _ (agItems c 0)) $$ [HO R1 R2]
  · isplitr; · iexact HR
    isplitl [HO]; · iexact HO
    isplitl [R1]; · iexact R1
    iexact R2
  iintro %a ⟨HO, R1, R2⟩
  try dsimp only
  rw [wp_bind]
  iapply (exec_part13 m K c _ _ _ (agItems c 0)) $$ [HO R1 R2]
  · isplitr; · iexact HR
    isplitl [HO]; · iexact HO
    isplitl [R1]; · iexact R1
    iexact R2
  iintro %a ⟨HO, R1, R2⟩
  try dsimp only
  rw [wp_bind]
  iapply (exec_part14 m K c _ (agItems c 0)) $$ [HO R1 R2]
  · isplitr; · iexact HR
    isplitl [HO]; · iexact HO
    isplitl [R1]; · iexact R1
    iexact R2
  iintro %a ⟨HO, R1, R2⟩
  try dsimp only
  rw [wp_bind]
  iapply (exec_part15 m K c _ _ _ (agItems c 0)) $$ [HO R1 R2]
  · isplitr; · iexact HR
    isplitl [HO]; · iexact HO
    isplitl [R1]; · iexact R1
    iexact R2
  iintro %a ⟨HO, R1, R2⟩
  try dsimp only
  rw [wp_bind]
  iapply (exec_part16 m K c _ (agItems c 0)) $$ [HO R1 R2]
  · isplitr; · iexact HR
    isplitl [HO]; · iexact HO
    isplitl [R1]; · iexact R1
    iexact R2
  iintro %a ⟨HO, R1, R2⟩
  try dsimp only
  rw [wp_bind]
  iapply (exec_part17 m K c _ _ _ (agItems c 0)) $$ [HO R1 R2]
  · isplitr; · iexact HR
    isplitl [HO]; · iexact HO
    isplitl [R1]; · iexact R1
    iexact R2
  iintro %a ⟨HO, R1, R2⟩
  try dsimp only
  rw [wp_bind]
  iapply (exec_part18 m K c _ (agItems c 0)) $$ [HO R1 R2 Hx]
  · isplitr; · iexact HR
    isplitl [HO]; · iexact HO
    isplitl [R1]; · iexact R1
    isplitl [R2]; · iexact R2
    iexact Hx
  iintro %w1 %w2 ⟨HO, R1, R2, Hx⟩
  try dsimp only
  ihave HO := (Entails.of_eq (show owesX (F := F) c (OL (rsItems c 31 ++ agItems c 0)) = owesX (F := F) c (OL (agItems c 0)) from by
    rw [rsItems_end, List.nil_append])) $$ HO
  rw [wp_bind]
  iapply (exec_part19 m K c _ _ _ _ ) $$ [HO W1a W1b]
  · isplitr; · iexact HR
    isplitr; · iexact Hlev
    isplitl [HO]; · iexact HO
    isplitl [W1a]; · iexact W1a
    iexact W1b
  iintro  ⟨HO, W1a, W1b⟩
  try dsimp only
  rw [wp_bind]
  iapply (exec_part20 m K c _ _ _ ) $$ [HO W1a W1b]
  · isplitr; · iexact HR
    isplitr; · iexact Hlev
    isplitl [HO]; · iexact HO
    isplitl [W1a]; · iexact W1a
    iexact W1b
  iintro %w ⟨HO, W1a, W1b⟩
  try dsimp only
  rw [wp_bind]
  iapply (exec_part21 m K c _ _ _ _ _ ) $$ [HO W1a W1b]
  · isplitr; · iexact HR
    isplitr; · iexact Hlev
    isplitl [HO]; · iexact HO
    isplitl [W1a]; · iexact W1a
    iexact W1b
  iintro  ⟨HO, W1a, W1b⟩
  try dsimp only
  rw [wp_bind]
  iapply (exec_part22 m K c _ _ _ _ ) $$ [HO W1a W1b]
  · isplitr; · iexact HR
    isplitr; · iexact Hlev
    isplitl [HO]; · iexact HO
    isplitl [W1a]; · iexact W1a
    iexact W1b
  iintro  ⟨HO, W1a, W1b⟩
  try dsimp only
  rw [wp_bind]
  iapply (exec_part23 m K c _ _ _ ) $$ [HO W1a W1b]
  · isplitr; · iexact HR
    isplitr; · iexact Hlev
    isplitl [HO]; · iexact HO
    isplitl [W1a]; · iexact W1a
    iexact W1b
  iintro  ⟨HO, W1a, W1b⟩
  try dsimp only
  rw [wp_bind]
  iapply (exec_part24 m K c _ _ _ _ ) $$ [HO W1a W1b]
  · isplitr; · iexact HR
    isplitr; · iexact Hlev
    isplitl [HO]; · iexact HO
    isplitl [W1a]; · iexact W1a
    iexact W1b
  iintro  ⟨HO, W1a, W1b⟩
  try dsimp only
  rw [wp_bind]
  iapply (exec_part25 m K c _ _ _ _ ) $$ [HO W1a W1b]
  · isplitr; · iexact HR
    isplitr; · iexact Hlev
    isplitl [HO]; · iexact HO
    isplitl [W1a]; · iexact W1a
    iexact W1b
  iintro %w ⟨HO, W1a, W1b⟩
  try dsimp only
  rw [wp_bind]
  iapply (exec_part26 m K c _ _ _ _ ) $$ [HO W1a W1b]
  · isplitr; · iexact HR
    isplitr; · iexact Hlev
    isplitl [HO]; · iexact HO
    isplitl [W1a]; · iexact W1a
    iexact W1b
  iintro  ⟨HO, W1a, W1b⟩
  try dsimp only
  rw [wp_bind]
  iapply (exec_part27 m K c _ _ _ _ ) $$ [HO W1a W1b]
  · isplitr; · iexact HR
    isplitr; · iexact Hlev
    isplitl [HO]; · iexact HO
    isplitl [W1a]; · iexact W1a
    iexact W1b
  iintro  ⟨HO, W1a, W1b⟩
  try dsimp only
  rw [wp_bind]
  iapply (exec_part28 m K c _ _ _ ) $$ [HO W1a W1b]
  · isplitr; · iexact HR
    isplitr; · iexact Hlev
    isplitl [HO]; · iexact HO
    isplitl [W1a]; · iexact W1a
    iexact W1b
  iintro  ⟨HO, W1a, W1b⟩
  try dsimp only
  rw [wp_bind]
  iapply (exec_part29 m K c _ _ _ _ ) $$ [HO W1a W1b]
  · isplitr; · iexact HR
    isplitr; · iexact Hlev
    isplitl [HO]; · iexact HO
    isplitl [W1a]; · iexact W1a
    iexact W1b
  iintro  ⟨HO, W1a, W1b⟩
  try dsimp only
  rw [wp_bind]
  iapply (exec_part30 m K c _ _ _ ) $$ [HO W1a W1b Hred]
  · isplitr; · iexact HR
    isplitr; · iexact Hlev
    isplitl [HO]; · iexact HO
    isplitl [W1a]; · iexact W1a
    isplitl [W1b]; · iexact W1b
    iexact Hred
  iintro  ⟨HO, W1a, W1b, Hred⟩
  try dsimp only
  ihave HO := (Entails.of_eq (show owesX (F := F) c (OL (agItems c 0)) = owesX (F := F) c (OL (agItems c 0 ++ [])) from by
    rw [List.append_nil])) $$ HO
  rw [wp_bind]
  iapply (exec_part31 m K c _) $$ [HO Hred Hown Hpeers HT31]
  · isplitr; · iexact HR
    isplitl [HO]; · iexact HO
    isplitl [Hred]; · iexact Hred
    isplitl [Hown]; · iexact Hown
    isplitl [Hpeers]; · iexact Hpeers
    iexact HT31
  iintro %a ⟨HO, A1, A2, HredRest, HownOut⟩
  try dsimp only
  rw [wp_bind]
  iapply (exec_part32 m K c _ ([] : List (GSem nD τ sig × ℕ))) $$ [HO A1 A2]
  · isplitr; · iexact HR
    isplitl [HO]; · iexact HO
    isplitl [A1]; · iexact A1
    iexact A2
  iintro %a ⟨HO, A1, A2⟩
  try dsimp only
  rw [wp_bind]
  iapply (exec_part33 m K c _ ([] : List (GSem nD τ sig × ℕ))) $$ [HO A1 A2]
  · isplitr; · iexact HR
    isplitl [HO]; · iexact HO
    isplitl [A1]; · iexact A1
    iexact A2
  iintro %a ⟨HO, A1, A2⟩
  try dsimp only
  rw [wp_bind]
  iapply (exec_part34 m K c _ ([] : List (GSem nD τ sig × ℕ))) $$ [HO A1 A2]
  · isplitr; · iexact HR
    isplitl [HO]; · iexact HO
    isplitl [A1]; · iexact A1
    iexact A2
  iintro %a ⟨HO, A1, A2⟩
  try dsimp only
  rw [wp_bind]
  iapply (exec_part35 m K c _ _ ([] : List (GSem nD τ sig × ℕ))) $$ [HO A1 A2]
  · isplitr; · iexact HR
    isplitl [HO]; · iexact HO
    isplitl [A1]; · iexact A1
    iexact A2
  iintro %a ⟨HO, A1, A2⟩
  try dsimp only
  rw [wp_bind]
  iapply (exec_part36 m K c _ _ _ ([] : List (GSem nD τ sig × ℕ))) $$ [HO A1 A2]
  · isplitr; · iexact HR
    isplitl [HO]; · iexact HO
    isplitl [A1]; · iexact A1
    iexact A2
  iintro %a ⟨HO, A1, A2⟩
  try dsimp only
  rw [wp_bind]
  iapply (exec_part37 m K c _ _ ([] : List (GSem nD τ sig × ℕ))) $$ [HO A1 A2]
  · isplitr; · iexact HR
    isplitl [HO]; · iexact HO
    isplitl [A1]; · iexact A1
    iexact A2
  iintro %a ⟨HO, A1, A2⟩
  try dsimp only
  rw [wp_bind]
  iapply (exec_part38 m K c _ _ _ ([] : List (GSem nD τ sig × ℕ))) $$ [HO A1 A2]
  · isplitr; · iexact HR
    isplitl [HO]; · iexact HO
    isplitl [A1]; · iexact A1
    iexact A2
  iintro %a ⟨HO, A1, A2⟩
  try dsimp only
  rw [wp_bind]
  iapply (exec_part39 m K c _ ([] : List (GSem nD τ sig × ℕ))) $$ [HO A1 A2]
  · isplitr; · iexact HR
    isplitl [HO]; · iexact HO
    isplitl [A1]; · iexact A1
    iexact A2
  iintro %a ⟨HO, A1, A2⟩
  try dsimp only
  rw [wp_bind]
  iapply (exec_part40 m K c _ ([] : List (GSem nD τ sig × ℕ))) $$ [HO A1 A2]
  · isplitr; · iexact HR
    isplitl [HO]; · iexact HO
    isplitl [A1]; · iexact A1
    iexact A2
  iintro %a ⟨HO, A1, A2⟩
  try dsimp only
  ihave HO := (Entails.of_eq (show owesX (F := F) c (OL (agItems c 31 ++ [])) = owesX (F := F) c (OL []) from by
    rw [agItems_end]; rfl)) $$ HO
  ihave R2 := (Entails.of_eq (show belowK 31 (rsOut (F := F) c) = bigSep Finset.univ (fun r : Fin 31 => (cred (tallyAt (dmaCell c 0 r) () N) : sProp 𝕄)) from by
    rw [belowK_end]; rfl)) $$ R2
  ihave W0 := (mk_waitIn m 0 c) $$ [R2 P0]
  · isplitl [R2]; · iexact R2
    iexact P0
  icases W0 with ⟨W0a, W0b⟩
  ihave A2 := (Entails.of_eq (show belowK 31 (agOut (F := F) c) = bigSep Finset.univ (fun r : Fin 31 => (cred (tallyAt (dmaCell c 2 r) () N) : sProp 𝕄)) from by
    rw [belowK_end]; rfl)) $$ A2
  ihave W2 := (mk_waitIn m 2 c) $$ [A2 P2]
  · isplitl [A2]; · iexact A2
    iexact P2
  icases W2 with ⟨W2a, W2b⟩
  rw [wp_bind]
  iapply (exec_part41 m K c  ) $$ [HO W0a W0b]
  · isplitr; · iexact HR
    isplitr; · iexact Hlev
    isplitl [HO]; · iexact HO
    isplitl [W0a]; · iexact W0a
    iexact W0b
  iintro %a ⟨HO, W0a, W0b⟩
  try dsimp only
  rw [wp_bind]
  iapply (exec_part42 m K c  ) $$ [HO W0a W0b]
  · isplitr; · iexact HR
    isplitr; · iexact Hlev
    isplitl [HO]; · iexact HO
    isplitl [W0a]; · iexact W0a
    iexact W0b
  iintro %a ⟨HO, W0a, W0b⟩
  try dsimp only
  rw [wp_bind]
  iapply (exec_part43 m K c  ) $$ [HO W0a W0b]
  · isplitr; · iexact HR
    isplitr; · iexact Hlev
    isplitl [HO]; · iexact HO
    isplitl [W0a]; · iexact W0a
    iexact W0b
  iintro %a ⟨HO, W0a, W0b⟩
  try dsimp only
  rw [wp_bind]
  iapply (exec_part44 m K c  ) $$ [HO W0a W0b]
  · isplitr; · iexact HR
    isplitr; · iexact Hlev
    isplitl [HO]; · iexact HO
    isplitl [W0a]; · iexact W0a
    iexact W0b
  iintro %a ⟨HO, W0a, W0b⟩
  try dsimp only
  rw [wp_bind]
  iapply (exec_part45 m K c  ) $$ [HO W0a W0b]
  · isplitr; · iexact HR
    isplitr; · iexact Hlev
    isplitl [HO]; · iexact HO
    isplitl [W0a]; · iexact W0a
    iexact W0b
  iintro %a ⟨HO, W0a, W0b⟩
  try dsimp only
  rw [wp_bind]
  iapply (exec_part46 m K c  ) $$ [HO W0a W0b]
  · isplitr; · iexact HR
    isplitr; · iexact Hlev
    isplitl [HO]; · iexact HO
    isplitl [W0a]; · iexact W0a
    iexact W0b
  iintro %a ⟨HO, W0a, W0b⟩
  try dsimp only
  rw [wp_bind]
  iapply (exec_part47 m K c _ _ ) $$ [HO W0a W0b W3a W3b]
  · isplitr; · iexact HR
    isplitr; · iexact Hlev
    isplitl [HO]; · iexact HO
    isplitl [W0a]; · iexact W0a
    isplitl [W0b]; · iexact W0b
    isplitl [W3a]; · iexact W3a
    iexact W3b
  iintro %a ⟨HO, W0a, W0b, W3a, W3b⟩
  try dsimp only
  rw [wp_bind]
  iapply (exec_part48 m K c _ _ _ _ _ ) $$ [HO W3a W3b]
  · isplitr; · iexact HR
    isplitr; · iexact Hlev
    isplitl [HO]; · iexact HO
    isplitl [W3a]; · iexact W3a
    iexact W3b
  iintro %a ⟨HO, W3a, W3b⟩
  try dsimp only
  rw [wp_bind]
  iapply (exec_part49 m K c _ _ _ _ _ _ ) $$ [HO W3a W3b]
  · isplitr; · iexact HR
    isplitr; · iexact Hlev
    isplitl [HO]; · iexact HO
    isplitl [W3a]; · iexact W3a
    iexact W3b
  iintro %a ⟨HO, W3a, W3b⟩
  try dsimp only
  rw [wp_bind]
  iapply (exec_part50 m K c _ _ _ _ _ ) $$ [HO W3a W3b]
  · isplitr; · iexact HR
    isplitr; · iexact Hlev
    isplitl [HO]; · iexact HO
    isplitl [W3a]; · iexact W3a
    iexact W3b
  iintro %a ⟨HO, W3a, W3b⟩
  try dsimp only
  rw [wp_bind]
  iapply (exec_part51 m K c _ _ _ _ _ _ ) $$ [HO W3a W3b]
  · isplitr; · iexact HR
    isplitr; · iexact Hlev
    isplitl [HO]; · iexact HO
    isplitl [W3a]; · iexact W3a
    iexact W3b
  iintro %a ⟨HO, W3a, W3b⟩
  try dsimp only
  rw [wp_bind]
  iapply (exec_part52 m K c _ _ _ _ _ _ _ ) $$ [HO W3a W3b]
  · isplitr; · iexact HR
    isplitr; · iexact Hlev
    isplitl [HO]; · iexact HO
    isplitl [W3a]; · iexact W3a
    iexact W3b
  iintro %a ⟨HO, W3a, W3b⟩
  try dsimp only
  rw [wp_bind]
  iapply (exec_part53 m K c _ _ ) $$ [HO W3a W3b W2a W2b]
  · isplitr; · iexact HR
    isplitr; · iexact Hlev
    isplitl [HO]; · iexact HO
    isplitl [W3a]; · iexact W3a
    isplitl [W3b]; · iexact W3b
    isplitl [W2a]; · iexact W2a
    iexact W2b
  iintro %a ⟨HO, W3a, W3b, W2a, W2b⟩
  try dsimp only
  rw [wp_bind]
  iapply (exec_part54 m K c  ) $$ [HO W2a W2b]
  · isplitr; · iexact HR
    isplitr; · iexact Hlev
    isplitl [HO]; · iexact HO
    isplitl [W2a]; · iexact W2a
    iexact W2b
  iintro %a ⟨HO, W2a, W2b⟩
  try dsimp only
  rw [wp_bind]
  iapply (exec_part55 m K c  ) $$ [HO W2a W2b]
  · isplitr; · iexact HR
    isplitr; · iexact Hlev
    isplitl [HO]; · iexact HO
    isplitl [W2a]; · iexact W2a
    iexact W2b
  iintro %a ⟨HO, W2a, W2b⟩
  try dsimp only
  rw [wp_bind]
  iapply (exec_part56 m K c  ) $$ [HO W2a W2b]
  · isplitr; · iexact HR
    isplitr; · iexact Hlev
    isplitl [HO]; · iexact HO
    isplitl [W2a]; · iexact W2a
    iexact W2b
  iintro %a ⟨HO, W2a, W2b⟩
  try dsimp only
  rw [wp_ret]; imodintro
  try dsimp only
  iapply (wait_step m K c 2 27 _ (mayWait_nil c _) (wpE_waitDma2_eq 𝒱₀ (c : Thread nD τ) none Set.univ) (credit_any _)) $$ [HO W2a W2b]
  · isplitr; · iexact HR
    isplitr; · iexact Hlev
    isplitl [HO]; · iexact HO
    isplitl [W2a]; · iexact W2a
    iexact W2b
  iintro ⟨HO, W2a, W2b⟩
  iapply (wait_step m K c 2 28 _ (mayWait_nil c _) (wpE_waitDma2_eq 𝒱₀ (c : Thread nD τ) none Set.univ) (credit_any _)) $$ [HO W2a W2b]
  · isplitr; · iexact HR
    isplitr; · iexact Hlev
    isplitl [HO]; · iexact HO
    isplitl [W2a]; · iexact W2a
    iexact W2b
  iintro ⟨HO, W2a, W2b⟩
  iapply (wait_step m K c 2 29 _ (mayWait_nil c _) (wpE_waitDma2_eq 𝒱₀ (c : Thread nD τ) none Set.univ) (credit_any _)) $$ [HO W2a W2b]
  · isplitr; · iexact HR
    isplitr; · iexact Hlev
    isplitl [HO]; · iexact HO
    isplitl [W2a]; · iexact W2a
    iexact W2b
  iintro ⟨HO, W2a, W2b⟩
  iapply (wait_step m K c 2 30 _ (mayWait_nil c _) (wpE_waitDma2_eq 𝒱₀ (c : Thread nD τ) none Set.univ) (credit_any _)) $$ [HO W2a W2b]
  · isplitr; · iexact HR
    isplitr; · iexact Hlev
    isplitl [HO]; · iexact HO
    isplitl [W2a]; · iexact W2a
    iexact W2b
  iintro ⟨HO, W2a, W2b⟩
  rw [wp_ret]
  imod (final_regroup m K c) $$ [W0b W1b W2b W3b HownSt HredRest HownOut] with ⟨HΦ, Hout⟩
  · isplitr; · iexact HR
    isplitl [W0b]; · iexact W0b
    isplitl [W1b]; · iexact W1b
    isplitl [W2b]; · iexact W2b
    isplitl [W3b]; · iexact W3b
    isplitl [HownSt]; · iexact HownSt
    isplitl [HredRest]; · iexact HredRest
    iexact HownOut
  imodintro
  iapply Hk
  unfold bodyPost Dat.owesAt Pipeline.owesWithin owesX
  rw [show (dats m 0 c).owed t₀.succ = 0 from rfl]
  isplitl [HΦ]; · iexact HΦ
  isplitl [HO]
  · icases HO with ⟨%W', HO⟩
    iexists W'
    isplitr; · ipureintro; exact fun _ _ => Or.inl trivial
    iexact HO
  isplitl [Hx]
  · iexists _; isplitr; · (ipureintro; rfl)
    iexact Hx
  iexists _; isplitr; · (ipureintro; rfl)
  iexact Hout

/-- info: 'Cert.KernelIdeal.Hand.sound_body' depends on axioms: [propext, Classical.choice, Quot.sound] -/
#guard_msgs in #print axioms sound_body

end Cert.KernelIdeal.Hand

end
-- ==== Proof.Launch.lean ====
/-
  The launch: from the proof of one device's body to the run of the whole mesh.

  All 32 devices start together from a memory whose counters are zero.  The ghost state of the protocol is minted
  once for the mesh: every cell's round state, position and reached-mark at its owner, and the duty tokens of each
  cell at its owner too.  Under one update the 125 cells of every device get their invariants, and the tokens are
  dealt again, each to the device that pays the duty: the barrier tokens along (c, r) ↦ (peer c r, rev r), the two
  receive tokens along (c, r) ↦ (peer c r, r).  What the devices owe one another at launch comes back as credit:
  31 barrier units and one block for each receive cell of either phase.
-/
import proofs.«900471_g7700000000000472_dist_rs_then_ag_i_m512_n512_v7x_i32_bf16_1_alg».proof.Proof.Data

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The body obligation from the body's proof -/

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
/-- What the one grid point starts from, as the pipeline hands it over. -/
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

set_option maxRecDepth 100000 in
/-- The pipeline's obligation on device `c`, from the body's proof. -/
theorem body_obligation (hsb : SoundBody m) (c : Dev nD) :
    BodyObligation (dats (F := F) m 0 c) (defs₀ (F := F)) 𝒱₀ () Set.univ := fun t => by
  rw [fin_N t]
  rw [Gen.bigSep_W0, Gen.bigSep_W0]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      (Memref.whole cc0_scratch2) (Memref.isWhole_whole _) cc0_scratch3 cc0_scratch4 cc0_scratch5 cc0_scratch6) (fun _ => bodyPost m c)
  unfold bodyPre' Φ₀ start
  iintro ⟨⟨⟨⟨%K, Hg⟩, Hrest⟩, Hscr⟩, Ho, Hx, Hout⟩
  iapply (hsb K c fun _ => bodyPost m c)
  unfold bodyPre
  isplitr []
  · isplitl [Hg Hrest Hscr]
    · isplitl [Hg]; · iexact Hg
      icases Hrest with ⟨H1, H2⟩
      isplitl [H1]; · iexact H1
      isplitl [H2]; · iexact H2
      iexact Hscr
    isplitl [Ho]; · iexact Ho
    isplitl [Hx] <;> iassumption
  · iintro H; iexact H

/-! ## The launch's layout facts -/

theorem ownSemFacts : Pipeline.OwnSemFacts cfg0.spec osem := by decide

theorem share_eq (c : Dev nD) (w : Fin cfg0.W) : (dats m 0 c).share w = fullShare := by unfold Dat.share; split <;> rfl

/-! ## The protocol's cells and the tokens minted with them -/

def protoCells : Finset (GSem nD τ sig) := Finset.univ.map ⟨kcell, kcell_injective⟩

/-- A device's minted duties: the 31 of its barrier cell, the one of each of its 124 transfer cells. -/
abbrev TK : Type := Fin 31 ⊕ (Fin 4 × Fin 31)
def tokOf : Dev nD × TK → GSem nD τ sig × ℕ × Fin 31
  | (c, .inl r) => (barCell c, 0, r)
  | (c, .inr (j, r)) => (dmaCell c j r, 0, 0)
theorem tokOf_injective : Function.Injective (tokOf : Dev nD × TK → GSem nD τ sig × ℕ × Fin 31) := by
  rintro ⟨c, k⟩ ⟨c', k'⟩ h
  have h1 : c = c' := by
    have := congrArg (fun x : GSem nD τ sig × ℕ × Fin 31 => x.1.1.1) h
    rcases k with r | ⟨j, r⟩ <;> rcases k' with r' | ⟨j', r'⟩ <;> exact this
  subst h1
  rcases k with r | ⟨j, r⟩ <;> rcases k' with r' | ⟨j', r'⟩
  · have h2 : r = r' := congrArg (fun x : GSem nD τ sig × ℕ × Fin 31 => x.2.2) h
    rw [h2]
  · exact absurd (congrArg (fun x : GSem nD τ sig × ℕ × Fin 31 => x.1.2) h) (fun h' => by cases h')
  · exact absurd (congrArg (fun x : GSem nD τ sig × ℕ × Fin 31 => x.1.2) h) (fun h' => by cases h')
  · have h2 : (SemLoc.dma (dsem j r) : SemLoc sig) = .dma (dsem j' r') := congrArg (fun x : GSem nD τ sig × ℕ × Fin 31 => x.1.2) h
    obtain ⟨rfl, rfl⟩ := dsem_inj _ _ _ _ (by injection h2)
    rfl
def protoToks : Finset (GSem nD τ sig × ℕ × Fin 31) := Finset.univ.map ⟨tokOf, tokOf_injective⟩

def u₀ : UU :=
  (initOf (Pipeline.cells cfgs cellOf_inj) (Pipeline.launchToks cfgs cellOf_inj), initOf protoCells protoToks)

/-- The duty tokens of device `c`'s own cells. -/
def toks (c : Dev nD) : sProp 𝕄 :=
  iprop((bigSep Finset.univ fun r : Fin 31 => dutyTok ER (barCell c) 0 r)
    ∗ bigSep Finset.univ fun jr : Fin 4 × Fin 31 => dutyTok ER (dmaCell c jr.1 jr.2) 0 0)

/-- What the launch element deals device `c`. -/
def G (c : Dev nD) : sProp 𝕄 :=
  iprop((bigSep Finset.univ fun k : CK => roundState ER (sched m) (kcell (c, k)) 0)
    ∗ (bigSep Finset.univ fun k : CK => iprop(atPos ER (kcell (c, k)) 0 ∅ 0 ∗ reached ER (kcell (c, k)) 0)) ∗ toks (F := F) c)

/-- What the global step makes of it. -/
def G' (c : Dev nD) : sProp 𝕄 := iprop(∃ K, ghost m K c)

theorem fund_proto : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun k : CK => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by unfold toks; rw [bigSep_univ_sum]; rfl
  iintro HX
  imod (Rounds.fund ER (sched m) protoCells protoToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The 125 cells of a device: their counters at launch, their invariants allocated -/

theorem erase_none {α : Type} [Fintype α] [DecidableEq α] :
    (Finset.univ : Finset (Option α)).erase none = Finset.univ.map Function.Embedding.some := by
  ext x; cases x <;> simp

/-- Over an optional index: the summand at `none`, and those at `some a`. -/
theorem bigSep_univ_option {α : Type} [Fintype α] [DecidableEq α] (Φ : Option α → sProp 𝕄) :
    bigSep Finset.univ Φ = iprop(Φ none ∗ bigSep Finset.univ fun a : α => Φ (some a)) := by
  rw [bigSep_univ_at Φ none, erase_none, bigSep_map]; rfl

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The kernel's own 124 semaphores are the transfer cells; -/
theorem ownSems0_eq (c : Dev nD) : (Pipeline.ownSems0 (Ix := Unit) (Name := ℕ) (U := UU) (Lvl := ℕ) (Val := Elt F) (τ := τ) osem c : sProp 𝕄)
    = bigSep Finset.univ fun jr : Fin 4 × Fin 31 => semVal (dmaCell c jr.1 jr.2) 0 := rfl
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, bigSep_univ_option]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (sched m) κ (kcell (c, k))))
          ∗ (bigSep Finset.univ fun k : CK => iprop(atPos ER (kcell (c, k)) 0 ∅ 0 ∗ reached ER (kcell (c, k)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (sched m) (kcell (c, k)) 0)
      ⊢ (|={Set.univ}=> bigSep Finset.univ fun k : CK => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt again, each to the device that pays the duty -/

/-- (c, r) ↦ (peer c r, rev r): the barrier duty `rev r` of `peer c r` is the one `c` pays; its own inverse. -/
def eBar : Dev nD × Fin 31 ≃ Dev nD × Fin 31 where
  toFun p := (peer p.1 p.2, rev p.2)
  invFun p := (peer p.1 p.2, rev p.2)
  left_inv p := by
    obtain ⟨c, r⟩ := p
    show (peer (peer c r) (rev r), rev (rev r)) = (c, r)
    rw [peer_peer_rev, rev_rev]
  right_inv p := by
    obtain ⟨c, r⟩ := p
    show (peer (peer c r) (rev r), rev (rev r)) = (c, r)
    rw [peer_peer_rev, rev_rev]
/-- (c, r) ↦ (peer c r, r): the receive duty of slot `r` on `peer c r` is the one `c`'s copy pays. -/
def eRecv : Dev nD × Fin 31 ≃ Dev nD × Fin 31 where
  toFun p := (peer p.1 p.2, p.2)
  invFun p := (srcd p.1 p.2, p.2)
  left_inv p := by
    obtain ⟨c, r⟩ := p
    show (srcd (peer c r) r, r) = (c, r)
    rw [srcd_peer]
  right_inv p := by
    obtain ⟨c, r⟩ := p
    show (peer (srcd c r) r, r) = (c, r)
    rw [peer_srcd]

theorem bigSep_around (e : Dev nD × Fin 31 ≃ Dev nD × Fin 31) (Φ : Dev nD × Fin 31 → sProp 𝕄) :
    (bigSep Finset.univ fun c : Dev nD => bigSep Finset.univ fun r : Fin 31 => Φ (c, r))
      = bigSep Finset.univ fun c : Dev nD => bigSep Finset.univ fun r : Fin 31 => Φ (e (c, r)) :=
  (bigSep_univ_prod Φ).symm.trans ((bigSep_univ_equiv e Φ).trans (bigSep_univ_prod fun p => Φ (e p)))

theorem toks_around : (bigSep Finset.univ fun c : Dev nD => (toks c : sProp 𝕄)) ⊢ bigSep Finset.univ fun c : Dev nD => payToks c := by
  have hd (c : Dev nD) : (bigSep Finset.univ fun jr : Fin 4 × Fin 31 => (dutyTok ER (dmaCell c jr.1 jr.2) 0 0 : sProp 𝕄))
      = iprop((bigSep Finset.univ fun r : Fin 31 => dutyTok ER (rsSendCell c r) 0 0) ∗ (bigSep Finset.univ fun r : Fin 31 => dutyTok ER (rsRecvCell c r) 0 0)
          ∗ (bigSep Finset.univ fun r : Fin 31 => dutyTok ER (agSendCell c r) 0 0) ∗ (bigSep Finset.univ fun r : Fin 31 => dutyTok ER (agRecvCell c r) 0 0)) := by
    rw [bigSep_univ_prod, bigSep_fin4]; rfl
  have e1 : (bigSep Finset.univ fun c : Dev nD => bigSep Finset.univ fun r : Fin 31 => (dutyTok ER (barCell c) 0 r : sProp 𝕄))
      = bigSep Finset.univ fun c : Dev nD => bigSep Finset.univ fun r : Fin 31 => dutyTok ER (barCell (peer c r)) 0 (rev r) :=
    bigSep_around eBar (fun p => (dutyTok ER (barCell p.1) 0 p.2 : sProp 𝕄))
  have e2 : (bigSep Finset.univ fun c : Dev nD => bigSep Finset.univ fun r : Fin 31 => (dutyTok ER (rsRecvCell c r) 0 0 : sProp 𝕄))
      = bigSep Finset.univ fun c : Dev nD => bigSep Finset.univ fun r : Fin 31 => dutyTok ER (rsRecvCell (peer c r) r) 0 0 :=
    bigSep_around eRecv (fun p => (dutyTok ER (rsRecvCell p.1 p.2) 0 0 : sProp 𝕄))
  have e3 : (bigSep Finset.univ fun c : Dev nD => bigSep Finset.univ fun r : Fin 31 => (dutyTok ER (agRecvCell c r) 0 0 : sProp 𝕄))
      = bigSep Finset.univ fun c : Dev nD => bigSep Finset.univ fun r : Fin 31 => dutyTok ER (agRecvCell (peer c r) r) 0 0 :=
    bigSep_around eRecv (fun p => (dutyTok ER (agRecvCell p.1 p.2) 0 0 : sProp 𝕄))
  unfold toks payToks payTok
  simp only [hd, bigSep_sep']
  rw [e1, e2, e3]
  iintro ⟨H1, H0, H2, H3, H4⟩
  isplitl [H1]; · iexact H1
  isplitl [H2]; · iexact H2
  isplitl [H4]; · iexact H4
  isplitl [H0]; · iexact H0
  iexact H3

theorem ghost_intro (K : Dev nD × CK → ℕ) (c : Dev nD) : iprop(records m K ∗ positions (F := F) c ∗ payToks (F := F) c) ⊢ G' m c := by
  unfold G' ghost
  iintro H
  iexists K
  iexact H

theorem regroup :
    (bigSep Finset.univ fun c : Dev nD => iprop((bigSep Finset.univ fun k : CK => iprop(∃ κ : ℕ, cellInv ER (sched m) κ (kcell (c, k))))
          ∗ (bigSep Finset.univ fun k : CK => iprop(atPos ER (kcell (c, k)) 0 ∅ 0 ∗ reached ER (kcell (c, k)) 0)) ∗ toks (F := F) c) : sProp 𝕄)
      ⊢ bigSep Finset.univ (G' m) := by
  rw [bigSep_sep', bigSep_sep', ← bigSep_univ_prod (fun ck : Dev nD × CK => iprop(∃ κ : ℕ, cellInv ER (sched m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (bigSep_sep' Finset.univ (fun c : Dev nD => (positions (F := F) c : sProp 𝕄)) (fun c : Dev nD => payToks (F := F) c)).symm)
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit: what the devices owe a cell, summed over the devices -/

/-- A list of dues read at a cell: the sum of the entries on that cell. -/
theorem OL_apply (l : List (GSem nD τ sig × ℕ)) (g : GSem nD τ sig) :
    OL l g () = (l.map fun p => if g = p.1 then p.2 else 0).sum := by
  induction l with
  | nil => rfl
  | cons p l ih =>
    rw [OL_cons, Pi.add_apply, Finsupp.add_apply, tallyAt_apply, ih, List.map_cons, List.sum_cons, Nat.add_comm]
    congr 1
    by_cases h : g = p.1
    · rw [if_pos h, if_pos ⟨h, rfl⟩]
    · rw [if_neg h, if_neg fun h' => h h'.1]

/-- What device `d` owes a cell at launch: a unit if it is the barrier cell of one of its peers, a block if it is the
    receive cell, of either phase, that one of its copies lands on. -/
theorem O₀_apply (d : Dev nD) (g : GSem nD τ sig) : O₀ d g () =
    (∑ r : Fin 31, if g = barCell (peer d r) then 1 else 0) + (∑ r : Fin 31, if g = rsRecvCell (peer d r) r then N else 0)
      + (∑ r : Fin 31, if g = agRecvCell (peer d r) r then N else 0) := by
  unfold O₀ sigItems rsItems agItems
  rw [OL_apply, List.drop_zero, List.map_append, List.map_append, List.sum_append, List.sum_append, List.map_map, List.map_map, List.map_map,
    Fin.sum_univ_def, Fin.sum_univ_def, Fin.sum_univ_def]
  rfl

theorem kcell_eq_iff (a b : Dev nD × CK) : kcell a = kcell b ↔ a = b := kcell_injective.eq_iff

theorem bar_ne_rsRecv (c e : Dev nD) (r : Fin 31) : barCell c ≠ rsRecvCell e r := fun h => dma_ne_bar _ (congrArg Prod.snd h).symm
theorem bar_ne_agRecv (c e : Dev nD) (r : Fin 31) : barCell c ≠ agRecvCell e r := fun h => dma_ne_bar _ (congrArg Prod.snd h).symm
theorem rsRecv_ne_agRecv' (c e : Dev nD) (r r' : Fin 31) : rsRecvCell c r ≠ agRecvCell e r' := fun h =>
  rsRecv_ne_agRecv r r' (by have h2 := congrArg Prod.snd h; injection h2)
theorem bar_eq_iff {a b : Dev nD} : barCell a = barCell b ↔ a = b :=
  ⟨fun h => Fin.ext (congrArg (fun g : GSem nD τ sig => g.1.1.val) h), fun h => h ▸ rfl⟩
theorem rsRecv_eq_iff {a b : Dev nD} {r r' : Fin 31} : rsRecvCell a r = rsRecvCell b r' ↔ a = b ∧ r = r' :=
  ⟨fun h => ⟨Fin.ext (congrArg (fun g : GSem nD τ sig => g.1.1.val) h),
      (dsem_inj 1 1 r r' (by have h2 := congrArg Prod.snd h; injection h2)).2⟩, fun ⟨h1, h2⟩ => h1 ▸ h2 ▸ rfl⟩
theorem agRecv_eq_iff {a b : Dev nD} {r r' : Fin 31} : agRecvCell a r = agRecvCell b r' ↔ a = b ∧ r = r' :=
  ⟨fun h => ⟨Fin.ext (congrArg (fun g : GSem nD τ sig => g.1.1.val) h),
      (dsem_inj 3 3 r r' (by have h2 := congrArg Prod.snd h; injection h2)).2⟩, fun ⟨h1, h2⟩ => h1 ▸ h2 ▸ rfl⟩

/-- Over all devices and slots, `c` is a peer exactly 31 times: once for every other device. -/
theorem count_peer : ∀ c : Dev nD, (∑ d : Dev nD, ∑ r : Fin 31, if c = peer d r then 1 else 0) = 31 := by decide +kernel

theorem owed_bar (d c : Dev nD) : O₀ d (barCell c) () = ∑ r : Fin 31, if c = peer d r then 1 else 0 := by
  rw [O₀_apply, Finset.sum_eq_zero (s := Finset.univ) (f := fun r : Fin 31 => if barCell c = rsRecvCell (peer d r) r then N else 0)
      (fun r _ => if_neg (bar_ne_rsRecv _ _ _)),
    Finset.sum_eq_zero (s := Finset.univ) (f := fun r : Fin 31 => if barCell c = agRecvCell (peer d r) r then N else 0)
      (fun r _ => if_neg (bar_ne_agRecv _ _ _)), Nat.add_zero, Nat.add_zero]
  exact Finset.sum_congr rfl fun r _ => by simp only [bar_eq_iff]

theorem owed_rsRecv (d c : Dev nD) (r₀ : Fin 31) : O₀ d (rsRecvCell c r₀) () = if d = srcd c r₀ then N else 0 := by
  rw [O₀_apply, Finset.sum_eq_zero (s := Finset.univ) (f := fun r : Fin 31 => if rsRecvCell c r₀ = barCell (peer d r) then 1 else 0)
      (fun r _ => if_neg fun h => bar_ne_rsRecv _ _ _ h.symm),
    Finset.sum_eq_zero (s := Finset.univ) (f := fun r : Fin 31 => if rsRecvCell c r₀ = agRecvCell (peer d r) r then N else 0)
      (fun r _ => if_neg (rsRecv_ne_agRecv' _ _ _ _)), Nat.zero_add, Nat.add_zero,
    Finset.sum_eq_single r₀ (fun r _ hr => if_neg fun h => hr (rsRecv_eq_iff.mp h).2.symm) (fun h => absurd (Finset.mem_univ _) h)]
  by_cases h : d = srcd c r₀
  · subst h; rw [peer_srcd, if_pos rfl, if_pos rfl]
  · rw [if_neg h, if_neg fun h' => h (by rw [(rsRecv_eq_iff.mp h').1, srcd_peer])]

theorem owed_agRecv (d c : Dev nD) (r₀ : Fin 31) : O₀ d (agRecvCell c r₀) () = if d = srcd c r₀ then N else 0 := by
  rw [O₀_apply, Finset.sum_eq_zero (s := Finset.univ) (f := fun r : Fin 31 => if agRecvCell c r₀ = barCell (peer d r) then 1 else 0)
      (fun r _ => if_neg fun h => bar_ne_agRecv _ _ _ h.symm),
    Finset.sum_eq_zero (s := Finset.univ) (f := fun r : Fin 31 => if agRecvCell c r₀ = rsRecvCell (peer d r) r then N else 0)
      (fun r _ => if_neg fun h => rsRecv_ne_agRecv' _ _ _ _ h.symm), Nat.zero_add, Nat.zero_add,
    Finset.sum_eq_single r₀ (fun r _ hr => if_neg fun h => hr (agRecv_eq_iff.mp h).2.symm) (fun h => absurd (Finset.mem_univ _) h)]
  by_cases h : d = srcd c r₀
  · subst h; rw [peer_srcd, if_pos rfl, if_pos rfl]
  · rw [if_neg h, if_neg fun h' => h (by rw [(agRecv_eq_iff.mp h').1, srcd_peer])]

theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar d c, count_peer]

theorem launch_rsRecv (c : Dev nD) (r : Fin 31) :
    tallyOn (rsRecvCell c r) (launchCredit (Pipeline.owing O₀) 0 (rsRecvCell c r)) = (tallyAt (rsRecvCell c r) () N : CellTallies nD τ sig Unit) := by
  unfold tallyAt; refine congrArg _ (Finsupp.ext fun u => ?_); cases u
  rw [Pipeline.launchCredit_owing, Finsupp.single_eq_same, Finset.sum_congr rfl fun d _ => owed_rsRecv d c r,
    Finset.sum_ite_eq' Finset.univ (srcd c r) fun _ => N, if_pos (Finset.mem_univ _)]

theorem launch_agRecv (c : Dev nD) (r : Fin 31) :
    tallyOn (agRecvCell c r) (launchCredit (Pipeline.owing O₀) 0 (agRecvCell c r)) = (tallyAt (agRecvCell c r) () N : CellTallies nD τ sig Unit) := by
  unfold tallyAt; refine congrArg _ (Finsupp.ext fun u => ?_); cases u
  rw [Pipeline.launchCredit_owing, Finsupp.single_eq_same, Finset.sum_congr rfl fun d _ => owed_agRecv d c r,
    Finset.sum_ite_eq' Finset.univ (srcd c r) fun _ => N, if_pos (Finset.mem_univ _)]

/-- The launch's credit for device `c`'s cells, read at the 63 cells the others pay on. -/
theorem creds_intro (c : Dev nD) : (Pipeline.launchCred O₀ c : sProp 𝕄) ⊢ creds (F := F) c := by
  have hmap : (bigSep (Finset.univ.map ⟨csem, csem_inj⟩) fun sm : SemLoc sig =>
        (cred (tallyOn ((c : Thread nD τ), sm) (launchCredit (Pipeline.owing O₀) 0 ((c : Thread nD τ), sm))) : sProp 𝕄))
      = bigSep Finset.univ fun k : CK => cred (tallyOn (kcell (c, k)) (launchCredit (Pipeline.owing O₀) 0 (kcell (c, k)))) := by
    rw [bigSep_map]; rfl
  have hsub : (Pipeline.launchCred O₀ c : sProp 𝕄)
      ⊢ bigSep Finset.univ fun k : CK => cred (tallyOn (kcell (c, k)) (launchCredit (Pipeline.owing O₀) 0 (kcell (c, k)))) := by
    unfold Pipeline.launchCred
    rw [← hmap]
    exact bigSep_subset (Finset.subset_univ _)
  refine hsub.trans ?_
  rw [bigSep_univ_option, bigSep_univ_prod, bigSep_fin4]
  unfold creds
  iintro ⟨HB, -, H1, -, H3⟩
  isplitl [HB]
  · iapply (Entails.of_eq (congrArg cred (launch_bar c))); iexact HB
  · rw [bigSep_sep']
    isplitl [H1]
    · iapply (Entails.of_eq (bigSep_congr (s := Finset.univ) fun r _ => congrArg cred (launch_rsRecv c r))); iexact H1
    · iapply (Entails.of_eq (bigSep_congr (s := Finset.univ) fun r _ => congrArg cred (launch_agRecv c r))); iexact H3

/-! ## The launch theorem's side conditions -/

theorem O₀_cells {c : Dev nD} {g : GSem nD τ sig} {u : Unit} (h : 0 < O₀ c g u) :
    (∃ e, g = barCell e) ∨ (∃ e r, g = rsRecvCell e r) ∨ (∃ e r, g = agRecvCell e r) := by
  unfold O₀ sigItems rsItems agItems at h
  obtain ⟨p, hp, rfl⟩ := OL_pos h
  rcases List.mem_append.mp hp with hp | hp
  · rcases List.mem_append.mp hp with hp | hp
    · obtain ⟨r, -, rfl⟩ := List.mem_map.mp hp; exact .inl ⟨_, rfl⟩
    · obtain ⟨r, -, rfl⟩ := List.mem_map.mp hp; exact .inr (.inl ⟨_, _, rfl⟩)
  · obtain ⟨r, -, rfl⟩ := List.mem_map.mp hp; exact .inr (.inr ⟨_, _, rfl⟩)

/-- A staging semaphore sits at level 0, below everything a device owes at launch. -/
theorem mayWait_stage (c : Dev nD) (q : DmaSem sig) (hq1 : ∀ r : Fin 31, q ≠ rsRecvS r) (hq2 : ∀ r : Fin 31, q ≠ agRecvS r)
    (O : CellTallies nD τ sig Unit) (hO : O = O₀ c ∨ O = 0) :
    (levAts L lv : sProp 𝕄) ⊢ MayWait (c : Thread nD τ) (.dma q) () O := by
  have hlv : lv ((c : Thread nD τ), .dma q) () = 0 := by
    unfold lv
    rw [if_neg (dma_ne_bar _), if_neg (fun ⟨r, h⟩ => hq1 r (by injection h)), if_neg (fun ⟨r, h⟩ => hq2 r (by injection h))]
  rcases hO with rfl | rfl
  · refine MayOwe.of_cut (L := L) (lev := lv) 0 (fun p hp => by rw [Finset.mem_singleton.mp hp, L_tc]; exact Finset.mem_singleton_self _)
      (fun g u hg => ?_) (fun p hp => by rw [Finset.mem_singleton.mp hp]; exact le_of_eq hlv) (fun g u hg => ?_)
    · rcases O₀_cells hg with ⟨e, rfl⟩ | ⟨e, r, rfl⟩ | ⟨e, r, rfl⟩ <;> (rw [L_tc]; exact Finset.mem_singleton_self _)
    · rcases O₀_cells hg with ⟨e, rfl⟩ | ⟨e, r, rfl⟩ | ⟨e, r, rfl⟩
      · rw [lv_bar]; decide
      · rw [lv_rsRecv]; decide
      · rw [lv_agRecv]; decide
  · rw [MayWait_zero]; iintro -; iempintro

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) (by fin_cases w <;> fin_cases s <;> decide) _ (by
      rcases t with ⟨_ | _, ht⟩
      · exact Or.inl rfl
      · exact Or.inr rfl)

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scr
  iintro ⟨Hs, -, Hr⟩
  isplitl [Hs]; · iexact Hs
  iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ (F := F) c from rfl, scopedRest0_eq, ownSems0_eq]
  unfold Φ₁ scr
  iintro ⟨Hr, Hz⟩
  isplitr; · iempintro
  isplitl [Hz]; · iexact Hz
  iexact Hr

/-! ## The run -/

def QC {F : FTy → Type} [FloatOps F] (m : (ℓ : Loc nD τ sig) → Buf (Elt F) ℓ) : PUnit × MemSt nD τ sig (Elt F) → Prop := fun r =>
  ∀ c : Dev nD, ∀ w : Fin cfg0.W, r.2.mem ((cfg0.win w).arr.view.loc (c : Thread nD τ)) = (dats m 0 c).arrAt w cfg0.N

set_option maxRecDepth 100000 in
/-- At the compiled mesh of 32 devices, for any float values, from any memory with zero counters, given the body's proof:
    every weakly fair execution of @main — the 32 kernels meeting on the barrier semaphore, scattering their blocks,
    reducing, gathering the reduced blocks — terminates, and in every final state each device's two arrays hold the
    contents the proof data names. -/
theorem run_main {F : FTy → Type} [FloatOps F] (m : (ℓ : Loc nD τ sig) → Buf (Elt F) ℓ) (hsb : SoundBody m) (ρ : Dev nD → PrngReg) :
    θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m hsb) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_proto m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-! ## The final arrays read back -/

/-- The argument array is never written back: it holds what it held. -/
theorem final_arg {F : FTy → Type} [FloatOps F] (m : (ℓ : Loc nD τ sig) → Buf (Elt F) ℓ) (c : Dev nD) : (dats m 0 c).arrAt (0 : Fin 2) cfg0.N = m ((c : Thread nD τ).loc main_arg0) :=
  (dats (F := F) m 0 c).arrAt_in (0 : Fin 2) rfl _

/-- The result array after the one point: its one block is the whole array, written back from the staging buffer,
    so it holds `outv m`, read as a buffer of that array's location. -/
theorem final_out {F : FTy → Type} [FloatOps F] (m : (ℓ : Loc nD τ sig) → Buf (Elt F) ℓ) (c : Dev nD) :
    (dats m 0 c).arrAt (1 : Fin 2) cfg0.N = (outv m : Buf (Elt F) ((c : Thread nD τ).loc main_v1)) := by
  have h1 : (dats m 0 c).arrAt (1 : Fin 2) cfg0.N = (dats m 0 c).arrAt (1 : Fin 2) ((t₀ : Fin cfg0.N).val + 1) := rfl
  rw [h1, Dat.arrAt_succ, if_pos (flush0_1 t₀)]
  have hr : ∀ f : Buf (Elt F) ((c : Thread nD τ).loc main_v1), ((cfg0.win 1).blk t₀).view.read (Elt F) f = f := fun f =>
    Memref.read_access_unit_zero (Elt F) main_v1 (funext fun a => Nat.zero_mul _) _ f
  exact (hr _).symm.trans (View.read_write_univ _ _)

/-- The run's post read at the two arrays: the argument unchanged, the result at `outv m`. -/
theorem QC_read {F : FTy → Type} [FloatOps F] (m : (ℓ : Loc nD τ sig) → Buf (Elt F) ℓ) {r : PUnit × MemSt nD τ sig (Elt F)} (h : QC m r) (c : Dev nD) :
    r.2.mem ((c : Thread nD τ).loc main_arg0) = m ((c : Thread nD τ).loc main_arg0)
      ∧ r.2.mem ((c : Thread nD τ).loc main_v1) = (outv m : Buf (Elt F) ((c : Thread nD τ).loc main_v1)) :=
  ⟨(h c (0 : Fin 2)).trans (final_arg m c), (h c (1 : Fin 2)).trans (final_out m c)⟩

/-- The run, with its post read at the two arrays. -/
theorem run_main_read {F : FTy → Type} [FloatOps F] (m : (ℓ : Loc nD τ sig) → Buf (Elt F) ℓ) (hsb : SoundBody m) (ρ : Dev nD → PrngReg) :
    θ_run defs (onTc (τ := τ) (main (F := F))) ⟨m, fun _ => 0, ρ⟩ (fun r => ∀ c : Dev nD,
      r.2.mem ((c : Thread nD τ).loc main_arg0) = m ((c : Thread nD τ).loc main_arg0)
        ∧ r.2.mem ((c : Thread nD τ).loc main_v1) = (outv m : Buf (Elt F) ((c : Thread nD τ).loc main_v1))) :=
  (θ_run defs _ _).mono (fun _ h c => QC_read m h c) (run_main m hsb ρ)

/-- info: 'Cert.KernelIdeal.Hand.run_main' depends on axioms: [propext, Classical.choice, Quot.sound] -/
#guard_msgs in #print axioms run_main

/-- info: 'Cert.KernelIdeal.Hand.run_main_read' depends on axioms: [propext, Classical.choice, Quot.sound] -/
#guard_msgs in #print axioms run_main_read

end Cert.KernelIdeal.Hand

end
-- ==== Proof.Value.lean ====
/-
  The value bridge at the ideal instance: what every device's result staging buffer holds after the body is the
  reference's result of the whole array.

  The reference sums the whole array `X : f32[16384, 512]` over its 32 row blocks: its result at `(p, q)` is
  `Σ_{s < 32} X[512 s + p, q]` (the final narrowing is the identity on the extended reals, the initial value is zero).
  Device `s` holds block `s` of `X`, so its argument at `(p, q)` is `X[512 s + p, q]`.  On every device the result
  buffer's row `16 b + k` is row `k` of device `b`'s reduced block, which is that device's own row `16 b + k` plus, for
  each slot `r`, what `srcd b r` sent with slot `r`: rows `16 * peer (srcd b r) r = 16 b` onwards of ITS staging copy,
  whose values are its argument's.  The 31 devices `srcd b r` are exactly the devices other than `b`, so the
  accumulated row is the sum over all 32 devices of their arguments' row `16 b + k`; addition on the extended reals
  is commutative and associative, so the order of accumulation does not matter.
-/
import proofs.«900471_g7700000000000472_dist_rs_then_ag_i_m512_n512_v7x_i32_bf16_1_alg».proof.Proof.Data
import proofs.«900471_g7700000000000472_dist_rs_then_ag_i_m512_n512_v7x_i32_bf16_1_alg».proof.Proof.Gen.ReferenceIdeal.Read
import Idealize.ShloMosaic.Lib.Pipeline.Value
import Idealize.ShloMosaic.Lib.ValueIdx
import Idealize.ShloMosaic.Lib.ValueLayout

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.ValueIdx

/-! ## Arithmetic: a left-nested sum of 31 terms, and a sum over the ring split at one device -/

theorem add_sum31 {M : Type} [AddCommMonoid M] (a : M) (g : Fin 31 → M) :
    a + g 0 + g 1 + g 2 + g 3 + g 4 + g 5 + g 6 + g 7 + g 8 + g 9 + g 10 + g 11 + g 12 + g 13 + g 14 + g 15 + g 16 + g 17 + g 18 + g 19 + g 20 + g 21 + g 22 + g 23 + g 24 + g 25 + g 26 + g 27 + g 28 + g 29 + g 30 = a + ∑ r : Fin 31, g r := by
  simp only [Fin.sum_univ_castSucc, Fin.sum_univ_zero, zero_add, add_assoc]
  rfl

theorem exists_srcd : ∀ (c e : Dev nD), e ≠ c → ∃ r : Fin 31, srcd c r = e := by decide +kernel

theorem sum_ring {M : Type} [AddCommMonoid M] (b : Dev nD) (f : Dev nD → M) :
    f b + ∑ r : Fin 31, f (srcd b r) = ∑ s : Dev nD, f s := by
  have himg : (Finset.univ : Finset (Fin 31)).image (srcd b) = Finset.univ.erase b := by
    ext e
    simp only [Finset.mem_image, Finset.mem_univ, true_and, Finset.mem_erase, and_true]
    constructor
    · rintro ⟨r, rfl⟩; exact srcd_ne b r
    · exact exists_srcd b e
  rw [← Finset.add_sum_erase Finset.univ f (Finset.mem_univ b), ← himg,
    Finset.sum_image (fun r _ r' _ h => srcd_inj b r r' h)]

section Gen
variable {F : FTy → Type} [FloatOps F]
variable (m : (ℓ : Loc nD τ sig) → Buf (Elt F) ℓ)

/-- Row `16 b + k` of a 512-row array. -/
abbrev row16 (b : Dev nD) (k : Fin 16) : Fin 512 :=
  ⟨16 * b.val + k.val, by have h1 : b.val < 32 := b.isLt; have h2 := k.isLt; omega⟩

/-- A landed slot, loaded and cast to 16 x 512, is what its writer sent. -/
theorem slotLd_cast (c : Dev nD) (r : Fin 31) :
    shapeCast S16x512 (slotLd m c r) shapeCasts_S1x16x512_S16x512 = sentv m (srcd c r) r :=
  (Memref.read_squeeze_slice (Val := Elt F) rsM (slotRect r) (fun _ => rfl) squeezes_S1x16x512_S16x512 shapeCasts_S1x16x512_S16x512 _).symm.trans
    (View.read_write_univ _ _)

/-- The input window's block is the whole argument buffer. -/
theorem xstg_at (c : Dev nD) (i : S512x512.Idx) : xstg m c i = m ((c : Thread nD τ).loc main_arg0) i := by
  unfold xstg
  rw [View.read_apply]
  show m ((c : Thread nD τ).loc main_arg0) _ = m ((c : Thread nD τ).loc main_arg0) _
  congr 1
  funext a
  apply Fin.ext
  match a with
  | ⟨0, _⟩ => show 0 * 512 + 1 * (i 0).val = (i 0).val; omega
  | ⟨1, _⟩ => show 0 * 512 + 1 * (i 1).val = (i 1).val; omega

/-- What device `s` sends with slot `r` is rows `16 * peer s r` onwards of its staging copy. -/
theorem sentv_at (s : Dev nD) (r : Fin 31) (k : Fin 16) (q : Fin 512) :
    sentv m s r (ix2 k q) = stagev m s (ix2 (row16 (peer s r) k) q) := by
  unfold sentv
  rw [View.read_apply]
  show stagev m s _ = stagev m s _
  congr 1
  funext a
  apply Fin.ext
  match a with
  | ⟨0, _⟩ =>
    show (k0_off1 s (BitVec.ofNat 32 (1 + r.val))) 0 + 1 * k.val = 16 * (peer s r).val + k.val
    rw [k0_off1_eq, peer_val]
    show 16 * ((s.val + r.val + 1) % 32) + 1 * k.val = _
    omega
  | ⟨1, _⟩ =>
    show (k0_off1 s (BitVec.ofNat 32 (1 + r.val))) 1 + 1 * q.val = q.val
    rw [k0_off1_eq]
    show 0 + 1 * q.val = _
    omega

/-- Device `c`'s own rows of its block. -/
theorem xsl_at (c : Dev nD) (k : Fin 16) (q : Fin 512) :
    xsl m c (ix2 k q) = xstg m c (ix2 (row16 c k) q) := by
  unfold xsl
  rw [View.readAt_apply, View.read_apply]
  show xstg m c _ = xstg m c _
  congr 1
  funext a
  apply Fin.ext
  match a with
  | ⟨0, _⟩ =>
    show (k0_off2 c) 0 + 1 * k.val = 16 * c.val + k.val
    rw [k0_off2_eq]
    show 16 * c.val + 1 * k.val = _
    omega
  | ⟨1, _⟩ =>
    show (k0_off2 c) 1 + 1 * q.val = q.val
    rw [k0_off2_eq]
    show 0 + 1 * q.val = _
    omega

end Gen

section AtIdeal
variable (m : (ℓ : Loc nD τ sig) → Buf (Elt Ideal) ℓ)

/-- At the ideal instance the staging copy holds the block's values: the narrowing is the identity. -/
theorem stagev_at (s : Dev nD) (i : S512x512.Idx) : stagev m s i = (show EReal from xstg m s i) := by
  unfold stagev k0_pay1
  simp only [shapeCast_self, truncf_apply]

/-- The accumulation chain at an index: the device's own row plus the 31 loaded slots, cast to 16 x 512. -/
theorem pay_at (x : Vec Ideal S16x512 .f32) (s : Fin 31 → Vec Ideal S1x16x512 .bf16) (i : S16x512.Idx) :
    (k0_pay13 (k0_pay12 (k0_pay11 (k0_pay10 (k0_pay9 (k0_pay8 (k0_pay7 (k0_pay6 (k0_pay5 (k0_pay4 (k0_pay3
    (k0_pay2 x (s 0) (s 1))
    (s 2) (s 3) (s 4))
    (s 5) (s 6))
    (s 7) (s 8) (s 9))
    (s 10) (s 11) (s 12))
    (s 13) (s 14))
    (s 15) (s 16) (s 17))
    (s 18) (s 19))
    (s 20) (s 21) (s 22))
    (s 23) (s 24) (s 25))
    (s 26) (s 27))
    (s 28) (s 29) (s 30)) i
      = (show EReal from x i) + ∑ r : Fin 31, (show EReal from shapeCast S16x512 (s r) shapeCasts_S1x16x512_S16x512 i) := by
  rw [← add_sum31 (show EReal from x i) (fun r => (show EReal from shapeCast S16x512 (s r) shapeCasts_S1x16x512_S16x512 i))]
  unfold k0_pay13 k0_pay12 k0_pay11 k0_pay10 k0_pay9 k0_pay8 k0_pay7 k0_pay6 k0_pay5 k0_pay4 k0_pay3 k0_pay2
  simp only [addf_apply, extf_apply, truncf_apply, shapeCast_self]

end AtIdeal

section Bridge
variable (m : (ℓ : Loc nD τ sig) → Buf (Elt Ideal) ℓ)

/-- Device `s`'s block of the argument at row `p`, column `q`, as an extended real. -/
def xv (s : Dev nD) (p q : Fin 512) : EReal := xstg m s (ix2 p q)

/-- The reduced block of device `b` at row `k`: the sum over all 32 devices of their blocks' row `16 b + k`. -/
theorem redv_at (b : Dev nD) (k : Fin 16) (q : Fin 512) :
    (show EReal from redv m b (ix2 k q)) = ∑ s : Dev nD, xv m s (row16 b k) q := by
  unfold redv
  refine (pay_at (xsl m b) (fun r => slotLd m b r) (ix2 k q)).trans ?_
  rw [← sum_ring b (fun s => xv m s (row16 b k) q)]
  refine congrArg₂ (· + ·) ?_ ?_
  · exact xsl_at m b k q
  · refine Finset.sum_congr rfl fun r _ => ?_
    show shapeCast S16x512 (slotLd m b r) shapeCasts_S1x16x512_S16x512 (ix2 k q) = xstg m (srcd b r) (ix2 (row16 b k) q)
    rw [slotLd_cast, sentv_at, peer_srcd, stagev_at]

/-- The result's staging buffer after the body, at an index: the sum over all 32 devices of their blocks there. -/
theorem outv_at (p q : Fin 512) : (show EReal from outv m (ix2 p q)) = ∑ s : Dev nD, xv m s p q := by
  have hb : p.val / 16 < 32 := by have := p.isLt; omega
  show (show EReal from redv m ⟨p.val / 16, hb⟩ (ix2 (⟨p.val % 16, Nat.mod_lt _ (by decide)⟩ : Fin 16) (⟨q.val, q.isLt⟩ : Fin 512))) = _
  rw [redv_at]
  refine Finset.sum_congr rfl fun s _ => ?_
  refine congrArg (fun p' : Fin 512 => xv m s p' q) (Fin.ext ?_)
  show 16 * (p.val / 16) + p.val % 16 = p.val
  omega

end Bridge

section Reference

/-- The whole array at block `s`, row `p`, column `q`: row `512 s + p`. -/
def Xv (X : (⟨Cert.ReferenceIdeal.S16384x512, .f32⟩ : BufTy).Contents (Elt Ideal)) (s : Dev nD) (p q : Fin 512) : EReal :=
  X (ix2 (⟨512 * s.val + p.val, by have h1 : s.val < 32 := s.isLt; have h2 := p.isLt; omega⟩ : Fin 16384) q)

/-- The reference's result at an index: the sum over the 32 row blocks of the whole array. -/
theorem ref_at (X : (⟨Cert.ReferenceIdeal.S16384x512, .f32⟩ : BufTy).Contents (Elt Ideal)) (p q : Fin 512) :
    (show EReal from Cert.ReferenceIdeal.Read.val_main_v2 (F := Ideal) X (ix2 p q)) = ∑ s : Dev nD, Xv X s p q := by
  show Cert.ReferenceIdeal.Read.val_main_v2 (F := Ideal) X (ix2 p q) = _
  rw [Cert.ReferenceIdeal.Read.val_main_v2_apply, Cert.ReferenceIdeal.Read.val_main_v1_apply]
  simp only [Cert.ReferenceIdeal.Read.val_main_v0_apply, Cert.ReferenceIdeal.Read.val_main_cst_apply, Ideal.truncf_def]
  show Ideal.ofBits .f32 0x00000000#32 + _ = _
  rw [Ideal.ofBits_zero_f32, zero_add]
  refine Finset.sum_congr rfl fun s _ => ?_
  unfold Xv
  congr 1
  funext a
  apply Fin.ext
  have hp := p.isLt
  have hq := q.isLt
  match a with
  | ⟨0, _⟩ => show ((s.val * 512 + p.val) * 512 + q.val) / 512 = 512 * s.val + p.val; omega
  | ⟨1, _⟩ => show ((s.val * 512 + p.val) * 512 + q.val) % 512 = q.val; omega

end Reference

section Join
variable (m : (ℓ : Loc nD τ sig) → Buf (Elt Ideal) ℓ)

/-- Where each device's argument buffer is its block of the whole array, its values are the whole array's. -/
theorem xv_eq (X : (⟨Cert.ReferenceIdeal.S16384x512, .f32⟩ : BufTy).Contents (Elt Ideal))
    (hblk : ∀ c : Dev nD, m ((c.tc : Thread nD τ).loc main_arg0) = Layout.block ⟨2, ![512, 512]⟩ ⟨2, ![16384, 512]⟩ 0 32 c X)
    (s : Dev nD) (p q : Fin 512) : xv m s p q = Xv X s p q := by
  unfold xv Xv
  rw [xstg_at]
  show m ((s.tc : Thread nD τ).loc main_arg0) (ix2 p q) = _
  rw [hblk s, Layout.block_apply]
  congr 1
  funext a
  apply Fin.ext
  match a with
  | ⟨0, _⟩ => show s.val * 512 + p.val = 512 * s.val + p.val; omega
  | ⟨1, _⟩ => rfl

/-- THE VALUE BRIDGE: with every device's argument buffer its block of the whole array `X`, the result's staging
    buffer after the body is the reference's result of `X`, as functions of the index. -/
theorem outv_eq_ref (X : (⟨Cert.ReferenceIdeal.S16384x512, .f32⟩ : BufTy).Contents (Elt Ideal))
    (hblk : ∀ c : Dev nD, m ((c.tc : Thread nD τ).loc main_arg0) = Layout.block ⟨2, ![512, 512]⟩ ⟨2, ![16384, 512]⟩ 0 32 c X) :
    outv m = Cert.ReferenceIdeal.Read.val_main_v2 (F := Ideal) X := by
  funext i
  obtain ⟨p, q, rfl⟩ : ∃ (p : Fin 512) (q : Fin 512), i = ix2 p q := ⟨i 0, i 1, eq_ix2 i⟩
  refine (outv_at m p q).trans (Eq.trans ?_ (ref_at X p q).symm)
  exact Finset.sum_congr rfl fun s _ => xv_eq m X hblk s p q

/-- The same against the term the reference's generated run states for its result. -/
theorem outv_eq_run (X : (⟨Cert.ReferenceIdeal.S16384x512, .f32⟩ : BufTy).Contents (Elt Ideal))
    (hblk : ∀ c : Dev nD, m ((c.tc : Thread nD τ).loc main_arg0) = Layout.block ⟨2, ![512, 512]⟩ ⟨2, ![16384, 512]⟩ 0 32 c X) :
    outv m = truncf .bf16 (Host.reduceAdd (shapeCast _ X Cert.ReferenceIdeal.Gen.shapeCasts_S16384x512_S32x512x512)
      (constant (F := Ideal) Cert.ReferenceIdeal.S_ .f32 0x00000000#32) Cert.ReferenceIdeal.Gen.reducesTo_S32x512x512_S512x512_d0 Cert.ReferenceIdeal.Gen.h_S_) Cert.ReferenceIdeal.Gen.bitsLt_bf16_f32 :=
  (outv_eq_ref m X hblk).trans (Cert.ReferenceIdeal.Read.val_main_v2_eq X).symm

end Join

end Cert.KernelIdeal.HandValue

end

/-- info: 'Cert.KernelIdeal.HandValue.outv_eq_ref' depends on axioms: [propext, Classical.choice, Quot.sound] -/
#guard_msgs in #print axioms Cert.KernelIdeal.HandValue.outv_eq_ref
/-- info: 'Cert.KernelIdeal.HandValue.outv_eq_run' depends on axioms: [propext, Classical.choice, Quot.sound] -/
#guard_msgs in #print axioms Cert.KernelIdeal.HandValue.outv_eq_run
-- ==== Proof.BitsRing.lean ====
/-
  The ring of 32 devices and the names every later module shares.

  Device `c` talks to its 31 peers through slots: slot `r` of `c` is the peer `peer c r = (c + r + 1) mod 32`
  it writes to, and `srcd c r = (c - r - 1) mod 32` is the device that writes into slot `r` of `c`; the two are
  inverse to each other, and `peer (peer c r) (rev r) = c` with `rev r = 30 - r`: the peer reached with slot `r`
  reaches back with slot `30 - r`.  The kernel's 93 computed device ids are these peers.
-/
import proofs.«900471_g7700000000000472_dist_rs_then_ag_i_m512_n512_v7x_i32_bf16_1_alg».proof.Proof.Gen.Kernel.Frame
import proofs.«900471_g7700000000000472_dist_rs_then_ag_i_m512_n512_v7x_i32_bf16_1_alg».proof.Proof.Gen.Kernel.Skeleton
import Idealize.ShloMosaic.Lib.Pipeline.Launch
import Idealize.ShloMosaic.Lib.Pipeline.Kit
import Idealize.ShloMosaic.Lib.Tactic

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ring -/

/-- The device `c` reaches with slot `r`: `r + 1` places further round the ring. -/
def peer (c : Dev nD) (r : Fin 31) : Dev nD := ⟨(c.val + r.val + 1) % 32, Nat.mod_lt _ (by decide)⟩
/-- The device that reaches `c` with slot `r`: `r + 1` places back. -/
def srcd (c : Dev nD) (r : Fin 31) : Dev nD := ⟨(c.val + 31 - r.val) % 32, Nat.mod_lt _ (by decide)⟩
/-- The slot with which a peer reaches back. -/
def rev (r : Fin 31) : Fin 31 := ⟨30 - r.val, by omega⟩

theorem peer_val (c : Dev nD) (r : Fin 31) : (peer c r).val = (c.val + r.val + 1) % 32 := rfl
theorem srcd_val (c : Dev nD) (r : Fin 31) : (srcd c r).val = (c.val + 31 - r.val) % 32 := rfl

theorem peer_srcd : ∀ (c : Dev nD) (r : Fin 31), peer (srcd c r) r = c := by decide +kernel
theorem srcd_peer : ∀ (c : Dev nD) (r : Fin 31), srcd (peer c r) r = c := by decide +kernel
theorem peer_peer_rev : ∀ (c : Dev nD) (r : Fin 31), peer (peer c r) (rev r) = c := by decide +kernel
theorem peer_rev_eq_srcd : ∀ (c : Dev nD) (r : Fin 31), peer c (rev r) = srcd c r := by decide +kernel
theorem rev_rev : ∀ r : Fin 31, rev (rev r) = r := by decide +kernel
theorem peer_ne : ∀ (c : Dev nD) (r : Fin 31), peer c r ≠ c := by decide +kernel
theorem srcd_ne : ∀ (c : Dev nD) (r : Fin 31), srcd c r ≠ c := by decide +kernel
theorem peer_inj : ∀ (c : Dev nD) (r r' : Fin 31), peer c r = peer c r' → r = r' := by decide +kernel
theorem srcd_inj : ∀ (c : Dev nD) (r r' : Fin 31), srcd c r = srcd c r' → r = r' := by decide +kernel
/-- Every other device is a peer, through exactly one slot. -/
theorem exists_peer : ∀ (c e : Dev nD), e ≠ c → ∃ r : Fin 31, peer c r = e := by decide +kernel

/-! ## The kernel's device ids -/

theorem dev1_eq (c : Dev nD) : (⟨k0_dev1 c, k0_dev1_lt c⟩ : Dev nD) = peer c 0 := Fin.ext ((k0_dev1_eq c).trans (by rw [peer_val]; rfl))
theorem dev2_eq (c : Dev nD) : (⟨k0_dev2 c, k0_dev2_lt c⟩ : Dev nD) = peer c 1 := Fin.ext ((k0_dev2_eq c).trans (by rw [peer_val]; rfl))
theorem dev3_eq (c : Dev nD) : (⟨k0_dev3 c, k0_dev3_lt c⟩ : Dev nD) = peer c 2 := Fin.ext ((k0_dev3_eq c).trans (by rw [peer_val]; rfl))
theorem dev4_eq (c : Dev nD) : (⟨k0_dev4 c, k0_dev4_lt c⟩ : Dev nD) = peer c 3 := Fin.ext ((k0_dev4_eq c).trans (by rw [peer_val]; rfl))
theorem dev5_eq (c : Dev nD) : (⟨k0_dev5 c, k0_dev5_lt c⟩ : Dev nD) = peer c 4 := Fin.ext ((k0_dev5_eq c).trans (by rw [peer_val]; rfl))
theorem dev6_eq (c : Dev nD) : (⟨k0_dev6 c, k0_dev6_lt c⟩ : Dev nD) = peer c 5 := Fin.ext ((k0_dev6_eq c).trans (by rw [peer_val]; rfl))
theorem dev7_eq (c : Dev nD) : (⟨k0_dev7 c, k0_dev7_lt c⟩ : Dev nD) = peer c 6 := Fin.ext ((k0_dev7_eq c).trans (by rw [peer_val]; rfl))
theorem dev8_eq (c : Dev nD) : (⟨k0_dev8 c, k0_dev8_lt c⟩ : Dev nD) = peer c 7 := Fin.ext ((k0_dev8_eq c).trans (by rw [peer_val]; rfl))
theorem dev9_eq (c : Dev nD) : (⟨k0_dev9 c, k0_dev9_lt c⟩ : Dev nD) = peer c 8 := Fin.ext ((k0_dev9_eq c).trans (by rw [peer_val]; rfl))
theorem dev10_eq (c : Dev nD) : (⟨k0_dev10 c, k0_dev10_lt c⟩ : Dev nD) = peer c 9 := Fin.ext ((k0_dev10_eq c).trans (by rw [peer_val]; rfl))
theorem dev11_eq (c : Dev nD) : (⟨k0_dev11 c, k0_dev11_lt c⟩ : Dev nD) = peer c 10 := Fin.ext ((k0_dev11_eq c).trans (by rw [peer_val]; rfl))
theorem dev12_eq (c : Dev nD) : (⟨k0_dev12 c, k0_dev12_lt c⟩ : Dev nD) = peer c 11 := Fin.ext ((k0_dev12_eq c).trans (by rw [peer_val]; rfl))
theorem dev13_eq (c : Dev nD) : (⟨k0_dev13 c, k0_dev13_lt c⟩ : Dev nD) = peer c 12 := Fin.ext ((k0_dev13_eq c).trans (by rw [peer_val]; rfl))
theorem dev14_eq (c : Dev nD) : (⟨k0_dev14 c, k0_dev14_lt c⟩ : Dev nD) = peer c 13 := Fin.ext ((k0_dev14_eq c).trans (by rw [peer_val]; rfl))
theorem dev15_eq (c : Dev nD) : (⟨k0_dev15 c, k0_dev15_lt c⟩ : Dev nD) = peer c 14 := Fin.ext ((k0_dev15_eq c).trans (by rw [peer_val]; rfl))
theorem dev16_eq (c : Dev nD) : (⟨k0_dev16 c, k0_dev16_lt c⟩ : Dev nD) = peer c 15 := Fin.ext ((k0_dev16_eq c).trans (by rw [peer_val]; rfl))
theorem dev17_eq (c : Dev nD) : (⟨k0_dev17 c, k0_dev17_lt c⟩ : Dev nD) = peer c 16 := Fin.ext ((k0_dev17_eq c).trans (by rw [peer_val]; rfl))
theorem dev18_eq (c : Dev nD) : (⟨k0_dev18 c, k0_dev18_lt c⟩ : Dev nD) = peer c 17 := Fin.ext ((k0_dev18_eq c).trans (by rw [peer_val]; rfl))
theorem dev19_eq (c : Dev nD) : (⟨k0_dev19 c, k0_dev19_lt c⟩ : Dev nD) = peer c 18 := Fin.ext ((k0_dev19_eq c).trans (by rw [peer_val]; rfl))
theorem dev20_eq (c : Dev nD) : (⟨k0_dev20 c, k0_dev20_lt c⟩ : Dev nD) = peer c 19 := Fin.ext ((k0_dev20_eq c).trans (by rw [peer_val]; rfl))
theorem dev21_eq (c : Dev nD) : (⟨k0_dev21 c, k0_dev21_lt c⟩ : Dev nD) = peer c 20 := Fin.ext ((k0_dev21_eq c).trans (by rw [peer_val]; rfl))
theorem dev22_eq (c : Dev nD) : (⟨k0_dev22 c, k0_dev22_lt c⟩ : Dev nD) = peer c 21 := Fin.ext ((k0_dev22_eq c).trans (by rw [peer_val]; rfl))
theorem dev23_eq (c : Dev nD) : (⟨k0_dev23 c, k0_dev23_lt c⟩ : Dev nD) = peer c 22 := Fin.ext ((k0_dev23_eq c).trans (by rw [peer_val]; rfl))
theorem dev24_eq (c : Dev nD) : (⟨k0_dev24 c, k0_dev24_lt c⟩ : Dev nD) = peer c 23 := Fin.ext ((k0_dev24_eq c).trans (by rw [peer_val]; rfl))
theorem dev25_eq (c : Dev nD) : (⟨k0_dev25 c, k0_dev25_lt c⟩ : Dev nD) = peer c 24 := Fin.ext ((k0_dev25_eq c).trans (by rw [peer_val]; rfl))
theorem dev26_eq (c : Dev nD) : (⟨k0_dev26 c, k0_dev26_lt c⟩ : Dev nD) = peer c 25 := Fin.ext ((k0_dev26_eq c).trans (by rw [peer_val]; rfl))
theorem dev27_eq (c : Dev nD) : (⟨k0_dev27 c, k0_dev27_lt c⟩ : Dev nD) = peer c 26 := Fin.ext ((k0_dev27_eq c).trans (by rw [peer_val]; rfl))
theorem dev28_eq (c : Dev nD) : (⟨k0_dev28 c, k0_dev28_lt c⟩ : Dev nD) = peer c 27 := Fin.ext ((k0_dev28_eq c).trans (by rw [peer_val]; rfl))
theorem dev29_eq (c : Dev nD) : (⟨k0_dev29 c, k0_dev29_lt c⟩ : Dev nD) = peer c 28 := Fin.ext ((k0_dev29_eq c).trans (by rw [peer_val]; rfl))
theorem dev30_eq (c : Dev nD) : (⟨k0_dev30 c, k0_dev30_lt c⟩ : Dev nD) = peer c 29 := Fin.ext ((k0_dev30_eq c).trans (by rw [peer_val]; rfl))
theorem dev31_eq (c : Dev nD) : (⟨k0_dev31 c, k0_dev31_lt c⟩ : Dev nD) = peer c 30 := Fin.ext ((k0_dev31_eq c).trans (by rw [peer_val]; rfl))
theorem dev32_eq (c : Dev nD) : (⟨k0_dev32 c, k0_dev32_lt c⟩ : Dev nD) = peer c 0 := Fin.ext ((k0_dev32_eq c).trans (by rw [peer_val]; rfl))
theorem dev33_eq (c : Dev nD) : (⟨k0_dev33 c, k0_dev33_lt c⟩ : Dev nD) = peer c 1 := Fin.ext ((k0_dev33_eq c).trans (by rw [peer_val]; rfl))
theorem dev34_eq (c : Dev nD) : (⟨k0_dev34 c, k0_dev34_lt c⟩ : Dev nD) = peer c 2 := Fin.ext ((k0_dev34_eq c).trans (by rw [peer_val]; rfl))
theorem dev35_eq (c : Dev nD) : (⟨k0_dev35 c, k0_dev35_lt c⟩ : Dev nD) = peer c 3 := Fin.ext ((k0_dev35_eq c).trans (by rw [peer_val]; rfl))
theorem dev36_eq (c : Dev nD) : (⟨k0_dev36 c, k0_dev36_lt c⟩ : Dev nD) = peer c 4 := Fin.ext ((k0_dev36_eq c).trans (by rw [peer_val]; rfl))
theorem dev37_eq (c : Dev nD) : (⟨k0_dev37 c, k0_dev37_lt c⟩ : Dev nD) = peer c 5 := Fin.ext ((k0_dev37_eq c).trans (by rw [peer_val]; rfl))
theorem dev38_eq (c : Dev nD) : (⟨k0_dev38 c, k0_dev38_lt c⟩ : Dev nD) = peer c 6 := Fin.ext ((k0_dev38_eq c).trans (by rw [peer_val]; rfl))
theorem dev39_eq (c : Dev nD) : (⟨k0_dev39 c, k0_dev39_lt c⟩ : Dev nD) = peer c 7 := Fin.ext ((k0_dev39_eq c).trans (by rw [peer_val]; rfl))
theorem dev40_eq (c : Dev nD) : (⟨k0_dev40 c, k0_dev40_lt c⟩ : Dev nD) = peer c 8 := Fin.ext ((k0_dev40_eq c).trans (by rw [peer_val]; rfl))
theorem dev41_eq (c : Dev nD) : (⟨k0_dev41 c, k0_dev41_lt c⟩ : Dev nD) = peer c 9 := Fin.ext ((k0_dev41_eq c).trans (by rw [peer_val]; rfl))
theorem dev42_eq (c : Dev nD) : (⟨k0_dev42 c, k0_dev42_lt c⟩ : Dev nD) = peer c 10 := Fin.ext ((k0_dev42_eq c).trans (by rw [peer_val]; rfl))
theorem dev43_eq (c : Dev nD) : (⟨k0_dev43 c, k0_dev43_lt c⟩ : Dev nD) = peer c 11 := Fin.ext ((k0_dev43_eq c).trans (by rw [peer_val]; rfl))
theorem dev44_eq (c : Dev nD) : (⟨k0_dev44 c, k0_dev44_lt c⟩ : Dev nD) = peer c 12 := Fin.ext ((k0_dev44_eq c).trans (by rw [peer_val]; rfl))
theorem dev45_eq (c : Dev nD) : (⟨k0_dev45 c, k0_dev45_lt c⟩ : Dev nD) = peer c 13 := Fin.ext ((k0_dev45_eq c).trans (by rw [peer_val]; rfl))
theorem dev46_eq (c : Dev nD) : (⟨k0_dev46 c, k0_dev46_lt c⟩ : Dev nD) = peer c 14 := Fin.ext ((k0_dev46_eq c).trans (by rw [peer_val]; rfl))
theorem dev47_eq (c : Dev nD) : (⟨k0_dev47 c, k0_dev47_lt c⟩ : Dev nD) = peer c 15 := Fin.ext ((k0_dev47_eq c).trans (by rw [peer_val]; rfl))
theorem dev48_eq (c : Dev nD) : (⟨k0_dev48 c, k0_dev48_lt c⟩ : Dev nD) = peer c 16 := Fin.ext ((k0_dev48_eq c).trans (by rw [peer_val]; rfl))
theorem dev49_eq (c : Dev nD) : (⟨k0_dev49 c, k0_dev49_lt c⟩ : Dev nD) = peer c 17 := Fin.ext ((k0_dev49_eq c).trans (by rw [peer_val]; rfl))
theorem dev50_eq (c : Dev nD) : (⟨k0_dev50 c, k0_dev50_lt c⟩ : Dev nD) = peer c 18 := Fin.ext ((k0_dev50_eq c).trans (by rw [peer_val]; rfl))
theorem dev51_eq (c : Dev nD) : (⟨k0_dev51 c, k0_dev51_lt c⟩ : Dev nD) = peer c 19 := Fin.ext ((k0_dev51_eq c).trans (by rw [peer_val]; rfl))
theorem dev52_eq (c : Dev nD) : (⟨k0_dev52 c, k0_dev52_lt c⟩ : Dev nD) = peer c 20 := Fin.ext ((k0_dev52_eq c).trans (by rw [peer_val]; rfl))
theorem dev53_eq (c : Dev nD) : (⟨k0_dev53 c, k0_dev53_lt c⟩ : Dev nD) = peer c 21 := Fin.ext ((k0_dev53_eq c).trans (by rw [peer_val]; rfl))
theorem dev54_eq (c : Dev nD) : (⟨k0_dev54 c, k0_dev54_lt c⟩ : Dev nD) = peer c 22 := Fin.ext ((k0_dev54_eq c).trans (by rw [peer_val]; rfl))
theorem dev55_eq (c : Dev nD) : (⟨k0_dev55 c, k0_dev55_lt c⟩ : Dev nD) = peer c 23 := Fin.ext ((k0_dev55_eq c).trans (by rw [peer_val]; rfl))
theorem dev56_eq (c : Dev nD) : (⟨k0_dev56 c, k0_dev56_lt c⟩ : Dev nD) = peer c 24 := Fin.ext ((k0_dev56_eq c).trans (by rw [peer_val]; rfl))
theorem dev57_eq (c : Dev nD) : (⟨k0_dev57 c, k0_dev57_lt c⟩ : Dev nD) = peer c 25 := Fin.ext ((k0_dev57_eq c).trans (by rw [peer_val]; rfl))
theorem dev58_eq (c : Dev nD) : (⟨k0_dev58 c, k0_dev58_lt c⟩ : Dev nD) = peer c 26 := Fin.ext ((k0_dev58_eq c).trans (by rw [peer_val]; rfl))
theorem dev59_eq (c : Dev nD) : (⟨k0_dev59 c, k0_dev59_lt c⟩ : Dev nD) = peer c 27 := Fin.ext ((k0_dev59_eq c).trans (by rw [peer_val]; rfl))
theorem dev60_eq (c : Dev nD) : (⟨k0_dev60 c, k0_dev60_lt c⟩ : Dev nD) = peer c 28 := Fin.ext ((k0_dev60_eq c).trans (by rw [peer_val]; rfl))
theorem dev61_eq (c : Dev nD) : (⟨k0_dev61 c, k0_dev61_lt c⟩ : Dev nD) = peer c 29 := Fin.ext ((k0_dev61_eq c).trans (by rw [peer_val]; rfl))
theorem dev62_eq (c : Dev nD) : (⟨k0_dev62 c, k0_dev62_lt c⟩ : Dev nD) = peer c 30 := Fin.ext ((k0_dev62_eq c).trans (by rw [peer_val]; rfl))
theorem dev63_eq (c : Dev nD) : (⟨k0_dev63 c, k0_dev63_lt c⟩ : Dev nD) = peer c 0 := Fin.ext ((k0_dev63_eq c).trans (by rw [peer_val]; rfl))
theorem dev64_eq (c : Dev nD) : (⟨k0_dev64 c, k0_dev64_lt c⟩ : Dev nD) = peer c 1 := Fin.ext ((k0_dev64_eq c).trans (by rw [peer_val]; rfl))
theorem dev65_eq (c : Dev nD) : (⟨k0_dev65 c, k0_dev65_lt c⟩ : Dev nD) = peer c 2 := Fin.ext ((k0_dev65_eq c).trans (by rw [peer_val]; rfl))
theorem dev66_eq (c : Dev nD) : (⟨k0_dev66 c, k0_dev66_lt c⟩ : Dev nD) = peer c 3 := Fin.ext ((k0_dev66_eq c).trans (by rw [peer_val]; rfl))
theorem dev67_eq (c : Dev nD) : (⟨k0_dev67 c, k0_dev67_lt c⟩ : Dev nD) = peer c 4 := Fin.ext ((k0_dev67_eq c).trans (by rw [peer_val]; rfl))
theorem dev68_eq (c : Dev nD) : (⟨k0_dev68 c, k0_dev68_lt c⟩ : Dev nD) = peer c 5 := Fin.ext ((k0_dev68_eq c).trans (by rw [peer_val]; rfl))
theorem dev69_eq (c : Dev nD) : (⟨k0_dev69 c, k0_dev69_lt c⟩ : Dev nD) = peer c 6 := Fin.ext ((k0_dev69_eq c).trans (by rw [peer_val]; rfl))
theorem dev70_eq (c : Dev nD) : (⟨k0_dev70 c, k0_dev70_lt c⟩ : Dev nD) = peer c 7 := Fin.ext ((k0_dev70_eq c).trans (by rw [peer_val]; rfl))
theorem dev71_eq (c : Dev nD) : (⟨k0_dev71 c, k0_dev71_lt c⟩ : Dev nD) = peer c 8 := Fin.ext ((k0_dev71_eq c).trans (by rw [peer_val]; rfl))
theorem dev72_eq (c : Dev nD) : (⟨k0_dev72 c, k0_dev72_lt c⟩ : Dev nD) = peer c 9 := Fin.ext ((k0_dev72_eq c).trans (by rw [peer_val]; rfl))
theorem dev73_eq (c : Dev nD) : (⟨k0_dev73 c, k0_dev73_lt c⟩ : Dev nD) = peer c 10 := Fin.ext ((k0_dev73_eq c).trans (by rw [peer_val]; rfl))
theorem dev74_eq (c : Dev nD) : (⟨k0_dev74 c, k0_dev74_lt c⟩ : Dev nD) = peer c 11 := Fin.ext ((k0_dev74_eq c).trans (by rw [peer_val]; rfl))
theorem dev75_eq (c : Dev nD) : (⟨k0_dev75 c, k0_dev75_lt c⟩ : Dev nD) = peer c 12 := Fin.ext ((k0_dev75_eq c).trans (by rw [peer_val]; rfl))
theorem dev76_eq (c : Dev nD) : (⟨k0_dev76 c, k0_dev76_lt c⟩ : Dev nD) = peer c 13 := Fin.ext ((k0_dev76_eq c).trans (by rw [peer_val]; rfl))
theorem dev77_eq (c : Dev nD) : (⟨k0_dev77 c, k0_dev77_lt c⟩ : Dev nD) = peer c 14 := Fin.ext ((k0_dev77_eq c).trans (by rw [peer_val]; rfl))
theorem dev78_eq (c : Dev nD) : (⟨k0_dev78 c, k0_dev78_lt c⟩ : Dev nD) = peer c 15 := Fin.ext ((k0_dev78_eq c).trans (by rw [peer_val]; rfl))
theorem dev79_eq (c : Dev nD) : (⟨k0_dev79 c, k0_dev79_lt c⟩ : Dev nD) = peer c 16 := Fin.ext ((k0_dev79_eq c).trans (by rw [peer_val]; rfl))
theorem dev80_eq (c : Dev nD) : (⟨k0_dev80 c, k0_dev80_lt c⟩ : Dev nD) = peer c 17 := Fin.ext ((k0_dev80_eq c).trans (by rw [peer_val]; rfl))
theorem dev81_eq (c : Dev nD) : (⟨k0_dev81 c, k0_dev81_lt c⟩ : Dev nD) = peer c 18 := Fin.ext ((k0_dev81_eq c).trans (by rw [peer_val]; rfl))
theorem dev82_eq (c : Dev nD) : (⟨k0_dev82 c, k0_dev82_lt c⟩ : Dev nD) = peer c 19 := Fin.ext ((k0_dev82_eq c).trans (by rw [peer_val]; rfl))
theorem dev83_eq (c : Dev nD) : (⟨k0_dev83 c, k0_dev83_lt c⟩ : Dev nD) = peer c 20 := Fin.ext ((k0_dev83_eq c).trans (by rw [peer_val]; rfl))
theorem dev84_eq (c : Dev nD) : (⟨k0_dev84 c, k0_dev84_lt c⟩ : Dev nD) = peer c 21 := Fin.ext ((k0_dev84_eq c).trans (by rw [peer_val]; rfl))
theorem dev85_eq (c : Dev nD) : (⟨k0_dev85 c, k0_dev85_lt c⟩ : Dev nD) = peer c 22 := Fin.ext ((k0_dev85_eq c).trans (by rw [peer_val]; rfl))
theorem dev86_eq (c : Dev nD) : (⟨k0_dev86 c, k0_dev86_lt c⟩ : Dev nD) = peer c 23 := Fin.ext ((k0_dev86_eq c).trans (by rw [peer_val]; rfl))
theorem dev87_eq (c : Dev nD) : (⟨k0_dev87 c, k0_dev87_lt c⟩ : Dev nD) = peer c 24 := Fin.ext ((k0_dev87_eq c).trans (by rw [peer_val]; rfl))
theorem dev88_eq (c : Dev nD) : (⟨k0_dev88 c, k0_dev88_lt c⟩ : Dev nD) = peer c 25 := Fin.ext ((k0_dev88_eq c).trans (by rw [peer_val]; rfl))
theorem dev89_eq (c : Dev nD) : (⟨k0_dev89 c, k0_dev89_lt c⟩ : Dev nD) = peer c 26 := Fin.ext ((k0_dev89_eq c).trans (by rw [peer_val]; rfl))
theorem dev90_eq (c : Dev nD) : (⟨k0_dev90 c, k0_dev90_lt c⟩ : Dev nD) = peer c 27 := Fin.ext ((k0_dev90_eq c).trans (by rw [peer_val]; rfl))
theorem dev91_eq (c : Dev nD) : (⟨k0_dev91 c, k0_dev91_lt c⟩ : Dev nD) = peer c 28 := Fin.ext ((k0_dev91_eq c).trans (by rw [peer_val]; rfl))
theorem dev92_eq (c : Dev nD) : (⟨k0_dev92 c, k0_dev92_lt c⟩ : Dev nD) = peer c 29 := Fin.ext ((k0_dev92_eq c).trans (by rw [peer_val]; rfl))
theorem dev93_eq (c : Dev nD) : (⟨k0_dev93 c, k0_dev93_lt c⟩ : Dev nD) = peer c 30 := Fin.ext ((k0_dev93_eq c).trans (by rw [peer_val]; rfl))

end Cert.Kernel.Hand

end
-- ==== Proof.BitsCells.lean ====
/-
  The buffers, the sliced views and the semaphore cells of one device, each family indexed by the slot.

  Slot `r` of device `c` names: the 16 rows of its staging copy it sends to `peer c r` (`stSlice c r`, rows
  `16 * peer c r` onwards); slot `r` of its receive scratch (`slotM r`), written by `srcd c r`; and four DMA
  semaphores, one in each of the four arrays (send and receive of the reduce-scatter, send and receive of the
  all-gather).  The result's staging buffer is cut in 32 blocks of 16 rows, `outSlice b` the block of device `b`.
-/
import proofs.«900471_g7700000000000472_dist_rs_then_ag_i_m512_n512_v7x_i32_bf16_1_alg».proof.Proof.BitsRing

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Buffers and their slices -/

abbrev xM : Memref sig .tc .vmem S512x512 .f32 := Memref.whole cc0_stg0_0
abbrev oM : Memref sig .tc .vmem S512x512 .bf16 := Memref.whole cc0_stg1_0
abbrev stM : Memref sig .tc .vmem S512x512 .bf16 := Memref.whole cc0_scratch0
abbrev rsM : Memref sig .tc .vmem S31x16x512 .bf16 := Memref.whole cc0_scratch1
abbrev redM : Memref sig .tc .vmem S16x512 .bf16 := Memref.whole cc0_scratch2

theorem slot_inb : ∀ (r : Fin 31) a, (![r.val, 0, 0] : Fin 3 → ℕ) a + S1x16x512.size a ≤ S31x16x512.size a := by decide +kernel
theorem sem_inb : ∀ (r : Fin 31) a, (![r.val] : Fin 1 → ℕ) a + S1.size a ≤ S31.size a := by decide +kernel

/-- Slot `r` of the receive scratch, as a rectangle of the whole scratch (the accumulation's loads read it). -/
abbrev slotRect (r : Fin 31) : Rect S31x16x512 := Rect.unit (s := S31x16x512) ![r.val, 0, 0] S1x16x512.size (slot_inb r)
/-- Slot `r` of the receive scratch, as the 16 x 512 destination of a copy. -/
abbrev slotM (r : Fin 31) : Memref sig .tc .vmem S16x512 .bf16 :=
  (rsM.slice (slotRect r) (fun _ => rfl)).squeeze S16x512 squeezes_S1x16x512_S16x512
/-- The rows of the staging copy device `c` sends with slot `r`. -/
abbrev stSlice (c : Dev nD) (r : Fin 31) : Memref sig .tc .vmem S16x512 .bf16 :=
  stM.slice (Rect.unit (s := S512x512) (k0_off1 c (BitVec.ofNat 32 (1 + r.val))) S16x512.size (k0_off1_inb c r)) (fun _ => rfl)
/-- Block `b` (rows `16 b` onwards) of the result's staging buffer. -/
abbrev outSlice (b : Dev nD) : Memref sig .tc .vmem S16x512 .bf16 :=
  oM.slice (Rect.unit (s := S512x512) (k0_off3 b) S16x512.size (k0_off3_inb b)) (fun _ => rfl)

/-! ## Semaphores and cells -/

abbrev barS : Sem sig := (SemArray.scalar (sig.barrier 0 rfl) : Sems sig S_).sem
abbrev semAt (A : DmaSems sig S31) (r : Fin 31) : DmaSem sig :=
  ((A.slice (Rect.unit (s := S31) ![r.val] S1.size (sem_inb r))).squeeze S_ squeezes_S1_S_).sem
abbrev rsSendS (r : Fin 31) : DmaSem sig := semAt cc0_scratch3 r
abbrev rsRecvS (r : Fin 31) : DmaSem sig := semAt cc0_scratch4 r
abbrev agSendS (r : Fin 31) : DmaSem sig := semAt cc0_scratch5 r
abbrev agRecvS (r : Fin 31) : DmaSem sig := semAt cc0_scratch6 r

theorem rsSendS_val : ∀ r : Fin 31, (rsSendS r).val = 2 + r.val := by decide +kernel
theorem rsRecvS_val : ∀ r : Fin 31, (rsRecvS r).val = 33 + r.val := by decide +kernel
theorem agSendS_val : ∀ r : Fin 31, (agSendS r).val = 64 + r.val := by decide +kernel
theorem agRecvS_val : ∀ r : Fin 31, (agRecvS r).val = 95 + r.val := by decide +kernel

/-- A device's cells: `none` the barrier, `some (j, r)` the semaphore of slot `r` in array `j`
    (0 reduce-scatter send, 1 reduce-scatter receive, 2 all-gather send, 3 all-gather receive). -/
abbrev CK : Type := Option (Fin 4 × Fin 31)
def dsem : Fin 4 → Fin 31 → DmaSem sig
  | 0, r => rsSendS r | 1, r => rsRecvS r | 2, r => agSendS r | 3, r => agRecvS r
def csem : CK → SemLoc sig
  | none => .reg barS
  | some (j, r) => .dma (dsem j r)
abbrev kcell (ck : Dev nD × CK) : GSem nD τ sig := ((ck.1 : Thread nD τ), csem ck.2)

abbrev barCell (c : Dev nD) : GSem nD τ sig := ((c : Thread nD τ), .reg barS)
abbrev rsSendCell (c : Dev nD) (r : Fin 31) : GSem nD τ sig := ((c : Thread nD τ), .dma (rsSendS r))
abbrev rsRecvCell (c : Dev nD) (r : Fin 31) : GSem nD τ sig := ((c : Thread nD τ), .dma (rsRecvS r))
abbrev agSendCell (c : Dev nD) (r : Fin 31) : GSem nD τ sig := ((c : Thread nD τ), .dma (agSendS r))
abbrev agRecvCell (c : Dev nD) (r : Fin 31) : GSem nD τ sig := ((c : Thread nD τ), .dma (agRecvS r))

theorem dsem_val : ∀ (j : Fin 4) (r : Fin 31), (dsem j r).val = 2 + 31 * j.val + r.val := by decide +kernel
theorem dsem_inj : ∀ (j j' : Fin 4) (r r' : Fin 31), dsem j r = dsem j' r' → j = j' ∧ r = r' := by
  intro j j' r r' h
  have := congrArg Fin.val h
  rw [dsem_val, dsem_val] at this
  constructor
  · exact Fin.ext (by omega)
  · exact Fin.ext (by omega)
theorem csem_inj : Function.Injective csem := by
  rintro (_ | ⟨j, r⟩) (_ | ⟨j', r'⟩) h
  · rfl
  · cases h
  · cases h
  · have h' : dsem j r = dsem j' r' := by simpa [csem] using h
    obtain ⟨rfl, rfl⟩ := dsem_inj _ _ _ _ h'
    rfl
theorem kcell_injective : Function.Injective (kcell : Dev nD × CK → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_inj h2]

/-- One copy's credit: every copy of this kernel moves a 16 x 512 block of bf16. -/
abbrev N : ℕ := (redM : Memref sig .tc .vmem S16x512 .bf16).view.dmaCredit
theorem N_pos : 0 < N := View.dmaCredit_pos _ (by decide)

/-! ## Values -/

variable (m : (ℓ : Loc nD τ sig) → Buf (Elt F) ℓ)

/-- Device `c`'s block of `x`, as its input window stages it. -/
def xstg (c : Dev nD) : (cc0_stg0_0 : Ref sig .tc).ty.Contents (Elt F) :=
  (win0_0.blk (0 : Fin 1)).view.read (Elt F) (m ((c : Thread nD τ).loc main_arg0))
/-- The staging copy: the block in the narrower format. -/
def stagev (c : Dev nD) : (cc0_scratch0 : Ref sig .tc).ty.Contents (Elt F) := k0_pay1 (xstg m c)
/-- What device `s` sends with slot `r`: rows `16 * peer s r` onwards of its staging copy. -/
def sentv (s : Dev nD) (r : Fin 31) : S16x512.Idx → Elt F .bf16 := (stSlice s r).view.read (Elt F) (stagev m s)

/-- Slot `r` of device `c`'s receive scratch once `srcd c r`'s block has landed in it, as the accumulation loads it
    (what lay in the scratch before does not matter: the load reads the slot only). -/
def slotLd (c : Dev nD) (r : Fin 31) : Vec F S1x16x512 .bf16 :=
  rsM.view.readAt (Elt F) (slotRect r).toLoadRect
    ((slotM r).view.write (Elt F) (fun _ => Classical.arbitrary _) (sentv m (srcd c r) r) Finset.univ)

/-- Device `c`'s own 16 rows of its block of `x` (rows `16 c` onwards). -/
def xsl (c : Dev nD) : Vec F S16x512 .f32 :=
  xM.view.readAt (Elt F) (Rect.unit (s := S512x512) (k0_off2 c) S16x512.size (k0_off2_inb c)).toLoadRect (xstg m c)

/-- The reduced block of device `c`: its own rows plus the 31 landed slots, in slot order. -/
def redv (c : Dev nD) : (cc0_scratch2 : Ref sig .tc).ty.Contents (Elt F) :=
  k0_pay13 (k0_pay12 (k0_pay11 (k0_pay10 (k0_pay9 (k0_pay8 (k0_pay7 (k0_pay6 (k0_pay5 (k0_pay4 (k0_pay3
    (k0_pay2 (xsl m c) (slotLd m c 0) (slotLd m c 1))
    (slotLd m c 2) (slotLd m c 3) (slotLd m c 4))
    (slotLd m c 5) (slotLd m c 6))
    (slotLd m c 7) (slotLd m c 8) (slotLd m c 9))
    (slotLd m c 10) (slotLd m c 11) (slotLd m c 12))
    (slotLd m c 13) (slotLd m c 14))
    (slotLd m c 15) (slotLd m c 16) (slotLd m c 17))
    (slotLd m c 18) (slotLd m c 19))
    (slotLd m c 20) (slotLd m c 21) (slotLd m c 22))
    (slotLd m c 23) (slotLd m c 24) (slotLd m c 25))
    (slotLd m c 26) (slotLd m c 27))
    (slotLd m c 28) (slotLd m c 29) (slotLd m c 30)

/-! ## Shares: the reduced block is read by 31 copies at once -/

/-- What is left of the full share after `k` halvings, and the `k`-th half handed out. -/
def rst : ℕ → PosShare TreeShare
  | 0 => fullShare
  | k + 1 => (rst k).right
def shr (k : ℕ) : PosShare TreeShare := (rst k).left
theorem shr_rst (k : ℕ) : rst k ∈ PCS.op (shr k) (rst (k + 1)) := by
  unfold shr; rw [show rst (k + 1) = (rst k).right from rfl, PosShare.left_op_right]; exact Part.mem_some _

end Cert.Kernel.Hand

end
-- ==== Proof.BitsSchedule.lean ====
/-
  The protocol as a schedule of rounds.  Every cell has one round.

  Barrier cell of `c`: 31 duties of one unit; duty `r` is paid by `peer c r` and hands `c` two things of THAT device's —
  slot `r` of its receive scratch and block `c` of its result buffer — which is what `c` needs to copy into them.
  Receive cell `r` of the reduce-scatter on `c`: one duty, paid by the copy of `srcd c r`; the landing hands back
  slot `r` holding that device's rows for `c`.  Receive cell `r` of the all-gather: one duty, paid by `srcd c r`'s
  copy; the landing hands back that device's block of the result buffer holding its reduced rows.  The two send cells:
  one duty each, paid when the source has been read, handing the source (or the share of it that was lent) back.
  What a device owes at launch is a list, in the order it pays: 31 barrier units, 31 reduce-scatter blocks, 31
  all-gather blocks.  Levels: barrier 1, reduce-scatter receive 2, all-gather receive 3, everything else 0 — each wait
  happens when all that is still owed lies strictly above it.
-/
import proofs.«900471_g7700000000000472_dist_rs_then_ag_i_m512_n512_v7x_i32_bf16_1_alg».proof.Proof.BitsCells

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy beside the protocol's (duties named by slots) -/

abbrev UB : Type := URounds (GSem nD τ sig) (Fin 31)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Pieces of buffers -/

def slotPts (e : Dev nD) (r : Fin 31) (f : Buf (Elt F) ((slotM r).view.loc (e : Thread nD τ))) : sProp 𝕄 :=
  (slotM r).view.loc (e : Thread nD τ) ↦[(slotM r).view.set]{fullShare} f
def outPts (e b : Dev nD) (f : Buf (Elt F) ((outSlice b).view.loc (e : Thread nD τ))) : sProp 𝕄 :=
  (outSlice b).view.loc (e : Thread nD τ) ↦[(outSlice b).view.set]{fullShare} f
def stPts (c : Dev nD) (r : Fin 31) : sProp 𝕄 :=
  (stSlice c r).view.loc (c : Thread nD τ) ↦[(stSlice c r).view.set]{fullShare} stagev m c
def redPts (c : Dev nD) (q : PosShare TreeShare) : sProp 𝕄 :=
  (redM : Memref sig .tc .vmem S16x512 .bf16).view.loc (c : Thread nD τ) ↦[(redM : Memref sig .tc .vmem S16x512 .bf16).view.set]{q} redv m c

/-! ## Payloads -/

def barPay (c : Dev nD) (r : Fin 31) : sProp 𝕄 := iprop((∃ f, slotPts (peer c r) r f) ∗ (∃ f, outPts (peer c r) c f))
def rsRecvPay (c : Dev nD) (r : Fin 31) : sProp 𝕄 :=
  iprop(∃ fd, slotPts c r ((slotM r).view.write (Elt F) fd (sentv m (srcd c r) r) Finset.univ))
def rsSendPay (c : Dev nD) (r : Fin 31) : sProp 𝕄 := stPts m c r
def agRecvPay (c : Dev nD) (r : Fin 31) : sProp 𝕄 :=
  iprop(∃ fd, outPts c (srcd c r) ((outSlice (srcd c r)).view.write (Elt F) fd
    ((redM : Memref sig .tc .vmem S16x512 .bf16).view.read (Elt F) (redv m (srcd c r))) Finset.univ))
def agSendPay (c : Dev nD) (r : Fin 31) : sProp 𝕄 := redPts m c (shr r.val)

/-- Which array a DMA semaphore of the protocol lies in, and which slot it is. -/
def arrOf (q : DmaSem sig) : ℕ := (q.val - 2) / 31
def slotOf (q : DmaSem sig) : Fin 31 := ⟨(q.val - 2) % 31, Nat.mod_lt _ (by decide)⟩
theorem arrOf_dsem : ∀ (j : Fin 4) (r : Fin 31), arrOf (dsem j r) = j.val := by decide +kernel
theorem slotOf_dsem : ∀ (j : Fin 4) (r : Fin 31), slotOf (dsem j r) = r := by decide +kernel
theorem two_le_dsem : ∀ (j : Fin 4) (r : Fin 31), 2 ≤ (dsem j r).val := by decide +kernel

def dmaPay (c : Dev nD) (q : DmaSem sig) : sProp 𝕄 :=
  if 2 ≤ q.val then
    (if arrOf q = 0 then rsSendPay m c (slotOf q) else if arrOf q = 1 then rsRecvPay m c (slotOf q)
     else if arrOf q = 2 then agSendPay m c (slotOf q) else agRecvPay m c (slotOf q))
  else iprop(emp)

abbrev IsBar (g : GSem nD τ sig) : Prop := g.1.2 = .tc ∧ g.2 = .reg barS
abbrev IsXfer (g : GSem nD τ sig) : Prop := g.1.2 = .tc ∧ ∃ q : DmaSem sig, 2 ≤ q.val ∧ g.2 = .dma q

def sched : Rounds.Schedule (GSem nD τ sig) (Fin 31) 𝕄 where
  duties g r := if r = 0 ∧ IsBar g then Finset.univ else if r = 0 ∧ IsXfer g then {0} else ∅
  unitless _ := False
  amount g _ _ := if g.2 = .reg barS then 1 else N
  payload g _ d := match g.2 with
    | .reg s => if s = barS then barPay g.1.1 d else iprop(emp)
    | .dma q => dmaPay m g.1.1 q
  amount_pos g _ _ _ := by
    by_cases h : g.2 = .reg barS
    · rw [if_pos h]; exact Nat.one_pos
    · rw [if_neg h]; exact N_pos

instance sched_payload_storable (g : GSem nD τ sig) (r : ℕ) (d : Fin 31) :
    BI.Storable (upEmb : UEmb _ 𝕄) ((sched (F := F) m).payload g r d) := by
  obtain ⟨t, sm⟩ := g
  cases sm with
  | reg s =>
    show BI.Storable upEmb (if s = barS then barPay t.1 d else iprop(emp))
    unfold barPay slotPts outPts
    split <;> infer_instance
  | dma q =>
    show BI.Storable upEmb (dmaPay m t.1 q)
    unfold dmaPay rsSendPay rsRecvPay agSendPay agRecvPay stPts redPts slotPts outPts
    (repeat' split) <;> infer_instance

section Tables
variable (c : Dev nD) (j : Fin 4) (r : Fin 31)

abbrev dmaCell (c : Dev nD) (j : Fin 4) (r : Fin 31) : GSem nD τ sig := ((c : Thread nD τ), .dma (dsem j r))

theorem dma_ne_bar (q : DmaSem sig) : (SemLoc.dma q : SemLoc sig) ≠ .reg barS := fun h => by cases h
theorem not_bar_dma : ¬ IsBar (dmaCell c j r) := fun h => dma_ne_bar _ h.2
theorem isXfer_dma : IsXfer (dmaCell c j r) := ⟨rfl, dsem j r, two_le_dsem j r, rfl⟩

theorem duties_bar : (sched (F := F) m).duties (barCell c) 0 = Finset.univ := by dsimp only [sched]; exact if_pos ⟨rfl, rfl, rfl⟩
theorem duties_dma : (sched (F := F) m).duties (dmaCell c j r) 0 = {0} := by
  dsimp only [sched]; rw [if_neg (fun h => not_bar_dma c j r h.2)]; exact if_pos ⟨rfl, isXfer_dma c j r⟩
theorem duties_later (g : GSem nD τ sig) : ∀ r, 1 ≤ r → (sched (F := F) m).duties g r = ∅ :=
  fun r hr => by dsimp only [sched]; rw [if_neg fun h => by omega, if_neg fun h => by omega]

theorem amount_bar (d : Fin 31) : (sched (F := F) m).amount (barCell c) 0 d = 1 := by dsimp only [sched]; exact if_pos rfl
theorem amount_dma (d : Fin 31) : (sched (F := F) m).amount (dmaCell c j r) 0 d = N := by dsimp only [sched]; exact if_neg (dma_ne_bar _)

theorem expect_bar : (sched (F := F) m).expect (barCell c) 0 = 31 := by
  unfold Schedule.expect Schedule.amountOf
  rw [duties_bar, Finset.sum_congr rfl fun d _ => amount_bar m c d, Finset.sum_const, Finset.card_univ, Fintype.card_fin, smul_eq_mul]
theorem expect_dma : (sched (F := F) m).expect (dmaCell c j r) 0 = N := by
  unfold Schedule.expect Schedule.amountOf; rw [duties_dma, Finset.sum_singleton, amount_dma]

theorem payload_bar (d : Fin 31) : (sched (F := F) m).payload (barCell c) 0 d = barPay c d := by
  show (if barS = barS then barPay c d else iprop(emp)) = _
  rw [if_pos rfl]
theorem payload_dma (d : Fin 31) : (sched (F := F) m).payload (dmaCell c j r) 0 d = dmaPay m c (dsem j r) := rfl
theorem dmaPay_rsSend : dmaPay m c (rsSendS r) = rsSendPay m c r := by
  have h : arrOf (rsSendS r) = 0 := arrOf_dsem 0 r
  have h2 : slotOf (rsSendS r) = r := slotOf_dsem 0 r
  have h3 : 2 ≤ (rsSendS r).val := two_le_dsem 0 r
  unfold dmaPay; rw [if_pos h3, if_pos h, h2]
theorem dmaPay_rsRecv : dmaPay m c (rsRecvS r) = rsRecvPay m c r := by
  have h : arrOf (rsRecvS r) = 1 := arrOf_dsem 1 r
  have h2 : slotOf (rsRecvS r) = r := slotOf_dsem 1 r
  have h3 : 2 ≤ (rsRecvS r).val := two_le_dsem 1 r
  unfold dmaPay; rw [if_pos h3, if_neg (by rw [h]; decide), if_pos h, h2]
theorem dmaPay_agSend : dmaPay m c (agSendS r) = agSendPay m c r := by
  have h : arrOf (agSendS r) = 2 := arrOf_dsem 2 r
  have h2 : slotOf (agSendS r) = r := slotOf_dsem 2 r
  have h3 : 2 ≤ (agSendS r).val := two_le_dsem 2 r
  unfold dmaPay; rw [if_pos h3, if_neg (by rw [h]; decide), if_neg (by rw [h]; decide), if_pos h, h2]
theorem dmaPay_agRecv : dmaPay m c (agRecvS r) = agRecvPay m c r := by
  have h : arrOf (agRecvS r) = 3 := arrOf_dsem 3 r
  have h2 : slotOf (agRecvS r) = r := slotOf_dsem 3 r
  have h3 : 2 ≤ (agRecvS r).val := two_le_dsem 3 r
  unfold dmaPay; rw [if_pos h3, if_neg (by rw [h]; decide), if_neg (by rw [h]; decide), if_neg (by rw [h]; decide), h2]

/-- The whole of the barrier's round: every peer's slot and block. -/
theorem rest_bar : bigSep ((sched (F := F) m).duties (barCell c) 0 \ ∅) (fun d => (sched (F := F) m).payload (barCell c) 0 d)
    = bigSep Finset.univ (fun d : Fin 31 => barPay (F := F) c d) := by
  rw [Finset.sdiff_empty, duties_bar]
  exact bigSep_congr fun d _ => payload_bar m c d
theorem rest_dma : bigSep ((sched (F := F) m).duties (dmaCell c j r) 0 \ ∅) (fun d => (sched (F := F) m).payload (dmaCell c j r) 0 d)
    = dmaPay m c (dsem j r) := by
  rw [Finset.sdiff_empty, duties_dma, bigSep_singleton, payload_dma]

end Tables

/-! ## What each device owes at launch, as a list in paying order; the levels -/

/-- A list of (cell, units) as a tally. -/
def OL (l : List (GSem nD τ sig × ℕ)) : CellTallies nD τ sig Unit := (l.map fun p => tallyAt p.1 () p.2).sum
theorem OL_nil : OL ([] : List (GSem nD τ sig × ℕ)) = 0 := rfl
theorem OL_cons (p : GSem nD τ sig × ℕ) (l : List (GSem nD τ sig × ℕ)) : OL (p :: l) = OL l + tallyAt p.1 () p.2 := by
  unfold OL; rw [List.map_cons, List.sum_cons, add_comm]
theorem OL_pos {l : List (GSem nD τ sig × ℕ)} {g : GSem nD τ sig} {u : Unit} (h : 0 < OL l g u) : ∃ p ∈ l, g = p.1 := by
  induction l with
  | nil => exact absurd h (Nat.lt_irrefl 0)
  | cons p l ih =>
    rw [OL_cons, Pi.add_apply, Finsupp.add_apply, tallyAt_apply] at h
    by_cases hp : g = p.1 ∧ u = ()
    · exact ⟨p, List.mem_cons_self .., hp.1⟩
    · rw [if_neg hp, Nat.add_zero] at h
      obtain ⟨p', hp', e⟩ := ih h
      exact ⟨p', List.mem_cons_of_mem _ hp', e⟩

def sigItems (c : Dev nD) (k : ℕ) : List (GSem nD τ sig × ℕ) := ((List.finRange 31).drop k).map fun r => (barCell (peer c r), 1)
def rsItems (c : Dev nD) (k : ℕ) : List (GSem nD τ sig × ℕ) := ((List.finRange 31).drop k).map fun r => (rsRecvCell (peer c r) r, N)
def agItems (c : Dev nD) (k : ℕ) : List (GSem nD τ sig × ℕ) := ((List.finRange 31).drop k).map fun r => (agRecvCell (peer c r) r, N)

/-- Everything device `c` owes at launch. -/
def O₀ (c : Dev nD) : CellTallies nD τ sig Unit := OL (sigItems c 0 ++ rsItems c 0 ++ agItems c 0)

theorem drop_finRange (k : Fin 31) : (List.finRange 31).drop k.val = k :: (List.finRange 31).drop (k.val + 1) := by
  rw [List.drop_eq_getElem_cons (by rw [List.length_finRange]; exact k.2), List.getElem_finRange]; rfl
theorem sigItems_step (c : Dev nD) (k : Fin 31) : sigItems c k.val = (barCell (peer c k), 1) :: sigItems c (k.val + 1) := by
  unfold sigItems; rw [drop_finRange, List.map_cons]
theorem rsItems_step (c : Dev nD) (k : Fin 31) : rsItems c k.val = (rsRecvCell (peer c k) k, N) :: rsItems c (k.val + 1) := by
  unfold rsItems; rw [drop_finRange, List.map_cons]
theorem agItems_step (c : Dev nD) (k : Fin 31) : agItems c k.val = (agRecvCell (peer c k) k, N) :: agItems c (k.val + 1) := by
  unfold agItems; rw [drop_finRange, List.map_cons]
theorem sigItems_end (c : Dev nD) : sigItems c 31 = [] := by unfold sigItems; rw [List.drop_of_length_le (by rw [List.length_finRange])]; rfl
theorem rsItems_end (c : Dev nD) : rsItems c 31 = [] := by unfold rsItems; rw [List.drop_of_length_le (by rw [List.length_finRange])]; rfl
theorem agItems_end (c : Dev nD) : agItems c 31 = [] := by unfold agItems; rw [List.drop_of_length_le (by rw [List.length_finRange])]; rfl

def L (g : GSem nD τ sig) : Finset Unit := if g.1.2 = .tc then {()} else ∅
/-- barrier cells at 1, the reduce-scatter's receive cells at 2, the all-gather's at 3, everything else at 0. -/
def lv (g : GSem nD τ sig) (_ : Unit) : ℕ :=
  if g.2 = .reg barS then 1 else if ∃ r, g.2 = .dma (rsRecvS r) then 2 else if ∃ r, g.2 = .dma (agRecvS r) then 3 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := if_pos rfl
theorem rsRecv_ne_agRecv : ∀ r r' : Fin 31, rsRecvS r ≠ agRecvS r' := by decide +kernel
theorem lv_rsRecv (c : Dev nD) (r : Fin 31) (u : Unit) : lv (rsRecvCell c r) u = 2 := by
  unfold lv; rw [if_neg (dma_ne_bar _), if_pos ⟨r, rfl⟩]
theorem lv_agRecv (c : Dev nD) (r : Fin 31) (u : Unit) : lv (agRecvCell c r) u = 3 := by
  unfold lv; rw [if_neg (dma_ne_bar _), if_neg (fun ⟨r', h⟩ => rsRecv_ne_agRecv r' r (by injection h with h; exact h.symm)), if_pos ⟨r, rfl⟩]

end Cert.Kernel.Hand

end
-- ==== Proof.BitsData.lean ====
/-
  The proof data of the one grid point: what a device starts from, what it ends with, and the contents of the
  result's staging buffer after the body — block `b` (rows `16 b` onwards) holds device `b`'s reduced rows, the same
  on every device.
-/
import proofs.«900471_g7700000000000472_dist_rs_then_ag_i_m512_n512_v7x_i32_bf16_1_alg».proof.Proof.BitsSchedule
import Idealize.ShloMosaic.Lib.ValueIdx

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The result -/

theorem row_lt (i : S512x512.Idx) : (i 0).val < 512 := (i 0).isLt
theorem col_lt (i : S512x512.Idx) : (i 1).val < 512 := (i 1).isLt

/-- The result's staging buffer after the body: row `16 b + k` is row `k` of device `b`'s reduced block. -/
def outv : (cc0_stg1_0 : Ref sig .tc).ty.Contents (Elt F) := fun i =>
  redv m ⟨(i 0).val / 16, by have := row_lt i; show (i 0).val / 16 < 32; omega⟩
    (ValueIdx.ix2 (⟨(i 0).val % 16, Nat.mod_lt _ (by decide)⟩ : Fin 16) (⟨(i 1).val, col_lt i⟩ : Fin 512))

/-! ## Ghost state -/

section Ghost
variable (K : Dev nD × CK → ℕ)

/-- Every cell's invariant, under the names the launch allocated them at, and that every cell has reached its one
    round: persistent, shared by all devices. -/
def records : sProp 𝕄 :=
  iprop((bigSep Finset.univ fun ck : Dev nD × CK => cellInv ER (sched m) (K ck) (kcell ck))
    ∗ bigSep Finset.univ fun ck : Dev nD × CK => reached ER (kcell ck) 0)

instance records_persistent : BI.Persistent (records m K) := by unfold records; infer_instance

theorem inv_at' (ck : Dev nD × CK) :
    (bigSep Finset.univ fun ck : Dev nD × CK => (cellInv ER (sched m) (K ck) (kcell ck) : sProp 𝕄)) ⊢ cellInv ER (sched m) (K ck) (kcell ck) :=
  bigSep_elim (Finset.mem_univ ck)
theorem reached_at' (ck : Dev nD × CK) :
    (bigSep Finset.univ fun ck : Dev nD × CK => (reached ER (kcell ck) 0 : sProp 𝕄)) ⊢ reached ER (kcell ck) 0 :=
  bigSep_elim (Finset.mem_univ ck)
theorem inv_at (ck : Dev nD × CK) : records m K ⊢ cellInv ER (sched m) (K ck) (kcell ck) := by
  unfold records; iintro ⟨HI, -⟩; iapply (inv_at' m K ck); iexact HI
theorem reached_at (ck : Dev nD × CK) : records m K ⊢ (reached ER (kcell ck) 0 : sProp 𝕄) := by
  unfold records; iintro ⟨-, HR⟩; iapply (reached_at' (F := F) ck); iexact HR

/-- The tokens of the duties device `c` pays, slot by slot: its unit on `peer c r`'s barrier (that cell's duty
    `rev r`), its two copies' landings on `peer c r`, and the two send duties of its own. -/
def payTok (c : Dev nD) (r : Fin 31) : sProp 𝕄 :=
  iprop(dutyTok ER (barCell (peer c r)) 0 (rev r) ∗ dutyTok ER (rsRecvCell (peer c r) r) 0 0 ∗ dutyTok ER (agRecvCell (peer c r) r) 0 0
    ∗ dutyTok ER (rsSendCell c r) 0 0 ∗ dutyTok ER (agSendCell c r) 0 0)
def payToks (c : Dev nD) : sProp 𝕄 := bigSep Finset.univ fun r : Fin 31 => payTok (F := F) c r
/-- Its position at the start of the one round of each of its own cells. -/
def positions (c : Dev nD) : sProp 𝕄 := bigSep Finset.univ fun k : CK => atPos ER (kcell (c, k)) 0 ∅ 0

def ghost (c : Dev nD) : sProp 𝕄 := iprop(records m K ∗ positions (F := F) c ∗ payToks (F := F) c)

end Ghost

/-- The credit the launch deals device `c` for what the others owe its cells: 31 barrier units, and one block for
    each receive cell of either phase. -/
def creds (c : Dev nD) : sProp 𝕄 :=
  iprop(cred (tallyAt (barCell c) () 31)
    ∗ bigSep Finset.univ fun r : Fin 31 => iprop(cred (tallyAt (rsRecvCell c r) () N) ∗ cred (tallyAt (agRecvCell c r) () N)))

def start (c : Dev nD) : sProp 𝕄 := iprop((∃ K, ghost m K c) ∗ creds (F := F) c ∗ levAts L lv)

/-- The three scratch buffers, each whole at some contents. -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- The kernel's own DMA semaphores, by array and slot. -/
abbrev osem : Fin 4 × Fin 31 → SemLoc sig := fun jr => .dma (dsem jr.1 jr.2)

def Φ₀ (c : Dev nD) : sProp 𝕄 := iprop(start m c ∗ scr (F := F) c)
/-- After the point: the scratch buffers whole again, the 124 own cells closed at zero. -/
def Φ₁ (c : Dev nD) : sProp 𝕄 := iprop(scr (F := F) c ∗ bigSep Finset.univ fun jr : Fin 4 × Fin 31 => semVal (dmaCell c jr.1 jr.2) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outv m
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-! ## The body's pre and post, as the launch hands them over and takes them back -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × CK → ℕ) (c : Dev nD) : sProp 𝕄 :=
  iprop((ghost m K c ∗ creds (F := F) c ∗ levAts L lv ∗ scr (F := F) c)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ (F := F) c ∗ (dats m 0 c).owesAt () t₀.succ ∗ stg c cc0_stg0_0 (xstg m c) ∗ stg c cc0_stg1_0 (outv m))

/-- The body of device `c`, from its pre to its post: the statement the launch takes. -/
def SoundBody : Prop :=
  ∀ (K : Dev nD × CK → ℕ) (c : Dev nD) (Kt : PUnit → sProp 𝕄),
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6) Kt

end Cert.Kernel.Hand

end
-- ==== Proof.BitsSteps.lean ====
/-
  One rule per protocol operation, at a symbolic device `c` and a symbolic slot `k`: the barrier signal to `peer c k`,
  the barrier wait, the two copies to `peer c k`, and the wait on one of the device's own DMA cells.  Each takes the
  shared records and exactly the pieces it consumes, and peels one item off the list of what the device owes.
-/
import proofs.«900471_g7700000000000472_dist_rs_then_ag_i_m512_n512_v7x_i32_bf16_1_alg».proof.Proof.BitsData

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)

/-- Every copy of this kernel moves a 16 x 512 block of the narrower format: one credit, whatever the buffer. -/
theorem credit_any (v : View sig Kind.tc Space.vmem S16x512 .bf16) : v.dmaCredit = N := rfl
theorem one_toNat : (1#32 : BitVec 32).toNat = 1 := by decide
theorem tt_toNat : (31#32 : BitVec 32).toNat = 31 := by decide

/-! ## Waiting is allowed when all that is still owed lies strictly above the waited cell -/

theorem mayWait_of_levels (c : Dev nD) (sm : SemLoc sig) (l : List (GSem nD τ sig × ℕ)) (cut : ℕ)
    (hw : lv ((c : Thread nD τ), sm) () ≤ cut) (hl : ∀ p ∈ l, p.1.1.2 = .tc ∧ cut < lv p.1 ()) :
    (levAts L lv : sProp 𝕄) ⊢ MayWait (c : Thread nD τ) sm () (OL l) :=
  MayOwe.of_cut (L := L) (lev := lv) cut
    (fun p hp => by rw [Finset.mem_singleton.mp hp, L_tc]; exact Finset.mem_singleton_self _)
    (fun g u hg => by
      obtain ⟨p, hp, rfl⟩ := OL_pos hg
      unfold L; rw [if_pos (hl p hp).1]; exact Finset.mem_singleton_self _)
    (fun p hp => by rw [Finset.mem_singleton.mp hp]; exact hw)
    (fun g u hg => by obtain ⟨p, hp, rfl⟩ := OL_pos hg; exact (hl p hp).2)

theorem mem_rsItems {c : Dev nD} {k : ℕ} {p : GSem nD τ sig × ℕ} (h : p ∈ rsItems c k) : ∃ r : Fin 31, p = (rsRecvCell (peer c r) r, N) := by
  unfold rsItems at h; obtain ⟨r, -, rfl⟩ := List.mem_map.mp h; exact ⟨r, rfl⟩
theorem mem_agItems {c : Dev nD} {k : ℕ} {p : GSem nD τ sig × ℕ} (h : p ∈ agItems c k) : ∃ r : Fin 31, p = (agRecvCell (peer c r) r, N) := by
  unfold agItems at h; obtain ⟨r, -, rfl⟩ := List.mem_map.mp h; exact ⟨r, rfl⟩
theorem mem_sigItems {c : Dev nD} {k : ℕ} {p : GSem nD τ sig × ℕ} (h : p ∈ sigItems c k) : ∃ r : Fin 31, p = (barCell (peer c r), 1) := by
  unfold sigItems at h; obtain ⟨r, -, rfl⟩ := List.mem_map.mp h; exact ⟨r, rfl⟩

/-- At its barrier wait a device still owes its 62 copies: receive cells, above the barrier. -/
theorem mayWait_bar (c : Dev nD) : (levAts L lv : sProp 𝕄) ⊢ MayWait (c : Thread nD τ) (.reg barS) () (OL (rsItems c 0 ++ agItems c 0)) :=
  mayWait_of_levels c _ _ 1 (by rw [lv_bar]) (fun p hp => by
    rcases List.mem_append.mp hp with h | h
    · obtain ⟨r, rfl⟩ := mem_rsItems h; exact ⟨rfl, by rw [lv_rsRecv]; decide⟩
    · obtain ⟨r, rfl⟩ := mem_agItems h; exact ⟨rfl, by rw [lv_agRecv]; decide⟩)
/-- At a receive wait of the reduce-scatter it still owes the all-gather's copies only. -/
theorem mayWait_rsRecv (c : Dev nD) (r : Fin 31) : (levAts L lv : sProp 𝕄) ⊢ MayWait (c : Thread nD τ) (.dma (rsRecvS r)) () (OL (agItems c 0)) :=
  mayWait_of_levels c _ _ 2 (by rw [lv_rsRecv]) (fun p hp => by
    obtain ⟨r', rfl⟩ := mem_agItems hp; exact ⟨rfl, by rw [lv_agRecv]; decide⟩)
theorem mayWait_nil (c : Dev nD) (sm : SemLoc sig) : (levAts L lv : sProp 𝕄) ⊢ MayWait (c : Thread nD τ) sm () (OL []) := by
  rw [OL_nil, MayWait_zero]; iintro -; iempintro

/-! ## The signal to `peer c k`'s barrier: the device hands that peer its slot `rev k` and its block of the result -/

theorem step_signal (c : Dev nD) (k : Fin 31) (n : Dev nD) (hn : n = peer c k) (rest : List (GSem nD τ sig × ℕ)) (W : Waits sig Unit)
    {α : Type} {Q : α → sProp 𝕄} {cont : PUnit → Prog (TpuEff nD τ sig (Elt F) Λ₀ .tc) α} :
    iprop(records m K ∗ owes (c : Thread nD τ) (OL ((barCell (peer c k), 1) :: rest)) W ∗ dutyTok ER (barCell (peer c k)) 0 (rev k)
        ∗ (∃ f, slotPts c (rev k) f) ∗ (∃ f, outPts c (peer c k) f))
      ⊢ iprop((owes (c : Thread nD τ) (OL rest) W -∗ wp frame (wpE (defs₀ (F := F)) 𝒱₀ (c : Thread nD τ) none) Set.univ (cont ⟨⟩) Q)
          -∗ wp frame (wpE (defs₀ (F := F)) 𝒱₀ (c : Thread nD τ) none) Set.univ
              (.op (.semSignal ((n, .tc) : Thread nD τ) barS (1#32 : BitVec 32).toNat) cont) Q) := by
  subst hn
  iintro ⟨#HR, HO, Htok, Hs, Ho⟩
  iapply (Rounds.wp_signal 𝒱₀ ER (sched m) (c : Thread nD τ) none (dst := (peer c k : Thread nD τ)) (sem := barS) (κ := K (peer c k, none))
      (d := rev k) (by rw [duties_bar]; exact Finset.mem_univ _) ((amount_bar m (peer c k) (rev k)).trans one_toNat.symm) () (OL rest) (OL_cons (barCell (peer c k), 1) rest))
    $$ [HO Htok Hs Ho]
  · isplitr; · iapply (inv_at m K (peer c k, none)); iexact HR
    isplitl [HO]; · iexact HO
    isplitl [Htok]; · iexact Htok
    isplitl [Hs Ho]
    · rw [payload_bar]; unfold barPay; rw [peer_peer_rev]
      isplitl [Hs]; · iexact Hs
      iexact Ho
    · iapply (reached_at m K (peer c k, none)); iexact HR

/-! ## The barrier wait: every peer's slot and block of the result come with it -/

theorem step_barwait (c : Dev nD) (O : CellTallies nD τ sig Unit) (hO : (levAts L lv : sProp 𝕄) ⊢ MayWait (c : Thread nD τ) (.reg barS) () O)
    (W : Waits sig Unit) {α : Type} {Q : α → sProp 𝕄} {cont : PUnit → Prog (TpuEff nD τ sig (Elt F) Λ₀ .tc) α} :
    iprop(records m K ∗ levAts L lv ∗ cred (tallyAt (barCell c) () 31) ∗ owes (c : Thread nD τ) O W ∗ atPos ER (barCell c) 0 ∅ 0)
      ⊢ iprop((iprop(owes (c : Thread nD τ) O (insert (SemLoc.reg barS, ()) W) ∗ atPos ER (barCell c) (0 + 1) ∅ 0
              ∗ bigSep Finset.univ (fun d : Fin 31 => barPay (F := F) c d))
            -∗ wp frame (wpE (defs₀ (F := F)) 𝒱₀ (c : Thread nD τ) none) Set.univ (cont ⟨⟩) Q)
          -∗ wp frame (wpE (defs₀ (F := F)) 𝒱₀ (c : Thread nD τ) none) Set.univ (.op (.semWait barS (31#32 : BitVec 32).toNat) cont) Q) := by
  iintro ⟨#HR, #Hlev, Hc, HO, Hat⟩
  iintro Hk
  iapply (Rounds.wp_wait_rest_token 𝒱₀ ER (sched m) (c : Thread nD τ) none (κ := K (c, none))
      (wpE_semWait_eq 𝒱₀ (c : Thread nD τ) none Set.univ) (Set.mem_univ _) () (O := O) (W := W) (R := 0) (m := 0) (T := ∅)
      (by rw [expect_bar, tt_toNat])) $$ [Hc HO Hat]
  · isplitr; · iapply (inv_at m K (c, none)); iexact HR
    isplitl [Hc]; · iexact Hc
    isplitl [HO]; · iexact HO
    isplitr; · iapply hO; iexact Hlev
    iexact Hat
  iintro ⟨HO, Hat, -, Hpay⟩
  iapply Hk
  isplitl [HO]; · iexact HO
  isplitl [Hat]; · iexact Hat
  iapply (Entails.of_eq (rest_bar m c)); iexact Hpay

/-! ## The wait on one of the device's own DMA cells: the cell's one payload comes with it -/

theorem step_dma_wait (c : Dev nD) (j : Fin 4) (k : Fin 31) (O : CellTallies nD τ sig Unit)
    (hO : (levAts L lv : sProp 𝕄) ⊢ MayWait (c : Thread nD τ) (.dma (dsem j k)) () O) (W : Waits sig Unit)
    {w : TpuEff nD τ sig (Elt F) Λ₀ .tc PUnit} {k' : ℕ}
    (hw : ∀ (K' : PUnit → sProp 𝕄), (wpE (defs₀ (F := F)) 𝒱₀ (c : Thread nD τ) none Set.univ w) K' = (waitSpec (c : Thread nD τ) Set.univ (.dma (dsem j k)) k') K')
    (hk : k' = N)
    {α : Type} {Q : α → sProp 𝕄} {cont : PUnit → Prog (TpuEff nD τ sig (Elt F) Λ₀ .tc) α} :
    iprop(records m K ∗ levAts L lv ∗ cred (tallyAt (dmaCell c j k) () N) ∗ owes (c : Thread nD τ) O W ∗ atPos ER (dmaCell c j k) 0 ∅ 0)
      ⊢ iprop((iprop(owes (c : Thread nD τ) O (insert (SemLoc.dma (dsem j k), ()) W) ∗ atPos ER (dmaCell c j k) (0 + 1) ∅ 0 ∗ dmaPay m c (dsem j k))
            -∗ wp frame (wpE (defs₀ (F := F)) 𝒱₀ (c : Thread nD τ) none) Set.univ (cont ⟨⟩) Q)
          -∗ wp frame (wpE (defs₀ (F := F)) 𝒱₀ (c : Thread nD τ) none) Set.univ (.op w cont) Q) := by
  subst hk
  iintro ⟨#HR, #Hlev, Hc, HO, Hat⟩
  iintro Hk
  iapply (Rounds.wp_wait_rest_token 𝒱₀ ER (sched m) (c : Thread nD τ) none (κ := K (c, some (j, k)))
      hw (Set.mem_univ _) () (O := O) (W := W) (R := 0) (m := 0) (T := ∅)
      (by rw [Nat.zero_add]; exact (expect_dma m c j k).symm)) $$ [Hc HO Hat]
  · isplitr; · iapply (inv_at m K (c, some (j, k))); iexact HR
    isplitl [Hc]; · iexact Hc
    isplitl [HO]; · iexact HO
    isplitr; · iapply hO; iexact Hlev
    iexact Hat
  iintro ⟨HO, Hat, -, Hpay⟩
  iapply Hk
  isplitl [HO]; · iexact HO
  isplitl [Hat]; · iexact Hat
  iapply (Entails.of_eq (rest_dma m c j k)); iexact Hpay

/-! ## The reduce-scatter's copy to `peer c k`: rows `16 * peer c k` onwards of the staging copy into that peer's slot `k` -/

theorem step_rs_send (c : Dev nD) (k : Fin 31) (n : Dev nD) (hn : n = peer c k) (rest : List (GSem nD τ sig × ℕ)) (W : Waits sig Unit)
    {hsc : (slotM k : Memref sig (Dev.tc n : Thread nD τ).2.kind .vmem S16x512 .bf16).view.ref.isScScratch = false}
    {hsrc : (stSlice c k).view.WordExact} {hdst : (slotM k).view.WordExact}
    {hsem : DmaTarget.Typed .vmem (.dma (rsRecvS k)) (.remote (Dev.tc n : Thread nD τ) (slotM k) (.dma (rsSendS k)) hsc)}
    {α : Type} {Q : α → sProp 𝕄} {cont : PUnit → Prog (TpuEff nD τ sig (Elt F) Λ₀ .tc) α}
    (fn : Buf (Elt F) ((slotM k).view.loc (peer c k : Thread nD τ))) :
    iprop(records m K ∗ stPts m c k ∗ slotPts (peer c k) k fn
        ∗ owes (c : Thread nD τ) (OL ((rsRecvCell (peer c k) k, N) :: rest)) W
        ∗ dutyTok ER (rsSendCell c k) 0 0 ∗ dutyTok ER (rsRecvCell (peer c k) k) 0 0)
      ⊢ iprop(((cred (tallyAt (rsSendCell c k) () N) ∗ owes (c : Thread nD τ) (OL rest) W)
            -∗ wp frame (wpE (defs₀ (F := F)) 𝒱₀ (c : Thread nD τ) none) Set.univ (cont ⟨⟩) Q)
          -∗ wp frame (wpE (defs₀ (F := F)) 𝒱₀ (c : Thread nD τ) none) Set.univ
              (.op (.enqueueDma (stSlice c k) (.remote (Dev.tc n : Thread nD τ) (slotM k) (.dma (rsSendS k)) hsc) (.dma (rsRecvS k)) hsrc hdst hsem) cont) Q) := by
  subst hn
  iintro ⟨#HR, Hst, Hsl, HO, Ht1, Ht2⟩
  unfold stPts slotPts
  iapply (Rounds.wp_send_pointsTo 𝒱₀ ER (sched m) (c : Thread nD τ) none (κ₁ := K (c, some (0, k))) (κ₂ := K (peer c k, some (1, k)))
    (src := stSlice c k) (dst := slotM k) (c' := (peer c k : Thread nD τ)) (sS := .dma (rsSendS k)) (sem := .dma (rsRecvS k)) (q := fullShare) (fs := stagev m c)
    (r₁ := 0) (r₂ := 0) (d₁ := 0) (d₂ := 0) (fd := fn)
    (by show (0 : Fin 31) ∈ (sched m).duties (dmaCell c 0 k) 0; rw [duties_dma]; exact Finset.mem_singleton_self _)
    (by show (0 : Fin 31) ∈ (sched m).duties (dmaCell (peer c k) 1 k) 0; rw [duties_dma]; exact Finset.mem_singleton_self _)
    () () N (credit_any _) (amount_dma m c 0 k 0) (amount_dma m (peer c k) 1 k 0) (OL rest) (OL_cons (rsRecvCell (peer c k) k, N) rest) (W := W)
    (by show _ ⊢ dmaPay m c (rsSendS k); rw [dmaPay_rsSend]; unfold rsSendPay stPts; exact BI.Entails.refl _)
    (by show _ ⊢ dmaPay m (peer c k) (rsRecvS k); rw [dmaPay_rsRecv]; unfold rsRecvPay slotPts sentv; rw [srcd_peer]
        iintro H; iexists fn; iexact H)) $$ [Hst Hsl HO Ht1 Ht2]
  isplitr; · iapply (inv_at m K (c, some (0, k))); iexact HR
  isplitr; · iapply (inv_at m K (peer c k, some (1, k))); iexact HR
  isplitl [Hst]; · iexact Hst
  isplitl [Hsl]; · iexact Hsl
  isplitl [HO]; · iexact HO
  isplitl [Ht1]; · iexact Ht1
  isplitr; · iapply (reached_at m K (c, some (0, k))); iexact HR
  isplitl [Ht2]; · iexact Ht2
  iapply (reached_at m K (peer c k, some (1, k))); iexact HR

/-! ## The all-gather's copy to `peer c k`: the reduced block, read at the `k`-th share, into block `c` of that peer's result buffer -/

theorem step_ag_send (c : Dev nD) (k : Fin 31) (n : Dev nD) (hn : n = peer c k) (rest : List (GSem nD τ sig × ℕ)) (W : Waits sig Unit)
    {hsc : (outSlice c : Memref sig (Dev.tc n : Thread nD τ).2.kind .vmem S16x512 .bf16).view.ref.isScScratch = false}
    {hsrc : (redM : Memref sig .tc .vmem S16x512 .bf16).view.WordExact} {hdst : (outSlice c).view.WordExact}
    {hsem : DmaTarget.Typed .vmem (.dma (agRecvS k)) (.remote (Dev.tc n : Thread nD τ) (outSlice c) (.dma (agSendS k)) hsc)}
    {α : Type} {Q : α → sProp 𝕄} {cont : PUnit → Prog (TpuEff nD τ sig (Elt F) Λ₀ .tc) α}
    (fn : Buf (Elt F) ((outSlice c).view.loc (peer c k : Thread nD τ))) :
    iprop(records m K ∗ redPts m c (shr k.val) ∗ outPts (peer c k) c fn
        ∗ owes (c : Thread nD τ) (OL ((agRecvCell (peer c k) k, N) :: rest)) W
        ∗ dutyTok ER (agSendCell c k) 0 0 ∗ dutyTok ER (agRecvCell (peer c k) k) 0 0)
      ⊢ iprop(((cred (tallyAt (agSendCell c k) () N) ∗ owes (c : Thread nD τ) (OL rest) W)
            -∗ wp frame (wpE (defs₀ (F := F)) 𝒱₀ (c : Thread nD τ) none) Set.univ (cont ⟨⟩) Q)
          -∗ wp frame (wpE (defs₀ (F := F)) 𝒱₀ (c : Thread nD τ) none) Set.univ
              (.op (.enqueueDma redM (.remote (Dev.tc n : Thread nD τ) (outSlice c) (.dma (agSendS k)) hsc) (.dma (agRecvS k)) hsrc hdst hsem) cont) Q) := by
  subst hn
  iintro ⟨#HR, Hst, Hsl, HO, Ht1, Ht2⟩
  unfold redPts outPts
  iapply (Rounds.wp_send_pointsTo 𝒱₀ ER (sched m) (c : Thread nD τ) none (κ₁ := K (c, some (2, k))) (κ₂ := K (peer c k, some (3, k)))
    (src := redM) (dst := outSlice c) (c' := (peer c k : Thread nD τ)) (sS := .dma (agSendS k)) (sem := .dma (agRecvS k)) (q := shr k.val) (fs := redv m c)
    (r₁ := 0) (r₂ := 0) (d₁ := 0) (d₂ := 0) (fd := fn)
    (by show (0 : Fin 31) ∈ (sched m).duties (dmaCell c 2 k) 0; rw [duties_dma]; exact Finset.mem_singleton_self _)
    (by show (0 : Fin 31) ∈ (sched m).duties (dmaCell (peer c k) 3 k) 0; rw [duties_dma]; exact Finset.mem_singleton_self _)
    () () N (credit_any _) (amount_dma m c 2 k 0) (amount_dma m (peer c k) 3 k 0) (OL rest) (OL_cons (agRecvCell (peer c k) k, N) rest) (W := W)
    (by show _ ⊢ dmaPay m c (agSendS k); rw [dmaPay_agSend]; unfold agSendPay redPts; exact BI.Entails.refl _)
    (by show _ ⊢ dmaPay m (peer c k) (agRecvS k); rw [dmaPay_agRecv]; unfold agRecvPay outPts; rw [srcd_peer]
        iintro H; iexists fn; iexact H)) $$ [Hst Hsl HO Ht1 Ht2]
  isplitr; · iapply (inv_at m K (c, some (2, k))); iexact HR
  isplitr; · iapply (inv_at m K (peer c k, some (3, k))); iexact HR
  isplitl [Hst]; · iexact Hst
  isplitl [Hsl]; · iexact Hsl
  isplitl [HO]; · iexact HO
  isplitl [Ht1]; · iexact Ht1
  isplitr; · iapply (reached_at m K (c, some (2, k))); iexact HR
  isplitl [Ht2]; · iexact Ht2
  iapply (reached_at m K (peer c k, some (3, k))); iexact HR

end Cert.Kernel.Hand

end
-- ==== Proof.BitsPieces.lean ====
/-
  Bookkeeping for a phase of 31 steps, one per slot: the pieces of the slots not yet reached (`fromK k`) and the
  pieces produced by the slots already done (`belowK k`), each advanced one slot at a time.
-/
import proofs.«900471_g7700000000000472_dist_rs_then_ag_i_m512_n512_v7x_i32_bf16_1_alg».proof.Proof.BitsSteps

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The pieces of the slots `k, k + 1, …, 30`. -/
def fromK (k : ℕ) (Φ : Fin 31 → sProp 𝕄) : sProp 𝕄 := bigSep (Finset.univ.filter fun r : Fin 31 => k ≤ r.val) Φ
/-- The pieces of the slots `0, …, k - 1`. -/
def belowK (k : ℕ) (Φ : Fin 31 → sProp 𝕄) : sProp 𝕄 := bigSep (Finset.univ.filter fun r : Fin 31 => r.val < k) Φ

theorem fromK_zero (Φ : Fin 31 → sProp 𝕄) : fromK 0 Φ = bigSep Finset.univ Φ := by
  unfold fromK; rw [Finset.filter_true_of_mem fun (r : Fin 31) _ => Nat.zero_le _]
theorem belowK_end (Φ : Fin 31 → sProp 𝕄) : belowK 31 Φ = bigSep Finset.univ Φ := by
  unfold belowK; rw [Finset.filter_true_of_mem fun (r : Fin 31) _ => r.2]
theorem fromK_end (Φ : Fin 31 → sProp 𝕄) : fromK 31 Φ = iprop(emp) := by
  unfold fromK; rw [Finset.filter_false_of_mem fun (r : Fin 31) _ => by have := r.2; omega]; exact bigSep_empty
theorem belowK_zero (Φ : Fin 31 → sProp 𝕄) : belowK 0 Φ = iprop(emp) := by
  unfold belowK; rw [Finset.filter_false_of_mem fun (r : Fin 31) _ => Nat.not_lt_zero _]; exact bigSep_empty

theorem fromK_step (k : Fin 31) (Φ : Fin 31 → sProp 𝕄) : fromK k.val Φ = iprop(Φ k ∗ fromK (k.val + 1) Φ) := by
  unfold fromK
  have hs : (Finset.univ.filter fun r : Fin 31 => k.val ≤ r.val) = insert k (Finset.univ.filter fun r : Fin 31 => k.val + 1 ≤ r.val) := by
    ext r; simp only [Finset.mem_filter, Finset.mem_univ, true_and, Finset.mem_insert]
    constructor
    · intro h; by_cases e : r = k
      · exact Or.inl e
      · exact Or.inr (by have : r.val ≠ k.val := fun h' => e (Fin.ext h'); omega)
    · rintro (rfl | h)
      · exact Nat.le_refl _
      · omega
  rw [hs, bigSep_insert (by simp only [Finset.mem_filter, Finset.mem_univ, true_and]; omega)]
  rfl
theorem belowK_step (k : Fin 31) (Φ : Fin 31 → sProp 𝕄) : belowK (k.val + 1) Φ = iprop(Φ k ∗ belowK k.val Φ) := by
  unfold belowK
  have hs : (Finset.univ.filter fun r : Fin 31 => r.val < k.val + 1) = insert k (Finset.univ.filter fun r : Fin 31 => r.val < k.val) := by
    ext r; simp only [Finset.mem_filter, Finset.mem_univ, true_and, Finset.mem_insert]
    constructor
    · intro h; by_cases e : r = k
      · exact Or.inl e
      · exact Or.inr (by have : r.val ≠ k.val := fun h' => e (Fin.ext h'); omega)
    · rintro (rfl | h)
      · exact Nat.lt_succ_self _
      · omega
  rw [hs, bigSep_insert (by simp only [Finset.mem_filter, Finset.mem_univ, true_and]; omega)]
  rfl

variable (m : (ℓ : Loc nD τ sig) → Buf (Elt F) ℓ) (K : Dev nD × CK → ℕ)

/-- What the device owes, at some set of cells already waited on. -/
def owesX (c : Dev nD) (O : CellTallies nD τ sig Unit) : sProp 𝕄 := iprop(∃ W : Waits sig Unit, owes (c : Thread nD τ) O W)

/-! ## Phase 1: the 31 barrier signals -/

/-- What the signal to `peer c r` consumes. -/
def sigIn (c : Dev nD) (r : Fin 31) : sProp 𝕄 :=
  iprop(dutyTok ER (barCell (peer c r)) 0 (rev r) ∗ (∃ f, slotPts (F := F) c (rev r) f) ∗ (∃ f, outPts (F := F) c (peer c r) f))

theorem sig_step (c : Dev nD) (k : Fin 31) (n : Dev nD) (hn : n = peer c k) (more : List (GSem nD τ sig × ℕ))
    {α : Type} {Q : α → sProp 𝕄} {cont : PUnit → Prog (TpuEff nD τ sig (Elt F) Λ₀ .tc) α} :
    iprop(records m K ∗ owesX (F := F) c (OL (sigItems c k.val ++ more)) ∗ fromK k.val (sigIn (F := F) c))
      ⊢ iprop((iprop(owesX (F := F) c (OL (sigItems c (k.val + 1) ++ more)) ∗ fromK (k.val + 1) (sigIn (F := F) c))
            -∗ wp frame (wpE (defs₀ (F := F)) 𝒱₀ (c : Thread nD τ) none) Set.univ (cont ⟨⟩) Q)
          -∗ wp frame (wpE (defs₀ (F := F)) 𝒱₀ (c : Thread nD τ) none) Set.univ
              (.op (.semSignal ((n, .tc) : Thread nD τ) barS (1#32 : BitVec 32).toNat) cont) Q) := by
  rw [fromK_step k, sigItems_step c k, List.cons_append]
  unfold owesX sigIn
  iintro ⟨#HR, ⟨%W, HO⟩, ⟨Htok, Hs, Ho⟩, Hrest⟩
  iintro Hk
  iapply (step_signal m K c k n hn (sigItems c (k.val + 1) ++ more) W) $$ [HO Htok Hs Ho]
  · isplitr; · iexact HR
    isplitl [HO]; · iexact HO
    isplitl [Htok]; · iexact Htok
    isplitl [Hs]; · iexact Hs
    iexact Ho
  iintro HO
  iapply Hk
  isplitl [HO]; · iexists W; iexact HO
  iexact Hrest

end Cert.Kernel.Hand

end
-- ==== Proof.BitsPhases.lean ====
/-
  The seven 31-step phases of the body, each as one rule that advances it by a slot: what the step consumes moves
  out of the pieces still to come, what it produces joins the pieces already made.
-/
import proofs.«900471_g7700000000000472_dist_rs_then_ag_i_m512_n512_v7x_i32_bf16_1_alg».proof.Proof.BitsPieces

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)

/-! ## The barrier wait -/

theorem bar_step (c : Dev nD) {α : Type} {Q : α → sProp 𝕄} {cont : PUnit → Prog (TpuEff nD τ sig (Elt F) Λ₀ .tc) α} :
    iprop(records m K ∗ levAts L lv ∗ cred (tallyAt (barCell c) () 31) ∗ owesX (F := F) c (OL (rsItems c 0 ++ agItems c 0)) ∗ atPos ER (barCell c) 0 ∅ 0)
      ⊢ iprop((iprop(owesX (F := F) c (OL (rsItems c 0 ++ agItems c 0)) ∗ atPos ER (barCell c) (0 + 1) ∅ 0
              ∗ bigSep Finset.univ (fun d : Fin 31 => barPay (F := F) c d))
            -∗ wp frame (wpE (defs₀ (F := F)) 𝒱₀ (c : Thread nD τ) none) Set.univ (cont ⟨⟩) Q)
          -∗ wp frame (wpE (defs₀ (F := F)) 𝒱₀ (c : Thread nD τ) none) Set.univ (.op (.semWait barS (31#32 : BitVec 32).toNat) cont) Q) := by
  unfold owesX
  iintro ⟨#HR, #Hlev, Hc, ⟨%W, HO⟩, Hat⟩
  iintro Hk
  iapply (step_barwait m K c _ (mayWait_bar c) W) $$ [Hc HO Hat]
  · isplitr; · iexact HR
    isplitr; · iexact Hlev
    isplitl [Hc]; · iexact Hc
    isplitl [HO]; · iexact HO
    iexact Hat
  iintro ⟨HO, Hat, Hpay⟩
  iapply Hk
  isplitl [HO]; · iexists _; iexact HO
  isplitl [Hat]; · iexact Hat
  iexact Hpay

/-! ## The reduce-scatter's 31 copies -/

def rsIn (c : Dev nD) (r : Fin 31) : sProp 𝕄 :=
  iprop(stPts m c r ∗ (∃ fn, slotPts (F := F) (peer c r) r fn) ∗ dutyTok ER (rsSendCell c r) 0 0 ∗ dutyTok ER (rsRecvCell (peer c r) r) 0 0)
def rsOut (c : Dev nD) (r : Fin 31) : sProp 𝕄 := cred (tallyAt (rsSendCell c r) () N)

theorem rs_step (c : Dev nD) (k : Fin 31) (n : Dev nD) (hn : n = peer c k) (more : List (GSem nD τ sig × ℕ))
    {hsc : (slotM k : Memref sig (Dev.tc n : Thread nD τ).2.kind .vmem S16x512 .bf16).view.ref.isScScratch = false}
    {hsrc : (stSlice c k).view.WordExact} {hdst : (slotM k).view.WordExact}
    {hsem : DmaTarget.Typed .vmem (.dma (rsRecvS k)) (.remote (Dev.tc n : Thread nD τ) (slotM k) (.dma (rsSendS k)) hsc)}
    {α : Type} {Q : α → sProp 𝕄} {cont : PUnit → Prog (TpuEff nD τ sig (Elt F) Λ₀ .tc) α} :
    iprop(records m K ∗ owesX (F := F) c (OL (rsItems c k.val ++ more)) ∗ fromK k.val (rsIn m c) ∗ belowK k.val (rsOut (F := F) c))
      ⊢ iprop((iprop(owesX (F := F) c (OL (rsItems c (k.val + 1) ++ more)) ∗ fromK (k.val + 1) (rsIn m c) ∗ belowK (k.val + 1) (rsOut (F := F) c))
            -∗ wp frame (wpE (defs₀ (F := F)) 𝒱₀ (c : Thread nD τ) none) Set.univ (cont ⟨⟩) Q)
          -∗ wp frame (wpE (defs₀ (F := F)) 𝒱₀ (c : Thread nD τ) none) Set.univ
              (.op (.enqueueDma (stSlice c k) (.remote (Dev.tc n : Thread nD τ) (slotM k) (.dma (rsSendS k)) hsc) (.dma (rsRecvS k)) hsrc hdst hsem) cont) Q) := by
  rw [fromK_step k, belowK_step k, rsItems_step c k, List.cons_append]
  unfold owesX rsIn rsOut
  iintro ⟨#HR, ⟨%W, HO⟩, ⟨⟨Hst, ⟨%fn, Hsl⟩, Ht1, Ht2⟩, Hrest⟩, Hbelow⟩
  iintro Hk
  iapply (step_rs_send m K c k n hn (rsItems c (k.val + 1) ++ more) W fn) $$ [Hst Hsl HO Ht1 Ht2]
  · isplitr; · iexact HR
    isplitl [Hst]; · iexact Hst
    isplitl [Hsl]; · iexact Hsl
    isplitl [HO]; · iexact HO
    isplitl [Ht1]; · iexact Ht1
    iexact Ht2
  iintro ⟨Hc, HO⟩
  iapply Hk
  isplitl [HO]; · iexists W; iexact HO
  isplitl [Hrest]; · iexact Hrest
  isplitl [Hc]; · iexact Hc
  iexact Hbelow

/-! ## The all-gather's 31 copies -/

def agIn (c : Dev nD) (r : Fin 31) : sProp 𝕄 :=
  iprop(redPts m c (shr r.val) ∗ (∃ fn, outPts (F := F) (peer c r) c fn) ∗ dutyTok ER (agSendCell c r) 0 0 ∗ dutyTok ER (agRecvCell (peer c r) r) 0 0)
def agOut (c : Dev nD) (r : Fin 31) : sProp 𝕄 := cred (tallyAt (agSendCell c r) () N)

theorem ag_step (c : Dev nD) (k : Fin 31) (n : Dev nD) (hn : n = peer c k) (more : List (GSem nD τ sig × ℕ))
    {hsc : (outSlice c : Memref sig (Dev.tc n : Thread nD τ).2.kind .vmem S16x512 .bf16).view.ref.isScScratch = false}
    {hsrc : (redM : Memref sig .tc .vmem S16x512 .bf16).view.WordExact} {hdst : (outSlice c).view.WordExact}
    {hsem : DmaTarget.Typed .vmem (.dma (agRecvS k)) (.remote (Dev.tc n : Thread nD τ) (outSlice c) (.dma (agSendS k)) hsc)}
    {α : Type} {Q : α → sProp 𝕄} {cont : PUnit → Prog (TpuEff nD τ sig (Elt F) Λ₀ .tc) α} :
    iprop(records m K ∗ owesX (F := F) c (OL (agItems c k.val ++ more)) ∗ fromK k.val (agIn m c) ∗ belowK k.val (agOut (F := F) c))
      ⊢ iprop((iprop(owesX (F := F) c (OL (agItems c (k.val + 1) ++ more)) ∗ fromK (k.val + 1) (agIn m c) ∗ belowK (k.val + 1) (agOut (F := F) c))
            -∗ wp frame (wpE (defs₀ (F := F)) 𝒱₀ (c : Thread nD τ) none) Set.univ (cont ⟨⟩) Q)
          -∗ wp frame (wpE (defs₀ (F := F)) 𝒱₀ (c : Thread nD τ) none) Set.univ
              (.op (.enqueueDma redM (.remote (Dev.tc n : Thread nD τ) (outSlice c) (.dma (agSendS k)) hsc) (.dma (agRecvS k)) hsrc hdst hsem) cont) Q) := by
  rw [fromK_step k, belowK_step k, agItems_step c k, List.cons_append]
  unfold owesX agIn agOut
  iintro ⟨#HR, ⟨%W, HO⟩, ⟨⟨Hst, ⟨%fn, Hsl⟩, Ht1, Ht2⟩, Hrest⟩, Hbelow⟩
  iintro Hk
  iapply (step_ag_send m K c k n hn (agItems c (k.val + 1) ++ more) W fn) $$ [Hst Hsl HO Ht1 Ht2]
  · isplitr; · iexact HR
    isplitl [Hst]; · iexact Hst
    isplitl [Hsl]; · iexact Hsl
    isplitl [HO]; · iexact HO
    isplitl [Ht1]; · iexact Ht1
    iexact Ht2
  iintro ⟨Hc, HO⟩
  iapply Hk
  isplitl [HO]; · iexists W; iexact HO
  isplitl [Hrest]; · iexact Hrest
  isplitl [Hc]; · iexact Hc
  iexact Hbelow

/-! ## A phase of 31 waits on the cells of one array -/

def waitIn (j : Fin 4) (c : Dev nD) (r : Fin 31) : sProp 𝕄 :=
  iprop(cred (tallyAt (dmaCell c j r) () N) ∗ atPos ER (dmaCell c j r) 0 ∅ 0)
def waitOut (j : Fin 4) (c : Dev nD) (r : Fin 31) : sProp 𝕄 :=
  iprop(atPos ER (dmaCell c j r) (0 + 1) ∅ 0 ∗ dmaPay m c (dsem j r))

theorem wait_step (c : Dev nD) (j : Fin 4) (k : Fin 31) (O : CellTallies nD τ sig Unit)
    (hO : (levAts L lv : sProp 𝕄) ⊢ MayWait (c : Thread nD τ) (.dma (dsem j k)) () O)
    {w : TpuEff nD τ sig (Elt F) Λ₀ .tc PUnit} {k' : ℕ}
    (hw : ∀ (K' : PUnit → sProp 𝕄), (wpE (defs₀ (F := F)) 𝒱₀ (c : Thread nD τ) none Set.univ w) K' = (waitSpec (c : Thread nD τ) Set.univ (.dma (dsem j k)) k') K')
    (hk : k' = N)
    {α : Type} {Q : α → sProp 𝕄} {cont : PUnit → Prog (TpuEff nD τ sig (Elt F) Λ₀ .tc) α} :
    iprop(records m K ∗ levAts L lv ∗ owesX (F := F) c O ∗ fromK k.val (waitIn (F := F) j c) ∗ belowK k.val (waitOut m j c))
      ⊢ iprop((iprop(owesX (F := F) c O ∗ fromK (k.val + 1) (waitIn (F := F) j c) ∗ belowK (k.val + 1) (waitOut m j c))
            -∗ wp frame (wpE (defs₀ (F := F)) 𝒱₀ (c : Thread nD τ) none) Set.univ (cont ⟨⟩) Q)
          -∗ wp frame (wpE (defs₀ (F := F)) 𝒱₀ (c : Thread nD τ) none) Set.univ (.op w cont) Q) := by
  rw [fromK_step k, belowK_step k]
  unfold owesX waitIn waitOut
  iintro ⟨#HR, #Hlev, ⟨%W, HO⟩, ⟨⟨Hc, Hat⟩, Hrest⟩, Hbelow⟩
  iintro Hk
  iapply (step_dma_wait m K c j k O hO W hw hk) $$ [Hc HO Hat]
  · isplitr; · iexact HR
    isplitr; · iexact Hlev
    isplitl [Hc]; · iexact Hc
    isplitl [HO]; · iexact HO
    iexact Hat
  iintro ⟨HO, Hat, Hpay⟩
  iapply Hk
  isplitl [HO]; · iexists _; iexact HO
  isplitl [Hrest]; · iexact Hrest
  isplitl [Hat Hpay]
  · isplitl [Hat]; · iexact Hat
    iexact Hpay
  iexact Hbelow

end Cert.Kernel.Hand

end
-- ==== Proof.BitsPartsA.lean ====
/-
  Parts 2 to 5 of the body: the barrier signals to the peers of slots 5 to 28.
-/
import proofs.«900471_g7700000000000472_dist_rs_then_ag_i_m512_n512_v7x_i32_bf16_1_alg».proof.Proof.BitsPhases

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev barArr : Sems sig S_ := SemArray.scalar (sig.barrier 0 rfl)

variable (m : (ℓ : Loc nD τ sig) → Buf (Elt F) ℓ) (K : Dev nD × CK → ℕ)

set_option maxHeartbeats 1600000 in
theorem exec_part2 (c : Dev nD) (v2 : BitVec 32) (v24 : BitVec 32) (c32_i32_20 : BitVec 32) (more : List (GSem nD τ sig × ℕ))
    {Q : (Σ' (v48 : BitVec 32), BitVec 32) → sProp 𝕄} :
    iprop(records m K ∗ owesX (F := F) c (OL (sigItems c 5 ++ more)) ∗ fromK 5 (sigIn (F := F) c))
      ⊢ iprop((∀ a, iprop(owesX (F := F) c (OL (sigItems c 11 ++ more)) ∗ fromK 11 (sigIn (F := F) c)) -∗ Q a)
          -∗ wp frame (wpE (defs₀ (F := F)) 𝒱₀ (c : Thread nD τ) none) Set.univ (k0_part2 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 barArr v24 c32_i32_20) Q) := by
  simp only [k0_part2_eq_skeleton]; unfold k0_part2_skel
  simp only [semSignalWord, semWaitWord, Prog.lift, Prog.bind_op, Prog.bind_ret, Prog.pure_eq_ret]
  iintro ⟨#HR, HO, H1⟩
  iintro Hk
  iapply (sig_step m K c 5 _ (dev6_eq c) more) $$ [HO H1]
  · isplitr; · iexact HR
    isplitl [HO]; · iexact HO
    iexact H1
  iintro ⟨HO, H1⟩
  iapply (sig_step m K c 6 _ (dev7_eq c) more) $$ [HO H1]
  · isplitr; · iexact HR
    isplitl [HO]; · iexact HO
    iexact H1
  iintro ⟨HO, H1⟩
  iapply (sig_step m K c 7 _ (dev8_eq c) more) $$ [HO H1]
  · isplitr; · iexact HR
    isplitl [HO]; · iexact HO
    iexact H1
  iintro ⟨HO, H1⟩
  iapply (sig_step m K c 8 _ (dev9_eq c) more) $$ [HO H1]
  · isplitr; · iexact HR
    isplitl [HO]; · iexact HO
    iexact H1
  iintro ⟨HO, H1⟩
  iapply (sig_step m K c 9 _ (dev10_eq c) more) $$ [HO H1]
  · isplitr; · iexact HR
    isplitl [HO]; · iexact HO
    iexact H1
  iintro ⟨HO, H1⟩
  iapply (sig_step m K c 10 _ (dev11_eq c) more) $$ [HO H1]
  · isplitr; · iexact HR
    isplitl [HO]; · iexact HO
    iexact H1
  iintro ⟨HO, H1⟩
  rw [wp_ret]; imodintro
  iapply Hk
  isplitl [HO]; · iexact HO
  iexact H1

set_option maxHeartbeats 1600000 in
theorem exec_part3 (c : Dev nD) (v2 : BitVec 32) (v48 : BitVec 32) (c32_i32_44 : BitVec 32) (more : List (GSem nD τ sig × ℕ))
    {Q : (Σ' (v72 : BitVec 32), BitVec 32) → sProp 𝕄} :
    iprop(records m K ∗ owesX (F := F) c (OL (sigItems c 11 ++ more)) ∗ fromK 11 (sigIn (F := F) c))
      ⊢ iprop((∀ a, iprop(owesX (F := F) c (OL (sigItems c 17 ++ more)) ∗ fromK 17 (sigIn (F := F) c)) -∗ Q a)
          -∗ wp frame (wpE (defs₀ (F := F)) 𝒱₀ (c : Thread nD τ) none) Set.univ (k0_part3 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 barArr v48 c32_i32_44) Q) := by
  simp only [k0_part3_eq_skeleton]; unfold k0_part3_skel
  simp only [semSignalWord, semWaitWord, Prog.lift, Prog.bind_op, Prog.bind_ret, Prog.pure_eq_ret]
  iintro ⟨#HR, HO, H1⟩
  iintro Hk
  iapply (sig_step m K c 11 _ (dev12_eq c) more) $$ [HO H1]
  · isplitr; · iexact HR
    isplitl [HO]; · iexact HO
    iexact H1
  iintro ⟨HO, H1⟩
  iapply (sig_step m K c 12 _ (dev13_eq c) more) $$ [HO H1]
  · isplitr; · iexact HR
    isplitl [HO]; · iexact HO
    iexact H1
  iintro ⟨HO, H1⟩
  iapply (sig_step m K c 13 _ (dev14_eq c) more) $$ [HO H1]
  · isplitr; · iexact HR
    isplitl [HO]; · iexact HO
    iexact H1
  iintro ⟨HO, H1⟩
  iapply (sig_step m K c 14 _ (dev15_eq c) more) $$ [HO H1]
  · isplitr; · iexact HR
    isplitl [HO]; · iexact HO
    iexact H1
  iintro ⟨HO, H1⟩
  iapply (sig_step m K c 15 _ (dev16_eq c) more) $$ [HO H1]
  · isplitr; · iexact HR
    isplitl [HO]; · iexact HO
    iexact H1
  iintro ⟨HO, H1⟩
  iapply (sig_step m K c 16 _ (dev17_eq c) more) $$ [HO H1]
  · isplitr; · iexact HR
    isplitl [HO]; · iexact HO
    iexact H1
  iintro ⟨HO, H1⟩
  rw [wp_ret]; imodintro
  iapply Hk
  isplitl [HO]; · iexact HO
  iexact H1

set_option maxHeartbeats 1600000 in
theorem exec_part4 (c : Dev nD) (v2 : BitVec 32) (v72 : BitVec 32) (c32_i32_68 : BitVec 32) (more : List (GSem nD τ sig × ℕ))
    {Q : (Σ' (v96 : BitVec 32), BitVec 32) → sProp 𝕄} :
    iprop(records m K ∗ owesX (F := F) c (OL (sigItems c 17 ++ more)) ∗ fromK 17 (sigIn (F := F) c))
      ⊢ iprop((∀ a, iprop(owesX (F := F) c (OL (sigItems c 23 ++ more)) ∗ fromK 23 (sigIn (F := F) c)) -∗ Q a)
          -∗ wp frame (wpE (defs₀ (F := F)) 𝒱₀ (c : Thread nD τ) none) Set.univ (k0_part4 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 barArr v72 c32_i32_68) Q) := by
  simp only [k0_part4_eq_skeleton]; unfold k0_part4_skel
  simp only [semSignalWord, semWaitWord, Prog.lift, Prog.bind_op, Prog.bind_ret, Prog.pure_eq_ret]
  iintro ⟨#HR, HO, H1⟩
  iintro Hk
  iapply (sig_step m K c 17 _ (dev18_eq c) more) $$ [HO H1]
  · isplitr; · iexact HR
    isplitl [HO]; · iexact HO
    iexact H1
  iintro ⟨HO, H1⟩
  iapply (sig_step m K c 18 _ (dev19_eq c) more) $$ [HO H1]
  · isplitr; · iexact HR
    isplitl [HO]; · iexact HO
    iexact H1
  iintro ⟨HO, H1⟩
  iapply (sig_step m K c 19 _ (dev20_eq c) more) $$ [HO H1]
  · isplitr; · iexact HR
    isplitl [HO]; · iexact HO
    iexact H1
  iintro ⟨HO, H1⟩
  iapply (sig_step m K c 20 _ (dev21_eq c) more) $$ [HO H1]
  · isplitr; · iexact HR
    isplitl [HO]; · iexact HO
    iexact H1
  iintro ⟨HO, H1⟩
  iapply (sig_step m K c 21 _ (dev22_eq c) more) $$ [HO H1]
  · isplitr; · iexact HR
    isplitl [HO]; · iexact HO
    iexact H1
  iintro ⟨HO, H1⟩
  iapply (sig_step m K c 22 _ (dev23_eq c) more) $$ [HO H1]
  · isplitr; · iexact HR
    isplitl [HO]; · iexact HO
    iexact H1
  iintro ⟨HO, H1⟩
  rw [wp_ret]; imodintro
  iapply Hk
  isplitl [HO]; · iexact HO
  iexact H1

set_option maxHeartbeats 1600000 in
theorem exec_part5 (c : Dev nD) (v2 : BitVec 32) (v96 : BitVec 32) (c32_i32_92 : BitVec 32) (more : List (GSem nD τ sig × ℕ))
    {Q : (Σ' (v120 : BitVec 32), BitVec 32) → sProp 𝕄} :
    iprop(records m K ∗ owesX (F := F) c (OL (sigItems c 23 ++ more)) ∗ fromK 23 (sigIn (F := F) c))
      ⊢ iprop((∀ a, iprop(owesX (F := F) c (OL (sigItems c 29 ++ more)) ∗ fromK 29 (sigIn (F := F) c)) -∗ Q a)
          -∗ wp frame (wpE (defs₀ (F := F)) 𝒱₀ (c : Thread nD τ) none) Set.univ (k0_part5 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 barArr v96 c32_i32_92) Q) := by
  simp only [k0_part5_eq_skeleton]; unfold k0_part5_skel
  simp only [semSignalWord, semWaitWord, Prog.lift, Prog.bind_op, Prog.bind_ret, Prog.pure_eq_ret]
  iintro ⟨#HR, HO, H1⟩
  iintro Hk
  iapply (sig_step m K c 23 _ (dev24_eq c) more) $$ [HO H1]
  · isplitr; · iexact HR
    isplitl [HO]; · iexact HO
    iexact H1
  iintro ⟨HO, H1⟩
  iapply (sig_step m K c 24 _ (dev25_eq c) more) $$ [HO H1]
  · isplitr; · iexact HR
    isplitl [HO]; · iexact HO
    iexact H1
  iintro ⟨HO, H1⟩
  iapply (sig_step m K c 25 _ (dev26_eq c) more) $$ [HO H1]
  · isplitr; · iexact HR
    isplitl [HO]; · iexact HO
    iexact H1
  iintro ⟨HO, H1⟩
  iapply (sig_step m K c 26 _ (dev27_eq c) more) $$ [HO H1]
  · isplitr; · iexact HR
    isplitl [HO]; · iexact HO
    iexact H1
  iintro ⟨HO, H1⟩
  iapply (sig_step m K c 27 _ (dev28_eq c) more) $$ [HO H1]
  · isplitr; · iexact HR
    isplitl [HO]; · iexact HO
    iexact H1
  iintro ⟨HO, H1⟩
  iapply (sig_step m K c 28 _ (dev29_eq c) more) $$ [HO H1]
  · isplitr; · iexact HR
    isplitl [HO]; · iexact HO
    iexact H1
  iintro ⟨HO, H1⟩
  rw [wp_ret]; imodintro
  iapply Hk
  isplitl [HO]; · iexact HO
  iexact H1

end Cert.Kernel.Hand

end
-- ==== Proof.BitsPartsB.lean ====
/-
  Parts 7 to 17 of the body: the reduce-scatter's copies of slots 1 to 27.
-/
import proofs.«900471_g7700000000000472_dist_rs_then_ag_i_m512_n512_v7x_i32_bf16_1_alg».proof.Proof.BitsPartsA

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)

set_option maxHeartbeats 1600000 in
theorem exec_part7 (c : Dev nD) (v2 : BitVec 32) (v147 : BitVec 32) (c16_i32_141 : BitVec 32) (more : List (GSem nD τ sig × ℕ))
    {Q : (Σ' (v159 : BitVec 32), BitVec 32) → sProp 𝕄} :
    iprop(records m K ∗ owesX (F := F) c (OL (rsItems c 1 ++ more)) ∗ fromK 1 (rsIn m c) ∗ belowK 1 (rsOut (F := F) c))
      ⊢ iprop((∀ a, iprop(owesX (F := F) c (OL (rsItems c 3 ++ more)) ∗ fromK 3 (rsIn m c) ∗ belowK 3 (rsOut (F := F) c)) -∗ Q a)
          -∗ wp frame (wpE (defs₀ (F := F)) 𝒱₀ (c : Thread nD τ) none) Set.univ (k0_part7 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v147 c16_i32_141) Q) := by
  simp only [k0_part7_eq_skeleton]; unfold k0_part7_skel
  simp only [semSignalWord, semWaitWord, Prog.lift, Prog.bind_op, Prog.bind_ret, Prog.pure_eq_ret]
  iintro ⟨#HR, HO, H1, H2⟩
  iintro Hk
  iapply (rs_step m K c 1 _ (dev33_eq c) more) $$ [HO H1 H2]
  · isplitr; · iexact HR
    isplitl [HO]; · iexact HO
    isplitl [H1]; · iexact H1
    iexact H2
  iintro ⟨HO, H1, H2⟩
  iapply (rs_step m K c 2 _ (dev34_eq c) more) $$ [HO H1 H2]
  · isplitr; · iexact HR
    isplitl [HO]; · iexact HO
    isplitl [H1]; · iexact H1
    iexact H2
  iintro ⟨HO, H1, H2⟩
  rw [wp_ret]; imodintro
  iapply Hk
  isplitl [HO]; · iexact HO
  isplitl [H1]; · iexact H1
  iexact H2

set_option maxHeartbeats 1600000 in
theorem exec_part8 (c : Dev nD) (v2 : BitVec 32) (more : List (GSem nD τ sig × ℕ))
    {Q : (Σ' (v183 : BitVec 32) (v195 : BitVec 32) (v207 : BitVec 32), BitVec 32) → sProp 𝕄} :
    iprop(records m K ∗ owesX (F := F) c (OL (rsItems c 3 ++ more)) ∗ fromK 3 (rsIn m c) ∗ belowK 3 (rsOut (F := F) c))
      ⊢ iprop((∀ a, iprop(owesX (F := F) c (OL (rsItems c 6 ++ more)) ∗ fromK 6 (rsIn m c) ∗ belowK 6 (rsOut (F := F) c)) -∗ Q a)
          -∗ wp frame (wpE (defs₀ (F := F)) 𝒱₀ (c : Thread nD τ) none) Set.univ (k0_part8 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q) := by
  simp only [k0_part8_eq_skeleton]; unfold k0_part8_skel
  simp only [semSignalWord, semWaitWord, Prog.lift, Prog.bind_op, Prog.bind_ret, Prog.pure_eq_ret]
  iintro ⟨#HR, HO, H1, H2⟩
  iintro Hk
  iapply (rs_step m K c 3 _ (dev35_eq c) more) $$ [HO H1 H2]
  · isplitr; · iexact HR
    isplitl [HO]; · iexact HO
    isplitl [H1]; · iexact H1
    iexact H2
  iintro ⟨HO, H1, H2⟩
  iapply (rs_step m K c 4 _ (dev36_eq c) more) $$ [HO H1 H2]
  · isplitr; · iexact HR
    isplitl [HO]; · iexact HO
    isplitl [H1]; · iexact H1
    iexact H2
  iintro ⟨HO, H1, H2⟩
  iapply (rs_step m K c 5 _ (dev37_eq c) more) $$ [HO H1 H2]
  · isplitr; · iexact HR
    isplitl [HO]; · iexact HO
    isplitl [H1]; · iexact H1
    iexact H2
  iintro ⟨HO, H1, H2⟩
  rw [wp_ret]; imodintro
  iapply Hk
  isplitl [HO]; · iexact HO
  isplitl [H1]; · iexact H1
  iexact H2

set_option maxHeartbeats 1600000 in
theorem exec_part9 (c : Dev nD) (v2 : BitVec 32) (v207 : BitVec 32) (c16_i32_196 : BitVec 32) (more : List (GSem nD τ sig × ℕ))
    {Q : (Σ' (v219 : BitVec 32), BitVec 32) → sProp 𝕄} :
    iprop(records m K ∗ owesX (F := F) c (OL (rsItems c 6 ++ more)) ∗ fromK 6 (rsIn m c) ∗ belowK 6 (rsOut (F := F) c))
      ⊢ iprop((∀ a, iprop(owesX (F := F) c (OL (rsItems c 8 ++ more)) ∗ fromK 8 (rsIn m c) ∗ belowK 8 (rsOut (F := F) c)) -∗ Q a)
          -∗ wp frame (wpE (defs₀ (F := F)) 𝒱₀ (c : Thread nD τ) none) Set.univ (k0_part9 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v207 c16_i32_196) Q) := by
  simp only [k0_part9_eq_skeleton]; unfold k0_part9_skel
  simp only [semSignalWord, semWaitWord, Prog.lift, Prog.bind_op, Prog.bind_ret, Prog.pure_eq_ret]
  iintro ⟨#HR, HO, H1, H2⟩
  iintro Hk
  iapply (rs_step m K c 6 _ (dev38_eq c) more) $$ [HO H1 H2]
  · isplitr; · iexact HR
    isplitl [HO]; · iexact HO
    isplitl [H1]; · iexact H1
    iexact H2
  iintro ⟨HO, H1, H2⟩
  iapply (rs_step m K c 7 _ (dev39_eq c) more) $$ [HO H1 H2]
  · isplitr; · iexact HR
    isplitl [HO]; · iexact HO
    isplitl [H1]; · iexact H1
    iexact H2
  iintro ⟨HO, H1, H2⟩
  rw [wp_ret]; imodintro
  iapply Hk
  isplitl [HO]; · iexact HO
  isplitl [H1]; · iexact H1
  iexact H2

set_option maxHeartbeats 1600000 in
theorem exec_part10 (c : Dev nD) (v2 : BitVec 32) (more : List (GSem nD τ sig × ℕ))
    {Q : (Σ' (v243 : BitVec 32) (v255 : BitVec 32) (v267 : BitVec 32), BitVec 32) → sProp 𝕄} :
    iprop(records m K ∗ owesX (F := F) c (OL (rsItems c 8 ++ more)) ∗ fromK 8 (rsIn m c) ∗ belowK 8 (rsOut (F := F) c))
      ⊢ iprop((∀ a, iprop(owesX (F := F) c (OL (rsItems c 11 ++ more)) ∗ fromK 11 (rsIn m c) ∗ belowK 11 (rsOut (F := F) c)) -∗ Q a)
          -∗ wp frame (wpE (defs₀ (F := F)) 𝒱₀ (c : Thread nD τ) none) Set.univ (k0_part10 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q) := by
  simp only [k0_part10_eq_skeleton]; unfold k0_part10_skel
  simp only [semSignalWord, semWaitWord, Prog.lift, Prog.bind_op, Prog.bind_ret, Prog.pure_eq_ret]
  iintro ⟨#HR, HO, H1, H2⟩
  iintro Hk
  iapply (rs_step m K c 8 _ (dev40_eq c) more) $$ [HO H1 H2]
  · isplitr; · iexact HR
    isplitl [HO]; · iexact HO
    isplitl [H1]; · iexact H1
    iexact H2
  iintro ⟨HO, H1, H2⟩
  iapply (rs_step m K c 9 _ (dev41_eq c) more) $$ [HO H1 H2]
  · isplitr; · iexact HR
    isplitl [HO]; · iexact HO
    isplitl [H1]; · iexact H1
    iexact H2
  iintro ⟨HO, H1, H2⟩
  iapply (rs_step m K c 10 _ (dev42_eq c) more) $$ [HO H1 H2]
  · isplitr; · iexact HR
    isplitl [HO]; · iexact HO
    isplitl [H1]; · iexact H1
    iexact H2
  iintro ⟨HO, H1, H2⟩
  rw [wp_ret]; imodintro
  iapply Hk
  isplitl [HO]; · iexact HO
  isplitl [H1]; · iexact H1
  iexact H2

set_option maxHeartbeats 1600000 in
theorem exec_part11 (c : Dev nD) (v2 : BitVec 32) (v267 : BitVec 32) (c16_i32_251 : BitVec 32) (more : List (GSem nD τ sig × ℕ))
    {Q : (Σ' (v279 : BitVec 32), BitVec 32) → sProp 𝕄} :
    iprop(records m K ∗ owesX (F := F) c (OL (rsItems c 11 ++ more)) ∗ fromK 11 (rsIn m c) ∗ belowK 11 (rsOut (F := F) c))
      ⊢ iprop((∀ a, iprop(owesX (F := F) c (OL (rsItems c 13 ++ more)) ∗ fromK 13 (rsIn m c) ∗ belowK 13 (rsOut (F := F) c)) -∗ Q a)
          -∗ wp frame (wpE (defs₀ (F := F)) 𝒱₀ (c : Thread nD τ) none) Set.univ (k0_part11 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v267 c16_i32_251) Q) := by
  simp only [k0_part11_eq_skeleton]; unfold k0_part11_skel
  simp only [semSignalWord, semWaitWord, Prog.lift, Prog.bind_op, Prog.bind_ret, Prog.pure_eq_ret]
  iintro ⟨#HR, HO, H1, H2⟩
  iintro Hk
  iapply (rs_step m K c 11 _ (dev43_eq c) more) $$ [HO H1 H2]
  · isplitr; · iexact HR
    isplitl [HO]; · iexact HO
    isplitl [H1]; · iexact H1
    iexact H2
  iintro ⟨HO, H1, H2⟩
  iapply (rs_step m K c 12 _ (dev44_eq c) more) $$ [HO H1 H2]
  · isplitr; · iexact HR
    isplitl [HO]; · iexact HO
    isplitl [H1]; · iexact H1
    iexact H2
  iintro ⟨HO, H1, H2⟩
  rw [wp_ret]; imodintro
  iapply Hk
  isplitl [HO]; · iexact HO
  isplitl [H1]; · iexact H1
  iexact H2

set_option maxHeartbeats 1600000 in
theorem exec_part12 (c : Dev nD) (v2 : BitVec 32) (more : List (GSem nD τ sig × ℕ))
    {Q : (Σ' (v303 : BitVec 32) (v315 : BitVec 32) (v327 : BitVec 32), BitVec 32) → sProp 𝕄} :
    iprop(records m K ∗ owesX (F := F) c (OL (rsItems c 13 ++ more)) ∗ fromK 13 (rsIn m c) ∗ belowK 13 (rsOut (F := F) c))
      ⊢ iprop((∀ a, iprop(owesX (F := F) c (OL (rsItems c 16 ++ more)) ∗ fromK 16 (rsIn m c) ∗ belowK 16 (rsOut (F := F) c)) -∗ Q a)
          -∗ wp frame (wpE (defs₀ (F := F)) 𝒱₀ (c : Thread nD τ) none) Set.univ (k0_part12 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q) := by
  simp only [k0_part12_eq_skeleton]; unfold k0_part12_skel
  simp only [semSignalWord, semWaitWord, Prog.lift, Prog.bind_op, Prog.bind_ret, Prog.pure_eq_ret]
  iintro ⟨#HR, HO, H1, H2⟩
  iintro Hk
  iapply (rs_step m K c 13 _ (dev45_eq c) more) $$ [HO H1 H2]
  · isplitr; · iexact HR
    isplitl [HO]; · iexact HO
    isplitl [H1]; · iexact H1
    iexact H2
  iintro ⟨HO, H1, H2⟩
  iapply (rs_step m K c 14 _ (dev46_eq c) more) $$ [HO H1 H2]
  · isplitr; · iexact HR
    isplitl [HO]; · iexact HO
    isplitl [H1]; · iexact H1
    iexact H2
  iintro ⟨HO, H1, H2⟩
  iapply (rs_step m K c 15 _ (dev47_eq c) more) $$ [HO H1 H2]
  · isplitr; · iexact HR
    isplitl [HO]; · iexact HO
    isplitl [H1]; · iexact H1
    iexact H2
  iintro ⟨HO, H1, H2⟩
  rw [wp_ret]; imodintro
  iapply Hk
  isplitl [HO]; · iexact HO
  isplitl [H1]; · iexact H1
  iexact H2

set_option maxHeartbeats 1600000 in
theorem exec_part13 (c : Dev nD) (v2 : BitVec 32) (v327 : BitVec 32) (c16_i32_306 : BitVec 32) (more : List (GSem nD τ sig × ℕ))
    {Q : (Σ' (v339 : BitVec 32), BitVec 32) → sProp 𝕄} :
    iprop(records m K ∗ owesX (F := F) c (OL (rsItems c 16 ++ more)) ∗ fromK 16 (rsIn m c) ∗ belowK 16 (rsOut (F := F) c))
      ⊢ iprop((∀ a, iprop(owesX (F := F) c (OL (rsItems c 18 ++ more)) ∗ fromK 18 (rsIn m c) ∗ belowK 18 (rsOut (F := F) c)) -∗ Q a)
          -∗ wp frame (wpE (defs₀ (F := F)) 𝒱₀ (c : Thread nD τ) none) Set.univ (k0_part13 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v327 c16_i32_306) Q) := by
  simp only [k0_part13_eq_skeleton]; unfold k0_part13_skel
  simp only [semSignalWord, semWaitWord, Prog.lift, Prog.bind_op, Prog.bind_ret, Prog.pure_eq_ret]
  iintro ⟨#HR, HO, H1, H2⟩
  iintro Hk
  iapply (rs_step m K c 16 _ (dev48_eq c) more) $$ [HO H1 H2]
  · isplitr; · iexact HR
    isplitl [HO]; · iexact HO
    isplitl [H1]; · iexact H1
    iexact H2
  iintro ⟨HO, H1, H2⟩
  iapply (rs_step m K c 17 _ (dev49_eq c) more) $$ [HO H1 H2]
  · isplitr; · iexact HR
    isplitl [HO]; · iexact HO
    isplitl [H1]; · iexact H1
    iexact H2
  iintro ⟨HO, H1, H2⟩
  rw [wp_ret]; imodintro
  iapply Hk
  isplitl [HO]; · iexact HO
  isplitl [H1]; · iexact H1
  iexact H2

set_option maxHeartbeats 1600000 in
theorem exec_part14 (c : Dev nD) (v2 : BitVec 32) (more : List (GSem nD τ sig × ℕ))
    {Q : (Σ' (v363 : BitVec 32) (v375 : BitVec 32) (v387 : BitVec 32), BitVec 32) → sProp 𝕄} :
    iprop(records m K ∗ owesX (F := F) c (OL (rsItems c 18 ++ more)) ∗ fromK 18 (rsIn m c) ∗ belowK 18 (rsOut (F := F) c))
      ⊢ iprop((∀ a, iprop(owesX (F := F) c (OL (rsItems c 21 ++ more)) ∗ fromK 21 (rsIn m c) ∗ belowK 21 (rsOut (F := F) c)) -∗ Q a)
          -∗ wp frame (wpE (defs₀ (F := F)) 𝒱₀ (c : Thread nD τ) none) Set.univ (k0_part14 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q) := by
  simp only [k0_part14_eq_skeleton]; unfold k0_part14_skel
  simp only [semSignalWord, semWaitWord, Prog.lift, Prog.bind_op, Prog.bind_ret, Prog.pure_eq_ret]
  iintro ⟨#HR, HO, H1, H2⟩
  iintro Hk
  iapply (rs_step m K c 18 _ (dev50_eq c) more) $$ [HO H1 H2]
  · isplitr; · iexact HR
    isplitl [HO]; · iexact HO
    isplitl [H1]; · iexact H1
    iexact H2
  iintro ⟨HO, H1, H2⟩
  iapply (rs_step m K c 19 _ (dev51_eq c) more) $$ [HO H1 H2]
  · isplitr; · iexact HR
    isplitl [HO]; · iexact HO
    isplitl [H1]; · iexact H1
    iexact H2
  iintro ⟨HO, H1, H2⟩
  iapply (rs_step m K c 20 _ (dev52_eq c) more) $$ [HO H1 H2]
  · isplitr; · iexact HR
    isplitl [HO]; · iexact HO
    isplitl [H1]; · iexact H1
    iexact H2
  iintro ⟨HO, H1, H2⟩
  rw [wp_ret]; imodintro
  iapply Hk
  isplitl [HO]; · iexact HO
  isplitl [H1]; · iexact H1
  iexact H2

set_option maxHeartbeats 1600000 in
theorem exec_part15 (c : Dev nD) (v2 : BitVec 32) (v387 : BitVec 32) (c16_i32_361 : BitVec 32) (more : List (GSem nD τ sig × ℕ))
    {Q : (Σ' (v399 : BitVec 32), BitVec 32) → sProp 𝕄} :
    iprop(records m K ∗ owesX (F := F) c (OL (rsItems c 21 ++ more)) ∗ fromK 21 (rsIn m c) ∗ belowK 21 (rsOut (F := F) c))
      ⊢ iprop((∀ a, iprop(owesX (F := F) c (OL (rsItems c 23 ++ more)) ∗ fromK 23 (rsIn m c) ∗ belowK 23 (rsOut (F := F) c)) -∗ Q a)
          -∗ wp frame (wpE (defs₀ (F := F)) 𝒱₀ (c : Thread nD τ) none) Set.univ (k0_part15 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v387 c16_i32_361) Q) := by
  simp only [k0_part15_eq_skeleton]; unfold k0_part15_skel
  simp only [semSignalWord, semWaitWord, Prog.lift, Prog.bind_op, Prog.bind_ret, Prog.pure_eq_ret]
  iintro ⟨#HR, HO, H1, H2⟩
  iintro Hk
  iapply (rs_step m K c 21 _ (dev53_eq c) more) $$ [HO H1 H2]
  · isplitr; · iexact HR
    isplitl [HO]; · iexact HO
    isplitl [H1]; · iexact H1
    iexact H2
  iintro ⟨HO, H1, H2⟩
  iapply (rs_step m K c 22 _ (dev54_eq c) more) $$ [HO H1 H2]
  · isplitr; · iexact HR
    isplitl [HO]; · iexact HO
    isplitl [H1]; · iexact H1
    iexact H2
  iintro ⟨HO, H1, H2⟩
  rw [wp_ret]; imodintro
  iapply Hk
  isplitl [HO]; · iexact HO
  isplitl [H1]; · iexact H1
  iexact H2

set_option maxHeartbeats 1600000 in
theorem exec_part16 (c : Dev nD) (v2 : BitVec 32) (more : List (GSem nD τ sig × ℕ))
    {Q : (Σ' (v423 : BitVec 32) (v435 : BitVec 32) (v447 : BitVec 32), BitVec 32) → sProp 𝕄} :
    iprop(records m K ∗ owesX (F := F) c (OL (rsItems c 23 ++ more)) ∗ fromK 23 (rsIn m c) ∗ belowK 23 (rsOut (F := F) c))
      ⊢ iprop((∀ a, iprop(owesX (F := F) c (OL (rsItems c 26 ++ more)) ∗ fromK 26 (rsIn m c) ∗ belowK 26 (rsOut (F := F) c)) -∗ Q a)
          -∗ wp frame (wpE (defs₀ (F := F)) 𝒱₀ (c : Thread nD τ) none) Set.univ (k0_part16 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q) := by
  simp only [k0_part16_eq_skeleton]; unfold k0_part16_skel
  simp only [semSignalWord, semWaitWord, Prog.lift, Prog.bind_op, Prog.bind_ret, Prog.pure_eq_ret]
  iintro ⟨#HR, HO, H1, H2⟩
  iintro Hk
  iapply (rs_step m K c 23 _ (dev55_eq c) more) $$ [HO H1 H2]
  · isplitr; · iexact HR
    isplitl [HO]; · iexact HO
    isplitl [H1]; · iexact H1
    iexact H2
  iintro ⟨HO, H1, H2⟩
  iapply (rs_step m K c 24 _ (dev56_eq c) more) $$ [HO H1 H2]
  · isplitr; · iexact HR
    isplitl [HO]; · iexact HO
    isplitl [H1]; · iexact H1
    iexact H2
  iintro ⟨HO, H1, H2⟩
  iapply (rs_step m K c 25 _ (dev57_eq c) more) $$ [HO H1 H2]
  · isplitr; · iexact HR
    isplitl [HO]; · iexact HO
    isplitl [H1]; · iexact H1
    iexact H2
  iintro ⟨HO, H1, H2⟩
  rw [wp_ret]; imodintro
  iapply Hk
  isplitl [HO]; · iexact HO
  isplitl [H1]; · iexact H1
  iexact H2

set_option maxHeartbeats 1600000 in
theorem exec_part17 (c : Dev nD) (v2 : BitVec 32) (v447 : BitVec 32) (c16_i32_416 : BitVec 32) (more : List (GSem nD τ sig × ℕ))
    {Q : (Σ' (v459 : BitVec 32), BitVec 32) → sProp 𝕄} :
    iprop(records m K ∗ owesX (F := F) c (OL (rsItems c 26 ++ more)) ∗ fromK 26 (rsIn m c) ∗ belowK 26 (rsOut (F := F) c))
      ⊢ iprop((∀ a, iprop(owesX (F := F) c (OL (rsItems c 28 ++ more)) ∗ fromK 28 (rsIn m c) ∗ belowK 28 (rsOut (F := F) c)) -∗ Q a)
          -∗ wp frame (wpE (defs₀ (F := F)) 𝒱₀ (c : Thread nD τ) none) Set.univ (k0_part17 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v447 c16_i32_416) Q) := by
  simp only [k0_part17_eq_skeleton]; unfold k0_part17_skel
  simp only [semSignalWord, semWaitWord, Prog.lift, Prog.bind_op, Prog.bind_ret, Prog.pure_eq_ret]
  iintro ⟨#HR, HO, H1, H2⟩
  iintro Hk
  iapply (rs_step m K c 26 _ (dev58_eq c) more) $$ [HO H1 H2]
  · isplitr; · iexact HR
    isplitl [HO]; · iexact HO
    isplitl [H1]; · iexact H1
    iexact H2
  iintro ⟨HO, H1, H2⟩
  iapply (rs_step m K c 27 _ (dev59_eq c) more) $$ [HO H1 H2]
  · isplitr; · iexact HR
    isplitl [HO]; · iexact HO
    isplitl [H1]; · iexact H1
    iexact H2
  iintro ⟨HO, H1, H2⟩
  rw [wp_ret]; imodintro
  iapply Hk
  isplitl [HO]; · iexact HO
  isplitl [H1]; · iexact H1
  iexact H2

end Cert.Kernel.Hand

end
-- ==== Proof.BitsPartsD.lean ====
/-
  Parts 32 to 40 of the body: the all-gather's copies of slots 2 to 30.
-/
import proofs.«900471_g7700000000000472_dist_rs_then_ag_i_m512_n512_v7x_i32_bf16_1_alg».proof.Proof.BitsPartsA

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)

set_option maxHeartbeats 1600000 in
theorem exec_part32 (c : Dev nD) (v2 : BitVec 32) (more : List (GSem nD τ sig × ℕ))
    {Q : (Σ' (v890 : BitVec 32) (v900 : BitVec 32), BitVec 32) → sProp 𝕄} :
    iprop(records m K ∗ owesX (F := F) c (OL (agItems c 2 ++ more)) ∗ fromK 2 (agIn m c) ∗ belowK 2 (agOut (F := F) c))
      ⊢ iprop((∀ a, iprop(owesX (F := F) c (OL (agItems c 5 ++ more)) ∗ fromK 5 (agIn m c) ∗ belowK 5 (agOut (F := F) c)) -∗ Q a)
          -∗ wp frame (wpE (defs₀ (F := F)) 𝒱₀ (c : Thread nD τ) none) Set.univ (k0_part32 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q) := by
  simp only [k0_part32_eq_skeleton]; unfold k0_part32_skel
  simp only [semSignalWord, semWaitWord, Prog.lift, Prog.bind_op, Prog.bind_ret, Prog.pure_eq_ret]
  iintro ⟨#HR, HO, H1, H2⟩
  iintro Hk
  iapply (ag_step m K c 2 _ (dev65_eq c) more) $$ [HO H1 H2]
  · isplitr; · iexact HR
    isplitl [HO]; · iexact HO
    isplitl [H1]; · iexact H1
    iexact H2
  iintro ⟨HO, H1, H2⟩
  iapply (ag_step m K c 3 _ (dev66_eq c) more) $$ [HO H1 H2]
  · isplitr; · iexact HR
    isplitl [HO]; · iexact HO
    isplitl [H1]; · iexact H1
    iexact H2
  iintro ⟨HO, H1, H2⟩
  iapply (ag_step m K c 4 _ (dev67_eq c) more) $$ [HO H1 H2]
  · isplitr; · iexact HR
    isplitl [HO]; · iexact HO
    isplitl [H1]; · iexact H1
    iexact H2
  iintro ⟨HO, H1, H2⟩
  rw [wp_ret]; imodintro
  iapply Hk
  isplitl [HO]; · iexact HO
  isplitl [H1]; · iexact H1
  iexact H2

set_option maxHeartbeats 1600000 in
theorem exec_part33 (c : Dev nD) (v2 : BitVec 32) (more : List (GSem nD τ sig × ℕ))
    {Q : (Σ' (v920 : BitVec 32) (v930 : BitVec 32), BitVec 32) → sProp 𝕄} :
    iprop(records m K ∗ owesX (F := F) c (OL (agItems c 5 ++ more)) ∗ fromK 5 (agIn m c) ∗ belowK 5 (agOut (F := F) c))
      ⊢ iprop((∀ a, iprop(owesX (F := F) c (OL (agItems c 8 ++ more)) ∗ fromK 8 (agIn m c) ∗ belowK 8 (agOut (F := F) c)) -∗ Q a)
          -∗ wp frame (wpE (defs₀ (F := F)) 𝒱₀ (c : Thread nD τ) none) Set.univ (k0_part33 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q) := by
  simp only [k0_part33_eq_skeleton]; unfold k0_part33_skel
  simp only [semSignalWord, semWaitWord, Prog.lift, Prog.bind_op, Prog.bind_ret, Prog.pure_eq_ret]
  iintro ⟨#HR, HO, H1, H2⟩
  iintro Hk
  iapply (ag_step m K c 5 _ (dev68_eq c) more) $$ [HO H1 H2]
  · isplitr; · iexact HR
    isplitl [HO]; · iexact HO
    isplitl [H1]; · iexact H1
    iexact H2
  iintro ⟨HO, H1, H2⟩
  iapply (ag_step m K c 6 _ (dev69_eq c) more) $$ [HO H1 H2]
  · isplitr; · iexact HR
    isplitl [HO]; · iexact HO
    isplitl [H1]; · iexact H1
    iexact H2
  iintro ⟨HO, H1, H2⟩
  iapply (ag_step m K c 7 _ (dev70_eq c) more) $$ [HO H1 H2]
  · isplitr; · iexact HR
    isplitl [HO]; · iexact HO
    isplitl [H1]; · iexact H1
    iexact H2
  iintro ⟨HO, H1, H2⟩
  rw [wp_ret]; imodintro
  iapply Hk
  isplitl [HO]; · iexact HO
  isplitl [H1]; · iexact H1
  iexact H2

set_option maxHeartbeats 1600000 in
theorem exec_part34 (c : Dev nD) (v2 : BitVec 32) (more : List (GSem nD τ sig × ℕ))
    {Q : (Σ' (v950 : BitVec 32) (v960 : BitVec 32) (v970 : BitVec 32), BitVec 32) → sProp 𝕄} :
    iprop(records m K ∗ owesX (F := F) c (OL (agItems c 8 ++ more)) ∗ fromK 8 (agIn m c) ∗ belowK 8 (agOut (F := F) c))
      ⊢ iprop((∀ a, iprop(owesX (F := F) c (OL (agItems c 12 ++ more)) ∗ fromK 12 (agIn m c) ∗ belowK 12 (agOut (F := F) c)) -∗ Q a)
          -∗ wp frame (wpE (defs₀ (F := F)) 𝒱₀ (c : Thread nD τ) none) Set.univ (k0_part34 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q) := by
  simp only [k0_part34_eq_skeleton]; unfold k0_part34_skel
  simp only [semSignalWord, semWaitWord, Prog.lift, Prog.bind_op, Prog.bind_ret, Prog.pure_eq_ret]
  iintro ⟨#HR, HO, H1, H2⟩
  iintro Hk
  iapply (ag_step m K c 8 _ (dev71_eq c) more) $$ [HO H1 H2]
  · isplitr; · iexact HR
    isplitl [HO]; · iexact HO
    isplitl [H1]; · iexact H1
    iexact H2
  iintro ⟨HO, H1, H2⟩
  iapply (ag_step m K c 9 _ (dev72_eq c) more) $$ [HO H1 H2]
  · isplitr; · iexact HR
    isplitl [HO]; · iexact HO
    isplitl [H1]; · iexact H1
    iexact H2
  iintro ⟨HO, H1, H2⟩
  iapply (ag_step m K c 10 _ (dev73_eq c) more) $$ [HO H1 H2]
  · isplitr; · iexact HR
    isplitl [HO]; · iexact HO
    isplitl [H1]; · iexact H1
    iexact H2
  iintro ⟨HO, H1, H2⟩
  iapply (ag_step m K c 11 _ (dev74_eq c) more) $$ [HO H1 H2]
  · isplitr; · iexact HR
    isplitl [HO]; · iexact HO
    isplitl [H1]; · iexact H1
    iexact H2
  iintro ⟨HO, H1, H2⟩
  rw [wp_ret]; imodintro
  iapply Hk
  isplitl [HO]; · iexact HO
  isplitl [H1]; · iexact H1
  iexact H2

set_option maxHeartbeats 1600000 in
theorem exec_part35 (c : Dev nD) (v2 : BitVec 32) (v979 : BitVec 32) (more : List (GSem nD τ sig × ℕ))
    {Q : (Σ' (v980 : BitVec 32) (v990 : BitVec 32) (v1000 : BitVec 32) (v1010 : BitVec 32), BitVec 32) → sProp 𝕄} :
    iprop(records m K ∗ owesX (F := F) c (OL (agItems c 12 ++ more)) ∗ fromK 12 (agIn m c) ∗ belowK 12 (agOut (F := F) c))
      ⊢ iprop((∀ a, iprop(owesX (F := F) c (OL (agItems c 15 ++ more)) ∗ fromK 15 (agIn m c) ∗ belowK 15 (agOut (F := F) c)) -∗ Q a)
          -∗ wp frame (wpE (defs₀ (F := F)) 𝒱₀ (c : Thread nD τ) none) Set.univ (k0_part35 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v979) Q) := by
  simp only [k0_part35_eq_skeleton]; unfold k0_part35_skel
  simp only [semSignalWord, semWaitWord, Prog.lift, Prog.bind_op, Prog.bind_ret, Prog.pure_eq_ret]
  iintro ⟨#HR, HO, H1, H2⟩
  iintro Hk
  iapply (ag_step m K c 12 _ (dev75_eq c) more) $$ [HO H1 H2]
  · isplitr; · iexact HR
    isplitl [HO]; · iexact HO
    isplitl [H1]; · iexact H1
    iexact H2
  iintro ⟨HO, H1, H2⟩
  iapply (ag_step m K c 13 _ (dev76_eq c) more) $$ [HO H1 H2]
  · isplitr; · iexact HR
    isplitl [HO]; · iexact HO
    isplitl [H1]; · iexact H1
    iexact H2
  iintro ⟨HO, H1, H2⟩
  iapply (ag_step m K c 14 _ (dev77_eq c) more) $$ [HO H1 H2]
  · isplitr; · iexact HR
    isplitl [HO]; · iexact HO
    isplitl [H1]; · iexact H1
    iexact H2
  iintro ⟨HO, H1, H2⟩
  rw [wp_ret]; imodintro
  iapply Hk
  isplitl [HO]; · iexact HO
  isplitl [H1]; · iexact H1
  iexact H2

set_option maxHeartbeats 1600000 in
theorem exec_part36 (c : Dev nD) (v2 : BitVec 32) (v1010 : BitVec 32) (c16_i32_910 : BitVec 32) (more : List (GSem nD τ sig × ℕ))
    {Q : (Σ' (v1020 : BitVec 32) (v1030 : BitVec 32), BitVec 32) → sProp 𝕄} :
    iprop(records m K ∗ owesX (F := F) c (OL (agItems c 15 ++ more)) ∗ fromK 15 (agIn m c) ∗ belowK 15 (agOut (F := F) c))
      ⊢ iprop((∀ a, iprop(owesX (F := F) c (OL (agItems c 18 ++ more)) ∗ fromK 18 (agIn m c) ∗ belowK 18 (agOut (F := F) c)) -∗ Q a)
          -∗ wp frame (wpE (defs₀ (F := F)) 𝒱₀ (c : Thread nD τ) none) Set.univ (k0_part36 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v1010 c16_i32_910) Q) := by
  simp only [k0_part36_eq_skeleton]; unfold k0_part36_skel
  simp only [semSignalWord, semWaitWord, Prog.lift, Prog.bind_op, Prog.bind_ret, Prog.pure_eq_ret]
  iintro ⟨#HR, HO, H1, H2⟩
  iintro Hk
  iapply (ag_step m K c 15 _ (dev78_eq c) more) $$ [HO H1 H2]
  · isplitr; · iexact HR
    isplitl [HO]; · iexact HO
    isplitl [H1]; · iexact H1
    iexact H2
  iintro ⟨HO, H1, H2⟩
  iapply (ag_step m K c 16 _ (dev79_eq c) more) $$ [HO H1 H2]
  · isplitr; · iexact HR
    isplitl [HO]; · iexact HO
    isplitl [H1]; · iexact H1
    iexact H2
  iintro ⟨HO, H1, H2⟩
  iapply (ag_step m K c 17 _ (dev80_eq c) more) $$ [HO H1 H2]
  · isplitr; · iexact HR
    isplitl [HO]; · iexact HO
    isplitl [H1]; · iexact H1
    iexact H2
  iintro ⟨HO, H1, H2⟩
  rw [wp_ret]; imodintro
  iapply Hk
  isplitl [HO]; · iexact HO
  isplitl [H1]; · iexact H1
  iexact H2

set_option maxHeartbeats 1600000 in
theorem exec_part37 (c : Dev nD) (v2 : BitVec 32) (v1040 : BitVec 32) (more : List (GSem nD τ sig × ℕ))
    {Q : (Σ' (v1050 : BitVec 32) (v1060 : BitVec 32) (v1070 : BitVec 32) (v1072 : BitVec 32), BitVec 32) → sProp 𝕄} :
    iprop(records m K ∗ owesX (F := F) c (OL (agItems c 18 ++ more)) ∗ fromK 18 (agIn m c) ∗ belowK 18 (agOut (F := F) c))
      ⊢ iprop((∀ a, iprop(owesX (F := F) c (OL (agItems c 21 ++ more)) ∗ fromK 21 (agIn m c) ∗ belowK 21 (agOut (F := F) c)) -∗ Q a)
          -∗ wp frame (wpE (defs₀ (F := F)) 𝒱₀ (c : Thread nD τ) none) Set.univ (k0_part37 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v1040) Q) := by
  simp only [k0_part37_eq_skeleton]; unfold k0_part37_skel
  simp only [semSignalWord, semWaitWord, Prog.lift, Prog.bind_op, Prog.bind_ret, Prog.pure_eq_ret]
  iintro ⟨#HR, HO, H1, H2⟩
  iintro Hk
  iapply (ag_step m K c 18 _ (dev81_eq c) more) $$ [HO H1 H2]
  · isplitr; · iexact HR
    isplitl [HO]; · iexact HO
    isplitl [H1]; · iexact H1
    iexact H2
  iintro ⟨HO, H1, H2⟩
  iapply (ag_step m K c 19 _ (dev82_eq c) more) $$ [HO H1 H2]
  · isplitr; · iexact HR
    isplitl [HO]; · iexact HO
    isplitl [H1]; · iexact H1
    iexact H2
  iintro ⟨HO, H1, H2⟩
  iapply (ag_step m K c 20 _ (dev83_eq c) more) $$ [HO H1 H2]
  · isplitr; · iexact HR
    isplitl [HO]; · iexact HO
    isplitl [H1]; · iexact H1
    iexact H2
  iintro ⟨HO, H1, H2⟩
  rw [wp_ret]; imodintro
  iapply Hk
  isplitl [HO]; · iexact HO
  isplitl [H1]; · iexact H1
  iexact H2

set_option maxHeartbeats 1600000 in
theorem exec_part38 (c : Dev nD) (v2 : BitVec 32) (v1072 : BitVec 32) (c0_i32_962 : BitVec 32) (more : List (GSem nD τ sig × ℕ))
    {Q : (Σ' (v1080 : BitVec 32) (v1090 : BitVec 32), BitVec 32) → sProp 𝕄} :
    iprop(records m K ∗ owesX (F := F) c (OL (agItems c 21 ++ more)) ∗ fromK 21 (agIn m c) ∗ belowK 21 (agOut (F := F) c))
      ⊢ iprop((∀ a, iprop(owesX (F := F) c (OL (agItems c 24 ++ more)) ∗ fromK 24 (agIn m c) ∗ belowK 24 (agOut (F := F) c)) -∗ Q a)
          -∗ wp frame (wpE (defs₀ (F := F)) 𝒱₀ (c : Thread nD τ) none) Set.univ (k0_part38 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v1072 c0_i32_962) Q) := by
  simp only [k0_part38_eq_skeleton]; unfold k0_part38_skel
  simp only [semSignalWord, semWaitWord, Prog.lift, Prog.bind_op, Prog.bind_ret, Prog.pure_eq_ret]
  iintro ⟨#HR, HO, H1, H2⟩
  iintro Hk
  iapply (ag_step m K c 21 _ (dev84_eq c) more) $$ [HO H1 H2]
  · isplitr; · iexact HR
    isplitl [HO]; · iexact HO
    isplitl [H1]; · iexact H1
    iexact H2
  iintro ⟨HO, H1, H2⟩
  iapply (ag_step m K c 22 _ (dev85_eq c) more) $$ [HO H1 H2]
  · isplitr; · iexact HR
    isplitl [HO]; · iexact HO
    isplitl [H1]; · iexact H1
    iexact H2
  iintro ⟨HO, H1, H2⟩
  iapply (ag_step m K c 23 _ (dev86_eq c) more) $$ [HO H1 H2]
  · isplitr; · iexact HR
    isplitl [HO]; · iexact HO
    isplitl [H1]; · iexact H1
    iexact H2
  iintro ⟨HO, H1, H2⟩
  rw [wp_ret]; imodintro
  iapply Hk
  isplitl [HO]; · iexact HO
  isplitl [H1]; · iexact H1
  iexact H2

set_option maxHeartbeats 1600000 in
theorem exec_part39 (c : Dev nD) (v2 : BitVec 32) (more : List (GSem nD τ sig × ℕ))
    {Q : (Σ' (v1110 : BitVec 32) (v1120 : BitVec 32), BitVec 32) → sProp 𝕄} :
    iprop(records m K ∗ owesX (F := F) c (OL (agItems c 24 ++ more)) ∗ fromK 24 (agIn m c) ∗ belowK 24 (agOut (F := F) c))
      ⊢ iprop((∀ a, iprop(owesX (F := F) c (OL (agItems c 27 ++ more)) ∗ fromK 27 (agIn m c) ∗ belowK 27 (agOut (F := F) c)) -∗ Q a)
          -∗ wp frame (wpE (defs₀ (F := F)) 𝒱₀ (c : Thread nD τ) none) Set.univ (k0_part39 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q) := by
  simp only [k0_part39_eq_skeleton]; unfold k0_part39_skel
  simp only [semSignalWord, semWaitWord, Prog.lift, Prog.bind_op, Prog.bind_ret, Prog.pure_eq_ret]
  iintro ⟨#HR, HO, H1, H2⟩
  iintro Hk
  iapply (ag_step m K c 24 _ (dev87_eq c) more) $$ [HO H1 H2]
  · isplitr; · iexact HR
    isplitl [HO]; · iexact HO
    isplitl [H1]; · iexact H1
    iexact H2
  iintro ⟨HO, H1, H2⟩
  iapply (ag_step m K c 25 _ (dev88_eq c) more) $$ [HO H1 H2]
  · isplitr; · iexact HR
    isplitl [HO]; · iexact HO
    isplitl [H1]; · iexact H1
    iexact H2
  iintro ⟨HO, H1, H2⟩
  iapply (ag_step m K c 26 _ (dev89_eq c) more) $$ [HO H1 H2]
  · isplitr; · iexact HR
    isplitl [HO]; · iexact HO
    isplitl [H1]; · iexact H1
    iexact H2
  iintro ⟨HO, H1, H2⟩
  rw [wp_ret]; imodintro
  iapply Hk
  isplitl [HO]; · iexact HO
  isplitl [H1]; · iexact H1
  iexact H2

set_option maxHeartbeats 1600000 in
theorem exec_part40 (c : Dev nD) (v2 : BitVec 32) (more : List (GSem nD τ sig × ℕ))
    {Q : (Σ' (v1140 : BitVec 32) (v1150 : BitVec 32), BitVec 32) → sProp 𝕄} :
    iprop(records m K ∗ owesX (F := F) c (OL (agItems c 27 ++ more)) ∗ fromK 27 (agIn m c) ∗ belowK 27 (agOut (F := F) c))
      ⊢ iprop((∀ a, iprop(owesX (F := F) c (OL (agItems c 31 ++ more)) ∗ fromK 31 (agIn m c) ∗ belowK 31 (agOut (F := F) c)) -∗ Q a)
          -∗ wp frame (wpE (defs₀ (F := F)) 𝒱₀ (c : Thread nD τ) none) Set.univ (k0_part40 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q) := by
  simp only [k0_part40_eq_skeleton]; unfold k0_part40_skel
  simp only [semSignalWord, semWaitWord, Prog.lift, Prog.bind_op, Prog.bind_ret, Prog.pure_eq_ret]
  iintro ⟨#HR, HO, H1, H2⟩
  iintro Hk
  iapply (ag_step m K c 27 _ (dev90_eq c) more) $$ [HO H1 H2]
  · isplitr; · iexact HR
    isplitl [HO]; · iexact HO
    isplitl [H1]; · iexact H1
    iexact H2
  iintro ⟨HO, H1, H2⟩
  iapply (ag_step m K c 28 _ (dev91_eq c) more) $$ [HO H1 H2]
  · isplitr; · iexact HR
    isplitl [HO]; · iexact HO
    isplitl [H1]; · iexact H1
    iexact H2
  iintro ⟨HO, H1, H2⟩
  iapply (ag_step m K c 29 _ (dev92_eq c) more) $$ [HO H1 H2]
  · isplitr; · iexact HR
    isplitl [HO]; · iexact HO
    isplitl [H1]; · iexact H1
    iexact H2
  iintro ⟨HO, H1, H2⟩
  iapply (ag_step m K c 30 _ (dev93_eq c) more) $$ [HO H1 H2]
  · isplitr; · iexact HR
    isplitl [HO]; · iexact HO
    isplitl [H1]; · iexact H1
    iexact H2
  iintro ⟨HO, H1, H2⟩
  rw [wp_ret]; imodintro
  iapply Hk
  isplitl [HO]; · iexact HO
  isplitl [H1]; · iexact H1
  iexact H2

end Cert.Kernel.Hand

end
-- ==== Proof.BitsPartsE.lean ====
/-
  Parts 41 to 46 of the body: the waits on the reduce-scatter's send cells of slots 0 to 26.
-/
import proofs.«900471_g7700000000000472_dist_rs_then_ag_i_m512_n512_v7x_i32_bf16_1_alg».proof.Proof.BitsPartsA

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)

set_option maxHeartbeats 1600000 in
theorem exec_part41 (c : Dev nD)
    {Q : (PUnit) → sProp 𝕄} :
    iprop(records m K ∗ levAts L lv ∗ owesX (F := F) c (OL []) ∗ fromK 0 (waitIn (F := F) 0 c) ∗ belowK 0 (waitOut m 0 c))
      ⊢ iprop((∀ a, iprop(owesX (F := F) c (OL []) ∗ fromK 4 (waitIn (F := F) 0 c) ∗ belowK 4 (waitOut m 0 c)) -∗ Q a)
          -∗ wp frame (wpE (defs₀ (F := F)) 𝒱₀ (c : Thread nD τ) none) Set.univ (k0_part41 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q) := by
  simp only [k0_part41_eq_skeleton]; unfold k0_part41_skel
  simp only [semSignalWord, semWaitWord, Prog.lift, Prog.bind_op, Prog.bind_ret, Prog.pure_eq_ret]
  iintro ⟨#HR, #Hlev, HO, H1, H2⟩
  iintro Hk
  iapply (wait_step m K c 0 0 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 0 1 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 0 2 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 0 3 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  rw [wp_ret]; imodintro
  iapply Hk
  isplitl [HO]; · iexact HO
  isplitl [H1]; · iexact H1
  iexact H2

set_option maxHeartbeats 1600000 in
theorem exec_part42 (c : Dev nD)
    {Q : (PUnit) → sProp 𝕄} :
    iprop(records m K ∗ levAts L lv ∗ owesX (F := F) c (OL []) ∗ fromK 4 (waitIn (F := F) 0 c) ∗ belowK 4 (waitOut m 0 c))
      ⊢ iprop((∀ a, iprop(owesX (F := F) c (OL []) ∗ fromK 9 (waitIn (F := F) 0 c) ∗ belowK 9 (waitOut m 0 c)) -∗ Q a)
          -∗ wp frame (wpE (defs₀ (F := F)) 𝒱₀ (c : Thread nD τ) none) Set.univ (k0_part42 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q) := by
  simp only [k0_part42_eq_skeleton]; unfold k0_part42_skel
  simp only [semSignalWord, semWaitWord, Prog.lift, Prog.bind_op, Prog.bind_ret, Prog.pure_eq_ret]
  iintro ⟨#HR, #Hlev, HO, H1, H2⟩
  iintro Hk
  iapply (wait_step m K c 0 4 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 0 5 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 0 6 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 0 7 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 0 8 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  rw [wp_ret]; imodintro
  iapply Hk
  isplitl [HO]; · iexact HO
  isplitl [H1]; · iexact H1
  iexact H2

set_option maxHeartbeats 1600000 in
theorem exec_part43 (c : Dev nD)
    {Q : (PUnit) → sProp 𝕄} :
    iprop(records m K ∗ levAts L lv ∗ owesX (F := F) c (OL []) ∗ fromK 9 (waitIn (F := F) 0 c) ∗ belowK 9 (waitOut m 0 c))
      ⊢ iprop((∀ a, iprop(owesX (F := F) c (OL []) ∗ fromK 13 (waitIn (F := F) 0 c) ∗ belowK 13 (waitOut m 0 c)) -∗ Q a)
          -∗ wp frame (wpE (defs₀ (F := F)) 𝒱₀ (c : Thread nD τ) none) Set.univ (k0_part43 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q) := by
  simp only [k0_part43_eq_skeleton]; unfold k0_part43_skel
  simp only [semSignalWord, semWaitWord, Prog.lift, Prog.bind_op, Prog.bind_ret, Prog.pure_eq_ret]
  iintro ⟨#HR, #Hlev, HO, H1, H2⟩
  iintro Hk
  iapply (wait_step m K c 0 9 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 0 10 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 0 11 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 0 12 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  rw [wp_ret]; imodintro
  iapply Hk
  isplitl [HO]; · iexact HO
  isplitl [H1]; · iexact H1
  iexact H2

set_option maxHeartbeats 1600000 in
theorem exec_part44 (c : Dev nD)
    {Q : (PUnit) → sProp 𝕄} :
    iprop(records m K ∗ levAts L lv ∗ owesX (F := F) c (OL []) ∗ fromK 13 (waitIn (F := F) 0 c) ∗ belowK 13 (waitOut m 0 c))
      ⊢ iprop((∀ a, iprop(owesX (F := F) c (OL []) ∗ fromK 18 (waitIn (F := F) 0 c) ∗ belowK 18 (waitOut m 0 c)) -∗ Q a)
          -∗ wp frame (wpE (defs₀ (F := F)) 𝒱₀ (c : Thread nD τ) none) Set.univ (k0_part44 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q) := by
  simp only [k0_part44_eq_skeleton]; unfold k0_part44_skel
  simp only [semSignalWord, semWaitWord, Prog.lift, Prog.bind_op, Prog.bind_ret, Prog.pure_eq_ret]
  iintro ⟨#HR, #Hlev, HO, H1, H2⟩
  iintro Hk
  iapply (wait_step m K c 0 13 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 0 14 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 0 15 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 0 16 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 0 17 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  rw [wp_ret]; imodintro
  iapply Hk
  isplitl [HO]; · iexact HO
  isplitl [H1]; · iexact H1
  iexact H2

set_option maxHeartbeats 1600000 in
theorem exec_part45 (c : Dev nD)
    {Q : (PUnit) → sProp 𝕄} :
    iprop(records m K ∗ levAts L lv ∗ owesX (F := F) c (OL []) ∗ fromK 18 (waitIn (F := F) 0 c) ∗ belowK 18 (waitOut m 0 c))
      ⊢ iprop((∀ a, iprop(owesX (F := F) c (OL []) ∗ fromK 23 (waitIn (F := F) 0 c) ∗ belowK 23 (waitOut m 0 c)) -∗ Q a)
          -∗ wp frame (wpE (defs₀ (F := F)) 𝒱₀ (c : Thread nD τ) none) Set.univ (k0_part45 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q) := by
  simp only [k0_part45_eq_skeleton]; unfold k0_part45_skel
  simp only [semSignalWord, semWaitWord, Prog.lift, Prog.bind_op, Prog.bind_ret, Prog.pure_eq_ret]
  iintro ⟨#HR, #Hlev, HO, H1, H2⟩
  iintro Hk
  iapply (wait_step m K c 0 18 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 0 19 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 0 20 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 0 21 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 0 22 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  rw [wp_ret]; imodintro
  iapply Hk
  isplitl [HO]; · iexact HO
  isplitl [H1]; · iexact H1
  iexact H2

set_option maxHeartbeats 1600000 in
theorem exec_part46 (c : Dev nD)
    {Q : (PUnit) → sProp 𝕄} :
    iprop(records m K ∗ levAts L lv ∗ owesX (F := F) c (OL []) ∗ fromK 23 (waitIn (F := F) 0 c) ∗ belowK 23 (waitOut m 0 c))
      ⊢ iprop((∀ a, iprop(owesX (F := F) c (OL []) ∗ fromK 27 (waitIn (F := F) 0 c) ∗ belowK 27 (waitOut m 0 c)) -∗ Q a)
          -∗ wp frame (wpE (defs₀ (F := F)) 𝒱₀ (c : Thread nD τ) none) Set.univ (k0_part46 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q) := by
  simp only [k0_part46_eq_skeleton]; unfold k0_part46_skel
  simp only [semSignalWord, semWaitWord, Prog.lift, Prog.bind_op, Prog.bind_ret, Prog.pure_eq_ret]
  iintro ⟨#HR, #Hlev, HO, H1, H2⟩
  iintro Hk
  iapply (wait_step m K c 0 23 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 0 24 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 0 25 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 0 26 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  rw [wp_ret]; imodintro
  iapply Hk
  isplitl [HO]; · iexact HO
  isplitl [H1]; · iexact H1
  iexact H2

end Cert.Kernel.Hand

end
-- ==== Proof.BitsPartsF.lean ====
/-
  Parts 48 to 52 of the body: the waits on the all-gather's receive cells of slots 1 to 27.
-/
import proofs.«900471_g7700000000000472_dist_rs_then_ag_i_m512_n512_v7x_i32_bf16_1_alg».proof.Proof.BitsPartsA

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)

set_option maxHeartbeats 1600000 in
theorem exec_part48 (c : Dev nD) (v880 : BitVec 32) (v890 : BitVec 32) (v900 : BitVec 32) (v910 : BitVec 32) (v920 : BitVec 32)
    {Q : (PUnit) → sProp 𝕄} :
    iprop(records m K ∗ levAts L lv ∗ owesX (F := F) c (OL []) ∗ fromK 1 (waitIn (F := F) 3 c) ∗ belowK 1 (waitOut m 3 c))
      ⊢ iprop((∀ a, iprop(owesX (F := F) c (OL []) ∗ fromK 7 (waitIn (F := F) 3 c) ∗ belowK 7 (waitOut m 3 c)) -∗ Q a)
          -∗ wp frame (wpE (defs₀ (F := F)) 𝒱₀ (c : Thread nD τ) none) Set.univ (k0_part48 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v880 v890 v900 v910 v920) Q) := by
  simp only [k0_part48_eq_skeleton]; unfold k0_part48_skel
  simp only [semSignalWord, semWaitWord, Prog.lift, Prog.bind_op, Prog.bind_ret, Prog.pure_eq_ret]
  iintro ⟨#HR, #Hlev, HO, H1, H2⟩
  iintro Hk
  iapply (wait_step m K c 3 1 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 3 2 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 3 3 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 3 4 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 3 5 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 3 6 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  rw [wp_ret]; imodintro
  iapply Hk
  isplitl [HO]; · iexact HO
  isplitl [H1]; · iexact H1
  iexact H2

set_option maxHeartbeats 1600000 in
theorem exec_part49 (c : Dev nD) (v930 : BitVec 32) (v940 : BitVec 32) (v950 : BitVec 32) (v960 : BitVec 32) (v970 : BitVec 32) (v980 : BitVec 32)
    {Q : (PUnit) → sProp 𝕄} :
    iprop(records m K ∗ levAts L lv ∗ owesX (F := F) c (OL []) ∗ fromK 7 (waitIn (F := F) 3 c) ∗ belowK 7 (waitOut m 3 c))
      ⊢ iprop((∀ a, iprop(owesX (F := F) c (OL []) ∗ fromK 12 (waitIn (F := F) 3 c) ∗ belowK 12 (waitOut m 3 c)) -∗ Q a)
          -∗ wp frame (wpE (defs₀ (F := F)) 𝒱₀ (c : Thread nD τ) none) Set.univ (k0_part49 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v930 v940 v950 v960 v970 v980) Q) := by
  simp only [k0_part49_eq_skeleton]; unfold k0_part49_skel
  simp only [semSignalWord, semWaitWord, Prog.lift, Prog.bind_op, Prog.bind_ret, Prog.pure_eq_ret]
  iintro ⟨#HR, #Hlev, HO, H1, H2⟩
  iintro Hk
  iapply (wait_step m K c 3 7 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 3 8 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 3 9 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 3 10 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 3 11 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  rw [wp_ret]; imodintro
  iapply Hk
  isplitl [HO]; · iexact HO
  isplitl [H1]; · iexact H1
  iexact H2

set_option maxHeartbeats 1600000 in
theorem exec_part50 (c : Dev nD) (v990 : BitVec 32) (v1000 : BitVec 32) (v1010 : BitVec 32) (v1020 : BitVec 32) (v1030 : BitVec 32)
    {Q : (PUnit) → sProp 𝕄} :
    iprop(records m K ∗ levAts L lv ∗ owesX (F := F) c (OL []) ∗ fromK 12 (waitIn (F := F) 3 c) ∗ belowK 12 (waitOut m 3 c))
      ⊢ iprop((∀ a, iprop(owesX (F := F) c (OL []) ∗ fromK 18 (waitIn (F := F) 3 c) ∗ belowK 18 (waitOut m 3 c)) -∗ Q a)
          -∗ wp frame (wpE (defs₀ (F := F)) 𝒱₀ (c : Thread nD τ) none) Set.univ (k0_part50 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v990 v1000 v1010 v1020 v1030) Q) := by
  simp only [k0_part50_eq_skeleton]; unfold k0_part50_skel
  simp only [semSignalWord, semWaitWord, Prog.lift, Prog.bind_op, Prog.bind_ret, Prog.pure_eq_ret]
  iintro ⟨#HR, #Hlev, HO, H1, H2⟩
  iintro Hk
  iapply (wait_step m K c 3 12 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 3 13 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 3 14 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 3 15 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 3 16 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 3 17 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  rw [wp_ret]; imodintro
  iapply Hk
  isplitl [HO]; · iexact HO
  isplitl [H1]; · iexact H1
  iexact H2

set_option maxHeartbeats 1600000 in
theorem exec_part51 (c : Dev nD) (v1040 : BitVec 32) (v1050 : BitVec 32) (v1060 : BitVec 32) (v1070 : BitVec 32) (v1080 : BitVec 32) (v1090 : BitVec 32)
    {Q : (Σ' (v1439 : BitVec 32), BitVec 32) → sProp 𝕄} :
    iprop(records m K ∗ levAts L lv ∗ owesX (F := F) c (OL []) ∗ fromK 18 (waitIn (F := F) 3 c) ∗ belowK 18 (waitOut m 3 c))
      ⊢ iprop((∀ a, iprop(owesX (F := F) c (OL []) ∗ fromK 23 (waitIn (F := F) 3 c) ∗ belowK 23 (waitOut m 3 c)) -∗ Q a)
          -∗ wp frame (wpE (defs₀ (F := F)) 𝒱₀ (c : Thread nD τ) none) Set.univ (k0_part51 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v1040 v1050 v1060 v1070 v1080 v1090) Q) := by
  simp only [k0_part51_eq_skeleton]; unfold k0_part51_skel
  simp only [semSignalWord, semWaitWord, Prog.lift, Prog.bind_op, Prog.bind_ret, Prog.pure_eq_ret]
  iintro ⟨#HR, #Hlev, HO, H1, H2⟩
  iintro Hk
  iapply (wait_step m K c 3 18 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 3 19 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 3 20 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 3 21 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 3 22 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  rw [wp_ret]; imodintro
  iapply Hk
  isplitl [HO]; · iexact HO
  isplitl [H1]; · iexact H1
  iexact H2

set_option maxHeartbeats 1600000 in
theorem exec_part52 (c : Dev nD) (v1100 : BitVec 32) (v1110 : BitVec 32) (v1120 : BitVec 32) (v1130 : BitVec 32) (v1140 : BitVec 32) (v1439 : BitVec 32) (c0_i32_1371 : BitVec 32)
    {Q : (PUnit) → sProp 𝕄} :
    iprop(records m K ∗ levAts L lv ∗ owesX (F := F) c (OL []) ∗ fromK 23 (waitIn (F := F) 3 c) ∗ belowK 23 (waitOut m 3 c))
      ⊢ iprop((∀ a, iprop(owesX (F := F) c (OL []) ∗ fromK 28 (waitIn (F := F) 3 c) ∗ belowK 28 (waitOut m 3 c)) -∗ Q a)
          -∗ wp frame (wpE (defs₀ (F := F)) 𝒱₀ (c : Thread nD τ) none) Set.univ (k0_part52 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v1100 v1110 v1120 v1130 v1140 v1439 c0_i32_1371) Q) := by
  simp only [k0_part52_eq_skeleton]; unfold k0_part52_skel
  simp only [semSignalWord, semWaitWord, Prog.lift, Prog.bind_op, Prog.bind_ret, Prog.pure_eq_ret]
  iintro ⟨#HR, #Hlev, HO, H1, H2⟩
  iintro Hk
  iapply (wait_step m K c 3 23 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 3 24 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 3 25 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 3 26 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 3 27 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  rw [wp_ret]; imodintro
  iapply Hk
  isplitl [HO]; · iexact HO
  isplitl [H1]; · iexact H1
  iexact H2

end Cert.Kernel.Hand

end
-- ==== Proof.BitsPartsG.lean ====
/-
  Parts 54 to 56 of the body: the waits on the all-gather's send cells of slots 4 to 26.
-/
import proofs.«900471_g7700000000000472_dist_rs_then_ag_i_m512_n512_v7x_i32_bf16_1_alg».proof.Proof.BitsPartsA

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)

set_option maxHeartbeats 1600000 in
theorem exec_part54 (c : Dev nD)
    {Q : (PUnit) → sProp 𝕄} :
    iprop(records m K ∗ levAts L lv ∗ owesX (F := F) c (OL []) ∗ fromK 4 (waitIn (F := F) 2 c) ∗ belowK 4 (waitOut m 2 c))
      ⊢ iprop((∀ a, iprop(owesX (F := F) c (OL []) ∗ fromK 12 (waitIn (F := F) 2 c) ∗ belowK 12 (waitOut m 2 c)) -∗ Q a)
          -∗ wp frame (wpE (defs₀ (F := F)) 𝒱₀ (c : Thread nD τ) none) Set.univ (k0_part54 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q) := by
  simp only [k0_part54_eq_skeleton]; unfold k0_part54_skel
  simp only [semSignalWord, semWaitWord, Prog.lift, Prog.bind_op, Prog.bind_ret, Prog.pure_eq_ret]
  iintro ⟨#HR, #Hlev, HO, H1, H2⟩
  iintro Hk
  iapply (wait_step m K c 2 4 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 2 5 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 2 6 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 2 7 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 2 8 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 2 9 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 2 10 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 2 11 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  rw [wp_ret]; imodintro
  iapply Hk
  isplitl [HO]; · iexact HO
  isplitl [H1]; · iexact H1
  iexact H2

set_option maxHeartbeats 1600000 in
theorem exec_part55 (c : Dev nD)
    {Q : (PUnit) → sProp 𝕄} :
    iprop(records m K ∗ levAts L lv ∗ owesX (F := F) c (OL []) ∗ fromK 12 (waitIn (F := F) 2 c) ∗ belowK 12 (waitOut m 2 c))
      ⊢ iprop((∀ a, iprop(owesX (F := F) c (OL []) ∗ fromK 19 (waitIn (F := F) 2 c) ∗ belowK 19 (waitOut m 2 c)) -∗ Q a)
          -∗ wp frame (wpE (defs₀ (F := F)) 𝒱₀ (c : Thread nD τ) none) Set.univ (k0_part55 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q) := by
  simp only [k0_part55_eq_skeleton]; unfold k0_part55_skel
  simp only [semSignalWord, semWaitWord, Prog.lift, Prog.bind_op, Prog.bind_ret, Prog.pure_eq_ret]
  iintro ⟨#HR, #Hlev, HO, H1, H2⟩
  iintro Hk
  iapply (wait_step m K c 2 12 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 2 13 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 2 14 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 2 15 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 2 16 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 2 17 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 2 18 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  rw [wp_ret]; imodintro
  iapply Hk
  isplitl [HO]; · iexact HO
  isplitl [H1]; · iexact H1
  iexact H2

set_option maxHeartbeats 1600000 in
theorem exec_part56 (c : Dev nD)
    {Q : (PUnit) → sProp 𝕄} :
    iprop(records m K ∗ levAts L lv ∗ owesX (F := F) c (OL []) ∗ fromK 19 (waitIn (F := F) 2 c) ∗ belowK 19 (waitOut m 2 c))
      ⊢ iprop((∀ a, iprop(owesX (F := F) c (OL []) ∗ fromK 27 (waitIn (F := F) 2 c) ∗ belowK 27 (waitOut m 2 c)) -∗ Q a)
          -∗ wp frame (wpE (defs₀ (F := F)) 𝒱₀ (c : Thread nD τ) none) Set.univ (k0_part56 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q) := by
  simp only [k0_part56_eq_skeleton]; unfold k0_part56_skel
  simp only [semSignalWord, semWaitWord, Prog.lift, Prog.bind_op, Prog.bind_ret, Prog.pure_eq_ret]
  iintro ⟨#HR, #Hlev, HO, H1, H2⟩
  iintro Hk
  iapply (wait_step m K c 2 19 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 2 20 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 2 21 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 2 22 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 2 23 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 2 24 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 2 25 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 2 26 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  rw [wp_ret]; imodintro
  iapply Hk
  isplitl [HO]; · iexact HO
  isplitl [H1]; · iexact H1
  iexact H2

end Cert.Kernel.Hand

end
-- ==== Proof.BitsPartsH.lean ====
/-
  Parts 1, 18, 47 and 53 of the body: the first five barrier signals (after the device reads its own id), the last
  three copies of the reduce-scatter followed by the load of the device's own 16 rows, and the two parts in which one
  loop of waits ends and the next begins.
-/
import proofs.«900471_g7700000000000472_dist_rs_then_ag_i_m512_n512_v7x_i32_bf16_1_alg».proof.Proof.BitsPartsA

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)

set_option maxHeartbeats 1600000 in
theorem exec_part1 (c : Dev nD) (more : List (GSem nD τ sig × ℕ))
    {Q : (Σ' (d0 : Dev nD) (v2 : BitVec 32) (v3 : Sems sig S_) (v24 : BitVec 32), BitVec 32) → sProp 𝕄} :
    iprop(records m K ∗ owesX (F := F) c (OL (sigItems c 0 ++ more)) ∗ fromK 0 (sigIn (F := F) c))
      ⊢ iprop((∀ (v2 v24 c32 : BitVec 32), iprop(owesX (F := F) c (OL (sigItems c 5 ++ more)) ∗ fromK 5 (sigIn (F := F) c)) -∗ Q ⟨c, v2, barArr, v24, c32⟩)
          -∗ wp frame (wpE (defs₀ (F := F)) 𝒱₀ (c : Thread nD τ) none) Set.univ (k0_part1 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) Q) := by
  simp only [k0_part1_eq_skeleton]; unfold k0_part1_skel
  simp only [semSignalWord, semWaitWord, Prog.lift, Prog.bind_op, Prog.bind_ret, Prog.pure_eq_ret, wp_deviceId]
  iintro ⟨#HR, HO, H1⟩
  iintro Hk
  iapply (sig_step m K c 0 _ (dev1_eq c) more) $$ [HO H1]
  · isplitr; · iexact HR
    isplitl [HO]; · iexact HO
    iexact H1
  iintro ⟨HO, H1⟩
  iapply (sig_step m K c 1 _ (dev2_eq c) more) $$ [HO H1]
  · isplitr; · iexact HR
    isplitl [HO]; · iexact HO
    iexact H1
  iintro ⟨HO, H1⟩
  iapply (sig_step m K c 2 _ (dev3_eq c) more) $$ [HO H1]
  · isplitr; · iexact HR
    isplitl [HO]; · iexact HO
    iexact H1
  iintro ⟨HO, H1⟩
  iapply (sig_step m K c 3 _ (dev4_eq c) more) $$ [HO H1]
  · isplitr; · iexact HR
    isplitl [HO]; · iexact HO
    iexact H1
  iintro ⟨HO, H1⟩
  iapply (sig_step m K c 4 _ (dev5_eq c) more) $$ [HO H1]
  · isplitr; · iexact HR
    isplitl [HO]; · iexact HO
    iexact H1
  iintro ⟨HO, H1⟩
  rw [wp_ret]; imodintro
  iapply Hk
  isplitl [HO]; · iexact HO
  iexact H1

set_option maxHeartbeats 1600000 in
theorem exec_part18 (c : Dev nD) (v2 : BitVec 32) (more : List (GSem nD τ sig × ℕ))
    {Q : (Σ' (v483 : BitVec 32) (v495 : BitVec 32), Vec F S16x512 .f32) → sProp 𝕄} :
    iprop(records m K ∗ owesX (F := F) c (OL (rsItems c 28 ++ more)) ∗ fromK 28 (rsIn m c) ∗ belowK 28 (rsOut (F := F) c)
        ∗ (((c : Thread nD τ).loc cc0_stg0_0) ↦{fullShare} xstg m c))
      ⊢ iprop((∀ (w1 w2 : BitVec 32), iprop(owesX (F := F) c (OL (rsItems c 31 ++ more)) ∗ fromK 31 (rsIn m c) ∗ belowK 31 (rsOut (F := F) c)
              ∗ (((c : Thread nD τ).loc cc0_stg0_0) ↦{fullShare} xstg m c)) -∗ Q ⟨w1, w2, (xM : Memref sig .tc .vmem S512x512 .f32).view.readAt (Elt F) (Rect.unit (s := S512x512) (k0_off2 c) S16x512.size (k0_off2_inb c)).toLoadRect (xstg m c)⟩)
          -∗ wp frame (wpE (defs₀ (F := F)) 𝒱₀ (c : Thread nD τ) none) Set.univ (k0_part18 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q) := by
  simp only [k0_part18_eq_skeleton]; unfold k0_part18_skel
  simp only [semSignalWord, semWaitWord, Prog.lift, Prog.bind_op, Prog.bind_ret, Prog.pure_eq_ret]
  iintro ⟨#HR, HO, H1, H2, Hx⟩
  iintro Hk
  iapply (rs_step m K c 28 _ (dev60_eq c) more) $$ [HO H1 H2]
  · isplitr; · iexact HR
    isplitl [HO]; · iexact HO
    isplitl [H1]; · iexact H1
    iexact H2
  iintro ⟨HO, H1, H2⟩
  iapply (rs_step m K c 29 _ (dev61_eq c) more) $$ [HO H1 H2]
  · isplitr; · iexact HR
    isplitl [HO]; · iexact HO
    isplitl [H1]; · iexact H1
    iexact H2
  iintro ⟨HO, H1, H2⟩
  iapply (rs_step m K c 30 _ (dev62_eq c) more) $$ [HO H1 H2]
  · isplitr; · iexact HR
    isplitl [HO]; · iexact HO
    isplitl [H1]; · iexact H1
    iexact H2
  iintro ⟨HO, H1, H2⟩
  iapply (wp_load 𝒱₀ (c : Thread nD τ) none Set.univ (m := xM) (Finset.subset_univ _)) $$ Hx; iintro Hx
  rw [wp_ret]; imodintro
  iapply Hk
  isplitl [HO]; · iexact HO
  isplitl [H1]; · iexact H1
  isplitl [H2]; · iexact H2
  iexact Hx

set_option maxHeartbeats 1600000 in
theorem exec_part47 (c : Dev nD) (v860 : BitVec 32) (v870 : BitVec 32)
    {Q : (PUnit) → sProp 𝕄} :
    iprop(records m K ∗ levAts L lv ∗ owesX (F := F) c (OL []) ∗ fromK 27 (waitIn (F := F) 0 c) ∗ belowK 27 (waitOut m 0 c)
        ∗ fromK 0 (waitIn (F := F) 3 c) ∗ belowK 0 (waitOut m 3 c))
      ⊢ iprop((∀ a, iprop(owesX (F := F) c (OL []) ∗ fromK 31 (waitIn (F := F) 0 c) ∗ belowK 31 (waitOut m 0 c)
              ∗ fromK 1 (waitIn (F := F) 3 c) ∗ belowK 1 (waitOut m 3 c)) -∗ Q a)
          -∗ wp frame (wpE (defs₀ (F := F)) 𝒱₀ (c : Thread nD τ) none) Set.univ (k0_part47 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v860 v870) Q) := by
  simp only [k0_part47_eq_skeleton]; unfold k0_part47_skel
  simp only [semSignalWord, semWaitWord, Prog.lift, Prog.bind_op, Prog.bind_ret, Prog.pure_eq_ret]
  iintro ⟨#HR, #Hlev, HO, H1, H2, H3, H4⟩
  iintro Hk
  iapply (wait_step m K c 0 27 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 0 28 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 0 29 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 0 30 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 3 0 _ (mayWait_nil c _) (wpE_waitDma2_eq 𝒱₀ (c : Thread nD τ) none Set.univ) (credit_any _)) $$ [HO H3 H4]
  · isplitr; · iexact HR
    isplitr; · iexact Hlev
    isplitl [HO]; · iexact HO
    isplitl [H3]; · iexact H3
    iexact H4
  iintro ⟨HO, H3, H4⟩
  rw [wp_ret]; imodintro
  iapply Hk
  isplitl [HO]; · iexact HO
  isplitl [H1]; · iexact H1
  isplitl [H2]; · iexact H2
  isplitl [H3]; · iexact H3
  iexact H4

set_option maxHeartbeats 1600000 in
theorem exec_part53 (c : Dev nD) (v1150 : BitVec 32) (v1160 : BitVec 32)
    {Q : (PUnit) → sProp 𝕄} :
    iprop(records m K ∗ levAts L lv ∗ owesX (F := F) c (OL []) ∗ fromK 28 (waitIn (F := F) 3 c) ∗ belowK 28 (waitOut m 3 c)
        ∗ fromK 0 (waitIn (F := F) 2 c) ∗ belowK 0 (waitOut m 2 c))
      ⊢ iprop((∀ a, iprop(owesX (F := F) c (OL []) ∗ fromK 31 (waitIn (F := F) 3 c) ∗ belowK 31 (waitOut m 3 c)
              ∗ fromK 4 (waitIn (F := F) 2 c) ∗ belowK 4 (waitOut m 2 c)) -∗ Q a)
          -∗ wp frame (wpE (defs₀ (F := F)) 𝒱₀ (c : Thread nD τ) none) Set.univ (k0_part53 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v1150 v1160) Q) := by
  simp only [k0_part53_eq_skeleton]; unfold k0_part53_skel
  simp only [semSignalWord, semWaitWord, Prog.lift, Prog.bind_op, Prog.bind_ret, Prog.pure_eq_ret]
  iintro ⟨#HR, #Hlev, HO, H1, H2, H3, H4⟩
  iintro Hk
  iapply (wait_step m K c 3 28 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 3 29 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 3 30 _ (mayWait_nil c _) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (wait_step m K c 2 0 _ (mayWait_nil c _) (wpE_waitDma2_eq 𝒱₀ (c : Thread nD τ) none Set.univ) (credit_any _)) $$ [HO H3 H4]
  · isplitr; · iexact HR
    isplitr; · iexact Hlev
    isplitl [HO]; · iexact HO
    isplitl [H3]; · iexact H3
    iexact H4
  iintro ⟨HO, H3, H4⟩
  iapply (wait_step m K c 2 1 _ (mayWait_nil c _) (wpE_waitDma2_eq 𝒱₀ (c : Thread nD τ) none Set.univ) (credit_any _)) $$ [HO H3 H4]
  · isplitr; · iexact HR
    isplitr; · iexact Hlev
    isplitl [HO]; · iexact HO
    isplitl [H3]; · iexact H3
    iexact H4
  iintro ⟨HO, H3, H4⟩
  iapply (wait_step m K c 2 2 _ (mayWait_nil c _) (wpE_waitDma2_eq 𝒱₀ (c : Thread nD τ) none Set.univ) (credit_any _)) $$ [HO H3 H4]
  · isplitr; · iexact HR
    isplitr; · iexact Hlev
    isplitl [HO]; · iexact HO
    isplitl [H3]; · iexact H3
    iexact H4
  iintro ⟨HO, H3, H4⟩
  iapply (wait_step m K c 2 3 _ (mayWait_nil c _) (wpE_waitDma2_eq 𝒱₀ (c : Thread nD τ) none Set.univ) (credit_any _)) $$ [HO H3 H4]
  · isplitr; · iexact HR
    isplitr; · iexact Hlev
    isplitl [HO]; · iexact HO
    isplitl [H3]; · iexact H3
    iexact H4
  iintro ⟨HO, H3, H4⟩
  rw [wp_ret]; imodintro
  iapply Hk
  isplitl [HO]; · iexact HO
  isplitl [H1]; · iexact H1
  isplitl [H2]; · iexact H2
  isplitl [H3]; · iexact H3
  iexact H4

end Cert.Kernel.Hand

end
-- ==== Proof.BitsSets.lean ====
/-
  Index sets and read-backs of the buffers' pieces.

  The receive scratch is cut in 31 slots (first coordinate `r`); the two 512 x 512 buffers are cut in 32 row blocks of
  16 rows (row `i` lies in block `i / 16`): block `b` of the result's staging buffer is device `b`'s, and of the staging copy
  device `c` sends row block `peer c r` with slot `r` and keeps row block `c`.  Each buffer, whole, is the separating
  conjunction of its pieces, because the pieces are pairwise disjoint and cover it; pieces held at different contents join
  to the whole buffer at contents that agree with each piece on its elements.  A load of a slot through the whole scratch
  reads that slot only, so what it reads after a landing does not depend on what the scratch held before; a block of the
  result's staging buffer written with a device's reduced block holds the result there.
-/
import proofs.«900471_g7700000000000472_dist_rs_then_ag_i_m512_n512_v7x_i32_bf16_1_alg».proof.Proof.BitsData

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Membership: which rows a 16-row block holds, which slot an element of the receive scratch lies in -/

/-- A 16-row block at rows `16 e` onwards of a 512 x 512 buffer holds exactly the elements of row block `e`. -/
theorem mem_rows16 {off : Fin 2 → ℕ} (e : ℕ) (h : off = ![16 * e, 0]) (inb : ∀ a, off a + S16x512.size a ≤ S512x512.size a)
    (i : S512x512.Idx) : i ∈ (Rect.unit (s := S512x512) off S16x512.size inb).set ↔ (i 0).val / 16 = e := by
  subst h
  rw [Rect.mem_set_unit]
  have h1 : (i 1).val < 512 := (i 1).isLt
  constructor
  · intro hh
    have h0 : 16 * e ≤ (i 0).val ∧ (i 0).val < 16 * e + 16 := hh 0
    omega
  · intro hh a
    match a with
    | ⟨0, _⟩ => show 16 * e ≤ (i 0).val ∧ (i 0).val < 16 * e + 16; omega
    | ⟨1, _⟩ => show 0 ≤ (i 1).val ∧ (i 1).val < 0 + 512; omega

/-- Block `b` of the result's staging buffer is row block `b`. -/
theorem mem_outSlice (b : Dev nD) (i : S512x512.Idx) : i ∈ (outSlice b).view.set ↔ (i 0).val / 16 = b.val := by
  have e : (outSlice b).view.set = (Rect.unit (s := S512x512) (k0_off3 b) S16x512.size (k0_off3_inb b)).set :=
    View.set_slice_whole cc0_stg1_0 _
  rw [e]
  exact mem_rows16 b.val (k0_off3_eq b) _ i

/-- The rows device `c` sends with slot `r` are row block `peer c r` of its staging copy. -/
theorem mem_stSlice (c : Dev nD) (r : Fin 31) (i : S512x512.Idx) : i ∈ (stSlice c r).view.set ↔ (i 0).val / 16 = (peer c r).val := by
  have e : (stSlice c r).view.set = (Rect.unit (s := S512x512) (k0_off1 c (BitVec.ofNat 32 (1 + r.val))) S16x512.size (k0_off1_inb c r)).set :=
    View.set_slice_whole cc0_scratch0 _
  rw [e]
  exact mem_rows16 (peer c r).val (k0_off1_eq c r) _ i

/-- Slot `r` of the receive scratch holds exactly the elements whose first coordinate is `r`. -/
theorem mem_slotM (r : Fin 31) (j : S31x16x512.Idx) : j ∈ (slotM r).view.set ↔ (j 0).val = r.val := by
  have e : (slotM r).view.set = (slotRect r).set :=
    (View.set_reshape _ _).trans (View.set_slice_whole cc0_scratch1 _)
  rw [e, Rect.mem_set_unit]
  have h1 : (j 1).val < 16 := (j 1).isLt
  have h2 : (j 2).val < 512 := (j 2).isLt
  constructor
  · intro hh
    have h0 : r.val ≤ (j 0).val ∧ (j 0).val < r.val + 1 := hh 0
    omega
  · intro hh a
    match a with
    | ⟨0, _⟩ => show r.val ≤ (j 0).val ∧ (j 0).val < r.val + 1; omega
    | ⟨1, _⟩ => show 0 ≤ (j 1).val ∧ (j 1).val < 0 + 16; omega
    | ⟨2, _⟩ => show 0 ≤ (j 2).val ∧ (j 2).val < 0 + 512; omega

/-! ## Splits: a whole buffer as the separate pieces the protocol hands round, and back -/

/-- The element sets of the pieces, each at its buffer's index type. -/
abbrev slotSet (r : Fin 31) : Finset S31x16x512.Idx := (slotM r).view.set
abbrev outSet (b : Dev nD) : Finset S512x512.Idx := (outSlice b).view.set
abbrev stSet (c : Dev nD) (r : Fin 31) : Finset S512x512.Idx := (stSlice c r).view.set

theorem slot_disj : ∀ r ∈ (Finset.univ : Finset (Fin 31)), ∀ r' ∈ (Finset.univ : Finset (Fin 31)), r ≠ r' →
    Disjoint (slotSet r) (slotSet r') := by
  intro r _ r' _ hne
  rw [Finset.disjoint_left]
  intro j h1 h2
  exact hne (Fin.ext (((mem_slotM r j).mp h1).symm.trans ((mem_slotM r' j).mp h2)))

theorem slot_cover : (Finset.univ : Finset (Fin 31)).biUnion slotSet = Finset.univ := by
  ext j
  simp only [Finset.mem_biUnion, Finset.mem_univ, true_and, iff_true]
  exact ⟨⟨(j 0).val, (j 0).isLt⟩, (mem_slotM _ j).mpr rfl⟩

theorem out_disj : ∀ b ∈ (Finset.univ : Finset (Dev nD)), ∀ b' ∈ (Finset.univ : Finset (Dev nD)), b ≠ b' →
    Disjoint (outSet b) (outSet b') := by
  intro b _ b' _ hne
  rw [Finset.disjoint_left]
  intro i h1 h2
  exact hne (Fin.ext (((mem_outSlice b i).mp h1).symm.trans ((mem_outSlice b' i).mp h2)))

theorem out_cover : (Finset.univ : Finset (Dev nD)).biUnion outSet = Finset.univ := by
  ext i
  simp only [Finset.mem_biUnion, Finset.mem_univ, true_and, iff_true]
  have h0 : (i 0).val < 512 := (i 0).isLt
  exact ⟨⟨(i 0).val / 16, by show (i 0).val / 16 < 32; omega⟩, (mem_outSlice _ i).mpr rfl⟩

/-- The receive scratch, whole, is its 31 slots. -/
theorem rs_split (c : Dev nD) (f : Buf (Elt F) ((c : Thread nD τ).loc cc0_scratch1)) :
    (((c : Thread nD τ).loc cc0_scratch1) ↦{fullShare} f : sProp 𝕄) = bigSep Finset.univ (fun r : Fin 31 => slotPts c r f) := by
  unfold slotPts
  refine Eq.trans ?_ (pointsTo_biUnion (q := fullShare) (f := f) Finset.univ slotSet slot_disj)
  exact congrArg (fun S => (((c : Thread nD τ).loc cc0_scratch1) ↦[S]{fullShare} f : sProp 𝕄)) (Eq.symm slot_cover)

/-- The result's staging buffer, whole, is its 32 blocks. -/
theorem out_split (c : Dev nD) (f : Buf (Elt F) ((c : Thread nD τ).loc cc0_stg1_0)) :
    (((c : Thread nD τ).loc cc0_stg1_0) ↦{fullShare} f : sProp 𝕄) = bigSep Finset.univ (fun b : Dev nD => outPts c b f) := by
  unfold outPts
  refine Eq.trans ?_ (pointsTo_biUnion (q := fullShare) (f := f) Finset.univ outSet out_disj)
  exact congrArg (fun S => (((c : Thread nD τ).loc cc0_stg1_0) ↦[S]{fullShare} f : sProp 𝕄)) (Eq.symm out_cover)

theorem st_disj (c : Dev nD) : ∀ r ∈ (Finset.univ : Finset (Fin 31)), ∀ r' ∈ (Finset.univ : Finset (Fin 31)), r ≠ r' →
    Disjoint (stSet c r) (stSet c r') := by
  intro r _ r' _ hne
  rw [Finset.disjoint_left]
  intro i h1 h2
  exact hne (peer_inj c r r' (Fin.ext (((mem_stSlice c r i).mp h1).symm.trans ((mem_stSlice c r' i).mp h2))))

theorem st_own_disj (c : Dev nD) : Disjoint ((Finset.univ : Finset (Fin 31)).biUnion (stSet c)) (outSet c) := by
  rw [Finset.disjoint_left]
  intro i h1 h2
  obtain ⟨r, -, hr⟩ := Finset.mem_biUnion.mp h1
  exact peer_ne c r (Fin.ext (((mem_stSlice c r i).mp hr).symm.trans ((mem_outSlice c i).mp h2)))

theorem st_cover (c : Dev nD) : (Finset.univ : Finset (Fin 31)).biUnion (stSet c) ∪ outSet c = Finset.univ := by
  ext i
  simp only [Finset.mem_union, Finset.mem_biUnion, Finset.mem_univ, true_and, iff_true]
  have h0 : (i 0).val < 512 := (i 0).isLt
  by_cases he : (⟨(i 0).val / 16, by show (i 0).val / 16 < 32; omega⟩ : Dev nD) = c
  · exact Or.inr ((mem_outSlice c i).mpr (congrArg Fin.val he))
  · obtain ⟨r, hr⟩ := exists_peer c _ he
    exact Or.inl ⟨r, (mem_stSlice c r i).mpr (congrArg Fin.val hr).symm⟩

/-- The staging copy, whole, is the 31 row blocks sent and the device's own rows. -/
theorem st_split (c : Dev nD) (f : Buf (Elt F) ((c : Thread nD τ).loc cc0_scratch0)) :
    (((c : Thread nD τ).loc cc0_scratch0) ↦{fullShare} f : sProp 𝕄)
      = iprop((bigSep Finset.univ fun r : Fin 31 => ((stSlice c r).view.loc (c : Thread nD τ) ↦[(stSlice c r).view.set]{fullShare} f))
          ∗ (((c : Thread nD τ).loc cc0_scratch0) ↦[outSet c]{fullShare} f)) := by
  have hu : (((c : Thread nD τ).loc cc0_scratch0) ↦[(Finset.univ : Finset (Fin 31)).biUnion (stSet c) ∪ outSet c]{fullShare} f : sProp 𝕄)
      ⊣⊢ iprop((((c : Thread nD τ).loc cc0_scratch0) ↦[(Finset.univ : Finset (Fin 31)).biUnion (stSet c)]{fullShare} f)
          ∗ (((c : Thread nD τ).loc cc0_scratch0) ↦[outSet c]{fullShare} f)) := pointsTo_union (st_own_disj c)
  refine (congrArg (fun S => (((c : Thread nD τ).loc cc0_scratch0) ↦[S]{fullShare} f : sProp 𝕄)) (Eq.symm (st_cover c))).trans ?_
  refine (BI.equiv_iff.mp ⟨hu.1, hu.2⟩).trans ?_
  rw [pointsTo_biUnion (q := fullShare) (f := f) Finset.univ (stSet c) (st_disj c)]

/-- Slots held at different contents are the receive scratch whole, at some contents. -/
theorem rs_join (c : Dev nD) :
    bigSep Finset.univ (fun r : Fin 31 => iprop(∃ f, slotPts (F := F) c r f))
      ⊢ (iprop(∃ g, ((c : Thread nD τ).loc cc0_scratch1) ↦{fullShare} g) : sProp 𝕄) := by
  have h1 := bigSep_exists_pi (M := 𝕄) Finset.univ
    (fun (r : Fin 31) (f : Buf (Elt F) ((c : Thread nD τ).loc cc0_scratch1)) => (((c : Thread nD τ).loc cc0_scratch1) ↦[slotSet r]{fullShare} f : sProp 𝕄))
  refine h1.trans ?_
  iintro ⟨%fs, H2⟩
  have h2 := pointsTo_biUnion_join (Ix := Unit) (Name := ℕ) (U := UU) (Lvl := ℕ) (q := fullShare) Finset.univ slotSet fs (fun _ => Classical.arbitrary _) slot_disj
  rw [slot_cover] at h2
  ihave H3 := h2 $$ H2
  icases H3 with ⟨%g, %hg, H3⟩
  iexists g
  iexact H3

/-- Blocks held at different contents are the result's staging buffer whole, at contents agreeing with each on its block. -/
theorem out_join (c : Dev nD) (fs : Dev nD → Buf (Elt F) ((c : Thread nD τ).loc cc0_stg1_0)) :
    bigSep Finset.univ (fun b : Dev nD => outPts (F := F) c b (fs b))
      ⊢ (iprop(∃ g, ⌜∀ b : Dev nD, ∀ i ∈ (outSlice b).view.set, g i = fs b i⌝ ∗ ((c : Thread nD τ).loc cc0_stg1_0) ↦{fullShare} g) : sProp 𝕄) := by
  have h2 := pointsTo_biUnion_join (Ix := Unit) (Name := ℕ) (U := UU) (Lvl := ℕ) (q := fullShare) Finset.univ outSet fs (fun _ => Classical.arbitrary _) out_disj
  rw [out_cover] at h2
  refine h2.trans ?_
  iintro ⟨%g, %hg, H3⟩
  iexists g
  isplitr
  · ipureintro
    exact fun b i hi => hg b (Finset.mem_univ b) i hi
  · iexact H3

/-! ## Read-backs: what a load or a store through one view reads of, or leaves in, a buffer written through another -/

theorem slotSet_eq (r : Fin 31) : slotSet r = (slotRect r).set :=
  (View.set_reshape _ _).trans (View.set_slice_whole cc0_scratch1 _)

/-- A load of slot `r` through the whole scratch reads elements of slot `r` only. -/
theorem slot_load_sub (r : Fin 31) :
    (rsM : Memref sig .tc .vmem S31x16x512 .bf16).view.setOn (slotRect r).toLoadRect.set ⊆ (slotM r).view.set := by
  have e2 : (rsM : Memref sig .tc .vmem S31x16x512 .bf16).view.setOn (slotRect r).toLoadRect.set = (slotRect r).set := by
    unfold View.setOn
    exact Finset.map_refl
  rw [e2, ← slotSet_eq r]

/-- The loaded slot does not depend on what the scratch held before the landing. -/
theorem slot_load_val (m : (ℓ : Loc nD τ sig) → Buf (Elt F) ℓ) (c : Dev nD) (r : Fin 31) (fd : (slotM r).view.ty.Contents (Elt F)) :
    (rsM : Memref sig .tc .vmem S31x16x512 .bf16).view.readAt (Elt F) (slotRect r).toLoadRect
      ((slotM r).view.write (Elt F) fd (sentv m (srcd c r) r) Finset.univ) = slotLd m c r := by
  unfold slotLd
  refine View.readAt_congr fun i hi => ?_
  obtain ⟨x, -, rfl⟩ := Finset.mem_map.mp (slot_load_sub r hi)
  rw [View.write_emb_of_mem _ _ (Finset.mem_univ x), View.write_emb_of_mem _ _ (Finset.mem_univ x)]

/-- The result buffer's contents at an element of row block `b`: device `b`'s reduced block at the element's place in it. -/
theorem outv_block (m : (ℓ : Loc nD τ sig) → Buf (Elt F) ℓ) (b : Dev nD) (x : S16x512.Idx) (i : S512x512.Idx)
    (h0 : (i 0).val = 16 * b.val + (x 0).val) (h1 : (i 1).val = (x 1).val) : outv m i = redv m b x := by
  have hx0 : (x 0).val < 16 := (x 0).isLt
  unfold outv
  refine congrArg₂ (fun (b' : Dev nD) (y : S16x512.Idx) => redv m b' y) (Fin.ext ?_) (funext fun a => Fin.ext ?_)
  · show (i 0).val / 16 = b.val
    omega
  · match a with
    | ⟨0, _⟩ => show (i 0).val % 16 = (x 0).val; omega
    | ⟨1, _⟩ => show (i 1).val = (x 1).val; exact h1

/-- Block `b` of the result buffer after device `b`'s reduced block has landed in it holds the result there. -/
theorem out_block_val (m : (ℓ : Loc nD τ sig) → Buf (Elt F) ℓ) (b : Dev nD) (fd : (outSlice b).view.ty.Contents (Elt F)) :
    ∀ i ∈ (outSlice b).view.set, (outSlice b).view.write (Elt F) fd
      ((redM : Memref sig .tc .vmem S16x512 .bf16).view.read (Elt F) (redv m b)) Finset.univ i = outv m i := by
  intro i hi
  obtain ⟨x, -, rfl⟩ := Finset.mem_map.mp hi
  rw [View.write_emb_of_mem _ _ (Finset.mem_univ x)]
  show redv m b x = outv m _
  refine (outv_block m b x _ ?_ ?_).symm
  · show (k0_off3 b) 0 + 1 * (x 0).val = 16 * b.val + (x 0).val
    rw [k0_off3_eq]
    show 16 * b.val + 1 * (x 0).val = _
    omega
  · show (k0_off3 b) 1 + 1 * (x 1).val = (x 1).val
    rw [k0_off3_eq]
    show 0 + 1 * (x 1).val = _
    omega

/-- The device's own store goes through its own block of the result buffer. -/
theorem own_store_set (c : Dev nD) :
    ((oM : Memref sig .tc .vmem S512x512 .bf16).access (Rect.unit (s := S512x512) (k0_off2 c) S16x512.size (k0_off2_inb c))).setOn Finset.univ
      = (outSlice c).view.set := by
  have e : ((oM : Memref sig .tc .vmem S512x512 .bf16).access (Rect.unit (s := S512x512) (k0_off2 c) S16x512.size (k0_off2_inb c))).set
      = (Rect.unit (s := S512x512) (k0_off2 c) S16x512.size (k0_off2_inb c)).set := View.set_slice_whole cc0_stg1_0 _
  rw [View.setOn_univ, e]
  ext i
  exact (mem_rows16 c.val (k0_off2_eq c) _ i).trans (mem_outSlice c i).symm

/-- After the device's own store of its reduced block (loaded whole from the reduction buffer) its block holds the result. -/
theorem own_store_val (m : (ℓ : Loc nD τ sig) → Buf (Elt F) ℓ) (c : Dev nD) (f : (cc0_stg1_0 : Ref sig .tc).ty.Contents (Elt F))
    (w : S16x512.Idx → Elt F .bf16)
    (hw : w = (redM : Memref sig .tc .vmem S16x512 .bf16).view.readAt (Elt F)
      (Rect.unit (s := S16x512) ![0, 0] S16x512.size inb_S16x512_S16x512_0_0).toLoadRect (redv m c)) :
    ∀ i ∈ (outSlice c).view.set,
      View.write (Elt F) ((oM : Memref sig .tc .vmem S512x512 .bf16).access (Rect.unit (s := S512x512) (k0_off2 c) S16x512.size (k0_off2_inb c))) f w Finset.univ i
        = outv m i := by
  intro i hi
  rw [← own_store_set c, View.setOn_univ] at hi
  obtain ⟨x, -, rfl⟩ := Finset.mem_map.mp hi
  rw [View.write_emb_of_mem _ _ (Finset.mem_univ x)]
  subst hw
  show redv m c ((Rect.unit (s := S16x512) ![0, 0] S16x512.size inb_S16x512_S16x512_0_0).toLoadRect.idx x) = outv m _
  refine (outv_block m c _ _ ?_ ?_).symm
  · show (k0_off2 c) 0 + 1 * (x 0).val = 16 * c.val + (0 + 1 * (x 0).val)
    have e0 : (k0_off2 c) 0 = 16 * c.val := congrFun (k0_off2_eq c) 0
    omega
  · show (k0_off2 c) 1 + 1 * (x 1).val = 0 + 1 * (x 1).val
    have e1 : (k0_off2 c) 1 = 0 := congrFun (k0_off2_eq c) 1
    omega

end Cert.Kernel.Hand

end

/-- info: 'Cert.Kernel.Hand.st_split' depends on axioms: [propext, Classical.choice, Quot.sound] -/
#guard_msgs in #print axioms Cert.Kernel.Hand.st_split
/-- info: 'Cert.Kernel.Hand.out_join' depends on axioms: [propext, Classical.choice, Quot.sound] -/
#guard_msgs in #print axioms Cert.Kernel.Hand.out_join
/-- info: 'Cert.Kernel.Hand.own_store_val' depends on axioms: [propext, Classical.choice, Quot.sound] -/
#guard_msgs in #print axioms Cert.Kernel.Hand.own_store_val
-- ==== Proof.BitsAcc.lean ====
/-
  Parts 19 to 30 of the body: the accumulation.  Each wait on a receive cell of the reduce-scatter hands back its slot
  holding the sender's rows; the load of the slot reads exactly those rows, whatever the scratch held before; each part
  returns its partial sum, the last one the reduced block in the narrower format.
-/
import proofs.«900471_g7700000000000472_dist_rs_then_ag_i_m512_n512_v7x_i32_bf16_1_alg».proof.Proof.BitsPartsA
import proofs.«900471_g7700000000000472_dist_rs_then_ag_i_m512_n512_v7x_i32_bf16_1_alg».proof.Proof.BitsSets

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)

/-- One piece of a product taken out of it. -/
theorem bigSep_take (S : Finset (Fin 31)) (k : Fin 31) (hk : k ∈ S) (Φ : Fin 31 → sProp 𝕄) :
    bigSep S Φ = iprop(Φ k ∗ bigSep (S.erase k) Φ) := by
  have h := bigSep_insert (s := S.erase k) (i := k) (Φ := Φ) (Finset.notMem_erase k S)
  rw [Finset.insert_erase hk] at h
  exact h

/-- The load of slot `k` once its landing has been waited for: it is among the slots below `n`. -/
theorem acc_load (c : Dev nD) (k : Fin 31) (n : ℕ) (hn : k.val < n)
    {hl : (rsM : Memref sig .tc .vmem S31x16x512 .bf16).view.LoadsAt (slotRect k).toLoadRect}
    {α : Type} {Q : α → sProp 𝕄} {cont : ((slotRect k).toLoadRect.shape.Idx → Elt F .bf16) → Prog (TpuEff nD τ sig (Elt F) Λ₀ .tc) α} :
    iprop(belowK n (waitOut m 1 c))
      ⊢ iprop((belowK n (waitOut m 1 c) -∗ wp frame (wpE (defs₀ (F := F)) 𝒱₀ (c : Thread nD τ) none) Set.univ (cont (slotLd m c k)) Q)
          -∗ wp frame (wpE (defs₀ (F := F)) 𝒱₀ (c : Thread nD τ) none) Set.univ (.op (.load rsM (slotRect k).toLoadRect hl) cont) Q) := by
  unfold belowK
  have hk : k ∈ (Finset.univ.filter fun r : Fin 31 => r.val < n) := by simp only [Finset.mem_filter, Finset.mem_univ, true_and]; exact hn
  rw [bigSep_take _ k hk]
  unfold waitOut
  rw [show dmaPay m c (dsem 1 k) = rsRecvPay m c k from dmaPay_rsRecv m c k]
  unfold rsRecvPay slotPts
  iintro ⟨⟨Hat, ⟨%fd, Hs⟩⟩, Hrest⟩
  iintro Hk
  iapply (wp_load 𝒱₀ (c : Thread nD τ) none Set.univ (m := rsM) (slot_load_sub k)) $$ Hs; iintro Hs
  rw [slot_load_val m c k fd]
  iapply Hk
  isplitl [Hat Hs]
  · isplitl [Hat]; · iexact Hat
    iexists fd; iexact Hs
  iexact Hrest

set_option maxHeartbeats 1600000 in
theorem exec_part19 (c : Dev nD) (v135 : BitVec 32) (v147 : BitVec 32) (v159 : BitVec 32) (v508 : Vec F S16x512 .f32)
    {Q : (FVec F S16x512 .f32) → sProp 𝕄} :
    iprop(records m K ∗ levAts L lv ∗ owesX (F := F) c (OL (agItems c 0)) ∗ fromK 0 (waitIn (F := F) 1 c) ∗ belowK 0 (waitOut m 1 c))
      ⊢ iprop(iprop(iprop(owesX (F := F) c (OL (agItems c 0)) ∗ fromK 2 (waitIn (F := F) 1 c) ∗ belowK 2 (waitOut m 1 c)) -∗ Q (k0_pay2 v508 (slotLd m c 0) (slotLd m c 1)))
          -∗ wp frame (wpE (defs₀ (F := F)) 𝒱₀ (c : Thread nD τ) none) Set.univ (k0_part19 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v135 v147 v159 v508) Q) := by
  simp only [k0_part19_eq_skeleton]; unfold k0_part19_skel
  simp only [semSignalWord, semWaitWord, Prog.lift, Prog.bind_op, Prog.bind_ret, Prog.pure_eq_ret]
  iintro ⟨#HR, #Hlev, HO, H1, H2⟩
  iintro Hk
  iapply (wait_step m K c 1 0 _ (mayWait_rsRecv c 0) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (acc_load m c 0 1 (by decide)) $$ [H2]
  · iexact H2
  iintro H2
  iapply (wait_step m K c 1 1 _ (mayWait_rsRecv c 1) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (acc_load m c 1 2 (by decide)) $$ [H2]
  · iexact H2
  iintro H2
  rw [wp_ret]; imodintro
  iapply Hk
  isplitl [HO]; · iexact HO
  isplitl [H1]; · iexact H1
  iexact H2

set_option maxHeartbeats 1600000 in
theorem exec_part20 (c : Dev nD) (v171 : BitVec 32) (v183 : BitVec 32) (v531 : FVec F S16x512 .f32)
    {Q : (Σ' (v564 : FVec F S16x512 .f32), BitVec 32) → sProp 𝕄} :
    iprop(records m K ∗ levAts L lv ∗ owesX (F := F) c (OL (agItems c 0)) ∗ fromK 2 (waitIn (F := F) 1 c) ∗ belowK 2 (waitOut m 1 c))
      ⊢ iprop(iprop(∀ w : BitVec 32, iprop(owesX (F := F) c (OL (agItems c 0)) ∗ fromK 5 (waitIn (F := F) 1 c) ∗ belowK 5 (waitOut m 1 c)) -∗ Q ⟨k0_pay3 v531 (slotLd m c 2) (slotLd m c 3) (slotLd m c 4), w⟩)
          -∗ wp frame (wpE (defs₀ (F := F)) 𝒱₀ (c : Thread nD τ) none) Set.univ (k0_part20 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v171 v183 v531) Q) := by
  simp only [k0_part20_eq_skeleton]; unfold k0_part20_skel
  simp only [semSignalWord, semWaitWord, Prog.lift, Prog.bind_op, Prog.bind_ret, Prog.pure_eq_ret]
  iintro ⟨#HR, #Hlev, HO, H1, H2⟩
  iintro Hk
  iapply (wait_step m K c 1 2 _ (mayWait_rsRecv c 2) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (acc_load m c 2 3 (by decide)) $$ [H2]
  · iexact H2
  iintro H2
  iapply (wait_step m K c 1 3 _ (mayWait_rsRecv c 3) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (acc_load m c 3 4 (by decide)) $$ [H2]
  · iexact H2
  iintro H2
  iapply (wait_step m K c 1 4 _ (mayWait_rsRecv c 4) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (acc_load m c 4 5 (by decide)) $$ [H2]
  · iexact H2
  iintro H2
  rw [wp_ret]; imodintro
  iapply Hk
  isplitl [HO]; · iexact HO
  isplitl [H1]; · iexact H1
  iexact H2

set_option maxHeartbeats 1600000 in
theorem exec_part21 (c : Dev nD) (v195 : BitVec 32) (v207 : BitVec 32) (v219 : BitVec 32) (v564 : FVec F S16x512 .f32) (c1_i32_525 : BitVec 32)
    {Q : (FVec F S16x512 .f32) → sProp 𝕄} :
    iprop(records m K ∗ levAts L lv ∗ owesX (F := F) c (OL (agItems c 0)) ∗ fromK 5 (waitIn (F := F) 1 c) ∗ belowK 5 (waitOut m 1 c))
      ⊢ iprop(iprop(iprop(owesX (F := F) c (OL (agItems c 0)) ∗ fromK 8 (waitIn (F := F) 1 c) ∗ belowK 8 (waitOut m 1 c)) -∗ Q (k0_pay4 v564 (slotLd m c 5) (slotLd m c 6)))
          -∗ wp frame (wpE (defs₀ (F := F)) 𝒱₀ (c : Thread nD τ) none) Set.univ (k0_part21 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v195 v207 v219 v564 c1_i32_525) Q) := by
  simp only [k0_part21_eq_skeleton]; unfold k0_part21_skel
  simp only [semSignalWord, semWaitWord, Prog.lift, Prog.bind_op, Prog.bind_ret, Prog.pure_eq_ret]
  iintro ⟨#HR, #Hlev, HO, H1, H2⟩
  iintro Hk
  iapply (wait_step m K c 1 5 _ (mayWait_rsRecv c 5) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (acc_load m c 5 6 (by decide)) $$ [H2]
  · iexact H2
  iintro H2
  iapply (wait_step m K c 1 6 _ (mayWait_rsRecv c 6) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (acc_load m c 6 7 (by decide)) $$ [H2]
  · iexact H2
  iintro H2
  iapply (wait_step m K c 1 7 _ (mayWait_rsRecv c 7) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  rw [wp_ret]; imodintro
  iapply Hk
  isplitl [HO]; · iexact HO
  isplitl [H1]; · iexact H1
  iexact H2

set_option maxHeartbeats 1600000 in
theorem exec_part22 (c : Dev nD) (v231 : BitVec 32) (v243 : BitVec 32) (v255 : BitVec 32) (v586 : FVec F S16x512 .f32)
    {Q : (FVec F S16x512 .f32) → sProp 𝕄} :
    iprop(records m K ∗ levAts L lv ∗ owesX (F := F) c (OL (agItems c 0)) ∗ fromK 8 (waitIn (F := F) 1 c) ∗ belowK 8 (waitOut m 1 c))
      ⊢ iprop(iprop(iprop(owesX (F := F) c (OL (agItems c 0)) ∗ fromK 10 (waitIn (F := F) 1 c) ∗ belowK 10 (waitOut m 1 c)) -∗ Q (k0_pay5 v586 (slotLd m c 7) (slotLd m c 8) (slotLd m c 9)))
          -∗ wp frame (wpE (defs₀ (F := F)) 𝒱₀ (c : Thread nD τ) none) Set.univ (k0_part22 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v231 v243 v255 v586) Q) := by
  simp only [k0_part22_eq_skeleton]; unfold k0_part22_skel
  simp only [semSignalWord, semWaitWord, Prog.lift, Prog.bind_op, Prog.bind_ret, Prog.pure_eq_ret]
  iintro ⟨#HR, #Hlev, HO, H1, H2⟩
  iintro Hk
  iapply (acc_load m c 7 8 (by decide)) $$ [H2]
  · iexact H2
  iintro H2
  iapply (wait_step m K c 1 8 _ (mayWait_rsRecv c 8) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (acc_load m c 8 9 (by decide)) $$ [H2]
  · iexact H2
  iintro H2
  iapply (wait_step m K c 1 9 _ (mayWait_rsRecv c 9) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (acc_load m c 9 10 (by decide)) $$ [H2]
  · iexact H2
  iintro H2
  rw [wp_ret]; imodintro
  iapply Hk
  isplitl [HO]; · iexact HO
  isplitl [H1]; · iexact H1
  iexact H2

set_option maxHeartbeats 1600000 in
theorem exec_part23 (c : Dev nD) (v267 : BitVec 32) (v279 : BitVec 32) (v619 : FVec F S16x512 .f32)
    {Q : (FVec F S16x512 .f32) → sProp 𝕄} :
    iprop(records m K ∗ levAts L lv ∗ owesX (F := F) c (OL (agItems c 0)) ∗ fromK 10 (waitIn (F := F) 1 c) ∗ belowK 10 (waitOut m 1 c))
      ⊢ iprop(iprop(iprop(owesX (F := F) c (OL (agItems c 0)) ∗ fromK 13 (waitIn (F := F) 1 c) ∗ belowK 13 (waitOut m 1 c)) -∗ Q (k0_pay6 v619 (slotLd m c 10) (slotLd m c 11) (slotLd m c 12)))
          -∗ wp frame (wpE (defs₀ (F := F)) 𝒱₀ (c : Thread nD τ) none) Set.univ (k0_part23 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v267 v279 v619) Q) := by
  simp only [k0_part23_eq_skeleton]; unfold k0_part23_skel
  simp only [semSignalWord, semWaitWord, Prog.lift, Prog.bind_op, Prog.bind_ret, Prog.pure_eq_ret]
  iintro ⟨#HR, #Hlev, HO, H1, H2⟩
  iintro Hk
  iapply (wait_step m K c 1 10 _ (mayWait_rsRecv c 10) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (acc_load m c 10 11 (by decide)) $$ [H2]
  · iexact H2
  iintro H2
  iapply (wait_step m K c 1 11 _ (mayWait_rsRecv c 11) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (acc_load m c 11 12 (by decide)) $$ [H2]
  · iexact H2
  iintro H2
  iapply (wait_step m K c 1 12 _ (mayWait_rsRecv c 12) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (acc_load m c 12 13 (by decide)) $$ [H2]
  · iexact H2
  iintro H2
  rw [wp_ret]; imodintro
  iapply Hk
  isplitl [HO]; · iexact HO
  isplitl [H1]; · iexact H1
  iexact H2

set_option maxHeartbeats 1600000 in
theorem exec_part24 (c : Dev nD) (v291 : BitVec 32) (v303 : BitVec 32) (v315 : BitVec 32) (v652 : FVec F S16x512 .f32)
    {Q : (FVec F S16x512 .f32) → sProp 𝕄} :
    iprop(records m K ∗ levAts L lv ∗ owesX (F := F) c (OL (agItems c 0)) ∗ fromK 13 (waitIn (F := F) 1 c) ∗ belowK 13 (waitOut m 1 c))
      ⊢ iprop(iprop(iprop(owesX (F := F) c (OL (agItems c 0)) ∗ fromK 15 (waitIn (F := F) 1 c) ∗ belowK 15 (waitOut m 1 c)) -∗ Q (k0_pay7 v652 (slotLd m c 13) (slotLd m c 14)))
          -∗ wp frame (wpE (defs₀ (F := F)) 𝒱₀ (c : Thread nD τ) none) Set.univ (k0_part24 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v291 v303 v315 v652) Q) := by
  simp only [k0_part24_eq_skeleton]; unfold k0_part24_skel
  simp only [semSignalWord, semWaitWord, Prog.lift, Prog.bind_op, Prog.bind_ret, Prog.pure_eq_ret]
  iintro ⟨#HR, #Hlev, HO, H1, H2⟩
  iintro Hk
  iapply (wait_step m K c 1 13 _ (mayWait_rsRecv c 13) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (acc_load m c 13 14 (by decide)) $$ [H2]
  · iexact H2
  iintro H2
  iapply (wait_step m K c 1 14 _ (mayWait_rsRecv c 14) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (acc_load m c 14 15 (by decide)) $$ [H2]
  · iexact H2
  iintro H2
  rw [wp_ret]; imodintro
  iapply Hk
  isplitl [HO]; · iexact HO
  isplitl [H1]; · iexact H1
  iexact H2

set_option maxHeartbeats 1600000 in
theorem exec_part25 (c : Dev nD) (v327 : BitVec 32) (v339 : BitVec 32) (v351 : BitVec 32) (v674 : FVec F S16x512 .f32)
    {Q : (Σ' (v707 : FVec F S16x512 .f32), BitVec 32) → sProp 𝕄} :
    iprop(records m K ∗ levAts L lv ∗ owesX (F := F) c (OL (agItems c 0)) ∗ fromK 15 (waitIn (F := F) 1 c) ∗ belowK 15 (waitOut m 1 c))
      ⊢ iprop(iprop(∀ w : BitVec 32, iprop(owesX (F := F) c (OL (agItems c 0)) ∗ fromK 18 (waitIn (F := F) 1 c) ∗ belowK 18 (waitOut m 1 c)) -∗ Q ⟨k0_pay8 v674 (slotLd m c 15) (slotLd m c 16) (slotLd m c 17), w⟩)
          -∗ wp frame (wpE (defs₀ (F := F)) 𝒱₀ (c : Thread nD τ) none) Set.univ (k0_part25 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v327 v339 v351 v674) Q) := by
  simp only [k0_part25_eq_skeleton]; unfold k0_part25_skel
  simp only [semSignalWord, semWaitWord, Prog.lift, Prog.bind_op, Prog.bind_ret, Prog.pure_eq_ret]
  iintro ⟨#HR, #Hlev, HO, H1, H2⟩
  iintro Hk
  iapply (wait_step m K c 1 15 _ (mayWait_rsRecv c 15) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (acc_load m c 15 16 (by decide)) $$ [H2]
  · iexact H2
  iintro H2
  iapply (wait_step m K c 1 16 _ (mayWait_rsRecv c 16) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (acc_load m c 16 17 (by decide)) $$ [H2]
  · iexact H2
  iintro H2
  iapply (wait_step m K c 1 17 _ (mayWait_rsRecv c 17) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (acc_load m c 17 18 (by decide)) $$ [H2]
  · iexact H2
  iintro H2
  rw [wp_ret]; imodintro
  iapply Hk
  isplitl [HO]; · iexact HO
  isplitl [H1]; · iexact H1
  iexact H2

set_option maxHeartbeats 1600000 in
theorem exec_part26 (c : Dev nD) (v363 : BitVec 32) (v375 : BitVec 32) (v707 : FVec F S16x512 .f32) (v708 : BitVec 32)
    {Q : (FVec F S16x512 .f32) → sProp 𝕄} :
    iprop(records m K ∗ levAts L lv ∗ owesX (F := F) c (OL (agItems c 0)) ∗ fromK 18 (waitIn (F := F) 1 c) ∗ belowK 18 (waitOut m 1 c))
      ⊢ iprop(iprop(iprop(owesX (F := F) c (OL (agItems c 0)) ∗ fromK 21 (waitIn (F := F) 1 c) ∗ belowK 21 (waitOut m 1 c)) -∗ Q (k0_pay9 v707 (slotLd m c 18) (slotLd m c 19)))
          -∗ wp frame (wpE (defs₀ (F := F)) 𝒱₀ (c : Thread nD τ) none) Set.univ (k0_part26 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v363 v375 v707 v708) Q) := by
  simp only [k0_part26_eq_skeleton]; unfold k0_part26_skel
  simp only [semSignalWord, semWaitWord, Prog.lift, Prog.bind_op, Prog.bind_ret, Prog.pure_eq_ret]
  iintro ⟨#HR, #Hlev, HO, H1, H2⟩
  iintro Hk
  iapply (wait_step m K c 1 18 _ (mayWait_rsRecv c 18) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (acc_load m c 18 19 (by decide)) $$ [H2]
  · iexact H2
  iintro H2
  iapply (wait_step m K c 1 19 _ (mayWait_rsRecv c 19) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (acc_load m c 19 20 (by decide)) $$ [H2]
  · iexact H2
  iintro H2
  iapply (wait_step m K c 1 20 _ (mayWait_rsRecv c 20) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  rw [wp_ret]; imodintro
  iapply Hk
  isplitl [HO]; · iexact HO
  isplitl [H1]; · iexact H1
  iexact H2

set_option maxHeartbeats 1600000 in
theorem exec_part27 (c : Dev nD) (v387 : BitVec 32) (v399 : BitVec 32) (v411 : BitVec 32) (v729 : FVec F S16x512 .f32)
    {Q : (FVec F S16x512 .f32) → sProp 𝕄} :
    iprop(records m K ∗ levAts L lv ∗ owesX (F := F) c (OL (agItems c 0)) ∗ fromK 21 (waitIn (F := F) 1 c) ∗ belowK 21 (waitOut m 1 c))
      ⊢ iprop(iprop(iprop(owesX (F := F) c (OL (agItems c 0)) ∗ fromK 23 (waitIn (F := F) 1 c) ∗ belowK 23 (waitOut m 1 c)) -∗ Q (k0_pay10 v729 (slotLd m c 20) (slotLd m c 21) (slotLd m c 22)))
          -∗ wp frame (wpE (defs₀ (F := F)) 𝒱₀ (c : Thread nD τ) none) Set.univ (k0_part27 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v387 v399 v411 v729) Q) := by
  simp only [k0_part27_eq_skeleton]; unfold k0_part27_skel
  simp only [semSignalWord, semWaitWord, Prog.lift, Prog.bind_op, Prog.bind_ret, Prog.pure_eq_ret]
  iintro ⟨#HR, #Hlev, HO, H1, H2⟩
  iintro Hk
  iapply (acc_load m c 20 21 (by decide)) $$ [H2]
  · iexact H2
  iintro H2
  iapply (wait_step m K c 1 21 _ (mayWait_rsRecv c 21) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (acc_load m c 21 22 (by decide)) $$ [H2]
  · iexact H2
  iintro H2
  iapply (wait_step m K c 1 22 _ (mayWait_rsRecv c 22) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (acc_load m c 22 23 (by decide)) $$ [H2]
  · iexact H2
  iintro H2
  rw [wp_ret]; imodintro
  iapply Hk
  isplitl [HO]; · iexact HO
  isplitl [H1]; · iexact H1
  iexact H2

set_option maxHeartbeats 1600000 in
theorem exec_part28 (c : Dev nD) (v423 : BitVec 32) (v435 : BitVec 32) (v762 : FVec F S16x512 .f32)
    {Q : (FVec F S16x512 .f32) → sProp 𝕄} :
    iprop(records m K ∗ levAts L lv ∗ owesX (F := F) c (OL (agItems c 0)) ∗ fromK 23 (waitIn (F := F) 1 c) ∗ belowK 23 (waitOut m 1 c))
      ⊢ iprop(iprop(iprop(owesX (F := F) c (OL (agItems c 0)) ∗ fromK 26 (waitIn (F := F) 1 c) ∗ belowK 26 (waitOut m 1 c)) -∗ Q (k0_pay11 v762 (slotLd m c 23) (slotLd m c 24) (slotLd m c 25)))
          -∗ wp frame (wpE (defs₀ (F := F)) 𝒱₀ (c : Thread nD τ) none) Set.univ (k0_part28 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v423 v435 v762) Q) := by
  simp only [k0_part28_eq_skeleton]; unfold k0_part28_skel
  simp only [semSignalWord, semWaitWord, Prog.lift, Prog.bind_op, Prog.bind_ret, Prog.pure_eq_ret]
  iintro ⟨#HR, #Hlev, HO, H1, H2⟩
  iintro Hk
  iapply (wait_step m K c 1 23 _ (mayWait_rsRecv c 23) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (acc_load m c 23 24 (by decide)) $$ [H2]
  · iexact H2
  iintro H2
  iapply (wait_step m K c 1 24 _ (mayWait_rsRecv c 24) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (acc_load m c 24 25 (by decide)) $$ [H2]
  · iexact H2
  iintro H2
  iapply (wait_step m K c 1 25 _ (mayWait_rsRecv c 25) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (acc_load m c 25 26 (by decide)) $$ [H2]
  · iexact H2
  iintro H2
  rw [wp_ret]; imodintro
  iapply Hk
  isplitl [HO]; · iexact HO
  isplitl [H1]; · iexact H1
  iexact H2

set_option maxHeartbeats 1600000 in
theorem exec_part29 (c : Dev nD) (v447 : BitVec 32) (v459 : BitVec 32) (v471 : BitVec 32) (v795 : FVec F S16x512 .f32)
    {Q : (FVec F S16x512 .f32) → sProp 𝕄} :
    iprop(records m K ∗ levAts L lv ∗ owesX (F := F) c (OL (agItems c 0)) ∗ fromK 26 (waitIn (F := F) 1 c) ∗ belowK 26 (waitOut m 1 c))
      ⊢ iprop(iprop(iprop(owesX (F := F) c (OL (agItems c 0)) ∗ fromK 28 (waitIn (F := F) 1 c) ∗ belowK 28 (waitOut m 1 c)) -∗ Q (k0_pay12 v795 (slotLd m c 26) (slotLd m c 27)))
          -∗ wp frame (wpE (defs₀ (F := F)) 𝒱₀ (c : Thread nD τ) none) Set.univ (k0_part29 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v447 v459 v471 v795) Q) := by
  simp only [k0_part29_eq_skeleton]; unfold k0_part29_skel
  simp only [semSignalWord, semWaitWord, Prog.lift, Prog.bind_op, Prog.bind_ret, Prog.pure_eq_ret]
  iintro ⟨#HR, #Hlev, HO, H1, H2⟩
  iintro Hk
  iapply (wait_step m K c 1 26 _ (mayWait_rsRecv c 26) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (acc_load m c 26 27 (by decide)) $$ [H2]
  · iexact H2
  iintro H2
  iapply (wait_step m K c 1 27 _ (mayWait_rsRecv c 27) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (acc_load m c 27 28 (by decide)) $$ [H2]
  · iexact H2
  iintro H2
  rw [wp_ret]; imodintro
  iapply Hk
  isplitl [HO]; · iexact HO
  isplitl [H1]; · iexact H1
  iexact H2

set_option maxHeartbeats 1600000 in
theorem exec_part30 (c : Dev nD) (v483 : BitVec 32) (v495 : BitVec 32) (v817 : FVec F S16x512 .f32)
    {Q : (FVec F S16x512 .bf16) → sProp 𝕄} :
    iprop(records m K ∗ levAts L lv ∗ owesX (F := F) c (OL (agItems c 0)) ∗ fromK 28 (waitIn (F := F) 1 c) ∗ belowK 28 (waitOut m 1 c) ∗ (∃ f : Buf (Elt F) ((c : Thread nD τ).loc cc0_scratch2), ((c : Thread nD τ).loc cc0_scratch2) ↦{fullShare} f))
      ⊢ iprop(iprop(iprop(owesX (F := F) c (OL (agItems c 0)) ∗ fromK 31 (waitIn (F := F) 1 c) ∗ belowK 31 (waitOut m 1 c) ∗ (∃ f : Buf (Elt F) ((c : Thread nD τ).loc cc0_scratch2), ((c : Thread nD τ).loc cc0_scratch2) ↦{fullShare} f)) -∗ Q (k0_pay13 v817 (slotLd m c 28) (slotLd m c 29) (slotLd m c 30)))
          -∗ wp frame (wpE (defs₀ (F := F)) 𝒱₀ (c : Thread nD τ) none) Set.univ (k0_part30 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v483 v495 v817) Q) := by
  simp only [k0_part30_eq_skeleton]; unfold k0_part30_skel
  simp only [semSignalWord, semWaitWord, Prog.lift, Prog.bind_op, Prog.bind_ret, Prog.pure_eq_ret]
  iintro ⟨#HR, #Hlev, HO, H1, H2, Hred⟩
  iintro Hk
  iapply (wait_step m K c 1 28 _ (mayWait_rsRecv c 28) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (acc_load m c 28 29 (by decide)) $$ [H2]
  · iexact H2
  iintro H2
  iapply (wait_step m K c 1 29 _ (mayWait_rsRecv c 29) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (acc_load m c 29 30 (by decide)) $$ [H2]
  · iexact H2
  iintro H2
  iapply (wait_step m K c 1 30 _ (mayWait_rsRecv c 30) (wpE_waitDma2_eq 𝒱₀ (c : Thread nD τ) none Set.univ) (credit_any _)) $$ [HO H1 H2]
  · isplitr; · iexact HR
    isplitr; · iexact Hlev
    isplitl [HO]; · iexact HO
    isplitl [H1]; · iexact H1
    iexact H2
  iintro ⟨HO, H1, H2⟩
  iapply (acc_load m c 30 31 (by decide)) $$ [H2]
  · iexact H2
  iintro H2
  icases Hred with ⟨%fr, Hred⟩
  iapply (wp_load 𝒱₀ (c : Thread nD τ) none Set.univ (m := redM) (Finset.subset_univ _)) $$ Hred; iintro Hred
  rw [wp_ret]; imodintro
  iapply Hk
  isplitl [HO]; · iexact HO
  isplitl [H1]; · iexact H1
  isplitl [H2]; · iexact H2
  iexists fr; iexact Hred

end Cert.Kernel.Hand

end
-- ==== Proof.BitsRegroup.lean ====
/-
  Reindexing: the 32 devices are a device and its 31 peers (or its 31 sources); a device's 125 cells are its barrier
  cell and four arrays of 31; the full share of the reduced block is 31 handed-out halves and a remainder.
-/
import proofs.«900471_g7700000000000472_dist_rs_then_ag_i_m512_n512_v7x_i32_bf16_1_alg».proof.Proof.BitsPhases

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)

/-! ## A device and its 31 peers -/

def peerSum (c : Dev nD) : Unit ⊕ Fin 31 → Dev nD
  | .inl _ => c
  | .inr r => peer c r
def srcdSum (c : Dev nD) : Unit ⊕ Fin 31 → Dev nD
  | .inl _ => c
  | .inr r => srcd c r
theorem peerSum_inj : ∀ (c : Dev nD) (x y : Unit ⊕ Fin 31), peerSum c x = peerSum c y → x = y := by decide +kernel
theorem peerSum_surj : ∀ (c e : Dev nD), ∃ x : Unit ⊕ Fin 31, peerSum c x = e := by decide +kernel
theorem srcdSum_inj : ∀ (c : Dev nD) (x y : Unit ⊕ Fin 31), srcdSum c x = srcdSum c y → x = y := by decide +kernel
theorem srcdSum_surj : ∀ (c e : Dev nD), ∃ x : Unit ⊕ Fin 31, srcdSum c x = e := by decide +kernel
def peerEquiv (c : Dev nD) : Unit ⊕ Fin 31 ≃ Dev nD := Equiv.ofBijective (peerSum c) ⟨fun x y => peerSum_inj c x y, peerSum_surj c⟩
def srcdEquiv (c : Dev nD) : Unit ⊕ Fin 31 ≃ Dev nD := Equiv.ofBijective (srcdSum c) ⟨fun x y => srcdSum_inj c x y, srcdSum_surj c⟩
def revEquiv : Fin 31 ≃ Fin 31 := ⟨rev, rev, rev_rev, rev_rev⟩

theorem bigSep_dev_peer (c : Dev nD) (Φ : Dev nD → sProp 𝕄) :
    bigSep Finset.univ Φ = iprop(Φ c ∗ bigSep Finset.univ (fun r : Fin 31 => Φ (peer c r))) := by
  rw [bigSep_univ_equiv (peerEquiv c) Φ, bigSep_univ_sum, bigSep_univ_of_subsingleton ()]; rfl
theorem bigSep_dev_srcd (c : Dev nD) (Φ : Dev nD → sProp 𝕄) :
    bigSep Finset.univ Φ = iprop(Φ c ∗ bigSep Finset.univ (fun r : Fin 31 => Φ (srcd c r))) := by
  rw [bigSep_univ_equiv (srcdEquiv c) Φ, bigSep_univ_sum, bigSep_univ_of_subsingleton ()]; rfl
theorem bigSep_rev (Φ : Fin 31 → sProp 𝕄) : bigSep Finset.univ Φ = bigSep Finset.univ (fun r : Fin 31 => Φ (rev r)) :=
  bigSep_univ_equiv revEquiv Φ

/-! ## A device's cells by array -/

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem bigSep_CK (Φ : CK → sProp 𝕄) :
    bigSep Finset.univ Φ = iprop(Φ none ∗ (bigSep Finset.univ fun r : Fin 31 => Φ (some (0, r))) ∗ (bigSep Finset.univ fun r : Fin 31 => Φ (some (1, r)))
      ∗ (bigSep Finset.univ fun r : Fin 31 => Φ (some (2, r))) ∗ (bigSep Finset.univ fun r : Fin 31 => Φ (some (3, r)))) := by
  rw [bigSep_univ_equiv (Equiv.optionEquivSumPUnit.{0, 0} (Fin 4 × Fin 31)).symm Φ, bigSep_univ_sum, bigSep_univ_of_subsingleton (PUnit.unit.{1}),
    bigSep_univ_prod, bigSep_fin4]
  ac_rfl

/-! ## The shares of the reduced block -/

theorem sep_rot (A B C : sProp 𝕄) : iprop(A ∗ B ∗ C) = iprop((B ∗ A) ∗ C) := by
  have h1 : iprop(A ∗ B ∗ C) ⊢ iprop((B ∗ A) ∗ C) := by
    iintro ⟨HA, HB, HC⟩
    isplitl [HA HB]
    · isplitl [HB]
      · iexact HB
      · iexact HA
    · iexact HC
  have h2 : iprop((B ∗ A) ∗ C) ⊢ iprop(A ∗ B ∗ C) := by
    iintro ⟨⟨HB, HA⟩, HC⟩
    isplitl [HA]
    · iexact HA
    · isplitl [HB]
      · iexact HB
      · iexact HC
  exact BI.equiv_iff.mp ⟨h1, h2⟩

theorem shares_split (ℓ : Loc nD τ sig) (f : Buf (Elt F) ℓ) : ∀ n : ℕ, n ≤ 31 →
    (ℓ ↦{fullShare} f : sProp 𝕄) = iprop(belowK n (fun r : Fin 31 => (ℓ ↦{shr r.val} f : sProp 𝕄)) ∗ (ℓ ↦{rst n} f))
  | 0, _ => by rw [belowK_zero]; exact (BI.equiv_iff.mp emp_sep).symm
  | k + 1, hk => by
    have hs : (ℓ ↦{rst k} f : sProp 𝕄) ⊣⊢ iprop((ℓ ↦{shr k} f) ∗ (ℓ ↦{rst (k + 1)} f)) := pointsTo_share (shr_rst k)
    rw [shares_split ℓ f k (by omega), belowK_step ⟨k, by omega⟩, BI.equiv_iff.mp ⟨hs.1, hs.2⟩]
    simp only [Fin.val_mk]
    exact sep_rot _ _ _

end Cert.Kernel.Hand

end
-- ==== Proof.BitsGlue.lean ====
/-
  Small glue: what a whole-buffer load reads and a whole-buffer store leaves; a loop of waits set up from its credits
  and positions; the device's own cells closed once their one round is over.
-/
import proofs.«900471_g7700000000000472_dist_rs_then_ag_i_m512_n512_v7x_i32_bf16_1_alg».proof.Proof.BitsRegroup

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)

/-! ## Whole-buffer loads and stores -/

theorem hz2 : (![0, 0] : Fin 2 → Nat) = fun _ => 0 := funext fun a => by fin_cases a <;> rfl
abbrev r512 : Rect S512x512 := Rect.unit (s := S512x512) ![0, 0] S512x512.size inb_S512x512_S512x512_0_0
abbrev r16 : Rect S16x512 := Rect.unit (s := S16x512) ![0, 0] S16x512.size inb_S16x512_S16x512_0_0

theorem read_x (f : (cc0_stg0_0 : Ref sig .tc).ty.Contents (Elt F)) :
    (xM : Memref sig .tc .vmem S512x512 .f32).view.readAt (Elt F) r512.toLoadRect f = f :=
  Memref.readAt_unit_zero (Elt F) cc0_stg0_0 hz2 _ f
theorem write_st (f w : (cc0_scratch0 : Ref sig .tc).ty.Contents (Elt F)) :
    ((stM : Memref sig .tc .vmem S512x512 .bf16).access r512 : View sig .tc _ _ _).write (Elt F) f w Finset.univ = w :=
  Memref.write_access_unit_zero_univ (Elt F) cc0_scratch0 hz2 _ f w
theorem read_red (f : (cc0_scratch2 : Ref sig .tc).ty.Contents (Elt F)) :
    (redM : Memref sig .tc .vmem S16x512 .bf16).view.readAt (Elt F) r16.toLoadRect f = f :=
  Memref.readAt_unit_zero (Elt F) cc0_scratch2 hz2 _ f
theorem write_red (f w : (cc0_scratch2 : Ref sig .tc).ty.Contents (Elt F)) :
    ((redM : Memref sig .tc .vmem S16x512 .bf16).access r16 : View sig .tc _ _ _).write (Elt F) f w Finset.univ = w :=
  Memref.write_access_unit_zero_univ (Elt F) cc0_scratch2 hz2 _ f w

/-! ## A loop of waits, from its credits and positions -/

theorem mk_waitIn (j : Fin 4) (c : Dev nD) :
    iprop((bigSep Finset.univ fun r : Fin 31 => (cred (tallyAt (dmaCell c j r) () N) : sProp 𝕄))
        ∗ (bigSep Finset.univ fun r : Fin 31 => (atPos ER (dmaCell c j r) 0 ∅ 0 : sProp 𝕄)))
      ⊢ iprop(fromK 0 (waitIn (F := F) j c) ∗ belowK 0 (waitOut m j c)) := by
  rw [fromK_zero, belowK_zero]
  unfold waitIn
  rw [bigSep_sep']
  iintro ⟨H1, H2⟩
  isplitl [H1 H2]
  · isplitl [H1]
    · iexact H1
    · iexact H2
  · iempintro

/-! ## The own cells closed -/

theorem close_one (c : Dev nD) (j : Fin 4) (r : Fin 31) :
    iprop(records m K ∗ atPos ER (dmaCell c j r) (0 + 1) ∅ 0) ⊢ (|={Set.univ}=> semVal (dmaCell c j r) 0 : sProp 𝕄) := by
  iintro ⟨#HR, Hat⟩
  imod (Rounds.cell_close ER (sched m) (Set.mem_univ (K (c, some (j, r)))) (fun h => h) (R := 0 + 1) (duties_later m (dmaCell c j r))) $$ [Hat] with Hz
  · isplitr
    · iapply (inv_at m K (c, some (j, r))); iexact HR
    · iexact Hat
  imodintro
  iexact Hz

end Cert.Kernel.Hand

end
-- ==== Proof.BitsMixed.lean ====
/-
  The two parts of the body where the phases meet.  Part 6: the last two barrier signals, the staging copy stored, the
  barrier wait — after which the device holds, of every peer, the slot and the block of the result it may write — and the
  first copy of the reduce-scatter.  Part 31: the reduced block stored and read back, the device's own block of the result
  written, and the first two copies of the all-gather, each reading the reduced block at a share of its own.
-/
import proofs.«900471_g7700000000000472_dist_rs_then_ag_i_m512_n512_v7x_i32_bf16_1_alg».proof.Proof.BitsPartsA
import proofs.«900471_g7700000000000472_dist_rs_then_ag_i_m512_n512_v7x_i32_bf16_1_alg».proof.Proof.BitsSets
import proofs.«900471_g7700000000000472_dist_rs_then_ag_i_m512_n512_v7x_i32_bf16_1_alg».proof.Proof.BitsGlue

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)

/-! ## From the barrier's payloads to the reduce-scatter's inputs -/

theorem to_rs (c : Dev nD) :
    iprop((((c : Thread nD τ).loc cc0_scratch0) ↦{fullShare} stagev m c) ∗ bigSep Finset.univ (fun d : Fin 31 => barPay (F := F) c d)
        ∗ (bigSep Finset.univ fun r : Fin 31 => iprop(dutyTok ER (rsSendCell c r) 0 0 ∗ dutyTok ER (rsRecvCell (peer c r) r) 0 0)))
      ⊢ iprop(fromK 0 (rsIn m c) ∗ belowK 0 (rsOut (F := F) c) ∗ (((c : Thread nD τ).loc cc0_scratch0) ↦[outSet c]{fullShare} stagev m c)
          ∗ bigSep Finset.univ (fun r : Fin 31 => iprop(∃ fn, outPts (F := F) (peer c r) c fn))) := by
  rw [st_split c (stagev m c), fromK_zero, belowK_zero]
  unfold barPay rsIn stPts
  simp only [bigSep_sep']
  iintro ⟨⟨HA, Hown⟩, ⟨HB, HC⟩, ⟨HT, HT'⟩⟩
  isplitl [HA HB HT HT']
  · isplitl [HA]; · iexact HA
    isplitl [HB]; · iexact HB
    isplitl [HT]; · iexact HT
    iexact HT'
  isplitr; · iempintro
  isplitl [Hown]; · iexact Hown
  iexact HC

/-! ## From the reduced block and the barrier's payloads to the all-gather's inputs -/

theorem to_ag (c : Dev nD) :
    iprop((((c : Thread nD τ).loc cc0_scratch2) ↦{fullShare} redv m c) ∗ bigSep Finset.univ (fun r : Fin 31 => iprop(∃ fn, outPts (F := F) (peer c r) c fn))
        ∗ (bigSep Finset.univ fun r : Fin 31 => iprop(dutyTok ER (agSendCell c r) 0 0 ∗ dutyTok ER (agRecvCell (peer c r) r) 0 0)))
      ⊢ iprop(fromK 0 (agIn m c) ∗ belowK 0 (agOut (F := F) c) ∗ (((c : Thread nD τ).loc cc0_scratch2) ↦{rst 31} redv m c)) := by
  rw [shares_split ((c : Thread nD τ).loc cc0_scratch2) (redv m c) 31 (Nat.le_refl _), belowK_end, fromK_zero, belowK_zero]
  unfold agIn redPts
  simp only [bigSep_sep', Memref.view_whole, View.set_whole]
  iintro ⟨⟨HA, Hrest⟩, HB, ⟨HT, HT'⟩⟩
  isplitl [HA HB HT HT']
  · isplitl [HA]; · iexact HA
    isplitl [HB]; · iexact HB
    isplitl [HT]; · iexact HT
    iexact HT'
  isplitr; · iempintro
  iexact Hrest

/-! ## Part 6 -/

set_option maxHeartbeats 1600000 in
theorem exec_part6 (c : Dev nD) (v2 : BitVec 32) (v120 : BitVec 32) (c32_i32_116 : BitVec 32)
    {Q : (Σ' (v135 : BitVec 32) (v147 : BitVec 32), BitVec 32) → sProp 𝕄} :
    iprop(records m K ∗ levAts L lv ∗ owesX (F := F) c (OL (sigItems c 29 ++ (rsItems c 0 ++ agItems c 0))) ∗ fromK 29 (sigIn (F := F) c)
        ∗ (((c : Thread nD τ).loc cc0_stg0_0) ↦{fullShare} xstg m c)
        ∗ (∃ f : Buf (Elt F) ((c : Thread nD τ).loc cc0_scratch0), ((c : Thread nD τ).loc cc0_scratch0) ↦{fullShare} f)
        ∗ cred (tallyAt (barCell c) () 31) ∗ atPos ER (barCell c) 0 ∅ 0
        ∗ (bigSep Finset.univ fun r : Fin 31 => iprop(dutyTok ER (rsSendCell c r) 0 0 ∗ dutyTok ER (rsRecvCell (peer c r) r) 0 0)))
      ⊢ iprop((∀ a, iprop(owesX (F := F) c (OL (rsItems c 1 ++ agItems c 0)) ∗ fromK 1 (rsIn m c) ∗ belowK 1 (rsOut (F := F) c)
              ∗ (((c : Thread nD τ).loc cc0_stg0_0) ↦{fullShare} xstg m c)
              ∗ (((c : Thread nD τ).loc cc0_scratch0) ↦[outSet c]{fullShare} stagev m c)
              ∗ atPos ER (barCell c) (0 + 1) ∅ 0
              ∗ bigSep Finset.univ (fun r : Fin 31 => iprop(∃ fn, outPts (F := F) (peer c r) c fn))) -∗ Q a)
          -∗ wp frame (wpE (defs₀ (F := F)) 𝒱₀ (c : Thread nD τ) none) Set.univ (k0_part6 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 barArr v120 c32_i32_116) Q) := by
  simp only [k0_part6_eq_skeleton]; unfold k0_part6_skel
  simp only [semSignalWord, semWaitWord, Prog.lift, Prog.bind_op, Prog.bind_ret, Prog.pure_eq_ret]
  iintro ⟨#HR, #Hlev, HO, H1, Hx, ⟨%f0, Hst⟩, Hcb, Hab, HT⟩
  iintro Hk
  iapply (sig_step m K c 29 _ (dev30_eq c) (rsItems c 0 ++ agItems c 0)) $$ [HO H1]
  · isplitr; · iexact HR
    isplitl [HO]; · iexact HO
    iexact H1
  iintro ⟨HO, H1⟩
  iapply (sig_step m K c 30 _ (dev31_eq c) (rsItems c 0 ++ agItems c 0)) $$ [HO H1]
  · isplitr; · iexact HR
    isplitl [HO]; · iexact HO
    iexact H1
  iintro ⟨HO, H1⟩
  ihave HO := (Entails.of_eq (show owesX (F := F) c (OL (sigItems c ((30 : Fin 31).val + 1) ++ (rsItems c 0 ++ agItems c 0))) = owesX (F := F) c (OL (rsItems c 0 ++ agItems c 0)) from by
    rw [show (30 : Fin 31).val + 1 = 31 from rfl, sigItems_end, List.nil_append])) $$ HO
  iapply (wp_load 𝒱₀ (c : Thread nD τ) none Set.univ (m := xM) (Finset.subset_univ _)) $$ Hx; iintro Hx
  rw [read_x]
  iapply (wp_load 𝒱₀ (c : Thread nD τ) none Set.univ (m := stM) (Finset.subset_univ _)) $$ Hst; iintro Hst
  iapply (wp_store 𝒱₀ (c : Thread nD τ) none Set.univ (m := stM) (r := r512) (Mk := Finset.univ) (Finset.subset_univ _)) $$ Hst; iintro Hst
  rw [write_st]
  iapply (bar_step m K c) $$ [Hcb HO Hab]
  · isplitr; · iexact HR
    isplitr; · iexact Hlev
    isplitl [Hcb]; · iexact Hcb
    isplitl [HO]; · iexact HO
    iexact Hab
  iintro ⟨HO, Hab, Hpay⟩
  ihave Hrs := (to_rs m c) $$ [Hst Hpay HT]
  · isplitl [Hst]; · (unfold stagev; iexact Hst)
    isplitl [Hpay]; · iexact Hpay
    iexact HT
  icases Hrs with ⟨R1, R2, Hown, Hpeers⟩
  iapply (rs_step m K c 0 _ (dev32_eq c) (agItems c 0)) $$ [HO R1 R2]
  · isplitr; · iexact HR
    isplitl [HO]; · iexact HO
    isplitl [R1]; · iexact R1
    iexact R2
  iintro ⟨HO, R1, R2⟩
  rw [wp_ret]; imodintro
  iapply Hk
  isplitl [HO]; · iexact HO
  isplitl [R1]; · iexact R1
  isplitl [R2]; · iexact R2
  isplitl [Hx]; · iexact Hx
  isplitl [Hown]; · iexact Hown
  isplitl [Hab]; · iexact Hab
  iexact Hpeers

/-! ## Part 31 -/

abbrev ownRect (c : Dev nD) : Rect S512x512 := Rect.unit (s := S512x512) (k0_off2 c) S16x512.size (k0_off2_inb c)

/-- The load of the device's own block through the whole result buffer reads that block only. -/
theorem own_load_sub (c : Dev nD) :
    (oM : Memref sig .tc .vmem S512x512 .bf16).view.setOn (ownRect c).toLoadRect.set ⊆ (outSlice c).view.set := by
  have e2 : (oM : Memref sig .tc .vmem S512x512 .bf16).view.setOn (ownRect c).toLoadRect.set = (ownRect c).set := by
    unfold View.setOn
    exact Finset.map_refl
  rw [e2]
  intro i hi
  exact (mem_outSlice c i).mpr ((mem_rows16 c.val (k0_off2_eq c) _ i).mp hi)

set_option maxHeartbeats 1600000 in
theorem exec_part31 (c : Dev nD) (v2 : BitVec 32)
    {Q : (Σ' (v860 : BitVec 32) (v870 : BitVec 32), BitVec 32) → sProp 𝕄} :
    iprop(records m K ∗ owesX (F := F) c (OL (agItems c 0 ++ []))
        ∗ (∃ f : Buf (Elt F) ((c : Thread nD τ).loc cc0_scratch2), ((c : Thread nD τ).loc cc0_scratch2) ↦{fullShare} f)
        ∗ (∃ f, outPts (F := F) c c f)
        ∗ bigSep Finset.univ (fun r : Fin 31 => iprop(∃ fn, outPts (F := F) (peer c r) c fn))
        ∗ (bigSep Finset.univ fun r : Fin 31 => iprop(dutyTok ER (agSendCell c r) 0 0 ∗ dutyTok ER (agRecvCell (peer c r) r) 0 0)))
      ⊢ iprop((∀ a, iprop(owesX (F := F) c (OL (agItems c 2 ++ [])) ∗ fromK 2 (agIn m c) ∗ belowK 2 (agOut (F := F) c)
              ∗ (((c : Thread nD τ).loc cc0_scratch2) ↦{rst 31} redv m c) ∗ outPts c c (outv m)) -∗ Q a)
          -∗ wp frame (wpE (defs₀ (F := F)) 𝒱₀ (c : Thread nD τ) none) Set.univ (k0_part31 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 (redv m c)) Q) := by
  simp only [k0_part31_eq_skeleton]; unfold k0_part31_skel
  simp only [semSignalWord, semWaitWord, Prog.lift, Prog.bind_op, Prog.bind_ret, Prog.pure_eq_ret]
  iintro ⟨#HR, HO, ⟨%fr, Hred⟩, ⟨%fo, Hown⟩, Hpeers, HT⟩
  iintro Hk
  iapply (wp_store 𝒱₀ (c : Thread nD τ) none Set.univ (m := redM) (r := r16) (Mk := Finset.univ) (Finset.subset_univ _)) $$ Hred; iintro Hred
  rw [write_red]
  iapply (wp_load 𝒱₀ (c : Thread nD τ) none Set.univ (m := redM) (Finset.subset_univ _)) $$ Hred; iintro Hred
  unfold outPts
  iapply (wp_load 𝒱₀ (c : Thread nD τ) none Set.univ (m := oM) (own_load_sub c)) $$ Hown; iintro Hown
  iapply (wp_store 𝒱₀ (c : Thread nD τ) none Set.univ (m := oM) (r := ownRect c) (Mk := Finset.univ) (own_store_set c).subset) $$ Hown; iintro Hown
  ihave Hown := (Entails.of_eq (pointsTo_congr (own_store_val m c fo _ rfl))) $$ Hown
  ihave Hag := (to_ag m c) $$ [Hred Hpeers HT]
  · isplitl [Hred]; · iexact Hred
    isplitl [Hpeers]; · iexact Hpeers
    iexact HT
  icases Hag with ⟨A1, A2, Hrest⟩
  iapply (ag_step m K c 0 _ (dev63_eq c) ([])) $$ [HO A1 A2]
  · isplitr; · iexact HR
    isplitl [HO]; · iexact HO
    isplitl [A1]; · iexact A1
    iexact A2
  iintro ⟨HO, A1, A2⟩
  iapply (ag_step m K c 1 _ (dev64_eq c) ([])) $$ [HO A1 A2]
  · isplitr; · iexact HR
    isplitl [HO]; · iexact HO
    isplitl [A1]; · iexact A1
    iexact A2
  iintro ⟨HO, A1, A2⟩
  rw [wp_ret]; imodintro
  iapply Hk
  isplitl [HO]; · iexact HO
  isplitl [A1]; · iexact A1
  isplitl [A2]; · iexact A2
  isplitl [Hrest]; · iexact Hrest
  iexact Hown

end Cert.Kernel.Hand

end
-- ==== Proof.BitsEnds.lean ====
/-
  The two ends of the body's proof, as regroupings in the logic.

  At the start a device holds its positions on its 125 cells, the tokens of the duties it pays, the credit for what the
  others owe it, its three scratch buffers and the result's staging buffer.  Cut by cell array, by slot and by row block
  these are what the phases consume: a barrier signal to `peer c r` takes that cell's token, slot `rev r` of the receive
  scratch and block `peer c r` of the result buffer; each copy takes its two tokens; each loop of waits its credits and
  positions.  At the end every cell of the four arrays stands at the end of its one round with its payload: the send
  cells of the reduce-scatter hand back the 31 row blocks sent, which with the device's own rows are the staging copy
  whole; the receive cells the 31 landed slots, the receive scratch whole; the send cells of the all-gather the 31
  shares lent, with the remainder the reduction buffer whole; the receive cells the 31 landed blocks, which with the
  device's own block are the result buffer whole, holding the result at every row.  The positions close, each cell's
  counter back at zero.
-/
import proofs.«900471_g7700000000000472_dist_rs_then_ag_i_m512_n512_v7x_i32_bf16_1_alg».proof.Proof.BitsSets
import proofs.«900471_g7700000000000472_dist_rs_then_ag_i_m512_n512_v7x_i32_bf16_1_alg».proof.Proof.BitsGlue

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What the launch hands a device, regrouped into the phases' inputs -/

/-- The receive scratch whole is its slots, each at some contents, listed in the order the barrier signals use them. -/
theorem scr1_slots (c : Dev nD) (f : Buf (Elt F) ((c : Thread nD τ).loc cc0_scratch1)) :
    (((c : Thread nD τ).loc cc0_scratch1) ↦{fullShare} f : sProp 𝕄)
      ⊢ bigSep Finset.univ fun r : Fin 31 => iprop(∃ f', slotPts (F := F) c (rev r) f') := by
  rw [rs_split c f, bigSep_rev (fun r : Fin 31 => slotPts (F := F) c r f)]
  have h : ∀ r : Fin 31, (slotPts (F := F) c (rev r) f : sProp 𝕄) ⊢ iprop(∃ f', slotPts (F := F) c (rev r) f') :=
    fun r => by iintro H; iexists f; iexact H
  exact bigSep_mono fun r _ => h r

/-- The result's staging buffer whole is the device's own block and its peers' blocks, each at some contents. -/
theorem out_blocks (c : Dev nD) (g : Buf (Elt F) ((c : Thread nD τ).loc cc0_stg1_0)) :
    (((c : Thread nD τ).loc cc0_stg1_0) ↦{fullShare} g : sProp 𝕄)
      ⊢ iprop((∃ f, outPts (F := F) c c f) ∗ bigSep Finset.univ fun r : Fin 31 => iprop(∃ f, outPts (F := F) c (peer c r) f)) := by
  rw [out_split c g, bigSep_dev_peer c (fun b : Dev nD => outPts (F := F) c b g)]
  have h : ∀ b : Dev nD, (outPts (F := F) c b g : sProp 𝕄) ⊢ iprop(∃ f, outPts (F := F) c b f) :=
    fun b => by iintro H; iexists g; iexact H
  have h2 : (bigSep Finset.univ fun r : Fin 31 => outPts (F := F) c (peer c r) g)
      ⊢ bigSep Finset.univ fun r : Fin 31 => iprop(∃ f, outPts (F := F) c (peer c r) f) := bigSep_mono fun r _ => h (peer c r)
  iintro ⟨H1, H2⟩
  isplitl [H1]
  · iapply (h c); iexact H1
  · iapply h2; iexact H2

theorem init_regroup (c : Dev nD) (g1 : Buf (Elt F) ((c : Thread nD τ).loc cc0_stg1_0)) :
    iprop(positions (F := F) c ∗ payToks (F := F) c ∗ creds (F := F) c ∗ scr (F := F) c ∗ (((c : Thread nD τ).loc cc0_stg1_0) ↦{fullShare} g1))
      ⊢ iprop(fromK 0 (sigIn (F := F) c)
          ∗ (∃ f : Buf (Elt F) ((c : Thread nD τ).loc cc0_scratch0), ((c : Thread nD τ).loc cc0_scratch0) ↦{fullShare} f)
          ∗ (∃ f : Buf (Elt F) ((c : Thread nD τ).loc cc0_scratch2), ((c : Thread nD τ).loc cc0_scratch2) ↦{fullShare} f)
          ∗ cred (tallyAt (barCell c) () 31) ∗ atPos ER (barCell c) 0 ∅ 0
          ∗ (bigSep Finset.univ fun r : Fin 31 => iprop(dutyTok ER (rsSendCell c r) 0 0 ∗ dutyTok ER (rsRecvCell (peer c r) r) 0 0))
          ∗ (bigSep Finset.univ fun r : Fin 31 => iprop(dutyTok ER (agSendCell c r) 0 0 ∗ dutyTok ER (agRecvCell (peer c r) r) 0 0))
          ∗ (fromK 0 (waitIn (F := F) 1 c) ∗ belowK 0 (waitOut m 1 c))
          ∗ (fromK 0 (waitIn (F := F) 3 c) ∗ belowK 0 (waitOut m 3 c))
          ∗ (bigSep Finset.univ fun r : Fin 31 => (atPos ER (dmaCell c 0 r) 0 ∅ 0 : sProp 𝕄))
          ∗ (bigSep Finset.univ fun r : Fin 31 => (atPos ER (dmaCell c 2 r) 0 ∅ 0 : sProp 𝕄))
          ∗ (∃ f, outPts (F := F) c c f)) := by
  unfold positions payToks payTok creds scr
  rw [bigSep_CK, fromK_zero (sigIn (F := F) c)]
  unfold sigIn
  simp only [bigSep_sep']
  iintro ⟨⟨Hpb, Hp0, Hp1, Hp2, Hp3⟩, ⟨Ht1, Ht2, Ht3, Ht4, Ht5⟩, ⟨Hcb, Hc1, Hc3⟩, ⟨Hs0, ⟨%f1, Hs1⟩, Hs2⟩, Hout⟩
  ihave Hsl := (scr1_slots c f1) $$ Hs1
  ihave Hob := (out_blocks c g1) $$ Hout
  icases Hob with ⟨Hown, Hblk⟩
  isplitl [Ht1 Hsl Hblk]
  · isplitl [Ht1]; · iexact Ht1
    isplitl [Hsl]; · iexact Hsl
    iexact Hblk
  isplitl [Hs0]; · iexact Hs0
  isplitl [Hs2]; · iexact Hs2
  isplitl [Hcb]; · iexact Hcb
  isplitl [Hpb]; · iexact Hpb
  isplitl [Ht4 Ht2]
  · isplitl [Ht4]; · iexact Ht4
    iexact Ht2
  isplitl [Ht5 Ht3]
  · isplitl [Ht5]; · iexact Ht5
    iexact Ht3
  isplitl [Hc1 Hp1]
  · iapply (mk_waitIn m 1 c)
    isplitl [Hc1]; · iexact Hc1
    iexact Hp1
  isplitl [Hc3 Hp3]
  · iapply (mk_waitIn m 3 c)
    isplitl [Hc3]; · iexact Hc3
    iexact Hp3
  isplitl [Hp0]; · iexact Hp0
  isplitl [Hp2]; · iexact Hp2
  iexact Hown

/-! ## What the phases leave, regrouped into what the launch takes back -/

/-- The positions of one array's 31 cells close, each cell's counter back at zero. -/
theorem close_arr (K : Dev nD × CK → ℕ) (c : Dev nD) (j : Fin 4) :
    iprop(records m K ∗ bigSep Finset.univ fun r : Fin 31 => (atPos ER (dmaCell c j r) (0 + 1) ∅ 0 : sProp 𝕄))
      ⊢ (|={Set.univ}=> bigSep Finset.univ fun r : Fin 31 => (semVal (dmaCell c j r) 0 : sProp 𝕄) : sProp 𝕄) := by
  have h1 : iprop(records m K ∗ bigSep Finset.univ fun r : Fin 31 => (atPos ER (dmaCell c j r) (0 + 1) ∅ 0 : sProp 𝕄))
      ⊢ bigSep Finset.univ fun r : Fin 31 => (iprop(|={Set.univ}=> semVal (dmaCell c j r) 0) : sProp 𝕄) :=
    bigSep_with_persistent fun r _ => close_one m K c j r
  exact h1.trans (bigSep_fupd Finset.univ _)

/-- The 31 row blocks the send cells hand back and the device's own rows are the staging copy whole. -/
theorem st_whole (c : Dev nD) :
    iprop((bigSep Finset.univ fun r : Fin 31 => dmaPay m c (dsem 0 r)) ∗ (((c : Thread nD τ).loc cc0_scratch0) ↦[outSet c]{fullShare} stagev m c))
      ⊢ (iprop(∃ f : Buf (Elt F) ((c : Thread nD τ).loc cc0_scratch0), ((c : Thread nD τ).loc cc0_scratch0) ↦{fullShare} f) : sProp 𝕄) := by
  have e : ∀ r : Fin 31, dmaPay m c (dsem 0 r)
      = ((stSlice c r).view.loc (c : Thread nD τ) ↦[(stSlice c r).view.set]{fullShare} stagev m c : sProp 𝕄) := fun r => dmaPay_rsSend m c r
  simp only [e]
  rw [← st_split c (stagev m c)]
  iintro H
  iexists stagev m c
  iexact H

/-- The 31 landed slots are the receive scratch whole, at some contents. -/
theorem rs_whole (c : Dev nD) :
    (bigSep Finset.univ fun r : Fin 31 => dmaPay m c (dsem 1 r))
      ⊢ (iprop(∃ g : Buf (Elt F) ((c : Thread nD τ).loc cc0_scratch1), ((c : Thread nD τ).loc cc0_scratch1) ↦{fullShare} g) : sProp 𝕄) := by
  have e : ∀ r : Fin 31, dmaPay m c (dsem 1 r) = rsRecvPay m c r := fun r => dmaPay_rsRecv m c r
  simp only [e]
  have h : ∀ r : Fin 31, (rsRecvPay m c r : sProp 𝕄) ⊢ iprop(∃ f, slotPts (F := F) c r f) := fun r => by
    unfold rsRecvPay
    iintro ⟨%fd, H⟩
    iexists _
    iexact H
  have h2 : (bigSep Finset.univ fun r : Fin 31 => rsRecvPay m c r) ⊢ bigSep Finset.univ fun r : Fin 31 => iprop(∃ f, slotPts (F := F) c r f) :=
    bigSep_mono fun r _ => h r
  exact h2.trans (rs_join c)

/-- The 31 shares the all-gather's send cells hand back and the remainder are the reduction buffer whole. -/
theorem red_whole (c : Dev nD) :
    iprop((bigSep Finset.univ fun r : Fin 31 => dmaPay m c (dsem 2 r)) ∗ (((c : Thread nD τ).loc cc0_scratch2) ↦{rst 31} redv m c))
      ⊢ (iprop(∃ f : Buf (Elt F) ((c : Thread nD τ).loc cc0_scratch2), ((c : Thread nD τ).loc cc0_scratch2) ↦{fullShare} f) : sProp 𝕄) := by
  have e : ∀ r : Fin 31, dmaPay m c (dsem 2 r) = (((c : Thread nD τ).loc cc0_scratch2) ↦{shr r.val} redv m c : sProp 𝕄) := fun r =>
    (dmaPay_agSend m c r).trans
      (congrArg (fun S => (((c : Thread nD τ).loc cc0_scratch2) ↦[S]{shr r.val} redv m c : sProp 𝕄)) (View.set_whole cc0_scratch2))
  simp only [e]
  have hs := shares_split (F := F) ((c : Thread nD τ).loc cc0_scratch2) (redv m c) 31 (Nat.le_refl 31)
  rw [belowK_end] at hs
  rw [← hs]
  iintro H
  iexists redv m c
  iexact H

/-- The 31 landed blocks and the device's own block are the result's staging buffer whole, holding the result. -/
theorem out_whole (c : Dev nD) :
    iprop((bigSep Finset.univ fun r : Fin 31 => dmaPay m c (dsem 3 r)) ∗ outPts c c (outv m))
      ⊢ (((c : Thread nD τ).loc cc0_stg1_0) ↦{fullShare} outv m : sProp 𝕄) := by
  have e : ∀ r : Fin 31, dmaPay m c (dsem 3 r) = agRecvPay m c r := fun r => dmaPay_agRecv m c r
  simp only [e]
  have h : ∀ r : Fin 31, (agRecvPay m c r : sProp 𝕄) ⊢ outPts c (srcd c r) (outv m) := fun r => by
    unfold agRecvPay
    iintro ⟨%fd, H⟩
    have ec : outPts (F := F) c (srcd c r) ((outSlice (srcd c r)).view.write (Elt F) fd
          ((redM : Memref sig .tc .vmem S16x512 .bf16).view.read (Elt F) (redv m (srcd c r))) Finset.univ)
        = outPts c (srcd c r) (outv m) := pointsTo_congr (out_block_val m (srcd c r) fd)
    iapply (Entails.of_eq ec)
    iexact H
  have h2 : (bigSep Finset.univ fun r : Fin 31 => agRecvPay m c r) ⊢ bigSep Finset.univ fun r : Fin 31 => outPts (F := F) c (srcd c r) (outv m) :=
    bigSep_mono fun r _ => h r
  rw [out_split c (outv m), bigSep_dev_srcd c (fun b : Dev nD => outPts (F := F) c b (outv m))]
  iintro ⟨H1, H2⟩
  isplitl [H2]
  · iexact H2
  · iapply h2; iexact H1

theorem final_regroup (K : Dev nD × CK → ℕ) (c : Dev nD) :
    iprop(records m K ∗ belowK 31 (waitOut m 0 c) ∗ belowK 31 (waitOut m 1 c) ∗ belowK 31 (waitOut m 2 c) ∗ belowK 31 (waitOut m 3 c)
        ∗ (((c : Thread nD τ).loc cc0_scratch0) ↦[outSet c]{fullShare} stagev m c)
        ∗ (((c : Thread nD τ).loc cc0_scratch2) ↦{rst 31} redv m c)
        ∗ outPts c c (outv m))
      ⊢ (|={Set.univ}=> iprop(Φ₁ (F := F) c ∗ (((c : Thread nD τ).loc cc0_stg1_0) ↦{fullShare} outv m)) : sProp 𝕄) := by
  rw [belowK_end (waitOut m 0 c), belowK_end (waitOut m 1 c), belowK_end (waitOut m 2 c), belowK_end (waitOut m 3 c)]
  unfold waitOut Φ₁ scr
  rw [bigSep_univ_prod (fun jr : Fin 4 × Fin 31 => (semVal (dmaCell c jr.1 jr.2) 0 : sProp 𝕄)), bigSep_fin4]
  simp only [bigSep_sep']
  iintro ⟨#HR, ⟨Ha0, Hy0⟩, ⟨Ha1, Hy1⟩, ⟨Ha2, Hy2⟩, ⟨Ha3, Hy3⟩, Hown, Hrst, Hblk⟩
  ihave Hst := (st_whole m c) $$ [Hy0 Hown]
  · isplitl [Hy0]; · iexact Hy0
    iexact Hown
  ihave Hrs := (rs_whole m c) $$ Hy1
  ihave Hrd := (red_whole m c) $$ [Hy2 Hrst]
  · isplitl [Hy2]; · iexact Hy2
    iexact Hrst
  ihave Hov := (out_whole m c) $$ [Hy3 Hblk]
  · isplitl [Hy3]; · iexact Hy3
    iexact Hblk
  imod (close_arr m K c 0) $$ [Ha0] with Hz0
  · isplitr; · iexact HR
    iexact Ha0
  imod (close_arr m K c 1) $$ [Ha1] with Hz1
  · isplitr; · iexact HR
    iexact Ha1
  imod (close_arr m K c 2) $$ [Ha2] with Hz2
  · isplitr; · iexact HR
    iexact Ha2
  imod (close_arr m K c 3) $$ [Ha3] with Hz3
  · isplitr; · iexact HR
    iexact Ha3
  imodintro
  isplitr [Hov]
  · isplitl [Hst Hrs Hrd]
    · isplitl [Hst]; · iexact Hst
      isplitl [Hrs]; · iexact Hrs
      iexact Hrd
    · isplitl [Hz0]; · iexact Hz0
      isplitl [Hz1]; · iexact Hz1
      isplitl [Hz2]; · iexact Hz2
      iexact Hz3
  · iexact Hov

end Cert.Kernel.Hand

end

/-- info: 'Cert.Kernel.Hand.init_regroup' depends on axioms: [propext, Classical.choice, Quot.sound] -/
#guard_msgs in #print axioms Cert.Kernel.Hand.init_regroup
/-- info: 'Cert.Kernel.Hand.final_regroup' depends on axioms: [propext, Classical.choice, Quot.sound] -/
#guard_msgs in #print axioms Cert.Kernel.Hand.final_regroup
-- ==== Proof.BitsBody.lean ====
/-
  The body of one device, from what the launch hands it to what it hands back: the 56 parts in order, the four waits of
  the tail, then the cells closed and the buffers made whole again.
-/
import proofs.«900471_g7700000000000472_dist_rs_then_ag_i_m512_n512_v7x_i32_bf16_1_alg».proof.Proof.BitsPartsB
import proofs.«900471_g7700000000000472_dist_rs_then_ag_i_m512_n512_v7x_i32_bf16_1_alg».proof.Proof.BitsPartsD
import proofs.«900471_g7700000000000472_dist_rs_then_ag_i_m512_n512_v7x_i32_bf16_1_alg».proof.Proof.BitsPartsE
import proofs.«900471_g7700000000000472_dist_rs_then_ag_i_m512_n512_v7x_i32_bf16_1_alg».proof.Proof.BitsPartsF
import proofs.«900471_g7700000000000472_dist_rs_then_ag_i_m512_n512_v7x_i32_bf16_1_alg».proof.Proof.BitsPartsG
import proofs.«900471_g7700000000000472_dist_rs_then_ag_i_m512_n512_v7x_i32_bf16_1_alg».proof.Proof.BitsPartsH
import proofs.«900471_g7700000000000472_dist_rs_then_ag_i_m512_n512_v7x_i32_bf16_1_alg».proof.Proof.BitsAcc
import proofs.«900471_g7700000000000472_dist_rs_then_ag_i_m512_n512_v7x_i32_bf16_1_alg».proof.Proof.BitsMixed
import proofs.«900471_g7700000000000472_dist_rs_then_ag_i_m512_n512_v7x_i32_bf16_1_alg».proof.Proof.BitsEnds

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)

theorem fetch_0 (t : Fin cfg0.N) : (cfg0.win (0 : Fin 2)).fetch t = true := fetch0_0 t

set_option maxHeartbeats 4000000 in
theorem sound_body : SoundBody m := by
  intro K c Kt
  simp only [cc0_body_eq_skeleton]; unfold cc0_body_skel
  simp only [k0_part57_eq_skeleton]; unfold k0_part57_skel
  simp only [Prog.lift, Prog.bind_op, Prog.bind_ret, Prog.pure_eq_ret]
  unfold bodyPre ghost
  iintro ⟨⟨⟨⟨#HR, Hpos, Htoks⟩, Hcreds, #Hlev, Hscr⟩, Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  ihave HO := (show owes (c : Thread nD τ) (O₀ c) W ⊢ owesX (F := F) c (OL (sigItems c 0 ++ (rsItems c 0 ++ agItems c 0))) from by
    unfold O₀ owesX; rw [List.append_assoc]; iintro H; iexists W; iexact H) $$ HO
  ihave Hinit := (init_regroup m c g1) $$ [Hpos Htoks Hcreds Hscr Hout]
  · isplitl [Hpos]; · iexact Hpos
    isplitl [Htoks]; · iexact Htoks
    isplitl [Hcreds]; · iexact Hcreds
    isplitl [Hscr]; · iexact Hscr
    iexact Hout
  icases Hinit with ⟨HS, Hst, Hred, Hcb, Hab, HT6, HT31, ⟨W1a, W1b⟩, ⟨W3a, W3b⟩, P0, P2, Hown⟩
  rw [wp_bind]
  rw [wp_bind]
  iapply (exec_part1 m K c  (rsItems c 0 ++ agItems c 0)) $$ [HO HS]
  · isplitr; · iexact HR
    isplitl [HO]; · iexact HO
    iexact HS
  iintro %w2 %w24 %w32 ⟨HO, HS⟩
  try dsimp only
  rw [wp_bind]
  iapply (exec_part2 m K c _ _ _ (rsItems c 0 ++ agItems c 0)) $$ [HO HS]
  · isplitr; · iexact HR
    isplitl [HO]; · iexact HO
    iexact HS
  iintro %a ⟨HO, HS⟩
  try dsimp only
  rw [wp_bind]
  iapply (exec_part3 m K c _ _ _ (rsItems c 0 ++ agItems c 0)) $$ [HO HS]
  · isplitr; · iexact HR
    isplitl [HO]; · iexact HO
    iexact HS
  iintro %a ⟨HO, HS⟩
  try dsimp only
  rw [wp_bind]
  iapply (exec_part4 m K c _ _ _ (rsItems c 0 ++ agItems c 0)) $$ [HO HS]
  · isplitr; · iexact HR
    isplitl [HO]; · iexact HO
    iexact HS
  iintro %a ⟨HO, HS⟩
  try dsimp only
  rw [wp_bind]
  iapply (exec_part5 m K c _ _ _ (rsItems c 0 ++ agItems c 0)) $$ [HO HS]
  · isplitr; · iexact HR
    isplitl [HO]; · iexact HO
    iexact HS
  iintro %a ⟨HO, HS⟩
  try dsimp only
  rw [wp_bind]
  iapply (exec_part6 m K c _ _ _ ) $$ [HO HS Hx Hst Hcb Hab HT6]
  · isplitr; · iexact HR
    isplitr; · iexact Hlev
    isplitl [HO]; · iexact HO
    isplitl [HS]; · iexact HS
    isplitl [Hx]; · iexact Hx
    isplitl [Hst]; · iexact Hst
    isplitl [Hcb]; · iexact Hcb
    isplitl [Hab]; · iexact Hab
    iexact HT6
  iintro %a ⟨HO, R1, R2, Hx, HownSt, Hab, Hpeers⟩
  try dsimp only
  rw [wp_bind]
  iapply (exec_part7 m K c _ _ _ (agItems c 0)) $$ [HO R1 R2]
  · isplitr; · iexact HR
    isplitl [HO]; · iexact HO
    isplitl [R1]; · iexact R1
    iexact R2
  iintro %a ⟨HO, R1, R2⟩
  try dsimp only
  rw [wp_bind]
  iapply (exec_part8 m K c _ (agItems c 0)) $$ [HO R1 R2]
  · isplitr; · iexact HR
    isplitl [HO]; · iexact HO
    isplitl [R1]; · iexact R1
    iexact R2
  iintro %a ⟨HO, R1, R2⟩
  try dsimp only
  rw [wp_bind]
  iapply (exec_part9 m K c _ _ _ (agItems c 0)) $$ [HO R1 R2]
  · isplitr; · iexact HR
    isplitl [HO]; · iexact HO
    isplitl [R1]; · iexact R1
    iexact R2
  iintro %a ⟨HO, R1, R2⟩
  try dsimp only
  rw [wp_bind]
  iapply (exec_part10 m K c _ (agItems c 0)) $$ [HO R1 R2]
  · isplitr; · iexact HR
    isplitl [HO]; · iexact HO
    isplitl [R1]; · iexact R1
    iexact R2
  iintro %a ⟨HO, R1, R2⟩
  try dsimp only
  rw [wp_bind]
  iapply (exec_part11 m K c _ _ _ (agItems c 0)) $$ [HO R1 R2]
  · isplitr; · iexact HR
    isplitl [HO]; · iexact HO
    isplitl [R1]; · iexact R1
    iexact R2
  iintro %a ⟨HO, R1, R2⟩
  try dsimp only
  rw [wp_bind]
  iapply (exec_part12 m K c _ (agItems c 0)) $$ [HO R1 R2]
  · isplitr; · iexact HR
    isplitl [HO]; · iexact HO
    isplitl [R1]; · iexact R1
    iexact R2
  iintro %a ⟨HO, R1, R2⟩
  try dsimp only
  rw [wp_bind]
  iapply (exec_part13 m K c _ _ _ (agItems c 0)) $$ [HO R1 R2]
  · isplitr; · iexact HR
    isplitl [HO]; · iexact HO
    isplitl [R1]; · iexact R1
    iexact R2
  iintro %a ⟨HO, R1, R2⟩
  try dsimp only
  rw [wp_bind]
  iapply (exec_part14 m K c _ (agItems c 0)) $$ [HO R1 R2]
  · isplitr; · iexact HR
    isplitl [HO]; · iexact HO
    isplitl [R1]; · iexact R1
    iexact R2
  iintro %a ⟨HO, R1, R2⟩
  try dsimp only
  rw [wp_bind]
  iapply (exec_part15 m K c _ _ _ (agItems c 0)) $$ [HO R1 R2]
  · isplitr; · iexact HR
    isplitl [HO]; · iexact HO
    isplitl [R1]; · iexact R1
    iexact R2
  iintro %a ⟨HO, R1, R2⟩
  try dsimp only
  rw [wp_bind]
  iapply (exec_part16 m K c _ (agItems c 0)) $$ [HO R1 R2]
  · isplitr; · iexact HR
    isplitl [HO]; · iexact HO
    isplitl [R1]; · iexact R1
    iexact R2
  iintro %a ⟨HO, R1, R2⟩
  try dsimp only
  rw [wp_bind]
  iapply (exec_part17 m K c _ _ _ (agItems c 0)) $$ [HO R1 R2]
  · isplitr; · iexact HR
    isplitl [HO]; · iexact HO
    isplitl [R1]; · iexact R1
    iexact R2
  iintro %a ⟨HO, R1, R2⟩
  try dsimp only
  rw [wp_bind]
  iapply (exec_part18 m K c _ (agItems c 0)) $$ [HO R1 R2 Hx]
  · isplitr; · iexact HR
    isplitl [HO]; · iexact HO
    isplitl [R1]; · iexact R1
    isplitl [R2]; · iexact R2
    iexact Hx
  iintro %w1 %w2 ⟨HO, R1, R2, Hx⟩
  try dsimp only
  ihave HO := (Entails.of_eq (show owesX (F := F) c (OL (rsItems c 31 ++ agItems c 0)) = owesX (F := F) c (OL (agItems c 0)) from by
    rw [rsItems_end, List.nil_append])) $$ HO
  rw [wp_bind]
  iapply (exec_part19 m K c _ _ _ _ ) $$ [HO W1a W1b]
  · isplitr; · iexact HR
    isplitr; · iexact Hlev
    isplitl [HO]; · iexact HO
    isplitl [W1a]; · iexact W1a
    iexact W1b
  iintro  ⟨HO, W1a, W1b⟩
  try dsimp only
  rw [wp_bind]
  iapply (exec_part20 m K c _ _ _ ) $$ [HO W1a W1b]
  · isplitr; · iexact HR
    isplitr; · iexact Hlev
    isplitl [HO]; · iexact HO
    isplitl [W1a]; · iexact W1a
    iexact W1b
  iintro %w ⟨HO, W1a, W1b⟩
  try dsimp only
  rw [wp_bind]
  iapply (exec_part21 m K c _ _ _ _ _ ) $$ [HO W1a W1b]
  · isplitr; · iexact HR
    isplitr; · iexact Hlev
    isplitl [HO]; · iexact HO
    isplitl [W1a]; · iexact W1a
    iexact W1b
  iintro  ⟨HO, W1a, W1b⟩
  try dsimp only
  rw [wp_bind]
  iapply (exec_part22 m K c _ _ _ _ ) $$ [HO W1a W1b]
  · isplitr; · iexact HR
    isplitr; · iexact Hlev
    isplitl [HO]; · iexact HO
    isplitl [W1a]; · iexact W1a
    iexact W1b
  iintro  ⟨HO, W1a, W1b⟩
  try dsimp only
  rw [wp_bind]
  iapply (exec_part23 m K c _ _ _ ) $$ [HO W1a W1b]
  · isplitr; · iexact HR
    isplitr; · iexact Hlev
    isplitl [HO]; · iexact HO
    isplitl [W1a]; · iexact W1a
    iexact W1b
  iintro  ⟨HO, W1a, W1b⟩
  try dsimp only
  rw [wp_bind]
  iapply (exec_part24 m K c _ _ _ _ ) $$ [HO W1a W1b]
  · isplitr; · iexact HR
    isplitr; · iexact Hlev
    isplitl [HO]; · iexact HO
    isplitl [W1a]; · iexact W1a
    iexact W1b
  iintro  ⟨HO, W1a, W1b⟩
  try dsimp only
  rw [wp_bind]
  iapply (exec_part25 m K c _ _ _ _ ) $$ [HO W1a W1b]
  · isplitr; · iexact HR
    isplitr; · iexact Hlev
    isplitl [HO]; · iexact HO
    isplitl [W1a]; · iexact W1a
    iexact W1b
  iintro %w ⟨HO, W1a, W1b⟩
  try dsimp only
  rw [wp_bind]
  iapply (exec_part26 m K c _ _ _ _ ) $$ [HO W1a W1b]
  · isplitr; · iexact HR
    isplitr; · iexact Hlev
    isplitl [HO]; · iexact HO
    isplitl [W1a]; · iexact W1a
    iexact W1b
  iintro  ⟨HO, W1a, W1b⟩
  try dsimp only
  rw [wp_bind]
  iapply (exec_part27 m K c _ _ _ _ ) $$ [HO W1a W1b]
  · isplitr; · iexact HR
    isplitr; · iexact Hlev
    isplitl [HO]; · iexact HO
    isplitl [W1a]; · iexact W1a
    iexact W1b
  iintro  ⟨HO, W1a, W1b⟩
  try dsimp only
  rw [wp_bind]
  iapply (exec_part28 m K c _ _ _ ) $$ [HO W1a W1b]
  · isplitr; · iexact HR
    isplitr; · iexact Hlev
    isplitl [HO]; · iexact HO
    isplitl [W1a]; · iexact W1a
    iexact W1b
  iintro  ⟨HO, W1a, W1b⟩
  try dsimp only
  rw [wp_bind]
  iapply (exec_part29 m K c _ _ _ _ ) $$ [HO W1a W1b]
  · isplitr; · iexact HR
    isplitr; · iexact Hlev
    isplitl [HO]; · iexact HO
    isplitl [W1a]; · iexact W1a
    iexact W1b
  iintro  ⟨HO, W1a, W1b⟩
  try dsimp only
  rw [wp_bind]
  iapply (exec_part30 m K c _ _ _ ) $$ [HO W1a W1b Hred]
  · isplitr; · iexact HR
    isplitr; · iexact Hlev
    isplitl [HO]; · iexact HO
    isplitl [W1a]; · iexact W1a
    isplitl [W1b]; · iexact W1b
    iexact Hred
  iintro  ⟨HO, W1a, W1b, Hred⟩
  try dsimp only
  ihave HO := (Entails.of_eq (show owesX (F := F) c (OL (agItems c 0)) = owesX (F := F) c (OL (agItems c 0 ++ [])) from by
    rw [List.append_nil])) $$ HO
  rw [wp_bind]
  iapply (exec_part31 m K c _) $$ [HO Hred Hown Hpeers HT31]
  · isplitr; · iexact HR
    isplitl [HO]; · iexact HO
    isplitl [Hred]; · iexact Hred
    isplitl [Hown]; · iexact Hown
    isplitl [Hpeers]; · iexact Hpeers
    iexact HT31
  iintro %a ⟨HO, A1, A2, HredRest, HownOut⟩
  try dsimp only
  rw [wp_bind]
  iapply (exec_part32 m K c _ ([] : List (GSem nD τ sig × ℕ))) $$ [HO A1 A2]
  · isplitr; · iexact HR
    isplitl [HO]; · iexact HO
    isplitl [A1]; · iexact A1
    iexact A2
  iintro %a ⟨HO, A1, A2⟩
  try dsimp only
  rw [wp_bind]
  iapply (exec_part33 m K c _ ([] : List (GSem nD τ sig × ℕ))) $$ [HO A1 A2]
  · isplitr; · iexact HR
    isplitl [HO]; · iexact HO
    isplitl [A1]; · iexact A1
    iexact A2
  iintro %a ⟨HO, A1, A2⟩
  try dsimp only
  rw [wp_bind]
  iapply (exec_part34 m K c _ ([] : List (GSem nD τ sig × ℕ))) $$ [HO A1 A2]
  · isplitr; · iexact HR
    isplitl [HO]; · iexact HO
    isplitl [A1]; · iexact A1
    iexact A2
  iintro %a ⟨HO, A1, A2⟩
  try dsimp only
  rw [wp_bind]
  iapply (exec_part35 m K c _ _ ([] : List (GSem nD τ sig × ℕ))) $$ [HO A1 A2]
  · isplitr; · iexact HR
    isplitl [HO]; · iexact HO
    isplitl [A1]; · iexact A1
    iexact A2
  iintro %a ⟨HO, A1, A2⟩
  try dsimp only
  rw [wp_bind]
  iapply (exec_part36 m K c _ _ _ ([] : List (GSem nD τ sig × ℕ))) $$ [HO A1 A2]
  · isplitr; · iexact HR
    isplitl [HO]; · iexact HO
    isplitl [A1]; · iexact A1
    iexact A2
  iintro %a ⟨HO, A1, A2⟩
  try dsimp only
  rw [wp_bind]
  iapply (exec_part37 m K c _ _ ([] : List (GSem nD τ sig × ℕ))) $$ [HO A1 A2]
  · isplitr; · iexact HR
    isplitl [HO]; · iexact HO
    isplitl [A1]; · iexact A1
    iexact A2
  iintro %a ⟨HO, A1, A2⟩
  try dsimp only
  rw [wp_bind]
  iapply (exec_part38 m K c _ _ _ ([] : List (GSem nD τ sig × ℕ))) $$ [HO A1 A2]
  · isplitr; · iexact HR
    isplitl [HO]; · iexact HO
    isplitl [A1]; · iexact A1
    iexact A2
  iintro %a ⟨HO, A1, A2⟩
  try dsimp only
  rw [wp_bind]
  iapply (exec_part39 m K c _ ([] : List (GSem nD τ sig × ℕ))) $$ [HO A1 A2]
  · isplitr; · iexact HR
    isplitl [HO]; · iexact HO
    isplitl [A1]; · iexact A1
    iexact A2
  iintro %a ⟨HO, A1, A2⟩
  try dsimp only
  rw [wp_bind]
  iapply (exec_part40 m K c _ ([] : List (GSem nD τ sig × ℕ))) $$ [HO A1 A2]
  · isplitr; · iexact HR
    isplitl [HO]; · iexact HO
    isplitl [A1]; · iexact A1
    iexact A2
  iintro %a ⟨HO, A1, A2⟩
  try dsimp only
  ihave HO := (Entails.of_eq (show owesX (F := F) c (OL (agItems c 31 ++ [])) = owesX (F := F) c (OL []) from by
    rw [agItems_end]; rfl)) $$ HO
  ihave R2 := (Entails.of_eq (show belowK 31 (rsOut (F := F) c) = bigSep Finset.univ (fun r : Fin 31 => (cred (tallyAt (dmaCell c 0 r) () N) : sProp 𝕄)) from by
    rw [belowK_end]; rfl)) $$ R2
  ihave W0 := (mk_waitIn m 0 c) $$ [R2 P0]
  · isplitl [R2]; · iexact R2
    iexact P0
  icases W0 with ⟨W0a, W0b⟩
  ihave A2 := (Entails.of_eq (show belowK 31 (agOut (F := F) c) = bigSep Finset.univ (fun r : Fin 31 => (cred (tallyAt (dmaCell c 2 r) () N) : sProp 𝕄)) from by
    rw [belowK_end]; rfl)) $$ A2
  ihave W2 := (mk_waitIn m 2 c) $$ [A2 P2]
  · isplitl [A2]; · iexact A2
    iexact P2
  icases W2 with ⟨W2a, W2b⟩
  rw [wp_bind]
  iapply (exec_part41 m K c  ) $$ [HO W0a W0b]
  · isplitr; · iexact HR
    isplitr; · iexact Hlev
    isplitl [HO]; · iexact HO
    isplitl [W0a]; · iexact W0a
    iexact W0b
  iintro %a ⟨HO, W0a, W0b⟩
  try dsimp only
  rw [wp_bind]
  iapply (exec_part42 m K c  ) $$ [HO W0a W0b]
  · isplitr; · iexact HR
    isplitr; · iexact Hlev
    isplitl [HO]; · iexact HO
    isplitl [W0a]; · iexact W0a
    iexact W0b
  iintro %a ⟨HO, W0a, W0b⟩
  try dsimp only
  rw [wp_bind]
  iapply (exec_part43 m K c  ) $$ [HO W0a W0b]
  · isplitr; · iexact HR
    isplitr; · iexact Hlev
    isplitl [HO]; · iexact HO
    isplitl [W0a]; · iexact W0a
    iexact W0b
  iintro %a ⟨HO, W0a, W0b⟩
  try dsimp only
  rw [wp_bind]
  iapply (exec_part44 m K c  ) $$ [HO W0a W0b]
  · isplitr; · iexact HR
    isplitr; · iexact Hlev
    isplitl [HO]; · iexact HO
    isplitl [W0a]; · iexact W0a
    iexact W0b
  iintro %a ⟨HO, W0a, W0b⟩
  try dsimp only
  rw [wp_bind]
  iapply (exec_part45 m K c  ) $$ [HO W0a W0b]
  · isplitr; · iexact HR
    isplitr; · iexact Hlev
    isplitl [HO]; · iexact HO
    isplitl [W0a]; · iexact W0a
    iexact W0b
  iintro %a ⟨HO, W0a, W0b⟩
  try dsimp only
  rw [wp_bind]
  iapply (exec_part46 m K c  ) $$ [HO W0a W0b]
  · isplitr; · iexact HR
    isplitr; · iexact Hlev
    isplitl [HO]; · iexact HO
    isplitl [W0a]; · iexact W0a
    iexact W0b
  iintro %a ⟨HO, W0a, W0b⟩
  try dsimp only
  rw [wp_bind]
  iapply (exec_part47 m K c _ _ ) $$ [HO W0a W0b W3a W3b]
  · isplitr; · iexact HR
    isplitr; · iexact Hlev
    isplitl [HO]; · iexact HO
    isplitl [W0a]; · iexact W0a
    isplitl [W0b]; · iexact W0b
    isplitl [W3a]; · iexact W3a
    iexact W3b
  iintro %a ⟨HO, W0a, W0b, W3a, W3b⟩
  try dsimp only
  rw [wp_bind]
  iapply (exec_part48 m K c _ _ _ _ _ ) $$ [HO W3a W3b]
  · isplitr; · iexact HR
    isplitr; · iexact Hlev
    isplitl [HO]; · iexact HO
    isplitl [W3a]; · iexact W3a
    iexact W3b
  iintro %a ⟨HO, W3a, W3b⟩
  try dsimp only
  rw [wp_bind]
  iapply (exec_part49 m K c _ _ _ _ _ _ ) $$ [HO W3a W3b]
  · isplitr; · iexact HR
    isplitr; · iexact Hlev
    isplitl [HO]; · iexact HO
    isplitl [W3a]; · iexact W3a
    iexact W3b
  iintro %a ⟨HO, W3a, W3b⟩
  try dsimp only
  rw [wp_bind]
  iapply (exec_part50 m K c _ _ _ _ _ ) $$ [HO W3a W3b]
  · isplitr; · iexact HR
    isplitr; · iexact Hlev
    isplitl [HO]; · iexact HO
    isplitl [W3a]; · iexact W3a
    iexact W3b
  iintro %a ⟨HO, W3a, W3b⟩
  try dsimp only
  rw [wp_bind]
  iapply (exec_part51 m K c _ _ _ _ _ _ ) $$ [HO W3a W3b]
  · isplitr; · iexact HR
    isplitr; · iexact Hlev
    isplitl [HO]; · iexact HO
    isplitl [W3a]; · iexact W3a
    iexact W3b
  iintro %a ⟨HO, W3a, W3b⟩
  try dsimp only
  rw [wp_bind]
  iapply (exec_part52 m K c _ _ _ _ _ _ _ ) $$ [HO W3a W3b]
  · isplitr; · iexact HR
    isplitr; · iexact Hlev
    isplitl [HO]; · iexact HO
    isplitl [W3a]; · iexact W3a
    iexact W3b
  iintro %a ⟨HO, W3a, W3b⟩
  try dsimp only
  rw [wp_bind]
  iapply (exec_part53 m K c _ _ ) $$ [HO W3a W3b W2a W2b]
  · isplitr; · iexact HR
    isplitr; · iexact Hlev
    isplitl [HO]; · iexact HO
    isplitl [W3a]; · iexact W3a
    isplitl [W3b]; · iexact W3b
    isplitl [W2a]; · iexact W2a
    iexact W2b
  iintro %a ⟨HO, W3a, W3b, W2a, W2b⟩
  try dsimp only
  rw [wp_bind]
  iapply (exec_part54 m K c  ) $$ [HO W2a W2b]
  · isplitr; · iexact HR
    isplitr; · iexact Hlev
    isplitl [HO]; · iexact HO
    isplitl [W2a]; · iexact W2a
    iexact W2b
  iintro %a ⟨HO, W2a, W2b⟩
  try dsimp only
  rw [wp_bind]
  iapply (exec_part55 m K c  ) $$ [HO W2a W2b]
  · isplitr; · iexact HR
    isplitr; · iexact Hlev
    isplitl [HO]; · iexact HO
    isplitl [W2a]; · iexact W2a
    iexact W2b
  iintro %a ⟨HO, W2a, W2b⟩
  try dsimp only
  rw [wp_bind]
  iapply (exec_part56 m K c  ) $$ [HO W2a W2b]
  · isplitr; · iexact HR
    isplitr; · iexact Hlev
    isplitl [HO]; · iexact HO
    isplitl [W2a]; · iexact W2a
    iexact W2b
  iintro %a ⟨HO, W2a, W2b⟩
  try dsimp only
  rw [wp_ret]; imodintro
  try dsimp only
  iapply (wait_step m K c 2 27 _ (mayWait_nil c _) (wpE_waitDma2_eq 𝒱₀ (c : Thread nD τ) none Set.univ) (credit_any _)) $$ [HO W2a W2b]
  · isplitr; · iexact HR
    isplitr; · iexact Hlev
    isplitl [HO]; · iexact HO
    isplitl [W2a]; · iexact W2a
    iexact W2b
  iintro ⟨HO, W2a, W2b⟩
  iapply (wait_step m K c 2 28 _ (mayWait_nil c _) (wpE_waitDma2_eq 𝒱₀ (c : Thread nD τ) none Set.univ) (credit_any _)) $$ [HO W2a W2b]
  · isplitr; · iexact HR
    isplitr; · iexact Hlev
    isplitl [HO]; · iexact HO
    isplitl [W2a]; · iexact W2a
    iexact W2b
  iintro ⟨HO, W2a, W2b⟩
  iapply (wait_step m K c 2 29 _ (mayWait_nil c _) (wpE_waitDma2_eq 𝒱₀ (c : Thread nD τ) none Set.univ) (credit_any _)) $$ [HO W2a W2b]
  · isplitr; · iexact HR
    isplitr; · iexact Hlev
    isplitl [HO]; · iexact HO
    isplitl [W2a]; · iexact W2a
    iexact W2b
  iintro ⟨HO, W2a, W2b⟩
  iapply (wait_step m K c 2 30 _ (mayWait_nil c _) (wpE_waitDma2_eq 𝒱₀ (c : Thread nD τ) none Set.univ) (credit_any _)) $$ [HO W2a W2b]
  · isplitr; · iexact HR
    isplitr; · iexact Hlev
    isplitl [HO]; · iexact HO
    isplitl [W2a]; · iexact W2a
    iexact W2b
  iintro ⟨HO, W2a, W2b⟩
  rw [wp_ret]
  imod (final_regroup m K c) $$ [W0b W1b W2b W3b HownSt HredRest HownOut] with ⟨HΦ, Hout⟩
  · isplitr; · iexact HR
    isplitl [W0b]; · iexact W0b
    isplitl [W1b]; · iexact W1b
    isplitl [W2b]; · iexact W2b
    isplitl [W3b]; · iexact W3b
    isplitl [HownSt]; · iexact HownSt
    isplitl [HredRest]; · iexact HredRest
    iexact HownOut
  imodintro
  iapply Hk
  unfold bodyPost Dat.owesAt Pipeline.owesWithin owesX
  rw [show (dats m 0 c).owed t₀.succ = 0 from rfl]
  isplitl [HΦ]; · iexact HΦ
  isplitl [HO]
  · icases HO with ⟨%W', HO⟩
    iexists W'
    isplitr; · ipureintro; exact fun _ _ => Or.inl trivial
    iexact HO
  isplitl [Hx]
  · iexists _; isplitr; · (ipureintro; rfl)
    iexact Hx
  iexists _; isplitr; · (ipureintro; rfl)
  iexact Hout

/-- info: 'Cert.Kernel.Hand.sound_body' depends on axioms: [propext, Classical.choice, Quot.sound] -/
#guard_msgs in #print axioms sound_body

end Cert.Kernel.Hand

end
-- ==== Proof.BitsLaunch.lean ====
/-
  The launch: from the proof of one device's body to the run of the whole mesh.

  All 32 devices start together from a memory whose counters are zero.  The ghost state of the protocol is minted
  once for the mesh: every cell's round state, position and reached-mark at its owner, and the duty tokens of each
  cell at its owner too.  Under one update the 125 cells of every device get their invariants, and the tokens are
  dealt again, each to the device that pays the duty: the barrier tokens along (c, r) ↦ (peer c r, rev r), the two
  receive tokens along (c, r) ↦ (peer c r, r).  What the devices owe one another at launch comes back as credit:
  31 barrier units and one block for each receive cell of either phase.
-/
import proofs.«900471_g7700000000000472_dist_rs_then_ag_i_m512_n512_v7x_i32_bf16_1_alg».proof.Proof.BitsData

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The body obligation from the body's proof -/

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
/-- What the one grid point starts from, as the pipeline hands it over. -/
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

set_option maxRecDepth 100000 in
/-- The pipeline's obligation on device `c`, from the body's proof. -/
theorem body_obligation (hsb : SoundBody m) (c : Dev nD) :
    BodyObligation (dats (F := F) m 0 c) (defs₀ (F := F)) 𝒱₀ () Set.univ := fun t => by
  rw [fin_N t]
  rw [Gen.bigSep_W0, Gen.bigSep_W0]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      (Memref.whole cc0_scratch2) (Memref.isWhole_whole _) cc0_scratch3 cc0_scratch4 cc0_scratch5 cc0_scratch6) (fun _ => bodyPost m c)
  unfold bodyPre' Φ₀ start
  iintro ⟨⟨⟨⟨%K, Hg⟩, Hrest⟩, Hscr⟩, Ho, Hx, Hout⟩
  iapply (hsb K c fun _ => bodyPost m c)
  unfold bodyPre
  isplitr []
  · isplitl [Hg Hrest Hscr]
    · isplitl [Hg]; · iexact Hg
      icases Hrest with ⟨H1, H2⟩
      isplitl [H1]; · iexact H1
      isplitl [H2]; · iexact H2
      iexact Hscr
    isplitl [Ho]; · iexact Ho
    isplitl [Hx] <;> iassumption
  · iintro H; iexact H

/-! ## The launch's layout facts -/

theorem ownSemFacts : Pipeline.OwnSemFacts cfg0.spec osem := by decide

theorem share_eq (c : Dev nD) (w : Fin cfg0.W) : (dats m 0 c).share w = fullShare := by unfold Dat.share; split <;> rfl

/-! ## The protocol's cells and the tokens minted with them -/

def protoCells : Finset (GSem nD τ sig) := Finset.univ.map ⟨kcell, kcell_injective⟩

/-- A device's minted duties: the 31 of its barrier cell, the one of each of its 124 transfer cells. -/
abbrev TK : Type := Fin 31 ⊕ (Fin 4 × Fin 31)
def tokOf : Dev nD × TK → GSem nD τ sig × ℕ × Fin 31
  | (c, .inl r) => (barCell c, 0, r)
  | (c, .inr (j, r)) => (dmaCell c j r, 0, 0)
theorem tokOf_injective : Function.Injective (tokOf : Dev nD × TK → GSem nD τ sig × ℕ × Fin 31) := by
  rintro ⟨c, k⟩ ⟨c', k'⟩ h
  have h1 : c = c' := by
    have := congrArg (fun x : GSem nD τ sig × ℕ × Fin 31 => x.1.1.1) h
    rcases k with r | ⟨j, r⟩ <;> rcases k' with r' | ⟨j', r'⟩ <;> exact this
  subst h1
  rcases k with r | ⟨j, r⟩ <;> rcases k' with r' | ⟨j', r'⟩
  · have h2 : r = r' := congrArg (fun x : GSem nD τ sig × ℕ × Fin 31 => x.2.2) h
    rw [h2]
  · exact absurd (congrArg (fun x : GSem nD τ sig × ℕ × Fin 31 => x.1.2) h) (fun h' => by cases h')
  · exact absurd (congrArg (fun x : GSem nD τ sig × ℕ × Fin 31 => x.1.2) h) (fun h' => by cases h')
  · have h2 : (SemLoc.dma (dsem j r) : SemLoc sig) = .dma (dsem j' r') := congrArg (fun x : GSem nD τ sig × ℕ × Fin 31 => x.1.2) h
    obtain ⟨rfl, rfl⟩ := dsem_inj _ _ _ _ (by injection h2)
    rfl
def protoToks : Finset (GSem nD τ sig × ℕ × Fin 31) := Finset.univ.map ⟨tokOf, tokOf_injective⟩

def u₀ : UU :=
  (initOf (Pipeline.cells cfgs cellOf_inj) (Pipeline.launchToks cfgs cellOf_inj), initOf protoCells protoToks)

/-- The duty tokens of device `c`'s own cells. -/
def toks (c : Dev nD) : sProp 𝕄 :=
  iprop((bigSep Finset.univ fun r : Fin 31 => dutyTok ER (barCell c) 0 r)
    ∗ bigSep Finset.univ fun jr : Fin 4 × Fin 31 => dutyTok ER (dmaCell c jr.1 jr.2) 0 0)

/-- What the launch element deals device `c`. -/
def G (c : Dev nD) : sProp 𝕄 :=
  iprop((bigSep Finset.univ fun k : CK => roundState ER (sched m) (kcell (c, k)) 0)
    ∗ (bigSep Finset.univ fun k : CK => iprop(atPos ER (kcell (c, k)) 0 ∅ 0 ∗ reached ER (kcell (c, k)) 0)) ∗ toks (F := F) c)

/-- What the global step makes of it. -/
def G' (c : Dev nD) : sProp 𝕄 := iprop(∃ K, ghost m K c)

theorem fund_proto : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun k : CK => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by unfold toks; rw [bigSep_univ_sum]; rfl
  iintro HX
  imod (Rounds.fund ER (sched m) protoCells protoToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The 125 cells of a device: their counters at launch, their invariants allocated -/

theorem erase_none {α : Type} [Fintype α] [DecidableEq α] :
    (Finset.univ : Finset (Option α)).erase none = Finset.univ.map Function.Embedding.some := by
  ext x; cases x <;> simp

/-- Over an optional index: the summand at `none`, and those at `some a`. -/
theorem bigSep_univ_option {α : Type} [Fintype α] [DecidableEq α] (Φ : Option α → sProp 𝕄) :
    bigSep Finset.univ Φ = iprop(Φ none ∗ bigSep Finset.univ fun a : α => Φ (some a)) := by
  rw [bigSep_univ_at Φ none, erase_none, bigSep_map]; rfl

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The kernel's own 124 semaphores are the transfer cells; -/
theorem ownSems0_eq (c : Dev nD) : (Pipeline.ownSems0 (Ix := Unit) (Name := ℕ) (U := UU) (Lvl := ℕ) (Val := Elt F) (τ := τ) osem c : sProp 𝕄)
    = bigSep Finset.univ fun jr : Fin 4 × Fin 31 => semVal (dmaCell c jr.1 jr.2) 0 := rfl
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, bigSep_univ_option]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (sched m) κ (kcell (c, k))))
          ∗ (bigSep Finset.univ fun k : CK => iprop(atPos ER (kcell (c, k)) 0 ∅ 0 ∗ reached ER (kcell (c, k)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (sched m) (kcell (c, k)) 0)
      ⊢ (|={Set.univ}=> bigSep Finset.univ fun k : CK => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt again, each to the device that pays the duty -/

/-- (c, r) ↦ (peer c r, rev r): the barrier duty `rev r` of `peer c r` is the one `c` pays; its own inverse. -/
def eBar : Dev nD × Fin 31 ≃ Dev nD × Fin 31 where
  toFun p := (peer p.1 p.2, rev p.2)
  invFun p := (peer p.1 p.2, rev p.2)
  left_inv p := by
    obtain ⟨c, r⟩ := p
    show (peer (peer c r) (rev r), rev (rev r)) = (c, r)
    rw [peer_peer_rev, rev_rev]
  right_inv p := by
    obtain ⟨c, r⟩ := p
    show (peer (peer c r) (rev r), rev (rev r)) = (c, r)
    rw [peer_peer_rev, rev_rev]
/-- (c, r) ↦ (peer c r, r): the receive duty of slot `r` on `peer c r` is the one `c`'s copy pays. -/
def eRecv : Dev nD × Fin 31 ≃ Dev nD × Fin 31 where
  toFun p := (peer p.1 p.2, p.2)
  invFun p := (srcd p.1 p.2, p.2)
  left_inv p := by
    obtain ⟨c, r⟩ := p
    show (srcd (peer c r) r, r) = (c, r)
    rw [srcd_peer]
  right_inv p := by
    obtain ⟨c, r⟩ := p
    show (peer (srcd c r) r, r) = (c, r)
    rw [peer_srcd]

theorem bigSep_around (e : Dev nD × Fin 31 ≃ Dev nD × Fin 31) (Φ : Dev nD × Fin 31 → sProp 𝕄) :
    (bigSep Finset.univ fun c : Dev nD => bigSep Finset.univ fun r : Fin 31 => Φ (c, r))
      = bigSep Finset.univ fun c : Dev nD => bigSep Finset.univ fun r : Fin 31 => Φ (e (c, r)) :=
  (bigSep_univ_prod Φ).symm.trans ((bigSep_univ_equiv e Φ).trans (bigSep_univ_prod fun p => Φ (e p)))

theorem toks_around : (bigSep Finset.univ fun c : Dev nD => (toks c : sProp 𝕄)) ⊢ bigSep Finset.univ fun c : Dev nD => payToks c := by
  have hd (c : Dev nD) : (bigSep Finset.univ fun jr : Fin 4 × Fin 31 => (dutyTok ER (dmaCell c jr.1 jr.2) 0 0 : sProp 𝕄))
      = iprop((bigSep Finset.univ fun r : Fin 31 => dutyTok ER (rsSendCell c r) 0 0) ∗ (bigSep Finset.univ fun r : Fin 31 => dutyTok ER (rsRecvCell c r) 0 0)
          ∗ (bigSep Finset.univ fun r : Fin 31 => dutyTok ER (agSendCell c r) 0 0) ∗ (bigSep Finset.univ fun r : Fin 31 => dutyTok ER (agRecvCell c r) 0 0)) := by
    rw [bigSep_univ_prod, bigSep_fin4]; rfl
  have e1 : (bigSep Finset.univ fun c : Dev nD => bigSep Finset.univ fun r : Fin 31 => (dutyTok ER (barCell c) 0 r : sProp 𝕄))
      = bigSep Finset.univ fun c : Dev nD => bigSep Finset.univ fun r : Fin 31 => dutyTok ER (barCell (peer c r)) 0 (rev r) :=
    bigSep_around eBar (fun p => (dutyTok ER (barCell p.1) 0 p.2 : sProp 𝕄))
  have e2 : (bigSep Finset.univ fun c : Dev nD => bigSep Finset.univ fun r : Fin 31 => (dutyTok ER (rsRecvCell c r) 0 0 : sProp 𝕄))
      = bigSep Finset.univ fun c : Dev nD => bigSep Finset.univ fun r : Fin 31 => dutyTok ER (rsRecvCell (peer c r) r) 0 0 :=
    bigSep_around eRecv (fun p => (dutyTok ER (rsRecvCell p.1 p.2) 0 0 : sProp 𝕄))
  have e3 : (bigSep Finset.univ fun c : Dev nD => bigSep Finset.univ fun r : Fin 31 => (dutyTok ER (agRecvCell c r) 0 0 : sProp 𝕄))
      = bigSep Finset.univ fun c : Dev nD => bigSep Finset.univ fun r : Fin 31 => dutyTok ER (agRecvCell (peer c r) r) 0 0 :=
    bigSep_around eRecv (fun p => (dutyTok ER (agRecvCell p.1 p.2) 0 0 : sProp 𝕄))
  unfold toks payToks payTok
  simp only [hd, bigSep_sep']
  rw [e1, e2, e3]
  iintro ⟨H1, H0, H2, H3, H4⟩
  isplitl [H1]; · iexact H1
  isplitl [H2]; · iexact H2
  isplitl [H4]; · iexact H4
  isplitl [H0]; · iexact H0
  iexact H3

theorem ghost_intro (K : Dev nD × CK → ℕ) (c : Dev nD) : iprop(records m K ∗ positions (F := F) c ∗ payToks (F := F) c) ⊢ G' m c := by
  unfold G' ghost
  iintro H
  iexists K
  iexact H

theorem regroup :
    (bigSep Finset.univ fun c : Dev nD => iprop((bigSep Finset.univ fun k : CK => iprop(∃ κ : ℕ, cellInv ER (sched m) κ (kcell (c, k))))
          ∗ (bigSep Finset.univ fun k : CK => iprop(atPos ER (kcell (c, k)) 0 ∅ 0 ∗ reached ER (kcell (c, k)) 0)) ∗ toks (F := F) c) : sProp 𝕄)
      ⊢ bigSep Finset.univ (G' m) := by
  rw [bigSep_sep', bigSep_sep', ← bigSep_univ_prod (fun ck : Dev nD × CK => iprop(∃ κ : ℕ, cellInv ER (sched m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (bigSep_sep' Finset.univ (fun c : Dev nD => (positions (F := F) c : sProp 𝕄)) (fun c : Dev nD => payToks (F := F) c)).symm)
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit: what the devices owe a cell, summed over the devices -/

/-- A list of dues read at a cell: the sum of the entries on that cell. -/
theorem OL_apply (l : List (GSem nD τ sig × ℕ)) (g : GSem nD τ sig) :
    OL l g () = (l.map fun p => if g = p.1 then p.2 else 0).sum := by
  induction l with
  | nil => rfl
  | cons p l ih =>
    rw [OL_cons, Pi.add_apply, Finsupp.add_apply, tallyAt_apply, ih, List.map_cons, List.sum_cons, Nat.add_comm]
    congr 1
    by_cases h : g = p.1
    · rw [if_pos h, if_pos ⟨h, rfl⟩]
    · rw [if_neg h, if_neg fun h' => h h'.1]

/-- What device `d` owes a cell at launch: a unit if it is the barrier cell of one of its peers, a block if it is the
    receive cell, of either phase, that one of its copies lands on. -/
theorem O₀_apply (d : Dev nD) (g : GSem nD τ sig) : O₀ d g () =
    (∑ r : Fin 31, if g = barCell (peer d r) then 1 else 0) + (∑ r : Fin 31, if g = rsRecvCell (peer d r) r then N else 0)
      + (∑ r : Fin 31, if g = agRecvCell (peer d r) r then N else 0) := by
  unfold O₀ sigItems rsItems agItems
  rw [OL_apply, List.drop_zero, List.map_append, List.map_append, List.sum_append, List.sum_append, List.map_map, List.map_map, List.map_map,
    Fin.sum_univ_def, Fin.sum_univ_def, Fin.sum_univ_def]
  rfl

theorem kcell_eq_iff (a b : Dev nD × CK) : kcell a = kcell b ↔ a = b := kcell_injective.eq_iff

theorem bar_ne_rsRecv (c e : Dev nD) (r : Fin 31) : barCell c ≠ rsRecvCell e r := fun h => dma_ne_bar _ (congrArg Prod.snd h).symm
theorem bar_ne_agRecv (c e : Dev nD) (r : Fin 31) : barCell c ≠ agRecvCell e r := fun h => dma_ne_bar _ (congrArg Prod.snd h).symm
theorem rsRecv_ne_agRecv' (c e : Dev nD) (r r' : Fin 31) : rsRecvCell c r ≠ agRecvCell e r' := fun h =>
  rsRecv_ne_agRecv r r' (by have h2 := congrArg Prod.snd h; injection h2)
theorem bar_eq_iff {a b : Dev nD} : barCell a = barCell b ↔ a = b :=
  ⟨fun h => Fin.ext (congrArg (fun g : GSem nD τ sig => g.1.1.val) h), fun h => h ▸ rfl⟩
theorem rsRecv_eq_iff {a b : Dev nD} {r r' : Fin 31} : rsRecvCell a r = rsRecvCell b r' ↔ a = b ∧ r = r' :=
  ⟨fun h => ⟨Fin.ext (congrArg (fun g : GSem nD τ sig => g.1.1.val) h),
      (dsem_inj 1 1 r r' (by have h2 := congrArg Prod.snd h; injection h2)).2⟩, fun ⟨h1, h2⟩ => h1 ▸ h2 ▸ rfl⟩
theorem agRecv_eq_iff {a b : Dev nD} {r r' : Fin 31} : agRecvCell a r = agRecvCell b r' ↔ a = b ∧ r = r' :=
  ⟨fun h => ⟨Fin.ext (congrArg (fun g : GSem nD τ sig => g.1.1.val) h),
      (dsem_inj 3 3 r r' (by have h2 := congrArg Prod.snd h; injection h2)).2⟩, fun ⟨h1, h2⟩ => h1 ▸ h2 ▸ rfl⟩

/-- Over all devices and slots, `c` is a peer exactly 31 times: once for every other device. -/
theorem count_peer : ∀ c : Dev nD, (∑ d : Dev nD, ∑ r : Fin 31, if c = peer d r then 1 else 0) = 31 := by decide +kernel

theorem owed_bar (d c : Dev nD) : O₀ d (barCell c) () = ∑ r : Fin 31, if c = peer d r then 1 else 0 := by
  rw [O₀_apply, Finset.sum_eq_zero (s := Finset.univ) (f := fun r : Fin 31 => if barCell c = rsRecvCell (peer d r) r then N else 0)
      (fun r _ => if_neg (bar_ne_rsRecv _ _ _)),
    Finset.sum_eq_zero (s := Finset.univ) (f := fun r : Fin 31 => if barCell c = agRecvCell (peer d r) r then N else 0)
      (fun r _ => if_neg (bar_ne_agRecv _ _ _)), Nat.add_zero, Nat.add_zero]
  exact Finset.sum_congr rfl fun r _ => by simp only [bar_eq_iff]

theorem owed_rsRecv (d c : Dev nD) (r₀ : Fin 31) : O₀ d (rsRecvCell c r₀) () = if d = srcd c r₀ then N else 0 := by
  rw [O₀_apply, Finset.sum_eq_zero (s := Finset.univ) (f := fun r : Fin 31 => if rsRecvCell c r₀ = barCell (peer d r) then 1 else 0)
      (fun r _ => if_neg fun h => bar_ne_rsRecv _ _ _ h.symm),
    Finset.sum_eq_zero (s := Finset.univ) (f := fun r : Fin 31 => if rsRecvCell c r₀ = agRecvCell (peer d r) r then N else 0)
      (fun r _ => if_neg (rsRecv_ne_agRecv' _ _ _ _)), Nat.zero_add, Nat.add_zero,
    Finset.sum_eq_single r₀ (fun r _ hr => if_neg fun h => hr (rsRecv_eq_iff.mp h).2.symm) (fun h => absurd (Finset.mem_univ _) h)]
  by_cases h : d = srcd c r₀
  · subst h; rw [peer_srcd, if_pos rfl, if_pos rfl]
  · rw [if_neg h, if_neg fun h' => h (by rw [(rsRecv_eq_iff.mp h').1, srcd_peer])]

theorem owed_agRecv (d c : Dev nD) (r₀ : Fin 31) : O₀ d (agRecvCell c r₀) () = if d = srcd c r₀ then N else 0 := by
  rw [O₀_apply, Finset.sum_eq_zero (s := Finset.univ) (f := fun r : Fin 31 => if agRecvCell c r₀ = barCell (peer d r) then 1 else 0)
      (fun r _ => if_neg fun h => bar_ne_agRecv _ _ _ h.symm),
    Finset.sum_eq_zero (s := Finset.univ) (f := fun r : Fin 31 => if agRecvCell c r₀ = rsRecvCell (peer d r) r then N else 0)
      (fun r _ => if_neg fun h => rsRecv_ne_agRecv' _ _ _ _ h.symm), Nat.zero_add, Nat.zero_add,
    Finset.sum_eq_single r₀ (fun r _ hr => if_neg fun h => hr (agRecv_eq_iff.mp h).2.symm) (fun h => absurd (Finset.mem_univ _) h)]
  by_cases h : d = srcd c r₀
  · subst h; rw [peer_srcd, if_pos rfl, if_pos rfl]
  · rw [if_neg h, if_neg fun h' => h (by rw [(agRecv_eq_iff.mp h').1, srcd_peer])]

theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar d c, count_peer]

theorem launch_rsRecv (c : Dev nD) (r : Fin 31) :
    tallyOn (rsRecvCell c r) (launchCredit (Pipeline.owing O₀) 0 (rsRecvCell c r)) = (tallyAt (rsRecvCell c r) () N : CellTallies nD τ sig Unit) := by
  unfold tallyAt; refine congrArg _ (Finsupp.ext fun u => ?_); cases u
  rw [Pipeline.launchCredit_owing, Finsupp.single_eq_same, Finset.sum_congr rfl fun d _ => owed_rsRecv d c r,
    Finset.sum_ite_eq' Finset.univ (srcd c r) fun _ => N, if_pos (Finset.mem_univ _)]

theorem launch_agRecv (c : Dev nD) (r : Fin 31) :
    tallyOn (agRecvCell c r) (launchCredit (Pipeline.owing O₀) 0 (agRecvCell c r)) = (tallyAt (agRecvCell c r) () N : CellTallies nD τ sig Unit) := by
  unfold tallyAt; refine congrArg _ (Finsupp.ext fun u => ?_); cases u
  rw [Pipeline.launchCredit_owing, Finsupp.single_eq_same, Finset.sum_congr rfl fun d _ => owed_agRecv d c r,
    Finset.sum_ite_eq' Finset.univ (srcd c r) fun _ => N, if_pos (Finset.mem_univ _)]

/-- The launch's credit for device `c`'s cells, read at the 63 cells the others pay on. -/
theorem creds_intro (c : Dev nD) : (Pipeline.launchCred O₀ c : sProp 𝕄) ⊢ creds (F := F) c := by
  have hmap : (bigSep (Finset.univ.map ⟨csem, csem_inj⟩) fun sm : SemLoc sig =>
        (cred (tallyOn ((c : Thread nD τ), sm) (launchCredit (Pipeline.owing O₀) 0 ((c : Thread nD τ), sm))) : sProp 𝕄))
      = bigSep Finset.univ fun k : CK => cred (tallyOn (kcell (c, k)) (launchCredit (Pipeline.owing O₀) 0 (kcell (c, k)))) := by
    rw [bigSep_map]; rfl
  have hsub : (Pipeline.launchCred O₀ c : sProp 𝕄)
      ⊢ bigSep Finset.univ fun k : CK => cred (tallyOn (kcell (c, k)) (launchCredit (Pipeline.owing O₀) 0 (kcell (c, k)))) := by
    unfold Pipeline.launchCred
    rw [← hmap]
    exact bigSep_subset (Finset.subset_univ _)
  refine hsub.trans ?_
  rw [bigSep_univ_option, bigSep_univ_prod, bigSep_fin4]
  unfold creds
  iintro ⟨HB, -, H1, -, H3⟩
  isplitl [HB]
  · iapply (Entails.of_eq (congrArg cred (launch_bar c))); iexact HB
  · rw [bigSep_sep']
    isplitl [H1]
    · iapply (Entails.of_eq (bigSep_congr (s := Finset.univ) fun r _ => congrArg cred (launch_rsRecv c r))); iexact H1
    · iapply (Entails.of_eq (bigSep_congr (s := Finset.univ) fun r _ => congrArg cred (launch_agRecv c r))); iexact H3

/-! ## The launch theorem's side conditions -/

theorem O₀_cells {c : Dev nD} {g : GSem nD τ sig} {u : Unit} (h : 0 < O₀ c g u) :
    (∃ e, g = barCell e) ∨ (∃ e r, g = rsRecvCell e r) ∨ (∃ e r, g = agRecvCell e r) := by
  unfold O₀ sigItems rsItems agItems at h
  obtain ⟨p, hp, rfl⟩ := OL_pos h
  rcases List.mem_append.mp hp with hp | hp
  · rcases List.mem_append.mp hp with hp | hp
    · obtain ⟨r, -, rfl⟩ := List.mem_map.mp hp; exact .inl ⟨_, rfl⟩
    · obtain ⟨r, -, rfl⟩ := List.mem_map.mp hp; exact .inr (.inl ⟨_, _, rfl⟩)
  · obtain ⟨r, -, rfl⟩ := List.mem_map.mp hp; exact .inr (.inr ⟨_, _, rfl⟩)

/-- A staging semaphore sits at level 0, below everything a device owes at launch. -/
theorem mayWait_stage (c : Dev nD) (q : DmaSem sig) (hq1 : ∀ r : Fin 31, q ≠ rsRecvS r) (hq2 : ∀ r : Fin 31, q ≠ agRecvS r)
    (O : CellTallies nD τ sig Unit) (hO : O = O₀ c ∨ O = 0) :
    (levAts L lv : sProp 𝕄) ⊢ MayWait (c : Thread nD τ) (.dma q) () O := by
  have hlv : lv ((c : Thread nD τ), .dma q) () = 0 := by
    unfold lv
    rw [if_neg (dma_ne_bar _), if_neg (fun ⟨r, h⟩ => hq1 r (by injection h)), if_neg (fun ⟨r, h⟩ => hq2 r (by injection h))]
  rcases hO with rfl | rfl
  · refine MayOwe.of_cut (L := L) (lev := lv) 0 (fun p hp => by rw [Finset.mem_singleton.mp hp, L_tc]; exact Finset.mem_singleton_self _)
      (fun g u hg => ?_) (fun p hp => by rw [Finset.mem_singleton.mp hp]; exact le_of_eq hlv) (fun g u hg => ?_)
    · rcases O₀_cells hg with ⟨e, rfl⟩ | ⟨e, r, rfl⟩ | ⟨e, r, rfl⟩ <;> (rw [L_tc]; exact Finset.mem_singleton_self _)
    · rcases O₀_cells hg with ⟨e, rfl⟩ | ⟨e, r, rfl⟩ | ⟨e, r, rfl⟩
      · rw [lv_bar]; decide
      · rw [lv_rsRecv]; decide
      · rw [lv_agRecv]; decide
  · rw [MayWait_zero]; iintro -; iempintro

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) (by fin_cases w <;> fin_cases s <;> decide) _ (by
      rcases t with ⟨_ | _, ht⟩
      · exact Or.inl rfl
      · exact Or.inr rfl)

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scr
  iintro ⟨Hs, -, Hr⟩
  isplitl [Hs]; · iexact Hs
  iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ (F := F) c from rfl, scopedRest0_eq, ownSems0_eq]
  unfold Φ₁ scr
  iintro ⟨Hr, Hz⟩
  isplitr; · iempintro
  isplitl [Hz]; · iexact Hz
  iexact Hr

/-! ## The run -/

def QC {F : FTy → Type} [FloatOps F] (m : (ℓ : Loc nD τ sig) → Buf (Elt F) ℓ) : PUnit × MemSt nD τ sig (Elt F) → Prop := fun r =>
  ∀ c : Dev nD, ∀ w : Fin cfg0.W, r.2.mem ((cfg0.win w).arr.view.loc (c : Thread nD τ)) = (dats m 0 c).arrAt w cfg0.N

set_option maxRecDepth 100000 in
/-- At the compiled mesh of 32 devices, for any float values, from any memory with zero counters, given the body's proof:
    every weakly fair execution of @main — the 32 kernels meeting on the barrier semaphore, scattering their blocks,
    reducing, gathering the reduced blocks — terminates, and in every final state each device's two arrays hold the
    contents the proof data names. -/
theorem run_main {F : FTy → Type} [FloatOps F] (m : (ℓ : Loc nD τ sig) → Buf (Elt F) ℓ) (hsb : SoundBody m) (ρ : Dev nD → PrngReg) :
    θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m hsb) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_proto m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-! ## The final arrays read back -/

/-- The argument array is never written back: it holds what it held. -/
theorem final_arg {F : FTy → Type} [FloatOps F] (m : (ℓ : Loc nD τ sig) → Buf (Elt F) ℓ) (c : Dev nD) : (dats m 0 c).arrAt (0 : Fin 2) cfg0.N = m ((c : Thread nD τ).loc main_arg0) :=
  (dats (F := F) m 0 c).arrAt_in (0 : Fin 2) rfl _

/-- The result array after the one point: its one block is the whole array, written back from the staging buffer,
    so it holds `outv m`, read as a buffer of that array's location. -/
theorem final_out {F : FTy → Type} [FloatOps F] (m : (ℓ : Loc nD τ sig) → Buf (Elt F) ℓ) (c : Dev nD) :
    (dats m 0 c).arrAt (1 : Fin 2) cfg0.N = (outv m : Buf (Elt F) ((c : Thread nD τ).loc main_v1)) := by
  have h1 : (dats m 0 c).arrAt (1 : Fin 2) cfg0.N = (dats m 0 c).arrAt (1 : Fin 2) ((t₀ : Fin cfg0.N).val + 1) := rfl
  rw [h1, Dat.arrAt_succ, if_pos (flush0_1 t₀)]
  have hr : ∀ f : Buf (Elt F) ((c : Thread nD τ).loc main_v1), ((cfg0.win 1).blk t₀).view.read (Elt F) f = f := fun f =>
    Memref.read_access_unit_zero (Elt F) main_v1 (funext fun a => Nat.zero_mul _) _ f
  exact (hr _).symm.trans (View.read_write_univ _ _)

/-- The run's post read at the two arrays: the argument unchanged, the result at `outv m`. -/
theorem QC_read {F : FTy → Type} [FloatOps F] (m : (ℓ : Loc nD τ sig) → Buf (Elt F) ℓ) {r : PUnit × MemSt nD τ sig (Elt F)} (h : QC m r) (c : Dev nD) :
    r.2.mem ((c : Thread nD τ).loc main_arg0) = m ((c : Thread nD τ).loc main_arg0)
      ∧ r.2.mem ((c : Thread nD τ).loc main_v1) = (outv m : Buf (Elt F) ((c : Thread nD τ).loc main_v1)) :=
  ⟨(h c (0 : Fin 2)).trans (final_arg m c), (h c (1 : Fin 2)).trans (final_out m c)⟩

/-- The run, with its post read at the two arrays. -/
theorem run_main_read {F : FTy → Type} [FloatOps F] (m : (ℓ : Loc nD τ sig) → Buf (Elt F) ℓ) (hsb : SoundBody m) (ρ : Dev nD → PrngReg) :
    θ_run defs (onTc (τ := τ) (main (F := F))) ⟨m, fun _ => 0, ρ⟩ (fun r => ∀ c : Dev nD,
      r.2.mem ((c : Thread nD τ).loc main_arg0) = m ((c : Thread nD τ).loc main_arg0)
        ∧ r.2.mem ((c : Thread nD τ).loc main_v1) = (outv m : Buf (Elt F) ((c : Thread nD τ).loc main_v1))) :=
  (θ_run defs _ _).mono (fun _ h c => QC_read m h c) (run_main m hsb ρ)

/-- info: 'Cert.Kernel.Hand.run_main' depends on axioms: [propext, Classical.choice, Quot.sound] -/
#guard_msgs in #print axioms run_main

/-- info: 'Cert.Kernel.Hand.run_main_read' depends on axioms: [propext, Classical.choice, Quot.sound] -/
#guard_msgs in #print axioms run_main_read

end Cert.Kernel.Hand

end
-- ==== Proof.lean ====
/-
  The claim, assembled.

  The kernel runs on a ring of 32 devices.  Device `d` holds block `d` (512 rows) of `x`.  It first tells each of its 31
  peers, on the barrier semaphore, that it is inside the kernel, handing each one slot of its receive scratch and one
  16-row block of its result buffer; after hearing from all 31 it copies rows `16 e …` of its block to peer `e`
  (reduce-scatter), adds what it receives to its own rows `16 d …` — so that it holds `Σ_s x_s[16 d + k, ·]` — and copies
  that reduced block into block `d` of every peer's result (all-gather).  Every device therefore ends with
  `out[row, col] = Σ_s x[512 s + row, col]`, which is the reference's `x.reshape(32, 512, 512).sum(0)`; the two sums differ
  only in the order of their 32 terms, and addition of extended reals is commutative and associative, so no finiteness
  is used.  Changes of float format are the identity at the ideal instance.

  Each frame is the device's run with the values forgotten: every device's body is proved once at a symbolic device
  (Proof/Body.lean, from the 56 parts of the printed body), the launch turns the bodies into a run of the whole mesh
  (Proof/Launch.lean), and the same modules read at the word-level instance give the word-level frame.  The idealization
  rewrote nothing, so `preserves` is trivial.  The reference's run is the generated one.
-/
import proofs.«900471_g7700000000000472_dist_rs_then_ag_i_m512_n512_v7x_i32_bf16_1_alg».proof.Defs
import proofs.«900471_g7700000000000472_dist_rs_then_ag_i_m512_n512_v7x_i32_bf16_1_alg».proof.Proof.Gen.Kernel
import proofs.«900471_g7700000000000472_dist_rs_then_ag_i_m512_n512_v7x_i32_bf16_1_alg».proof.Proof.Gen.KernelIdeal
import proofs.«900471_g7700000000000472_dist_rs_then_ag_i_m512_n512_v7x_i32_bf16_1_alg».proof.Proof.Gen.ReferenceIdeal
import proofs.«900471_g7700000000000472_dist_rs_then_ag_i_m512_n512_v7x_i32_bf16_1_alg».proof.Proof.Gen.ReferenceIdeal.Run
import proofs.«900471_g7700000000000472_dist_rs_then_ag_i_m512_n512_v7x_i32_bf16_1_alg».proof.Proof.Gen.ReferenceIdeal.Read
import proofs.«900471_g7700000000000472_dist_rs_then_ag_i_m512_n512_v7x_i32_bf16_1_alg».proof.Proof.Gen.Pre_finite_inputs_Kernel
import proofs.«900471_g7700000000000472_dist_rs_then_ag_i_m512_n512_v7x_i32_bf16_1_alg».proof.Proof.Gen.Pre_finite_inputs_ReferenceIdeal
import proofs.«900471_g7700000000000472_dist_rs_then_ag_i_m512_n512_v7x_i32_bf16_1_alg».proof.Proof.Body
import proofs.«900471_g7700000000000472_dist_rs_then_ag_i_m512_n512_v7x_i32_bf16_1_alg».proof.Proof.Launch
import proofs.«900471_g7700000000000472_dist_rs_then_ag_i_m512_n512_v7x_i32_bf16_1_alg».proof.Proof.Value
import proofs.«900471_g7700000000000472_dist_rs_then_ag_i_m512_n512_v7x_i32_bf16_1_alg».proof.Proof.BitsBody
import proofs.«900471_g7700000000000472_dist_rs_then_ag_i_m512_n512_v7x_i32_bf16_1_alg».proof.Proof.BitsLaunch
import Idealize.ShloMosaic.Adequacy
import Idealize.ShloMosaic.Init

noncomputable section

namespace Cert.Proof

open Idealize.ShloMosaic Idealize.SL.Sem

/-- The word-level kernel runs to the end and leaves each device's block of `x` as it was. -/
theorem frame_k : Cert.frame_Kernel (hKernel := Cert.Kernel.Gen.facts) (hPre_finite_inputs_Kernel := Cert.Pre_finite_inputs_Kernel.Gen.facts) :=
  fun m ρ _ => (θ_run Cert.Kernel.defs _ _).mono (fun _ h c => (h c).1)
    (Cert.Kernel.Hand.run_main_read (F := Bits) m (Cert.Kernel.Hand.sound_body m) ρ)

/-- So does the idealized kernel. -/
theorem frame_ki : Cert.frame_KernelIdeal (hKernelIdeal := Cert.KernelIdeal.Gen.facts) (hPre_finite_inputs_Kernel := Cert.Pre_finite_inputs_Kernel.Gen.facts) :=
  fun m ρ _ => (θ_run Cert.KernelIdeal.defs _ _).mono (fun _ h c => (h c).1)
    (Cert.KernelIdeal.Hand.run_main_read (F := Ideal) m (Cert.KernelIdeal.Hand.sound_body m) ρ)

/-- The reference's frame is its run with the result dropped. -/
theorem frame_ri : Cert.frame_ReferenceIdeal (hReferenceIdeal := Cert.ReferenceIdeal.Gen.facts) (hPre_finite_inputs_ReferenceIdeal := Cert.Pre_finite_inputs_ReferenceIdeal.Gen.facts) :=
  fun m ρ _ => (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Every device's result is the reference's: both are the 32-term sum over the blocks of `x`. -/
theorem algebraic : Cert.algebraic_KernelIdeal_ReferenceIdeal (hKernelIdeal := Cert.KernelIdeal.Gen.facts) (hReferenceIdeal := Cert.ReferenceIdeal.Gen.facts)
    (hPre_finite_inputs_Kernel := Cert.Pre_finite_inputs_Kernel.Gen.facts) := by
  intro m ρ m' ρ' _ hagree
  refine ⟨(Cert.KernelIdeal.Hand.outv m : Buf (Elt Ideal) (((0 : Dev Cert.ReferenceIdeal.nD).tc : Thread Cert.ReferenceIdeal.nD Cert.ReferenceIdeal.τ).loc Cert.ReferenceIdeal.main_v2)), ?_, ?_⟩
  · exact (θ_run Cert.KernelIdeal.defs _ _).mono (fun _ h c => ⟨(h c).2, (h c).1⟩)
      (Cert.KernelIdeal.Hand.run_main_read (F := Ideal) m (Cert.KernelIdeal.Hand.sound_body m) ρ)
  · exact (θ_run Cert.ReferenceIdeal.defs _ _).mono
      (fun _ h => ⟨(h 0).1.trans (Cert.KernelIdeal.HandValue.outv_eq_run m _ hagree).symm, (h 0).2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_k, frame_ki, frame_ri, preserves, algebraic⟩

end Cert.Proof

end
